-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000x128 : Shape := ⟨2, ![1000, 128]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000x128 : Shape := ⟨2, ![1000, 128]⟩
abbrev S1x819200 : Shape := ⟨2, ![1, 819200]⟩
abbrev S819200x128 : Shape := ⟨2, ![819200, 128]⟩
abbrev S_ : Shape := ⟨0, ![]⟩
abbrev S200x128 : Shape := ⟨2, ![200, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S1x256x128 : Shape := ⟨3, ![1, 256, 128]⟩
abbrev S256x128 : Shape := ⟨2, ![256, 128]⟩
abbrev S256 : Shape := ⟨1, ![256]⟩
abbrev S4096x200x128 : Shape := ⟨3, ![4096, 200, 128]⟩

abbrev nBuf : Table → Nat
  | .hbm => 5
  | .shared => 1
  | .local .scVector .vmem => 2
  | _ => 0

abbrev bufTy : (tb : Table) → Fin (nBuf tb) → BufTy
  | .hbm, ⟨0, _⟩ => ⟨S4096x200, .i32⟩
  | .hbm, ⟨1, _⟩ => ⟨S1000x128, .f32⟩
  | .hbm, ⟨2, _⟩ => ⟨S1x819200, .i32⟩
  | .hbm, ⟨3, _⟩ => ⟨S819200x128, .f32⟩
  | .hbm, ⟨4, _⟩ => ⟨S4096x200x128, .f32⟩
  | .shared, ⟨0, _⟩ => ⟨S1000x128, .f32⟩
  | .local .scVector .vmem, ⟨0, _⟩ => ⟨S2x1x256, .i32⟩
  | .local .scVector .vmem, ⟨1, _⟩ => ⟨S2x256x128, .f32⟩
  | _, _ => ⟨S4096x200, .i32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scratch0 : Ref sig .scVector := ⟨.shared, 0, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c5_i32 : BitVec 32 := 5#32
  let v0 : BitVec 1 := Scalar.cmpi .slt arg1 c5_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg1 : BitVec 32 := BitVec.ofNat 32 (i 1).val
  let c200_i32_1 : BitVec 32 := 200#32
  let v9 : BitVec 32 := Scalar.muli arg1 c200_i32_1
  let c0_i32_2 : BitVec 32 := 0#32
  ![v9.toNat, 0]
def k0_off2 : Fin 3 → Nat :=
  let c0_i32_14_r0 : BitVec 32 := 0#32
  let c2_i32_r0 : BitVec 32 := 2#32
  let v24_r0 : BitVec 32 := Scalar.remui c0_i32_14_r0 c2_i32_r0
  let c0_i32_15_r0 : BitVec 32 := 0#32
  let c0_i32_16_r0 : BitVec 32 := 0#32
  ![v24_r0.toNat, 0, 0]
def k0_off3 (i : grid0.Coords) : Fin 2 → Nat :=
  let c0_i32_17_r0 : BitVec 32 := 0#32
  let c256_i32_r0 : BitVec 32 := 256#32
  let c0_i32_2_r0 : BitVec 32 := 0#32
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v10_r0 : BitVec 32 := Scalar.addi c0_i32_2_r0 v7
  let v25_r0 : BitVec 32 := Scalar.muli c256_i32_r0 v10_r0
  ![0, v25_r0.toNat]
def k0_off4 : Fin 1 → Nat :=
  let c0_i32_14_r0 : BitVec 32 := 0#32
  let c2_i32_r0 : BitVec 32 := 2#32
  let v24_r0 : BitVec 32 := Scalar.remui c0_i32_14_r0 c2_i32_r0
  ![v24_r0.toNat]
@[reducible] def k0_t1_loop : Scf.Loop 32 :=
  let c0_i32_27_r0 : BitVec 32 := 0#32
  let c100_i32_28_r0 : BitVec 32 := 100#32
  let v35_r0 : BitVec 32 := Scalar.addi c0_i32_27_r0 c100_i32_28_r0
  let c1_i32_29_r0 : BitVec 32 := 1#32
  ⟨c0_i32_27_r0, v35_r0, c1_i32_29_r0⟩
def k0_off5 (arg8_r0 : BitVec 32) : Fin 3 → Nat :=
  let c2_i32_101_r0 : BitVec 32 := 2#32
  let v148_r0 : BitVec 32 := Scalar.remui arg8_r0 c2_i32_101_r0
  let c0_i32_103_r0 : BitVec 32 := 0#32
  let c0_i32_104_r0 : BitVec 32 := 0#32
  ![v148_r0.toNat, 0, 0]
def k0_cond2 (i : grid0.Coords) (k0_t1 : Fin k0_t1_loop.trips) (arg12_r0 : BitVec 32) : BitVec 1 :=
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let true_62_r0 : BitVec 1 := 1#1
  let c1_i32_61_r0 : BitVec 32 := 1#32
  let v75_r0 : BitVec 32 := Scalar.addi arg12_r0 c1_i32_61_r0
  let v76_r0 : BitVec 32 := Scalar.select true_62_r0 v75_r0 arg12_r0
  let c100_i32_63_r0 : BitVec 32 := 100#32
  let v77_r0 : BitVec 1 := Scalar.cmpi .eq v76_r0 c100_i32_63_r0
  let c0_i32_64_r0 : BitVec 32 := 0#32
  let v78_r0 : BitVec 32 := Scalar.select v77_r0 c0_i32_64_r0 v76_r0
  let v79_r0 : BitVec 32 := Scalar.addi v78_r0 v7
  let v85_r0 : BitVec 1 := Scalar.cmpi .ne v69_r0 v79_r0
  let c0_i32_27_r0 : BitVec 32 := 0#32
  let c1_i32_29_r0 : BitVec 32 := 1#32
  let arg7_r0 : BitVec 32 := Scf.iv c0_i32_27_r0 c1_i32_29_r0 k0_t1
  let c99_i32_69_r0 : BitVec 32 := 99#32
  let v86_r0 : BitVec 1 := Scalar.cmpi .sge arg7_r0 c99_i32_69_r0
  let true_70_r0 : BitVec 1 := 1#1
  let v87_r0 : BitVec 1 := Scalar.xori v86_r0 true_70_r0
  let v88_r0 : BitVec 1 := Scalar.andi v85_r0 v87_r0
  let v89_r0 : BitVec 32 := Scalar.extui v88_r0
  let c0_i32_71_r0 : BitVec 32 := 0#32
  let v90_r0 : BitVec 1 := Scalar.cmpi .ne v89_r0 c0_i32_71_r0
  v90_r0

def k0_off6 (i : grid0.Coords) (arg12_r0 : BitVec 32) : Fin 2 → Nat :=
  let c0_i32_105_r0 : BitVec 32 := 0#32
  let c256_i32_102_r0 : BitVec 32 := 256#32
  let true_62_r0 : BitVec 1 := 1#1
  let c1_i32_61_r0 : BitVec 32 := 1#32
  let v75_r0 : BitVec 32 := Scalar.addi arg12_r0 c1_i32_61_r0
  let v76_r0 : BitVec 32 := Scalar.select true_62_r0 v75_r0 arg12_r0
  let c100_i32_63_r0 : BitVec 32 := 100#32
  let v77_r0 : BitVec 1 := Scalar.cmpi .eq v76_r0 c100_i32_63_r0
  let c0_i32_64_r0 : BitVec 32 := 0#32
  let v78_r0 : BitVec 32 := Scalar.select v77_r0 c0_i32_64_r0 v76_r0
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v79_r0 : BitVec 32 := Scalar.addi v78_r0 v7
  let v149_r0 : BitVec 32 := Scalar.muli c256_i32_102_r0 v79_r0
  ![0, v149_r0.toNat]
def k0_off7 (arg8_r0 : BitVec 32) : Fin 1 → Nat :=
  let c2_i32_101_r0 : BitVec 32 := 2#32
  let v148_r0 : BitVec 32 := Scalar.remui arg8_r0 c2_i32_101_r0
  ![v148_r0.toNat]
def k0_off8 (arg9_r0 : BitVec 32) : Fin 3 → Nat :=
  let c2_i32_102_r0 : BitVec 32 := 2#32
  let v149_r0 : BitVec 32 := Scalar.remui arg9_r0 c2_i32_102_r0
  let c0_i32_103_r0 : BitVec 32 := 0#32
  let c0_i32_104_r0 : BitVec 32 := 0#32
  ![v149_r0.toNat, 0, 0]
def k0_cond3 (i : grid0.Coords) (k0_t1 : Fin k0_t1_loop.trips) (arg12_r0 : BitVec 32) : BitVec 1 :=
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let true_58_r0 : BitVec 1 := 1#1
  let c1_i32_57_r0 : BitVec 32 := 1#32
  let v70_r0 : BitVec 32 := Scalar.subi arg12_r0 c1_i32_57_r0
  let v71_r0 : BitVec 32 := Scalar.select true_58_r0 v70_r0 arg12_r0
  let c_m1_i32_59_r0 : BitVec 32 := 4294967295#32
  let v72_r0 : BitVec 1 := Scalar.cmpi .eq v71_r0 c_m1_i32_59_r0
  let c99_i32_60_r0 : BitVec 32 := 99#32
  let v73_r0 : BitVec 32 := Scalar.select v72_r0 c99_i32_60_r0 v71_r0
  let v74_r0 : BitVec 32 := Scalar.addi v73_r0 v7
  let v98_r0 : BitVec 1 := Scalar.cmpi .ne v69_r0 v74_r0
  let c0_i32_27_r0 : BitVec 32 := 0#32
  let c1_i32_29_r0 : BitVec 32 := 1#32
  let arg7_r0 : BitVec 32 := Scf.iv c0_i32_27_r0 c1_i32_29_r0 k0_t1
  let c0_i32_55_r0 : BitVec 32 := 0#32
  let v67_r0 : BitVec 1 := Scalar.cmpi .eq arg7_r0 c0_i32_55_r0
  let v99_r0 : BitVec 1 := Scalar.ori v98_r0 v67_r0
  let c0_i32_76_r0 : BitVec 32 := 0#32
  let v100_r0 : BitVec 1 := Scalar.cmpi .slt arg7_r0 c0_i32_76_r0
  let true_77_r0 : BitVec 1 := 1#1
  let v101_r0 : BitVec 1 := Scalar.xori v100_r0 true_77_r0
  let v102_r0 : BitVec 1 := Scalar.andi v99_r0 v101_r0
  let v103_r0 : BitVec 32 := Scalar.extui v102_r0
  let c0_i32_78_r0 : BitVec 32 := 0#32
  let v104_r0 : BitVec 1 := Scalar.cmpi .ne v103_r0 c0_i32_78_r0
  v104_r0

def k0_off9 (i : grid0.Coords) (arg12_r0 : BitVec 32) : Fin 2 → Nat :=
  let c0_i32_105_r0 : BitVec 32 := 0#32
  let c256_i32_101_r0 : BitVec 32 := 256#32
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let v148_r0 : BitVec 32 := Scalar.muli c256_i32_101_r0 v69_r0
  ![0, v148_r0.toNat]
def k0_off10 (arg9_r0 : BitVec 32) : Fin 1 → Nat :=
  let c2_i32_102_r0 : BitVec 32 := 2#32
  let v149_r0 : BitVec 32 := Scalar.remui arg9_r0 c2_i32_102_r0
  ![v149_r0.toNat]
def k0_off11 (arg10_r0 : BitVec 32) : Fin 3 → Nat :=
  let c2_i32_83_r0 : BitVec 32 := 2#32
  let v113_r0 : BitVec 32 := Scalar.remui arg10_r0 c2_i32_83_r0
  let c0_i32_101_r1 : BitVec 32 := 0#32
  let c0_i32_102_r1 : BitVec 32 := 0#32
  ![v113_r0.toNat, 0, 0]

def k0_chk2 (arg10_r0 : BitVec 32) : Prop :=
  (∀ a, (k0_off11 arg10_r0) a + S1x256x128.size a ≤ S2x256x128.size a)
instance k0_chk2.dec : ∀ (arg10_r0 : BitVec 32), Decidable (k0_chk2 arg10_r0) := fun arg10_r0 => decidable_of_iff' _ (Iff.of_eq (k0_chk2.eq_1 arg10_r0))
theorem k0_off11_inb : ∀ (arg10_r0 : BitVec 32) (k0_hw2 : k0_chk2 arg10_r0), ∀ a, (k0_off11 arg10_r0) a + S1x256x128.size a ≤ S2x256x128.size a := fun arg10_r0 k0_hw2 => k0_hw2

def k0_off12 (arg9_r0 : BitVec 32) : Fin 3 → Nat :=
  let c2_i32_82_r0 : BitVec 32 := 2#32
  let v112_r0 : BitVec 32 := Scalar.remui arg9_r0 c2_i32_82_r0
  let c0_i32_103_r1 : BitVec 32 := 0#32
  let c0_i32_104_r1 : BitVec 32 := 0#32
  ![v112_r0.toNat, 0, 0]

def k0_chk3 (arg9_r0 : BitVec 32) : Prop :=
  (∀ a, (k0_off12 arg9_r0) a + S1x1x256.size a ≤ S2x1x256.size a)
instance k0_chk3.dec : ∀ (arg9_r0 : BitVec 32), Decidable (k0_chk3 arg9_r0) := fun arg9_r0 => decidable_of_iff' _ (Iff.of_eq (k0_chk3.eq_1 arg9_r0))
theorem k0_off12_inb : ∀ (arg9_r0 : BitVec 32) (k0_hw3 : k0_chk3 arg9_r0), ∀ a, (k0_off12 arg9_r0) a + S1x1x256.size a ≤ S2x1x256.size a := fun arg9_r0 k0_hw3 => k0_hw3

def k0_off13 (arg10_r0 : BitVec 32) : Fin 3 → Nat :=
  let c2_i32_101_r0 : BitVec 32 := 2#32
  let v148_r0 : BitVec 32 := Scalar.remui arg10_r0 c2_i32_101_r0
  let c0_i32_103_r0 : BitVec 32 := 0#32
  let c0_i32_104_r0 : BitVec 32 := 0#32
  ![v148_r0.toNat, 0, 0]
def k0_cond6 (i : grid0.Coords) (k0_t1 : Fin k0_t1_loop.trips) (arg12_r0 : BitVec 32) : BitVec 1 :=
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let true_62_r0 : BitVec 1 := 1#1
  let c1_i32_61_r0 : BitVec 32 := 1#32
  let v75_r0 : BitVec 32 := Scalar.addi arg12_r0 c1_i32_61_r0
  let v76_r0 : BitVec 32 := Scalar.select true_62_r0 v75_r0 arg12_r0
  let c100_i32_63_r0 : BitVec 32 := 100#32
  let v77_r0 : BitVec 1 := Scalar.cmpi .eq v76_r0 c100_i32_63_r0
  let c0_i32_64_r0 : BitVec 32 := 0#32
  let v78_r0 : BitVec 32 := Scalar.select v77_r0 c0_i32_64_r0 v76_r0
  let v79_r0 : BitVec 32 := Scalar.addi v78_r0 v7
  let v119_r0 : BitVec 1 := Scalar.cmpi .ne v69_r0 v79_r0
  let c0_i32_27_r0 : BitVec 32 := 0#32
  let c1_i32_29_r0 : BitVec 32 := 1#32
  let arg7_r0 : BitVec 32 := Scf.iv c0_i32_27_r0 c1_i32_29_r0 k0_t1
  let c99_i32_56_r0 : BitVec 32 := 99#32
  let v68_r0 : BitVec 1 := Scalar.cmpi .eq arg7_r0 c99_i32_56_r0
  let v120_r0 : BitVec 1 := Scalar.ori v119_r0 v68_r0
  let v121_r0 : BitVec 32 := Scalar.extui v120_r0
  let c0_i32_86_r0 : BitVec 32 := 0#32
  let v122_r0 : BitVec 1 := Scalar.cmpi .ne v121_r0 c0_i32_86_r0
  v122_r0

def k0_off14 (i : grid0.Coords) (arg12_r0 : BitVec 32) : Fin 2 → Nat :=
  let c256_i32_102_r0 : BitVec 32 := 256#32
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let v149_r0 : BitVec 32 := Scalar.muli c256_i32_102_r0 v69_r0
  let c0_i32_105_r0 : BitVec 32 := 0#32
  ![v149_r0.toNat, 0]
def k0_off15 (arg10_r0 : BitVec 32) : Fin 1 → Nat :=
  let c2_i32_101_r0 : BitVec 32 := 2#32
  let v148_r0 : BitVec 32 := Scalar.remui arg10_r0 c2_i32_101_r0
  ![v148_r0.toNat]
def k0_off16 (arg11_r0 : BitVec 32) : Fin 3 → Nat :=
  let c2_i32_101_r0 : BitVec 32 := 2#32
  let v148_r0 : BitVec 32 := Scalar.remui arg11_r0 c2_i32_101_r0
  let c0_i32_103_r0 : BitVec 32 := 0#32
  let c0_i32_104_r0 : BitVec 32 := 0#32
  ![v148_r0.toNat, 0, 0]
def k0_cond8 (i : grid0.Coords) (k0_t1 : Fin k0_t1_loop.trips) (arg12_r0 : BitVec 32) : BitVec 1 :=
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v69_r0 : BitVec 32 := Scalar.addi arg12_r0 v7
  let true_58_r0 : BitVec 1 := 1#1
  let c1_i32_57_r0 : BitVec 32 := 1#32
  let v70_r0 : BitVec 32 := Scalar.subi arg12_r0 c1_i32_57_r0
  let v71_r0 : BitVec 32 := Scalar.select true_58_r0 v70_r0 arg12_r0
  let c_m1_i32_59_r0 : BitVec 32 := 4294967295#32
  let v72_r0 : BitVec 1 := Scalar.cmpi .eq v71_r0 c_m1_i32_59_r0
  let c99_i32_60_r0 : BitVec 32 := 99#32
  let v73_r0 : BitVec 32 := Scalar.select v72_r0 c99_i32_60_r0 v71_r0
  let v74_r0 : BitVec 32 := Scalar.addi v73_r0 v7
  let v132_r0 : BitVec 1 := Scalar.cmpi .ne v69_r0 v74_r0
  let c0_i32_27_r0 : BitVec 32 := 0#32
  let c1_i32_29_r0 : BitVec 32 := 1#32
  let arg7_r0 : BitVec 32 := Scf.iv c0_i32_27_r0 c1_i32_29_r0 k0_t1
  let c0_i32_55_r0 : BitVec 32 := 0#32
  let v67_r0 : BitVec 1 := Scalar.cmpi .eq arg7_r0 c0_i32_55_r0
  let true_92_r0 : BitVec 1 := 1#1
  let v133_r0 : BitVec 1 := Scalar.xori v67_r0 true_92_r0
  let v134_r0 : BitVec 1 := Scalar.andi v132_r0 v133_r0
  let v135_r0 : BitVec 32 := Scalar.extui v134_r0
  let c0_i32_93_r0 : BitVec 32 := 0#32
  let v136_r0 : BitVec 1 := Scalar.cmpi .ne v135_r0 c0_i32_93_r0
  v136_r0

def k0_off17 (i : grid0.Coords) (arg12_r0 : BitVec 32) : Fin 2 → Nat :=
  let c256_i32_102_r0 : BitVec 32 := 256#32
  let true_58_r0 : BitVec 1 := 1#1
  let c1_i32_57_r0 : BitVec 32 := 1#32
  let v70_r0 : BitVec 32 := Scalar.subi arg12_r0 c1_i32_57_r0
  let v71_r0 : BitVec 32 := Scalar.select true_58_r0 v70_r0 arg12_r0
  let c_m1_i32_59_r0 : BitVec 32 := 4294967295#32
  let v72_r0 : BitVec 1 := Scalar.cmpi .eq v71_r0 c_m1_i32_59_r0
  let c99_i32_60_r0 : BitVec 32 := 99#32
  let v73_r0 : BitVec 32 := Scalar.select v72_r0 c99_i32_60_r0 v71_r0
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v74_r0 : BitVec 32 := Scalar.addi v73_r0 v7
  let v149_r0 : BitVec 32 := Scalar.muli c256_i32_102_r0 v74_r0
  let c0_i32_105_r0 : BitVec 32 := 0#32
  ![v149_r0.toNat, 0]
def k0_off18 (arg11_r0 : BitVec 32) : Fin 1 → Nat :=
  let c2_i32_101_r0 : BitVec 32 := 2#32
  let v148_r0 : BitVec 32 := Scalar.remui arg11_r0 c2_i32_101_r0
  ![v148_r0.toNat]

def k0_chk1 (i : grid0.Coords) (k0_t1 : Fin k0_t1_loop.trips) (arg8_r0 : BitVec 32) (arg9_r0 : BitVec 32) (arg10_r0 : BitVec 32) (arg11_r0 : BitVec 32) (arg12_r0 : BitVec 32) : Prop :=
  (∀ (k0_h2 : k0_cond2 i k0_t1 arg12_r0 = 1#1), ∀ a, (k0_off5 arg8_r0) a + S1x1x256.size a ≤ S2x1x256.size a) ∧
  (∀ (k0_h2 : k0_cond2 i k0_t1 arg12_r0 = 1#1), ∀ a, (k0_off6 i arg12_r0) a + S1x256.size a ≤ S1x819200.size a) ∧
  (∀ (k0_h2 : k0_cond2 i k0_t1 arg12_r0 = 1#1), ∀ a, (k0_off7 arg8_r0) a + S1.size a ≤ S2.size a) ∧
  (∀ (k0_h3 : k0_cond3 i k0_t1 arg12_r0 = 1#1), ∀ a, (k0_off8 arg9_r0) a + S1x1x256.size a ≤ S2x1x256.size a) ∧
  (∀ (k0_h3 : k0_cond3 i k0_t1 arg12_r0 = 1#1), ∀ a, (k0_off9 i arg12_r0) a + S1x256.size a ≤ S1x819200.size a) ∧
  (∀ (k0_h3 : k0_cond3 i k0_t1 arg12_r0 = 1#1), ∀ a, (k0_off10 arg9_r0) a + S1.size a ≤ S2.size a) ∧
  (∀ (k0_h6 : k0_cond6 i k0_t1 arg12_r0 = 1#1), ∀ a, (k0_off13 arg10_r0) a + S1x256x128.size a ≤ S2x256x128.size a) ∧
  (∀ (k0_h6 : k0_cond6 i k0_t1 arg12_r0 = 1#1), ∀ a, (k0_off14 i arg12_r0) a + S256x128.size a ≤ S819200x128.size a) ∧
  (∀ (k0_h6 : k0_cond6 i k0_t1 arg12_r0 = 1#1), ∀ a, (k0_off15 arg10_r0) a + S1.size a ≤ S2.size a) ∧
  (∀ (k0_h8 : k0_cond8 i k0_t1 arg12_r0 = 1#1), ∀ a, (k0_off16 arg11_r0) a + S1x256x128.size a ≤ S2x256x128.size a) ∧
  (∀ (k0_h8 : k0_cond8 i k0_t1 arg12_r0 = 1#1), ∀ a, (k0_off17 i arg12_r0) a + S256x128.size a ≤ S819200x128.size a) ∧
  (∀ (k0_h8 : k0_cond8 i k0_t1 arg12_r0 = 1#1), ∀ a, (k0_off18 arg11_r0) a + S1.size a ≤ S2.size a)
instance k0_chk1.dec : ∀ (i : grid0.Coords) (k0_t1 : Fin k0_t1_loop.trips) (arg8_r0 : BitVec 32) (arg9_r0 : BitVec 32) (arg10_r0 : BitVec 32) (arg11_r0 : BitVec 32) (arg12_r0 : BitVec 32), Decidable (k0_chk1 i k0_t1 arg8_r0 arg9_r0 arg10_r0 arg11_r0 arg12_r0) := fun i k0_t1 arg8_r0 arg9_r0 arg10_r0 arg11_r0 arg12_r0 => decidable_of_iff' _ (Iff.of_eq (k0_chk1.eq_1 i k0_t1 arg8_r0 arg9_r0 arg10_r0 arg11_r0 arg12_r0))
theorem k0_off5_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off5 arg8_r0) a + S1x1x256.size a ≤ S2x1x256.size a := fun i k0_t1 arg8_r0 arg9_r0 arg10_r0 arg11_r0 arg12_r0 k0_hw1 k0_h2 => k0_hw1.1 k0_h2
theorem k0_off6_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off6 i arg12_r0) a + S1x256.size a ≤ S1x819200.size a := fun i k0_t1 arg8_r0 arg9_r0 arg10_r0 arg11_r0 arg12_r0 k0_hw1 k0_h2 => k0_hw1.2.1 k0_h2
theorem k0_off7_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h2 : k0_cond2 i k0_t1 arg12_r0 = 1#1), ∀ a, (k0_off7 arg8_r0) a + S1.size a ≤ S2.size a := fun i k0_t1 arg8_r0 arg9_r0 arg10_r0 arg11_r0 arg12_r0 k0_hw1 k0_h2 => k0_hw1.2.2.1 k0_h2
theorem k0_off8_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h3 : k0_cond3 i k0_t1 arg12_r0 = 1#1), ∀ a, (k0_off8 arg9_r0) a + S1x1x256.size a ≤ S2x1x256.size a := fun i k0_t1 arg8_r0 arg9_r0 arg10_r0 arg11_r0 arg12_r0 k0_hw1 k0_h3 => k0_hw1.2.2.2.1 k0_h3
theorem k0_off9_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h3 : k0_cond3 i k0_t1 arg12_r0 = 1#1), ∀ a, (k0_off9 i arg12_r0) a + S1x256.size a ≤ S1x819200.size a := fun i k0_t1 arg8_r0 arg9_r0 arg10_r0 arg11_r0 arg12_r0 k0_hw1 k0_h3 => k0_hw1.2.2.2.2.1 k0_h3
theorem k0_off10_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h3 : k0_cond3 i k0_t1 arg12_r0 = 1#1), ∀ a, (k0_off10 arg9_r0) a + S1.size a ≤ S2.size a := fun i k0_t1 arg8_r0 arg9_r0 arg10_r0 arg11_r0 arg12_r0 k0_hw1 k0_h3 => k0_hw1.2.2.2.2.2.1 k0_h3
theorem k0_off13_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h6 : k0_cond6 i k0_t1 arg12_r0 = 1#1), ∀ a, (k0_off13 arg10_r0) a + S1x256x128.size a ≤ S2x256x128.size a := fun i k0_t1 arg8_r0 arg9_r0 arg10_r0 arg11_r0 arg12_r0 k0_hw1 k0_h6 => k0_hw1.2.2.2.2.2.2.1 k0_h6
theorem k0_off14_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h6 : k0_cond6 i k0_t1 arg12_r0 = 1#1), ∀ a, (k0_off14 i arg12_r0) a + S256x128.size a ≤ S819200x128.size a := fun i k0_t1 arg8_r0 arg9_r0 arg10_r0 arg11_r0 arg12_r0 k0_hw1 k0_h6 => k0_hw1.2.2.2.2.2.2.2.1 k0_h6
theorem k0_off15_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h6 : k0_cond6 i k0_t1 arg12_r0 = 1#1), ∀ a, (k0_off15 arg10_r0) a + S1.size a ≤ S2.size a := fun i k0_t1 arg8_r0 arg9_r0 arg10_r0 arg11_r0 arg12_r0 k0_hw1 k0_h6 => k0_hw1.2.2.2.2.2.2.2.2.1 k0_h6
theorem k0_off16_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h8 : k0_cond8 i k0_t1 arg12_r0 = 1#1), ∀ a, (k0_off16 arg11_r0) a + S1x256x128.size a ≤ S2x256x128.size a := fun i k0_t1 arg8_r0 arg9_r0 arg10_r0 arg11_r0 arg12_r0 k0_hw1 k0_h8 => k0_hw1.2.2.2.2.2.2.2.2.2.1 k0_h8
theorem k0_off17_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h8 : k0_cond8 i k0_t1 arg12_r0 = 1#1), ∀ a, (k0_off17 i arg12_r0) a + S256x128.size a ≤ S819200x128.size a := fun i k0_t1 arg8_r0 arg9_r0 arg10_r0 arg11_r0 arg12_r0 k0_hw1 k0_h8 => k0_hw1.2.2.2.2.2.2.2.2.2.2.1 k0_h8
theorem k0_off18_inb : ∀ (i : grid0.Coords) (k0_t1 : Fin k0_t1_loop.trips) (arg8_r0 : BitVec 32) (arg9_r0 : BitVec 32) (arg10_r0 : BitVec 32) (arg11_r0 : BitVec 32) (arg12_r0 : BitVec 32) (k0_hw1 : k0_chk1 i k0_t1 arg8_r0 arg9_r0 arg10_r0 arg11_r0 arg12_r0), ∀ (k0_h8 : k0_cond8 i k0_t1 arg12_r0 = 1#1), ∀ a, (k0_off18 arg11_r0) a + S1.size a ≤ S2.size a := fun i k0_t1 arg8_r0 arg9_r0 arg10_r0 arg11_r0 arg12_r0 k0_hw1 k0_h8 => k0_hw1.2.2.2.2.2.2.2.2.2.2.2 k0_h8

def k0_off19 (v36_3_r0 : BitVec 32) : Fin 3 → Nat :=
  let c2_i32_47_r0 : BitVec 32 := 2#32
  let v57_r0 : BitVec 32 := Scalar.remui v36_3_r0 c2_i32_47_r0
  let c0_i32_49_r0 : BitVec 32 := 0#32
  let c0_i32_50_r0 : BitVec 32 := 0#32
  ![v57_r0.toNat, 0, 0]

def k0_off20 (i : grid0.Coords) (v36_4_r0 : BitVec 32) : Fin 2 → Nat :=
  let c256_i32_48_r0 : BitVec 32 := 256#32
  let true_32_r0 : BitVec 1 := 1#1
  let c1_i32_31_r0 : BitVec 32 := 1#32
  let v37_r0 : BitVec 32 := Scalar.subi v36_4_r0 c1_i32_31_r0
  let v38_r0 : BitVec 32 := Scalar.select true_32_r0 v37_r0 v36_4_r0
  let c_m1_i32_33_r0 : BitVec 32 := 4294967295#32
  let v39_r0 : BitVec 1 := Scalar.cmpi .eq v38_r0 c_m1_i32_33_r0
  let c99_i32_34_r0 : BitVec 32 := 99#32
  let v40_r0 : BitVec 32 := Scalar.select v39_r0 c99_i32_34_r0 v38_r0
  let c0_i32_0 : BitVec 32 := 0#32
  let arg1 : BitVec 32 := BitVec.ofNat 32 (i 1).val
  let c1_i32 : BitVec 32 := 1#32
  let v3 : BitVec 32 := Scalar.muli arg1 c1_i32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  let v41_r0 : BitVec 32 := Scalar.addi v40_r0 v7
  let v58_r0 : BitVec 32 := Scalar.muli c256_i32_48_r0 v41_r0
  let c0_i32_51_r0 : BitVec 32 := 0#32
  ![v58_r0.toNat, 0]

def k0_chk5 (i : grid0.Coords) (v36_4_r0 : BitVec 32) : Prop :=
  (∀ a, (k0_off20 i v36_4_r0) a + S256x128.size a ≤ S819200x128.size a)
instance k0_chk5.dec : ∀ (i : grid0.Coords) (v36_4_r0 : BitVec 32), Decidable (k0_chk5 i v36_4_r0) := fun i v36_4_r0 => decidable_of_iff' _ (Iff.of_eq (k0_chk5.eq_1 i v36_4_r0))
theorem k0_off20_inb : ∀ (i : grid0.Coords) (v36_4_r0 : BitVec 32) (k0_hw5 : k0_chk5 i v36_4_r0), ∀ a, (k0_off20 i v36_4_r0) a + S256x128.size a ≤ S819200x128.size a := fun i v36_4_r0 k0_hw5 => k0_hw5

def k0_off21 (v36_3_r0 : BitVec 32) : Fin 1 → Nat :=
  let c2_i32_47_r0 : BitVec 32 := 2#32
  let v57_r0 : BitVec 32 := Scalar.remui v36_3_r0 c2_i32_47_r0
  ![v57_r0.toNat]
def k0_off22 (v36_3_r0 : BitVec 32) : Fin 3 → Nat :=
  let c2_i32_47_r0 : BitVec 32 := 2#32
  let v57_r0 : BitVec 32 := Scalar.remui v36_3_r0 c2_i32_47_r0
  let c0_i32_53_r0 : BitVec 32 := 0#32
  let c0_i32_54_r0 : BitVec 32 := 0#32
  ![v57_r0.toNat, 0, 0]

def k0_chk4 (v36_3_r0 : BitVec 32) : Prop :=
  (∀ a, (k0_off19 v36_3_r0) a + S1x256x128.size a ≤ S2x256x128.size a) ∧
  (∀ a, (k0_off21 v36_3_r0) a + S1.size a ≤ S2.size a) ∧
  (∀ a, (k0_off22 v36_3_r0) a + S1x256x128.size a ≤ S2x256x128.size a)
instance k0_chk4.dec : ∀ (v36_3_r0 : BitVec 32), Decidable (k0_chk4 v36_3_r0) := fun v36_3_r0 => decidable_of_iff' _ (Iff.of_eq (k0_chk4.eq_1 v36_3_r0))
theorem k0_off19_inb : ∀ (v36_3_r0 : BitVec 32) (k0_hw4 : k0_chk4 v36_3_r0), ∀ a, (k0_off19 v36_3_r0) a + S1x256x128.size a ≤ S2x256x128.size a := fun v36_3_r0 k0_hw4 => k0_hw4.1
theorem k0_off21_inb : ∀ (v36_3_r0 : BitVec 32) (k0_hw4 : k0_chk4 v36_3_r0), ∀ a, (k0_off21 v36_3_r0) a + S1.size a ≤ S2.size a := fun v36_3_r0 k0_hw4 => k0_hw4.2.1
theorem k0_off22_inb : ∀ (v36_3_r0 : BitVec 32) (k0_hw4 : k0_chk4 v36_3_r0), ∀ a, (k0_off22 v36_3_r0) a + S1x256x128.size a ≤ S2x256x128.size a := fun v36_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S1x819200 : S4096x200.ShapeCasts S1x819200
  squeezes_S1x1x256_S1x256 : S1x1x256.Squeezes S1x256
  squeezes_S1_S_ : S1.Squeezes S_
  squeezes_S1x256x128_S256x128 : S1x256x128.Squeezes S256x128
  inb_S1x256_S1x256_0_0 : ∀ a, (![0, 0] : Fin 2 → Nat) a + S1x256.size a ≤ S1x256.size a
  squeezes_S1x256_S256 : S1x256.Squeezes S256
  inb_S1000x128_S1000x128_0_0 : ∀ a, (![0, 0] : Fin 2 → Nat) a + S1000x128.size a ≤ S1000x128.size a
  gathers_S1000x128_S256x128 : S1000x128.Gathers 0 S256x128
  shapeCasts_S819200x128_S4096x200x128 : S819200x128.ShapeCasts S4096x200x128
  hcc0_scratch1 : 0 + S_.numel ≤ 6
  hcc0_scoped1 : 1 + S2.numel ≤ 6
  hcc0_scoped3 : 3 + S2.numel ≤ 6
  hcc0_scoped4 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S200x128.size a ≤ S1000x128.size a
  k0_off2_inb : ∀ a, k0_off2 a + S1x1x256.size a ≤ S2x1x256.size a
  k0_off3_inb : ∀ i : grid0.Coords, ∀ a, (k0_off3 i) a + S1x256.size a ≤ S1x819200.size a
  k0_off4_inb : ∀ a, k0_off4 a + S1.size a ≤ S2.size a
  k0_t1_ok : k0_t1_loop.OK

variable [Facts₀]

abbrev cc0_scratch1 : DmaSems sig S_ := SemArray.consecutive 0 S_ hcc0_scratch1
abbrev cc0_scoped1 : DmaSems sig S2 := SemArray.consecutive 1 S2 hcc0_scoped1
abbrev cc0_scoped3 : DmaSems sig S2 := SemArray.consecutive 3 S2 hcc0_scoped3
abbrev cc0_scoped4 : DmaSems sig S_ := SemArray.consecutive 5 S_ hcc0_scoped4

class Facts : Prop extends Facts₀ where

variable [Facts]
-- ==== ReferenceIdeal.lean ====
abbrev S4096x200 : Shape := ⟨2, ![4096, 200]⟩
abbrev S1000x128 : Shape := ⟨2, ![1000, 128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x128, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x128, .f32⟩
  | .hbm, ⟨21, _⟩ => ⟨S4096x200x128, .i1⟩
  | .hbm, ⟨22, _⟩ => ⟨S_, .f32⟩
  | .hbm, ⟨23, _⟩ => ⟨S4096x200x128, .f32⟩
  | .hbm, ⟨24, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x128_0_1 : S4096x200.BroadcastsInDim S4096x200x128 (![0, 1] : Fin 2 → Fin S4096x200x128.rank)
  bcast_S_S4096x200x128 : S_.BroadcastsInDim S4096x200x128 (![] : Fin 0 → Fin S4096x200x128.rank)
  gather_S1000x128_S4096x200x1_S4096x200x128_2_0_n_n_0_2_1128_wf : GatherDims.WF S1000x128 S4096x200x1 S4096x200x128 [2] [0] [] [0] [] 2 ![1, 128]

variable [Facts₀]

def gather_S1000x128_S4096x200x1_S4096x200x128_2_0_n_n_0_2_1128 : GatherDims S1000x128 S4096x200x1 S4096x200x128 where
  offsetDims := [2]
  collapsedSliceDims := [0]
  operandBatchingDims := []
  startIndicesBatchingDims := []
  startIndexMap := [0]
  indexVectorDim := 2
  sliceSizes := ![1, 128]
  wf := gather_S1000x128_S4096x200x1_S4096x200x128_2_0_n_n_0_2_1128_wf

class Facts : Prop extends Facts₀ where

variable [Facts]
-- ==== Proof.Spec.lean ====
/-
  The specification both programs are compared with: an embedding lookup. `ids` holds 4096 × 200 row numbers, `tab`
  a table of 1000 rows of 128 entries; the result's entry `(b, h, e)` is entry `e` of the table's row `ids (b, h)`.
  The row number is read as an unsigned word; it is reduced modulo 1000 only to make the function total: on the
  inputs the claim speaks of every word is below 1000 (`InRange`) and the reduction does nothing.
-/
import Idealize.ShloMosaic.PureOps
import Idealize.ShloMosaic.Lib.ValueIdx

namespace Cert.Spec

open Idealize.ShloMosaic Idealize.ShloMosaic.ValueIdx

/-- Every row number is a row of the table. -/
def InRange (ids : IVec ⟨2, ![4096, 200]⟩ 32) : Prop := ∀ j, (ids j).toNat < 1000

/-- The table's row a word names. -/
def rowOf (w : BitVec 32) : Fin 1000 := ⟨w.toNat % 1000, Nat.mod_lt _ (by decide)⟩

theorem rowOf_val {w : BitVec 32} (h : w.toNat < 1000) : (rowOf w).val = w.toNat := Nat.mod_eq_of_lt h

/-- The lookup: entry `(b, h, e)` of the result is entry `e` of row `ids (b, h)` of the table. -/
def lookup {α : Type} (ids : IVec ⟨2, ![4096, 200]⟩ 32) (tab : (⟨2, ![1000, 128]⟩ : Shape).Idx → α) :
    (⟨3, ![4096, 200, 128]⟩ : Shape).Idx → α :=
  fun j => tab (ix2 (rowOf (ids (ix2 (j 0) (j 1)))) (j 2))

theorem lookup_apply {α : Type} (ids : IVec ⟨2, ![4096, 200]⟩ 32) (tab : (⟨2, ![1000, 128]⟩ : Shape).Idx → α)
    (b : Fin 4096) (h : Fin 200) (e : Fin 128) :
    lookup ids tab (ix3 b h e) = tab (ix2 (rowOf (ids (ix2 b h))) e) := rfl

end Cert.Spec
-- ==== Proof.KI.Res.lean ====
/-
  The shared definitions of the idealized kernel's run on the SparseCores: the launch's configuration and ghost
  state, the places the arrays live, the way each array is cut (the table's five chunks of 200 rows, the output's
  3200 chunks of 256 rows, each tile's hundred of them), the read shares under which the table, the flat list of
  row numbers and the staged table are held by many tiles at once, what the subcore barrier carries (each of the
  first five tiles hands every tile of its SparseCore a read share of the chunk it staged), and what the launch's
  handshakes carry to and from each tile.
-/
import proofs.«206737_g54150947668683_cont_9to1_m_866_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206737_g54150947668683_cont_9to1_m_866_22_alg».proof.Proof.Gen.KernelIdeal
import proofs.«206737_g54150947668683_cont_9to1_m_866_22_alg».proof.Proof.Gen.KernelIdeal.Skeleton
import proofs.«206737_g54150947668683_cont_9to1_m_866_22_alg».proof.Proof.Spec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Where the arrays live -/

abbrev idsLoc (d : Dev nD) : Loc nD τ sig := (SparseCore.T d).loc main_arg0
abbrev tabLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2
/-- SparseCore `c`'s shared vector memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The arrays as a tile names them. -/
abbrev tabV : Memref sig .scVector .hbm S1000x128 .f32 := Memref.whole main_arg1_scv
abbrev flatV : Memref sig .scVector .hbm S1x819200 .i32 := Memref.whole main_v0_scv
abbrev outV : Memref sig .scVector .hbm S819200x128 .f32 := Memref.whole main_v1_scv
abbrev shV : Memref sig .scVector .shared S1000x128 .f32 := Memref.whole cc0_scratch0
abbrev idxV : Memref sig .scVector .vmem S2x1x256 .i32 := Memref.whole cc0_scoped0
abbrev rowV : Memref sig .scVector .vmem S2x256x128 .f32 := Memref.whole cc0_scoped2

theorem nSub_eq : τ.nSub = 16 := rfl
theorem nSC_eq : τ.nSC = 2 := rfl

/-! ## How the arrays are cut -/

theorem hdiv5 : 5 ∣ S1000x128.size 0 := ⟨200, rfl⟩
theorem hdiv3200 : 3200 ∣ S819200x128.size 0 := ⟨256, rfl⟩
theorem hdivF : 3200 ∣ S1x819200.size 1 := ⟨256, rfl⟩
/-- The table's chunk `n`: rows `200 n … 200 n + 199` (of the table and of its staged copy alike). -/
abbrev tchunk (n : Fin 5) : Rect S1000x128 := Rect.part (s := S1000x128) (a₀ := 0) hdiv5 n
abbrev tchunkSet (n : Fin 5) : Finset S1000x128.Idx := ((shV).view.slice (tchunk n)).set
/-- The output's chunk `g`: rows `256 g … 256 g + 255`. -/
abbrev ochunk (g : Fin 3200) : Rect S819200x128 := Rect.part (s := S819200x128) (a₀ := 0) hdiv3200 g
abbrev ochunkSet (g : Fin 3200) : Finset S819200x128.Idx := ((outV).view.slice (ochunk g)).set
/-- The flat list's chunk `g`: entries `256 g … 256 g + 255`. -/
abbrev fchunk (g : Fin 3200) : Rect S1x819200 := Rect.part (s := S1x819200) (a₀ := 1) hdivF g
abbrev fchunkSet (g : Fin 3200) : Finset S1x819200.Idx := ((flatV).view.slice (fchunk g)).set
/-- Tile `i` of SparseCore `c` works on chunks `100 (i + 16 c) … + 99`: its `k`-th. -/
def gidx (c : Fin 2) (i : Fin 16) (k : Fin 100) : Fin 3200 := ⟨k.val + 100 * (i.val + 16 * c.val), by omega⟩

/-! ## What the lookup leaves in the flat output -/

/-- Row `r` of the flat output is the table's row named by entry `r` of the flat list. -/
def outOf (tb : S1000x128.Idx → Elt F .f32) (fl : S1x819200.Idx → BitVec 32) : S819200x128.Idx → Elt F .f32 :=
  fun j => tb (ValueIdx.ix2 (Cert.Spec.rowOf (fl (ValueIdx.ix2 (0 : Fin 1) (j 0)))) (j 1))

/-! ## Read shares -/

/-- SparseCore `c`'s read share of the table (both SparseCores stage it at once). -/
abbrev qC (c : Fin 2) : PosShare TreeShare := shareTok fullShare 2 c
/-- Tile `i`'s read share of the staged table. -/
abbrev qS (i : Fin 16) : PosShare TreeShare := shareTok fullShare 16 i

/-! ## The launch memory -/

variable (m : (ℓ : Loc nD τ sig) → Buf (Elt F) ℓ) (ρ : Dev nD → PrngReg)
-- the flat list of row numbers, as the first host operation leaves it (a parameter here; the launch fixes it)
variable (flat : (d : Dev nD) → Buf (Elt F) (flatLoc d))

/-- The table, read as contents of SparseCore `c`'s shared vector memory (one shape and element type). -/
abbrev tabS (d : Dev nD) (c : Fin τ.nSC) : Buf (Elt F) (shLoc d c) := m (tabLoc d)
/-- What the kernel leaves in the flat output. -/
abbrev outv (d : Dev nD) : Buf (Elt F) (outLoc d) := outOf (F := F) (m (tabLoc d)) (flat d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Chunk `n` of SparseCore `c`'s staged table, held at share `q` with the table's own contents. -/
abbrev shChunkPts (d : Dev nD) (c : Fin τ.nSC) (n : Fin 5) (q : PosShare TreeShare) : sProp 𝕄 :=
  shLoc d c ↦[tchunkSet n]{q} tabS m d c

/-- What tile `n`'s duty in tile `j`'s round hands over: one of the first five tiles, tile `j`'s read share of the
    chunk it staged, holding the table's rows; the others, nothing. -/
def bPay (g : GSem nD τ sig) (n : ℕ) : sProp 𝕄 :=
  match g with
  | ((d, .scVector c j), _) => if h : n < 5 then shChunkPts m d c ⟨n, h⟩ (qS (Fin.cast nSub_eq j)) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The call's core number and tile number as plain numbers below 2 and 16. -/
abbrev c2 (c : Fin ((K (F := F)).nCore 0)) : Fin 2 := Fin.cast nCore_zero c
abbrev i16 (i : Fin ((K (F := F)).nSub 0)) : Fin 16 := Fin.cast nSub_zero i

/-- A tile's hundred chunks of the flat output, at contents `f`. -/
abbrev outChunks (d : Dev nD) (c : Fin 2) (i : Fin 16) (f : Buf (Elt F) (outLoc d)) : sProp 𝕄 :=
  bigSep Finset.univ fun k : Fin 100 => outLoc d ↦[ochunkSet (gidx c i k)]{fullShare} f

/-- A tile's hundred chunks of the flat list of row numbers. -/
abbrev flatChunks (d : Dev nD) (c : Fin 2) (i : Fin 16) : sProp 𝕄 :=
  bigSep Finset.univ fun k : Fin 100 => flatLoc d ↦[fchunkSet (gidx c i k)]{fullShare} flat d

/-- The table's chunk a tile among the first five stages, at its SparseCore's read share; the others nothing. -/
def tabGo (d : Dev nD) (c : Fin 2) (i : Fin 16) : sProp 𝕄 :=
  if h : i.val < 5 then iprop(tabLoc d ↦[tchunkSet ⟨i.val, h⟩]{qC c} m (tabLoc d)) else iprop(emp)
instance tabGo_storable (d : Dev nD) (c : Fin 2) (i : Fin 16) : BI.Storable (upEmb : UEmb _ 𝕄) (tabGo (F := F) m d c i) := by
  unfold tabGo; split <;> infer_instance

/-- The staged table's chunk a tile among the first five is handed to fill; the others nothing. -/
def shGo (d : Dev nD) (c : Fin τ.nSC) (i : Fin 16) : sProp 𝕄 :=
  if h : i.val < 5 then iprop(∃ f, shLoc d c ↦[tchunkSet ⟨i.val, h⟩]{fullShare} f) else iprop(emp)
/-- What a tile hands back of the staged table: its read share of all of it, and, one of the first five, what it kept
    of its own chunk; all at the table's contents. -/
def shKeep (d : Dev nD) (c : Fin τ.nSC) (i : Fin 16) : sProp 𝕄 :=
  if h : i.val < 5 then shChunkPts m d c ⟨i.val, h⟩ (shareDrop fullShare 16) else iprop(emp)
def shTd (d : Dev nD) (c : Fin τ.nSC) (i : Fin 16) : sProp 𝕄 :=
  iprop((shLoc d c ↦{qS i} tabS m d c) ∗ shKeep m d c i)

instance shGo_storable (d : Dev nD) (c : Fin τ.nSC) (i : Fin 16) : BI.Storable (upEmb : UEmb _ 𝕄) (shGo (F := F) d c i) := by
  unfold shGo; split <;> infer_instance
instance shKeep_storable (d : Dev nD) (c : Fin τ.nSC) (i : Fin 16) : BI.Storable (upEmb : UEmb _ 𝕄) (shKeep (F := F) m d c i) := by
  unfold shKeep; split <;> infer_instance
instance shTd_storable (d : Dev nD) (c : Fin τ.nSC) (i : Fin 16) : BI.Storable (upEmb : UEmb _ 𝕄) (shTd (F := F) m d c i) := by
  unfold shTd; infer_instance

/-- The call takes, per SparseCore, a read share of the table and its tiles' chunks of the flat list and of the flat
    output; each tile its hundred chunks of both and (the first five) a chunk of the table to stage and the chunk of
    the shared memory to fill; a tile brings back the same, its output chunks holding the looked-up rows, and what it
    holds of the staged table. -/
def P : (K (F := F)).Pay (nD := nD) (Val := Elt F) (Name := ℕ) (U := UU) where
  st := fun q d c => match q with
    | 0 => iprop((tabLoc d ↦{qC (c2 c)} m (tabLoc d))
        ∗ bigSep Finset.univ fun i : Fin 16 => iprop(flatChunks flat d (c2 c) i ∗ outChunks d (c2 c) i (m (outLoc d))))
  dn := fun q d c => match q with
    | 0 => iprop((tabLoc d ↦{qC (c2 c)} m (tabLoc d))
        ∗ bigSep Finset.univ fun i : Fin 16 => iprop(flatChunks flat d (c2 c) i ∗ outChunks d (c2 c) i (outv m flat d)))
  go := fun q d c i => match q with
    | 0 => iprop(tabGo m d (c2 c) (i16 i) ∗ flatChunks flat d (c2 c) (i16 i)
        ∗ outChunks d (c2 c) (i16 i) (m (outLoc d)) ∗ shGo d (coreOf c) (i16 i))
  td := fun q d c i => match q with
    | 0 => iprop(tabGo m d (c2 c) (i16 i) ∗ flatChunks flat d (c2 c) (i16 i)
        ∗ outChunks d (c2 c) (i16 i) (outv m flat d) ∗ shTd m d (coreOf c) (i16 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m flat).IsStorable where
  st q d c := match q with
    | 0 => (inferInstance : BI.Storable (upEmb : UEmb _ 𝕄) iprop((tabLoc d ↦{qC (c2 c)} m (tabLoc d))
        ∗ bigSep Finset.univ fun i : Fin 16 => iprop(flatChunks flat d (c2 c) i ∗ outChunks d (c2 c) i (m (outLoc d)))))
  dn q d c := match q with
    | 0 => (inferInstance : BI.Storable (upEmb : UEmb _ 𝕄) iprop((tabLoc d ↦{qC (c2 c)} m (tabLoc d))
        ∗ bigSep Finset.univ fun i : Fin 16 => iprop(flatChunks flat d (c2 c) i ∗ outChunks d (c2 c) i (outv m flat d))))
  go q d c i := match q with
    | 0 => (inferInstance : BI.Storable (upEmb : UEmb _ 𝕄) iprop(tabGo m d (c2 c) (i16 i) ∗ flatChunks flat d (c2 c) (i16 i)
        ∗ outChunks d (c2 c) (i16 i) (m (outLoc d)) ∗ shGo d (coreOf c) (i16 i)))
  td q d c i := match q with
    | 0 => (inferInstance : BI.Storable (upEmb : UEmb _ 𝕄) iprop(tabGo m d (c2 c) (i16 i) ∗ flatChunks flat d (c2 c) (i16 i)
        ∗ outChunks d (c2 c) (i16 i) (outv m flat d) ∗ shTd m d (coreOf c) (i16 i)))

end Cert.Proof.KI

end
-- ==== Proof.KI.LaunchSplit.lean ====
/-
  How one SparseCore's operands are dealt to its sixteen tiles and gathered from them. The SparseCore's read share of
  the table is the table's five chunks of 200 rows at that share, one for each of the first five tiles to stage. The
  flat list's and the flat output's chunks are already grouped by tile. The shared memory is cut into its five chunks,
  one for each of the first five tiles to fill; each tile brings back a read share of all five chunks, and each of the
  first five the remainder of its own chunk: chunk by chunk the remainder and the sixteen read shares make the full
  share again, and the five chunks the whole memory.
-/
import proofs.«206737_g54150947668683_cont_9to1_m_866_22_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

/-! ## The cuts are partitions -/

theorem tchunkSet_eq (n : Fin 5) : tchunkSet n = (tchunk n).set := by
  show ((View.whole (cc0_scratch0 : Ref sig .scVector)).slice (tchunk n)).set = _
  rw [View.set_slice]; exact Finset.map_refl
theorem tchunks_disjoint : ∀ i ∈ (Finset.univ : Finset (Fin 5)), ∀ j ∈ (Finset.univ : Finset (Fin 5)), i ≠ j → Disjoint (tchunkSet i) (tchunkSet j) :=
  fun i _ j _ h => by rw [tchunkSet_eq, tchunkSet_eq]; exact Rect.part_disjoint hdiv5 h
theorem tchunks_cover : (Finset.univ : Finset (Fin 5)).biUnion tchunkSet = Finset.univ :=
  (Finset.biUnion_congr rfl fun i _ => tchunkSet_eq i).trans (Rect.biUnion_part hdiv5)

theorem ochunkSet_eq (g : Fin 3200) : ochunkSet g = (ochunk g).set := by
  show ((View.whole (main_v1_scv : Ref sig .scVector)).slice (ochunk g)).set = _
  rw [View.set_slice]; exact Finset.map_refl
theorem ochunks_disjoint : ∀ i ∈ (Finset.univ : Finset (Fin 3200)), ∀ j ∈ (Finset.univ : Finset (Fin 3200)), i ≠ j → Disjoint (ochunkSet i) (ochunkSet j) :=
  fun i _ j _ h => by rw [ochunkSet_eq, ochunkSet_eq]; exact Rect.part_disjoint hdiv3200 h
theorem ochunks_cover : (Finset.univ : Finset (Fin 3200)).biUnion ochunkSet = Finset.univ :=
  (Finset.biUnion_congr rfl fun i _ => ochunkSet_eq i).trans (Rect.biUnion_part hdiv3200)

theorem fchunkSet_eq (g : Fin 3200) : fchunkSet g = (fchunk g).set := by
  show ((View.whole (main_v0_scv : Ref sig .scVector)).slice (fchunk g)).set = _
  rw [View.set_slice]; exact Finset.map_refl
theorem fchunks_disjoint : ∀ i ∈ (Finset.univ : Finset (Fin 3200)), ∀ j ∈ (Finset.univ : Finset (Fin 3200)), i ≠ j → Disjoint (fchunkSet i) (fchunkSet j) :=
  fun i _ j _ h => by rw [fchunkSet_eq, fchunkSet_eq]; exact Rect.part_disjoint hdivF h
theorem fchunks_cover : (Finset.univ : Finset (Fin 3200)).biUnion fchunkSet = Finset.univ :=
  (Finset.biUnion_congr rfl fun i _ => fchunkSet_eq i).trans (Rect.biUnion_part hdivF)

/-- A family over the first `n` of `N` indices, nothing for the others, is the family over `Fin n`. -/
theorem bigSep_dite_lt {n N : ℕ} (h : n ≤ N) (Φ : Fin n → sProp 𝕄) :
    (bigSep Finset.univ fun i : Fin N => if hi : i.val < n then Φ ⟨i.val, hi⟩ else (iprop(emp) : sProp 𝕄)) = bigSep Finset.univ Φ := by
  classical
  rw [bigSep_filter_split Finset.univ (fun i : Fin N => i.val < n),
    show (bigSep (Finset.univ.filter fun i : Fin N => ¬ i.val < n) fun i : Fin N => if hi : i.val < n then Φ ⟨i.val, hi⟩ else (iprop(emp) : sProp 𝕄))
      = bigSep (Finset.univ.filter fun i : Fin N => ¬ i.val < n) fun _ => (iprop(emp) : sProp 𝕄) from
      bigSep_congr fun i hi => dif_neg (Finset.mem_filter.mp hi).2,
    bigSep_emp',
    show (Finset.univ.filter fun i : Fin N => i.val < n) = Finset.univ.map (Fin.castLEEmb h) from by
      ext c; simp only [Finset.mem_filter, Finset.mem_univ, true_and, Finset.mem_map, Fin.castLEEmb_apply]
      exact ⟨fun hc => ⟨⟨c.val, hc⟩, Fin.ext rfl⟩, fun ⟨j, hj⟩ => hj ▸ j.isLt⟩,
    bigSep_map]
  refine (BI.equiv_iff.mp sep_emp).trans (bigSep_congr fun i _ => ?_)
  show (if hi : (Fin.castLE h i).val < n then Φ ⟨(Fin.castLE h i).val, hi⟩ else _) = _
  rw [dif_pos (show (Fin.castLE h i).val < n from i.isLt)]
  exact congrArg Φ (Fin.ext rfl)

variable (m : (ℓ : Loc nD τ sig) → Buf (Elt F) ℓ) (ρ : Dev nD → PrngReg)
variable (flat : (d : Dev nD) → Buf (Elt F) (flatLoc d))

/-- The shared memory at one share is its five chunks at that share, -/
theorem shPts_chunks (d : Dev nD) (c : Fin τ.nSC) (q : PosShare TreeShare) (f : Buf (Elt F) (shLoc d c)) :
    (shLoc d c ↦{q} f : sProp 𝕄) = bigSep Finset.univ fun n : Fin 5 => shLoc d c ↦[tchunkSet n]{q} f := by
  rw [← pointsTo_biUnion Finset.univ (ℓ := shLoc d c) tchunkSet tchunks_disjoint, tchunks_cover]; try rfl
/-- and so is the table. -/
theorem tabPts_chunks (d : Dev nD) (q : PosShare TreeShare) (f : Buf (Elt F) (tabLoc d)) :
    (tabLoc d ↦{q} f : sProp 𝕄) = bigSep Finset.univ fun n : Fin 5 => tabLoc d ↦[tchunkSet n]{q} f := by
  rw [← pointsTo_biUnion Finset.univ (ℓ := tabLoc d) tchunkSet tchunks_disjoint, tchunks_cover]; try rfl

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

variable [FloatOps F]

/-! ## The table and the shared memory: dealt by chunks, gathered by chunks -/

omit [FloatOps F] in
theorem tabGo_eq (d : Dev nD) (c : Fin 2) :
    (bigSep Finset.univ fun i : Fin 16 => tabGo (F := F) m d c i) = (tabLoc d ↦{qC c} m (tabLoc d) : sProp 𝕄) := by
  unfold tabGo; rw [tabPts_chunks]
  exact bigSep_dite_lt (F := F) (n := 5) (N := 16) (by decide) (fun n => (tabLoc d ↦[tchunkSet n]{qC c} m (tabLoc d) : sProp 𝕄))

omit [FloatOps F] in
theorem shGo_eq (d : Dev nD) (c : Fin τ.nSC) :
    (bigSep Finset.univ fun i : Fin 16 => shGo (F := F) d c i) = bigSep Finset.univ fun n : Fin 5 => (iprop(∃ f, shLoc d c ↦[tchunkSet n]{fullShare} f) : sProp 𝕄) := by
  unfold shGo
  exact bigSep_dite_lt (F := F) (n := 5) (N := 16) (by decide) (fun n => (iprop(∃ f, shLoc d c ↦[tchunkSet n]{fullShare} f) : sProp 𝕄))

omit [FloatOps F] in
theorem shKeep_eq (d : Dev nD) (c : Fin τ.nSC) :
    (bigSep Finset.univ fun i : Fin 16 => shKeep (F := F) m d c i) = bigSep Finset.univ fun n : Fin 5 => shChunkPts m d c n (shareDrop fullShare 16) := by
  unfold shKeep
  exact bigSep_dite_lt (F := F) (n := 5) (N := 16) (by decide) (fun n => shChunkPts m d c n (shareDrop fullShare 16))

omit [FloatOps F] in
/-- The shared memory whole deals each of the first five tiles its chunk. -/
theorem sh_deal (d : Dev nD) (c : Fin τ.nSC) (f : Buf (Elt F) (shLoc d c)) :
    (shLoc d c ↦{fullShare} f : sProp 𝕄) ⊢ bigSep Finset.univ fun i : Fin 16 => shGo (F := F) d c i := by
  rw [shGo_eq, shPts_chunks]
  exact bigSep_mono fun n _ => BI.BIClass.exists_intro (Φ := fun g => (shLoc d c ↦[tchunkSet n]{fullShare} g : sProp 𝕄)) f

omit [FloatOps F] in
/-- What the sixteen tiles bring back of the shared memory is all of it. -/
theorem sh_collect (d : Dev nD) (c : Fin τ.nSC) :
    (bigSep Finset.univ fun i : Fin 16 => shTd (F := F) m d c i) ⊢ (iprop(∃ f, shLoc d c ↦{fullShare} f) : sProp 𝕄) := by
  unfold shTd
  rw [bigSep_sep', shKeep_eq,
    show (bigSep Finset.univ fun i : Fin 16 => (shLoc d c ↦{qS i} tabS m d c : sProp 𝕄))
      = bigSep Finset.univ fun n : Fin 5 => bigSep Finset.univ fun i : Fin 16 => (shLoc d c ↦[tchunkSet n]{qS i} tabS m d c : sProp 𝕄) from by
      rw [bigSep_congr (fun i _ => shPts_chunks d c (qS i) (tabS m d c)), bigSep_univ_comm]]
  iintro ⟨Hall, Hkeep⟩
  iexists (tabS m d c)
  rw [shPts_chunks]
  ihave H := (Entails.of_eq (bigSep_sep' Finset.univ (fun n : Fin 5 => shChunkPts m d c n (shareDrop fullShare 16))
    (fun n : Fin 5 => bigSep Finset.univ fun i : Fin 16 => (shLoc d c ↦[tchunkSet n]{qS i} tabS m d c : sProp 𝕄))).symm) $$ [Hall Hkeep]
  · isplitl [Hkeep]; · iexact Hkeep
    iexact Hall
  iapply (SparseCore.ent (bigSep_mono (Φ := fun n : Fin 5 => iprop(shChunkPts m d c n (shareDrop fullShare 16) ∗ bigSep Finset.univ fun i : Fin 16 => (shLoc d c ↦[tchunkSet n]{qS i} tabS m d c : sProp 𝕄)))
    (Ψ := fun n : Fin 5 => (shLoc d c ↦[tchunkSet n]{fullShare} tabS m d c : sProp 𝕄)) fun n _ => pointsTo_toks_join fullShare 16))
  iexact H

/-! ## The split -/

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- One SparseCore's operands and its shared memory to its tiles, and back. -/
theorem split_core (d : Dev nD) (c : Fin 2) (cc : Fin τ.nSC) :
    iprop(iprop((tabLoc d ↦{qC c} m (tabLoc d)) ∗ bigSep Finset.univ fun i : Fin 16 => iprop(flatChunks flat d c i ∗ outChunks d c i (m (outLoc d))))
        ∗ (∃ f, shLoc d cc ↦{fullShare} f))
      ⊢ (iprop((bigSep Finset.univ fun i : Fin 16 => iprop(tabGo m d c i ∗ flatChunks flat d c i ∗ outChunks d c i (m (outLoc d)) ∗ shGo d cc i))
        ∗ ((bigSep Finset.univ fun i : Fin 16 => iprop(tabGo m d c i ∗ flatChunks flat d c i ∗ outChunks d c i (outv m flat d) ∗ shTd m d cc i))
            -∗ iprop(iprop((tabLoc d ↦{qC c} m (tabLoc d)) ∗ bigSep Finset.univ fun i : Fin 16 => iprop(flatChunks flat d c i ∗ outChunks d c i (outv m flat d)))
              ∗ (∃ f, shLoc d cc ↦{fullShare} f)))) : sProp 𝕄) := by
  simp only [bigSep_sep']
  rw [tabGo_eq]
  iintro ⟨⟨Ht, Hf, Ho⟩, ⟨%fsh, Hsh⟩⟩
  ihave Hsh' := (sh_deal (F := F) d cc fsh) $$ Hsh
  isplitl [Ht Hf Ho Hsh']
  · isplitl [Ht]; · iexact Ht
    isplitl [Hf]; · iexact Hf
    isplitl [Ho]; · iexact Ho
    iexact Hsh'
  iintro ⟨Ht, Hf, Ho, Hsh⟩
  isplitl [Ht Hf Ho]
  · isplitl [Ht]; · iexact Ht
    isplitl [Hf]; · iexact Hf
    iexact Ho
  iapply (sh_collect (F := F) m d cc); iexact Hsh

theorem vecSplit : (K (F := F)).VecSplit (P m flat) 0 := by
  intro d c
  show iprop(iprop((tabLoc d ↦{qC (c2 c)} m (tabLoc d)) ∗ bigSep Finset.univ fun i : Fin 16 => iprop(flatChunks flat d (c2 c) i ∗ outChunks d (c2 c) i (m (outLoc d))))
      ∗ ownBufs (S d (coreOf c))) ⊢ |={Set.univ}=> iprop(
    (bigSep Finset.univ fun i : Fin ((K (F := F)).nSub 0) => iprop(tabGo m d (c2 c) (i16 i) ∗ flatChunks flat d (c2 c) (i16 i)
        ∗ outChunks d (c2 c) (i16 i) (m (outLoc d)) ∗ shGo d (coreOf c) (i16 i)))
    ∗ ((bigSep Finset.univ fun i : Fin ((K (F := F)).nSub 0) => iprop(tabGo m d (c2 c) (i16 i) ∗ flatChunks flat d (c2 c) (i16 i)
          ∗ outChunks d (c2 c) (i16 i) (outv m flat d) ∗ shTd m d (coreOf c) (i16 i)))
        -∗ iprop(iprop((tabLoc d ↦{qC (c2 c)} m (tabLoc d)) ∗ bigSep Finset.univ fun i : Fin 16 => iprop(flatChunks flat d (c2 c) i ∗ outChunks d (c2 c) i (outv m flat d)))
          ∗ ownBufs (S d (coreOf c)))))
  rw [bigSep_tasks (F := F) (fun i => iprop(tabGo m d (c2 c) i ∗ flatChunks flat d (c2 c) i ∗ outChunks d (c2 c) i (m (outLoc d)) ∗ shGo d (coreOf c) i)),
    bigSep_tasks (F := F) (fun i => iprop(tabGo m d (c2 c) i ∗ flatChunks flat d (c2 c) i ∗ outChunks d (c2 c) i (outv m flat d) ∗ shTd m d (coreOf c) i)),
    ownBufs_S]
  iintro ⟨Hst, Hsh, Hrest⟩; imodintro
  ihave H := (split_core (F := F) m flat d (c2 c) (coreOf c)) $$ [Hst Hsh]
  · isplitl [Hst]; · iexact Hst
    iexact Hsh
  icases H with ⟨Hgo, Hback⟩
  isplitl [Hgo]; · iexact Hgo
  iintro Htd
  ihave H := Hback $$ Htd
  icases H with ⟨Hdn, Hsh⟩
  isplitl [Hdn]; · iexact Hdn
  isplitl [Hsh]; · iexact Hsh
  iexact Hrest

end Cert.Proof.KI

end
-- ==== Proof.KI.LaunchElem.lean ====
/-
  The launch element of the ghost state. Beside the handshakes' rounds it funds the barrier cells' rounds: one cell
  per tile, one round on each, a unit duty per tile of the SparseCore. The launch allocates every cell's invariant at
  once and deals each tile its kit: every cell's invariant of its SparseCore and that each has reached round 0, its own
  position, its duty's token in every cell of its SparseCore, and the credit for the sixteen units of its own cell.
-/
import proofs.«206737_g54150947668683_cont_9to1_m_866_22_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable (flat : (d : Dev nD) → Buf (Elt F) (flatLoc d))

variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m flat).oxCred : sProp 𝕄)
    ⊢ bigSep Finset.univ fun dci : DCI => (cred (tallyAt (bcell₃ dci) (some 0) (grid0.bound 1)) : sProp 𝕄) := by
  unfold SparseCore.Cfg.Pay.oxCred
  rw [SparseCore.Cfg.bigSep_threads (fun thr : Thread nD τ => (cred ((P (F := F) m flat).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m flat).oxFrom 0 (V d c i) = oxV d c := fun i => by
    rw [show (0 : ℕ) = (0 : Fin 1).val from rfl, (P m flat).oxFrom_step, (P m flat).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m flat).x q (SparseCore.T d)) = iprop(emp) :=
  bigSep_univ_of_subsingleton (0 : Fin 1)
theorem Px_S (d : Dev nD) (c : Fin τ.nSC) : (bigSep Finset.univ fun q : Fin 1 => (P (F := F) m flat).x q (S d c)) = iprop(emp) :=
  bigSep_univ_of_subsingleton (0 : Fin 1)
theorem Px_V (d : Dev nD) (c : Fin τ.nSC) (i : Fin τ.nSub) :
    (bigSep Finset.univ fun q : Fin 1 => (P (F := F) m flat).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m flat).x q thr : sProp 𝕄) := by
  rw [SparseCore.Cfg.bigSep_threads (fun thr : Thread nD τ => bigSep Finset.univ fun q : Fin 1 => (P m flat).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m flat).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m flat).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m flat) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m flat)
  isplitr
  · isplitl; · iexists κ; iexact Hinv'
    iexact Hr'
  isplitl [Hat']; · iexact Hat'
  isplitl [Htok']; · iexact Htok'
  iexact Hcred'

end Cert.Proof.KI

end
-- ==== Proof.KI.LaunchMain.lean ====
/-
  @main on the TensorCore, and the run. The first host operation writes the flat list of row numbers; the call hands
  each SparseCore a read share of the table and its tiles' chunks of the flat list and of the flat output, and gets
  them back with the looked-up rows; the second host operation reshapes the flat output into the result. What the final
  memory holds is read off the TensorCore's final assertion: the arguments unchanged, the result the lookup.
-/
import proofs.«206737_g54150947668683_cont_9to1_m_866_22_alg».proof.Proof.KI.Res
import proofs.«206737_g54150947668683_cont_9to1_m_866_22_alg».proof.Proof.KI.LaunchSplit
import proofs.«206737_g54150947668683_cont_9to1_m_866_22_alg».proof.Proof.KI.LaunchElem
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.StableHlo (held wp_hlo_within)
open Idealize.ShloMosaic.ValueIdx

variable {F : FTy → Type}

local notation "𝕄" => MT nD τ sig (HIx 1) (Elt F) ℕ UU ℕ

/-! ## The chunks, regrouped by SparseCore and tile -/

/-- Chunk `k` of tile `i` of SparseCore `c` is chunk `k + 100 (i + 16 c)`: every chunk is one tile's. -/
def gEquiv : Fin 2 × Fin 16 × Fin 100 ≃ Fin 3200 where
  toFun x := gidx x.1 x.2.1 x.2.2
  invFun g := (⟨g.val / 1600, by omega⟩, ⟨g.val / 100 % 16, Nat.mod_lt _ (by decide)⟩, ⟨g.val % 100, Nat.mod_lt _ (by decide)⟩)
  left_inv := by
    rintro ⟨c, i, k⟩
    refine Prod.ext (Fin.ext ?_) (Prod.ext (Fin.ext ?_) (Fin.ext ?_)) <;> simp only [gidx] <;> omega
  right_inv := by
    intro g
    refine Fin.ext ?_
    simp only [gidx]; omega

theorem bigSep_chunks (Φ : Fin 3200 → sProp 𝕄) :
    bigSep Finset.univ Φ = bigSep Finset.univ fun c : Fin 2 => bigSep Finset.univ fun i : Fin 16 => bigSep Finset.univ fun k : Fin 100 => Φ (gidx c i k) := by
  rw [bigSep_univ_equiv gEquiv Φ, bigSep_univ_prod]
  refine bigSep_congr fun c _ => ?_
  rw [bigSep_univ_prod]
  rfl

theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

variable (m : (ℓ : Loc nD τ sig) → Buf (Elt F) ℓ) (ρ : Dev nD → PrngReg)
variable (flat : (d : Dev nD) → Buf (Elt F) (flatLoc d))

theorem outPts_chunks (d : Dev nD) (q : PosShare TreeShare) (f : Buf (Elt F) (outLoc d)) :
    (outLoc d ↦{q} f : sProp 𝕄) = bigSep Finset.univ fun g : Fin 3200 => outLoc d ↦[ochunkSet g]{q} f := by
  rw [← pointsTo_biUnion Finset.univ (ℓ := outLoc d) ochunkSet ochunks_disjoint, ochunks_cover]; try rfl
theorem flatPts_chunks (d : Dev nD) (q : PosShare TreeShare) (f : Buf (Elt F) (flatLoc d)) :
    (flatLoc d ↦{q} f : sProp 𝕄) = bigSep Finset.univ fun g : Fin 3200 => flatLoc d ↦[fchunkSet g]{q} f := by
  rw [← pointsTo_biUnion Finset.univ (ℓ := flatLoc d) fchunkSet fchunks_disjoint, fchunks_cover]; try rfl

/-- What the call takes for the two SparseCores together, at contents `f` of the flat output: the two read shares of
    the table, the flat list whole, the flat output whole. -/
theorem both_eq (d : Dev nD) (f : Buf (Elt F) (outLoc d)) :
    (bigSep Finset.univ fun c : Fin 2 => iprop((tabLoc d ↦{qC c} m (tabLoc d))
        ∗ bigSep Finset.univ fun i : Fin 16 => iprop(flatChunks flat d c i ∗ outChunks d c i f)) : sProp 𝕄)
      = iprop((bigSep Finset.univ fun c : Fin 2 => tabLoc d ↦{qC c} m (tabLoc d)) ∗ (flatLoc d ↦{fullShare} flat d) ∗ (outLoc d ↦{fullShare} f)) := by
  rw [flatPts_chunks, outPts_chunks, bigSep_chunks (fun g => (flatLoc d ↦[fchunkSet g]{fullShare} flat d : sProp 𝕄)),
    bigSep_chunks (fun g => (outLoc d ↦[ochunkSet g]{fullShare} f : sProp 𝕄))]
  simp only [bigSep_sep']

/-! ## The host operations -/

abbrev ids' : DevRef τ sig := Proc.devRef .tc (main_arg0 : Ref sig .tc)
abbrev tab' : DevRef τ sig := Proc.devRef .tc (main_arg1 : Ref sig .tc)
abbrev flat' : DevRef τ sig := Proc.devRef .tc (main_v0 : Ref sig .tc)
abbrev out' : DevRef τ sig := Proc.devRef .tc (main_v1 : Ref sig .tc)
abbrev res' : DevRef τ sig := Proc.devRef .tc (main_v2 : Ref sig .tc)
abbrev op1 : HloOp τ sig (Elt F) := StableHlo.reshape main_arg0 main_v0 rfl Facts₀.shapeCasts_S4096x200_S1x819200
abbrev op2 : HloOp τ sig (Elt F) := StableHlo.reshape main_v1 main_v2 rfl Facts₀.shapeCasts_S819200x128_S4096x200x128

/-- The TensorCore's arrays, all unscoped. -/
abbrev S5 : Finset (DevRef τ sig) := {ids', tab', flat', out', res'}

theorem held_S5 (d : Dev nD) (W : Valuation τ sig (Elt F)) :
    (held (T d) S5 W : sProp 𝕄) = iprop((idsLoc d ↦{fullShare} W ids') ∗ (tabLoc d ↦{fullShare} W tab') ∗ (flatLoc d ↦{fullShare} W flat')
      ∗ (outLoc d ↦{fullShare} W out') ∗ resLoc d ↦{fullShare} W res') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((idsLoc d ↦{fullShare} W main_arg0) ∗ (tabLoc d ↦{fullShare} W main_arg1) ∗ (flatLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

/-- The flat list of row numbers: the row numbers in row-major order. -/
def flatOf (d : Dev nD) : Buf (Elt F) (flatLoc d) :=
  shapeCast S1x819200 (m (idsLoc d)) Facts₀.shapeCasts_S4096x200_S1x819200
/-- The result: the flat output's rows, regrouped by batch and history position. -/
def resOf (d : Dev nD) : Buf (Elt F) (resLoc d) :=
  shapeCast S4096x200x128 (outv m (flatOf m) d) Facts₀.shapeCasts_S819200x128_S4096x200x128

/-- The valuation before the second host operation: the flat list written, the flat output holding the looked-up rows. -/
def V2 (d : Dev nD) : Valuation τ sig (Elt F) := Function.update (Function.update (V0 m d) flat' (flatOf m d)) out' (outv m (flatOf m) d)

theorem V2_ids (d : Dev nD) : V2 m d ids' = m (idsLoc d) :=
  (Function.update_of_ne (show ids' ≠ out' by decide) _ _).trans (Function.update_of_ne (show ids' ≠ flat' by decide) _ _)
theorem V2_tab (d : Dev nD) : V2 m d tab' = m (tabLoc d) :=
  (Function.update_of_ne (show tab' ≠ out' by decide) _ _).trans (Function.update_of_ne (show tab' ≠ flat' by decide) _ _)
theorem V2_flat (d : Dev nD) : V2 m d flat' = flatOf m d :=
  (Function.update_of_ne (show flat' ≠ out' by decide) _ _).trans (Function.update_self _ _ _)
theorem V2_out (d : Dev nD) : V2 m d out' = outv m (flatOf m) d := Function.update_self _ _ _
theorem V2_res (d : Dev nD) : V2 m d res' = m (resLoc d) :=
  (Function.update_of_ne (show res' ≠ out' by decide) _ _).trans (Function.update_of_ne (show res' ≠ flat' by decide) _ _)

theorem hop1 : (op1 (F := F)).bufs ⊆ S5 := show ({ids', flat'} : Finset (DevRef τ sig)) ⊆ S5 by decide
theorem hop2 : (op2 (F := F)).bufs ⊆ S5 := show ({out', res'} : Finset (DevRef τ sig)) ⊆ S5 by decide

/-- After the first host operation: the flat list written, the rest as launched. -/
theorem held_after1 (d : Dev nD) :
    (held (T d) S5 ((op1 (F := F)).result (V0 m d)) : sProp 𝕄) = iprop((idsLoc d ↦{fullShare} m (idsLoc d)) ∗ (tabLoc d ↦{fullShare} m (tabLoc d))
      ∗ (flatLoc d ↦{fullShare} flatOf m d) ∗ (outLoc d ↦{fullShare} m (outLoc d)) ∗ resLoc d ↦{fullShare} m (resLoc d)) := by
  rw [held_S5,
    (op1 (F := F)).result_of_not_mem (V0 m d) (b := ids') (show ids' ∉ ({flat'} : Finset (DevRef τ sig)) by decide),
    (op1 (F := F)).result_of_not_mem (V0 m d) (b := tab') (show tab' ∉ ({flat'} : Finset (DevRef τ sig)) by decide),
    (op1 (F := F)).result_of_not_mem (V0 m d) (b := out') (show out' ∉ ({flat'} : Finset (DevRef τ sig)) by decide),
    (op1 (F := F)).result_of_not_mem (V0 m d) (b := res') (show res' ∉ ({flat'} : Finset (DevRef τ sig)) by decide),
    show (op1 (F := F)).result (V0 m d) flat' = flatOf m d from
      StableHlo.reshape_result main_arg0 main_v0 rfl Facts₀.shapeCasts_S4096x200_S1x819200 ⟨by decide, rfl⟩ ⟨by decide, rfl⟩ (V0 m d)]
  rfl

/-- After the second: the result written, the arguments as launched. -/
theorem held_after2 (d : Dev nD) :
    (held (T d) S5 ((op2 (F := F)).result (V2 m d)) : sProp 𝕄) = iprop((idsLoc d ↦{fullShare} m (idsLoc d)) ∗ (tabLoc d ↦{fullShare} m (tabLoc d))
      ∗ (flatLoc d ↦{fullShare} flatOf m d) ∗ (outLoc d ↦{fullShare} outv m (flatOf m) d) ∗ resLoc d ↦{fullShare} resOf m d) := by
  rw [held_S5,
    (op2 (F := F)).result_of_not_mem (V2 m d) (b := ids') (show ids' ∉ ({res'} : Finset (DevRef τ sig)) by decide),
    (op2 (F := F)).result_of_not_mem (V2 m d) (b := tab') (show tab' ∉ ({res'} : Finset (DevRef τ sig)) by decide),
    (op2 (F := F)).result_of_not_mem (V2 m d) (b := flat') (show flat' ∉ ({res'} : Finset (DevRef τ sig)) by decide),
    (op2 (F := F)).result_of_not_mem (V2 m d) (b := out') (show out' ∉ ({res'} : Finset (DevRef τ sig)) by decide),
    show (op2 (F := F)).result (V2 m d) res' = resOf m d from
      (StableHlo.reshape_result main_v1 main_v2 rfl Facts₀.shapeCasts_S819200x128_S4096x200x128 ⟨by decide, rfl⟩ ⟨by decide, rfl⟩ (V2 m d)).trans
        (by rw [V2_out]; rfl),
    V2_ids, V2_tab, V2_flat, V2_out]

variable [FloatOps F]

/-! ## @main on the TensorCore -/

theorem st0_eq (d : Dev nD) :
    (bigSep Finset.univ fun c : Fin ((K (F := F)).nCore 0) => (P m flat).st 0 d c)
      = iprop((bigSep Finset.univ fun c : Fin 2 => tabLoc d ↦{qC c} m (tabLoc d)) ∗ (flatLoc d ↦{fullShare} flat d) ∗ (outLoc d ↦{fullShare} m (outLoc d))) :=
  (bigSep_cores (F := F) fun c => iprop((tabLoc d ↦{qC c} m (tabLoc d))
    ∗ bigSep Finset.univ fun i : Fin 16 => iprop(flatChunks flat d c i ∗ outChunks d c i (m (outLoc d))))).trans (both_eq m flat d _)
theorem dn0_eq (d : Dev nD) :
    (bigSep Finset.univ fun c : Fin ((K (F := F)).nCore 0) => (P m flat).dn 0 d c)
      = iprop((bigSep Finset.univ fun c : Fin 2 => tabLoc d ↦{qC c} m (tabLoc d)) ∗ (flatLoc d ↦{fullShare} flat d) ∗ (outLoc d ↦{fullShare} outv m flat d)) :=
  (bigSep_cores (F := F) fun c => iprop((tabLoc d ↦{qC c} m (tabLoc d))
    ∗ bigSep Finset.univ fun i : Fin 16 => iprop(flatChunks flat d c i ∗ outChunks d c i (outv m flat d)))).trans (both_eq m flat d _)

/-- What @main leaves the claim: the arguments at their launch contents, the result at the reshaped rows. -/
abbrev FIN (d : Dev nD) : sProp 𝕄 :=
  iprop((idsLoc d ↦{fullShare} m (idsLoc d)) ∗ (tabLoc d ↦{fullShare} m (tabLoc d)) ∗ resLoc d ↦{fullShare} resOf m d)

/-- @main on device `d`'s TensorCore: the flat list written; the call, from the table's two read shares, the flat list
    and the flat output, all back with the rows looked up; the result written. -/
theorem hmain (κ : GSem nD τ sig → ℕ) (d : Dev nD) :
    iprop((K (F := F)).ctx EH (P m (flatOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flat list
  iapply (wp_hlo_within 𝒱 (SparseCore.T d) none Set.univ (op := op1) (S := S5) hop1 (V := V0 m d)) $$ [Hb Hheld]
  · isplitl [Hb]; · iexact Hb
    iexact Hheld
  iintro ⟨Hb, Hheld⟩
  ihave Hh := (Entails.of_eq (held_after1 (F := F) m d)) $$ Hheld
  icases Hh with ⟨Hi, Ht, Hf, Ho, Hr⟩
  ihave Ht' := (pointsTo_toks_split fullShare 2) $$ Ht
  icases Ht' with ⟨Htd, Hts⟩
  rw [wp_ret]; imodintro
  -- the call
  iapply ((K (F := F)).wp_run (D (F := F)) 𝒱 (EH := EH) (P := P m (flatOf m)) κ d 0) $$ [Hst Hts Hf Ho Hb Hi Htd Hr]
  isplitr; · iexact Hctx
  isplitl [Hst]; · iexact Hst
  isplitl [Hts Hf Ho]
  · rw [st0_eq]
    isplitl [Hts]; · iexact Hts
    isplitl [Hf]; · iexact Hf
    iexact Ho
  iintro ⟨Hst, Hdn⟩
  ihave Hdn' := (Entails.of_eq (dn0_eq m (flatOf m) d)) $$ Hdn
  icases Hdn' with ⟨Hts, Hf, Ho⟩
  ihave Ht := (pointsTo_toks_join fullShare 2) $$ [Htd Hts]
  · isplitl [Htd]; · iexact Htd
    iexact Hts
  -- the result
  iapply (wp_hlo_within 𝒱 (SparseCore.T d) none Set.univ (op := op2) (S := S5) hop2 (V := V2 m d)) $$ [Hb Hi Ht Hf Ho Hr]
  · isplitl [Hb]; · iexact Hb
    rw [held_S5, V2_ids, V2_tab, V2_flat, V2_out, V2_res]
    isplitl [Hi]; · iexact Hi
    isplitl [Ht]; · iexact Ht
    isplitl [Hf]; · iexact Hf
    isplitl [Ho]; · iexact Ho
    iexact Hr
  iintro ⟨Hb, Hheld⟩
  ihave Hh := (Entails.of_eq (held_after2 (F := F) m d)) $$ Hheld
  icases Hh with ⟨Hi, Ht, -, -, Hr⟩
  rw [wp_ret]; imodintro; imodintro
  isplitl [Hst]; · iexact Hst
  isplitl [Hi]; · iexact Hi
  isplitl [Ht]; · iexact Ht
  iexact Hr

/-! ## The final memory -/

def fq (d : Dev nD) (s' : Phys nD τ sig (Elt F)) : Prop :=
  s'.mem.mem (resLoc d) = resOf m d ∧ s'.mem.mem (idsLoc d) = m (idsLoc d) ∧ s'.mem.mem (tabLoc d) = m (tabLoc d)

omit [FloatOps F] in
/-- An array held whole is what the memory holds. -/
theorem agree_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (resLoc d) = resOf m d⌝ : sProp 𝕄) := by
    iintro ⟨⟨-, -, Hr⟩, HSI⟩
    iapply (agree_whole s' (resLoc d) (resOf m d)); isplitl [Hr] <;> iassumption
  have h2 : iprop(FIN m d ∗ SI s') ⊢ (⌜s'.mem.mem (idsLoc d) = m (idsLoc d)⌝ : sProp 𝕄) := by
    iintro ⟨⟨Hi, -, -⟩, HSI⟩
    iapply (agree_whole s' (idsLoc d) (m (idsLoc d))); isplitl [Hi] <;> iassumption
  have h3 : iprop(FIN m d ∗ SI s') ⊢ (⌜s'.mem.mem (tabLoc d) = m (tabLoc d)⌝ : sProp 𝕄) := by
    iintro ⟨⟨-, Ht, -⟩, HSI⟩
    iapply (agree_whole s' (tabLoc d) (m (tabLoc d))); isplitl [Ht] <;> iassumption
  exact (BI.and_intro h1 (BI.and_intro h2 h3)).trans (fun _ h => ⟨h.1, h.2.1, h.2.2⟩)

/-! ## The result is the lookup -/

/-- The flat position of the pair `(b, h)`. -/
def flatRow (b : Fin 4096) (h : Fin 200) : Fin 819200 := ⟨200 * b.val + h.val, by omega⟩

omit [FloatOps F] in
/-- A list of 4096 × 200 entries, flattened, read at the flat position of `(b, h)` is the list at `(b, h)`. -/
theorem flat_apply {α : Type} (ids : S4096x200.Idx → α) (hn : S4096x200.ShapeCasts S1x819200) (b : Fin 4096) (h : Fin 200) :
    shapeCast S1x819200 ids hn (ix2 0 (flatRow b h)) = ids (ix2 b h) := by
  refine shapeCast_apply ids hn _ _ ?_
  rw [Shape.rowMajor_val_two, Shape.rowMajor_val_two]
  show b.val * 200 + h.val = 0 * 819200 + (200 * b.val + h.val)
  omega

omit [FloatOps F] in
/-- Rows gathered at the flat positions, regrouped by batch and history position, are the lookup. -/
theorem reshape_rows {α : Type} (ids : IVec S4096x200 32) (tab : S1000x128.Idx → α) (hn : S4096x200.ShapeCasts S1x819200)
    (hn' : S819200x128.ShapeCasts S4096x200x128) (G : S819200x128.Idx → α)
    (hG : ∀ (r : Fin 819200) (e : Fin 128), G (ix2 r e) = tab (ix2 (Cert.Spec.rowOf (shapeCast S1x819200 ids hn (ix2 0 r))) e)) :
    shapeCast S4096x200x128 G hn' = Cert.Spec.lookup ids tab := by
  funext j
  have e1 := shapeCast_apply G hn' j (ix2 (flatRow (j 0) (j 1)) (j 2)) (by
    rw [Shape.rowMajor_val_two, Shape.rowMajor_val_three]
    show (200 * (j 0).val + (j 1).val) * 128 + (j 2).val = ((j 0).val * 200 + (j 1).val) * 128 + (j 2).val
    omega)
  exact e1.trans ((hG (flatRow (j 0) (j 1)) (j 2)).trans
    (congrArg (fun w => tab (ix2 (Cert.Spec.rowOf w) (j 2))) (flat_apply ids hn (j 0) (j 1))))

omit [FloatOps F] in
/-- The flat output's rows, regrouped by batch and history position, are the lookup. -/
theorem resOf_eq (d : Dev nD) : resOf m d = Cert.Spec.lookup (m (idsLoc d)) (m (tabLoc d)) :=
  reshape_rows (m (idsLoc d)) (m (tabLoc d)) Facts₀.shapeCasts_S4096x200_S1x819200 Facts₀.shapeCasts_S819200x128_S4096x200x128
    (outv m (flatOf m) d) (fun _ _ => rfl)

omit [FloatOps F] in
/-- The flat list's words are the row numbers' words: in range when those are. -/
theorem flatOf_lt (hin : ∀ d, Cert.Spec.InRange (m (idsLoc d))) (d : Dev nD) (x : S1x819200.Idx) : (flatOf m d x : BitVec 32).toNat < 1000 :=
  hin d _

/-! ## The run -/

theorem run_main [∀ e, Nonempty (Elt F e)] (hin : ∀ d, Cert.Spec.InRange (m (idsLoc d)))
    (htile : ∀ flat : (d : Dev nD) → Buf (Elt F) (flatLoc d), (∀ d x, (flat d x : BitVec 32).toNat < 1000) → (K (F := F)).TileObl (D (F := F)) 𝒱 (P m flat) v₀ 0) :
    θ_run (Cert.KernelIdeal.defs (F := F)) (Cert.KernelIdeal.threads (F := F)) ⟨m, fun _ => 0, ρ⟩ (fun r => ∀ c : Dev nD,
      r.2.mem (resLoc c) = Cert.Spec.lookup (m (idsLoc c)) (m (tabLoc c)) ∧ r.2.mem (idsLoc c) = m (idsLoc c) ∧ r.2.mem (tabLoc c) = m (tabLoc c)) :=
  SparseCore.Cfg.θ_run_sc (K := K (F := F)) (D := D (F := F)) (𝒱 := 𝒱) (EH := EH) (P := P m (flatOf m)) facts v₀
    (fun q hq => match q with | 0 => nomatch hq)
    (fun q _ => match q with | 0 => htile (flatOf m) (flatOf_lt m hin))
    (fun q _ => match q with | 0 => vecSplit m (flatOf m))
    m ρ main (fun _ => iprop(emp)) (FIN m) (u₀ (F := F)) (hu₀ m (flatOf m)) (hmain m ρ) (fq m) (hfin m) _
    (fun s' h c => ⟨(h c).1.trans (resOf_eq m c), (h c).2.1, (h c).2.2⟩)

end Cert.Proof.KI

end
-- ==== Proof.KI.Launch.lean ====
/-
  The launch of the idealized kernel's run, assembled: how a SparseCore's operands are dealt to its tiles and gathered
  from them, the launch element of the ghost state, @main on the TensorCore and the run from the tile's obligation.
-/
import proofs.«206737_g54150947668683_cont_9to1_m_866_22_alg».proof.Proof.KI.LaunchSplit
import proofs.«206737_g54150947668683_cont_9to1_m_866_22_alg».proof.Proof.KI.LaunchElem
import proofs.«206737_g54150947668683_cont_9to1_m_866_22_alg».proof.Proof.KI.LaunchMain
-- ==== Proof.KI.Geo.lean ====
/-
  The geometry of one tile's work: which rows of which array each of the kernel's slices names. A tile at grid
  coordinates `L = (core, subcore)` stages chunk `subcore` of the table when `subcore < 5`; its `k`-th step reads
  entries `256 (k + 100 w) … + 255` of the flat list (`w = subcore + 16 core`) and writes the same rows of the
  flat output; the two halves of each double buffer are numbered by the step's parity.
-/
import proofs.«206737_g54150947668683_cont_9to1_m_866_22_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

section Geo

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- A tile stages a chunk exactly when its subcore number is below five. -/
theorem cond1_iff : ∀ L : grid0.Coords, k0_cond1 L = 1#1 ↔ (L 1).val < 5 := by decide +kernel

/-- The chunk of the table (and of the shared memory) the tile stages, as the kernel slices it. -/
abbrev stRect (h1 : k0_cond1 L = 1#1) : Rect S1000x128 := Rect.unit (s := S1000x128) (k0_off1 L) S200x128.size (k0_off1_inb L h1)

theorem stRect_eq (h1 : k0_cond1 L = 1#1) (hlt : (L 1).val < 5) : stRect L h1 = tchunk ⟨(L 1).val, hlt⟩ := by
  unfold stRect tchunk Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

end Geo

end Cert.Proof.KI

end
-- ==== Proof.KI.Own.lean ====
/-
  One tile's task. A tile whose subcore number is below five copies its chunk of the table into the SparseCore's
  shared memory and waits for the copy; all sixteen tiles of the SparseCore meet at the subcore barrier, where each of
  the five hands every tile a read share of the chunk it staged, so that past the barrier every tile reads the whole
  staged table; then the tile runs its hundred steps (Steps.lean).
-/
import proofs.«206737_g54150947668683_cont_9to1_m_866_22_alg».proof.Proof.KI.Geo

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-- The tile's thread. -/
abbrev thr (d : Dev nD) (L : grid0.Coords) : Thread nD τ := V d (cV L) (jV L)

/-- The tile's six transfer semaphores. -/
abbrev dcell (d : Dev nD) (L : grid0.Coords) (n : Fin 6) : GSem nD τ sig := (thr d L, .dma n)

omit [FloatOps F] in
theorem dcell_ne {n n' : Fin 6} (h : n ≠ n') : dcell d L n ≠ dcell d L n' := fun e => h (SemLoc.dma.inj (Prod.mk.inj e).2)

omit [FloatOps F] in
theorem dcell_mem (n : Fin 6) : dcell d L n ∈ ownCells (sig := sig) (thr d L) :=
  (mem_ownCells (g := dcell d L n)).mpr ⟨rfl, by show (SemLoc.dma n : SemLoc sig).isScoped .scVector = true; revert n; decide⟩

omit [FloatOps F] in
theorem ownSems0_V :
    (ownSems0 (thr d L) : sProp 𝕄)
      = iprop(semVal (dcell d L 0) 0 ∗ semVal (dcell d L 1) 0 ∗ semVal (dcell d L 2) 0 ∗ semVal (dcell d L 3) 0 ∗ semVal (dcell d L 4) 0 ∗ semVal (dcell d L 5) 0
          ∗ bigSep ((((((((ownCells (thr d L)).erase (dcell d L 0)).erase (dcell d L 1)).erase (dcell d L 2)).erase (dcell d L 3)).erase (dcell d L 4)).erase (dcell d L 5))) fun g => semVal g 0) := by
  unfold SparseCore.Cfg.ownSems0
  rw [SparseCore.bigSep_erase' (dcell_mem d L 0),
    SparseCore.bigSep_erase' (Finset.mem_erase.mpr ⟨dcell_ne d L (by decide), dcell_mem d L 1⟩),
    SparseCore.bigSep_erase' (Finset.mem_erase.mpr ⟨dcell_ne d L (by decide), Finset.mem_erase.mpr ⟨dcell_ne d L (by decide), dcell_mem d L 2⟩⟩),
    SparseCore.bigSep_erase' (Finset.mem_erase.mpr ⟨dcell_ne d L (by decide), Finset.mem_erase.mpr ⟨dcell_ne d L (by decide), Finset.mem_erase.mpr ⟨dcell_ne d L (by decide), dcell_mem d L 3⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L 4⟩⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L 5⟩⟩⟩⟩⟩)]

omit [FloatOps F] in
/-- The two double buffers are among the tile's own: they, at some contents, and the rest. -/
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase ((Proc.scVector (cV L) (jV L)).devRef cc0_scoped2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scoped0) rfl),
    SparseCore.bigSep_erase' (Finset.mem_erase.mpr ⟨(fun h => absurd (show (1 : ℕ) = 0 from congrArg (fun b : DevRef τ sig => b.idx.val) h) (by decide)), SparseCore.Cfg.mem_ownRefs_of_owner (p := Proc.scVector (cV L) (jV L)) (b := (Proc.scVector (cV L) (jV L)).devRef cc0_scoped2) rfl⟩)]

end Tile

end Cert.Proof.KI

end
-- ==== Proof.KI.Stage.lean ====
/-
  A tile's part in staging the table. A tile whose subcore number is below five copies its chunk of the table into
  its SparseCore's shared memory; at the subcore barrier it hands every tile of the SparseCore a read share of that
  chunk and keeps the rest of the share; past the barrier each tile has collected, from the five, a read share of the
  whole staged table.
-/
import proofs.«206737_g54150947668683_cont_9to1_m_866_22_alg».proof.Proof.KI.Own
import proofs.«206737_g54150947668683_cont_9to1_m_866_22_alg».proof.Proof.KI.LaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-! ## Staging: the tile's chunk of the table and of the shared memory, as the kernel slices them -/

abbrev stTab (h1 : k0_cond1 L = 1#1) : Memref sig .scVector .hbm S200x128 .f32 := (tabV).slice (stRect L h1) (fun _ => rfl)
abbrev stSh (h1 : k0_cond1 L = 1#1) : Memref sig .scVector .shared S200x128 .f32 := (shV).slice (stRect L h1) (fun _ => rfl)

omit [FloatOps F] in
theorem set_stTab (h1 : k0_cond1 L = 1#1) (hlt : (jL L).val < 5) : (stTab L h1).view.set = tchunkSet ⟨(jL L).val, hlt⟩ := by
  show ((tabV).view.slice (stRect L h1)).set = ((shV).view.slice (tchunk ⟨(jL L).val, hlt⟩)).set
  exact stRect_eq L h1 hlt ▸ rfl
omit [FloatOps F] in
theorem set_stSh (h1 : k0_cond1 L = 1#1) (hlt : (jL L).val < 5) : (stSh L h1).view.set = tchunkSet ⟨(jL L).val, hlt⟩ := by
  show ((shV).view.slice (stRect L h1)).set = ((shV).view.slice (tchunk ⟨(jL L).val, hlt⟩)).set
  exact stRect_eq L h1 hlt ▸ rfl
omit [FloatOps F] in
theorem pts_stTab (h1 : k0_cond1 L = 1#1) (hlt : (jL L).val < 5) (q : PosShare TreeShare) (f : Buf (Elt F) (tabLoc d)) :
    ((stTab L h1).view.loc (thr d L) ↦[(stTab L h1).view.set]{q} f : sProp 𝕄) = tabLoc d ↦[tchunkSet ⟨(jL L).val, hlt⟩]{q} f := by
  rw [set_stTab L h1 hlt]
omit [FloatOps F] in
theorem pts_stSh (h1 : k0_cond1 L = 1#1) (hlt : (jL L).val < 5) (q : PosShare TreeShare) (f : Buf (Elt F) (shLoc d (cV L))) :
    ((stSh L h1).view.loc (thr d L) ↦[(stSh L h1).view.set]{q} f : sProp 𝕄) = shLoc d (cV L) ↦[tchunkSet ⟨(jL L).val, hlt⟩]{q} f := by
  rw [set_stSh L h1 hlt]; rfl

/-- The staged chunk a tile among the first five holds before the barrier: full, at the table's contents. -/
def shStaged (c : Fin τ.nSC) (i : Fin 16) : sProp 𝕄 :=
  if h : i.val < 5 then shChunkPts m d c ⟨i.val, h⟩ fullShare else iprop(emp)

/-- Before the barrier a tile among the first five cuts its staged chunk into a part it keeps and one read share per
    tile of its SparseCore: what its duty in each tile's round hands over. The other tiles hand over nothing. -/
theorem pays_intro : shStaged m d (cV L) (jL L)
    ⊢ iprop(shKeep m d (cV L) (jL L)
        ∗ bigSep Finset.univ fun j : Fin (grid0.bound 1) => (bRd (F := F) m).payload (bcell d (cV L) (j.castLE hsub0)) 0 (jV L).val) := by
  unfold shStaged shKeep
  by_cases h : (jL L).val < 5
  · rw [dif_pos h, dif_pos h]
    have e : (bigSep Finset.univ fun j : Fin (grid0.bound 1) => (bRd (F := F) m).payload (bcell d (cV L) (j.castLE hsub0)) 0 (jV L).val)
        = bigSep Finset.univ fun i : Fin 16 => shChunkPts m d (cV L) ⟨(jL L).val, h⟩ (shareTok fullShare 16 i) :=
      bigSep_congr fun j _ => by
        show bPay m (bcell d (cV L) (j.castLE hsub0)) (jV L).val = _
        unfold bPay; dsimp only
        rw [dif_pos (show (jV L).val < 5 from h)]
        rfl
    rw [e]
    exact Transfers.pointsTo_toks_split fullShare 16
  · rw [dif_neg h, dif_neg h]
    have e : (bigSep Finset.univ fun j : Fin (grid0.bound 1) => (bRd (F := F) m).payload (bcell d (cV L) (j.castLE hsub0)) 0 (jV L).val)
        = bigSep Finset.univ fun _ : Fin (grid0.bound 1) => (iprop(emp) : sProp 𝕄) :=
      bigSep_congr fun j _ => by
        show bPay m (bcell d (cV L) (j.castLE hsub0)) (jV L).val = _
        unfold bPay; dsimp only
        rw [dif_neg (show ¬ (jV L).val < 5 from h)]
    rw [e, bigSep_emp']
    iintro -
    isplitl [] <;> iempintro

/-- Past the barrier a tile's own round has collected, from each of the first five tiles, its read share of that tile's
    chunk: together the whole staged table at that share. -/
theorem pays_elim : (bigSep ((bRd (F := F) m).duties (bcell d (cV L) (jV L)) 0 \ ∅) fun n => (bRd (F := F) m).payload (bcell d (cV L) (jV L)) 0 n)
    ⊢ (shLoc d (cV L) ↦{qS (jL L)} tabS m d (cV L) : sProp 𝕄) := by
  rw [Finset.sdiff_empty, bRd_duties₀]
  have hsub : (Finset.univ : Finset (Fin 5)).image (fun n : Fin 5 => n.val) ⊆ (Finset.univ : Finset (Fin τ.nSub)).image Fin.val := by
    intro x hx; obtain ⟨n, -, rfl⟩ := Finset.mem_image.mp hx
    exact Finset.mem_image.mpr ⟨⟨n.val, by have := n.isLt; show n.val < 16; omega⟩, Finset.mem_univ _, rfl⟩
  refine (bigSep_subset hsub).trans ?_
  rw [bigSep_image_of_injOn (fun a _ b _ e => Fin.ext e)]
  have e : (bigSep Finset.univ fun n : Fin 5 => (bRd (F := F) m).payload (bcell d (cV L) (jV L)) 0 n.val)
      = bigSep Finset.univ fun n : Fin 5 => (shLoc d (cV L) ↦[tchunkSet n]{qS (jL L)} tabS m d (cV L) : sProp 𝕄) :=
    bigSep_congr fun n _ => by
      show bPay m (bcell d (cV L) (jV L)) n.val = _
      unfold bPay; dsimp only
      rw [dif_pos n.isLt]
      rfl
  rw [e, shPts_chunks d (cV L) (qS (jL L)) (tabS m d (cV L))]
  exact BI.Entails.refl _

end Tile

end Cert.Proof.KI

end
-- ==== Proof.KI.StageValue.lean ====
/-
  The staging copy's result. A tile among the first five copies its chunk of the table into the same chunk of its
  SparseCore's shared memory: both are one rectangle of two arrays of one shape, so the element written at a place of the
  shared memory is the table's entry at that place, and the chunk ends holding the table's rows.
-/
import proofs.«206737_g54150947668683_cont_9to1_m_866_22_alg».proof.Proof.KI.Res
import proofs.«206737_g54150947668683_cont_9to1_m_866_22_alg».proof.Proof.KI.Stage
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

omit [FloatOps F] in
/-- After the copy the tile's chunk of the shared memory holds the table's rows. -/
theorem staged_intro (h1 : k0_cond1 L = 1#1) (hlt : (jL L).val < 5) (fsh : Buf (Elt F) (shLoc d (cV L))) :
    (View.loc (thr d L) (stSh L h1).view ↦[(stSh L h1).view.set]{fullShare}
        (stSh L h1).view.writes (Elt F) fsh [⟨Rect.whole S200x128, ReadAs.same.apply (View.read (Elt F) (stTab L h1).view (m (tabLoc d)))⟩] : sProp 𝕄)
      ⊢ shStaged m d (cV L) (jL L) := by
  unfold shStaged
  rw [dif_pos hlt]
  unfold shChunkPts
  rw [pts_stSh d L h1 hlt,
    pointsTo_congr (g := tabS m d (cV L)) (fun i hi => by
      rw [← set_stSh L h1 hlt] at hi
      obtain ⟨y, -, rfl⟩ := Finset.mem_map.mp hi
      have h := View.read_writes_cons_emb (stSh L h1).view fsh (Rect.whole S200x128)
        (ReadAs.same.apply (View.read (Elt F) (stTab L h1).view (m (tabLoc d)))) [] y
      rw [Rect.emb_whole_apply, View.read_apply] at h
      refine (cast_eq _ _).symm.trans (h.trans ?_)
      show (stTab L h1).view.read (Elt F) (m (tabLoc d)) y = m (tabLoc d) ((stSh L h1).view.emb y)
      rw [View.read_apply]; rfl)]

end Tile

end Cert.Proof.KI

end
-- ==== Proof.KI.Slots.lean ====
/-
  The pieces a tile's hundred steps move between. The tile's index buffer and its row buffer are double buffers: two
  halves each, used in turn by the steps of even and of odd number. Step `k` of tile `(c, i)` reads chunk
  `gidx c i k` of the flat list of row numbers into a half of the index buffer, gathers the table's rows it names
  from the staged table into a half of the row buffer, and copies that half out to chunk `gidx c i k` of the flat
  output.
-/
import proofs.«206737_g54150947668683_cont_9to1_m_866_22_alg».proof.Proof.KI.Stage

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## The halves of the double buffers and the chunks, as memrefs -/

theorem idxRect_inb (p : Fin 2) : ∀ a, (![p.val, 0, 0] : Fin 3 → ℕ) a + S1x1x256.size a ≤ S2x1x256.size a := by revert p; decide
theorem rowRect_inb (p : Fin 2) : ∀ a, (![p.val, 0, 0] : Fin 3 → ℕ) a + S1x256x128.size a ≤ S2x256x128.size a := by revert p; decide
theorem semRect_inb (p : Fin 2) : ∀ a, (![p.val] : Fin 1 → ℕ) a + S1.size a ≤ S2.size a := by revert p; decide

/-- Half `p` of the index buffer and of the row buffer, and place `p` of a pair of semaphores, as rectangles. -/
abbrev idxRect (p : Fin 2) : Rect S2x1x256 := Rect.unit (s := S2x1x256) ![p.val, 0, 0] S1x1x256.size (idxRect_inb p)
abbrev rowRect (p : Fin 2) : Rect S2x256x128 := Rect.unit (s := S2x256x128) ![p.val, 0, 0] S1x256x128.size (rowRect_inb p)
abbrev semRect (p : Fin 2) : Rect S2 := Rect.unit (s := S2) ![p.val] S1.size (semRect_inb p)

/-- Half `p` of the index buffer: 256 row numbers. -/
abbrev idxSlot (p : Fin 2) : Memref sig .scVector .vmem S1x256 .i32 :=
  ((idxV).slice (idxRect p) (fun _ => rfl)).squeeze S1x256 Facts₀.squeezes_S1x1x256_S1x256
/-- Half `p` of the row buffer: 256 rows of 128 entries. -/
abbrev rowSlot (p : Fin 2) : Memref sig .scVector .vmem S256x128 .f32 :=
  ((rowV).slice (rowRect p) (fun _ => rfl)).squeeze S256x128 Facts₀.squeezes_S1x256x128_S256x128
theorem fchunkU_inb (g : Fin 3200) : ∀ a, (![0, 256 * g.val] : Fin 2 → ℕ) a + S1x256.size a ≤ S1x819200.size a := fun a => by
  have := g.isLt
  match a with
  | ⟨0, _⟩ => show 0 + 1 ≤ 1; omega
  | ⟨1, _⟩ => show 256 * g.val + 256 ≤ 819200; omega
theorem ochunkU_inb (g : Fin 3200) : ∀ a, (![256 * g.val, 0] : Fin 2 → ℕ) a + S256x128.size a ≤ S819200x128.size a := fun a => by
  have := g.isLt
  match a with
  | ⟨0, _⟩ => show 256 * g.val + 256 ≤ 819200; omega
  | ⟨1, _⟩ => show 0 + 128 ≤ 128; omega
/-- Chunk `g` of the flat list and of the flat output, as unit-stride rectangles of literal sizes. -/
abbrev fchunkU (g : Fin 3200) : Rect S1x819200 := Rect.unit (s := S1x819200) ![0, 256 * g.val] S1x256.size (fchunkU_inb g)
abbrev ochunkU (g : Fin 3200) : Rect S819200x128 := Rect.unit (s := S819200x128) ![256 * g.val, 0] S256x128.size (ochunkU_inb g)
/-- Chunk `g` of the flat list and of the flat output, as the tile's transfers name them. -/
abbrev fchunkM (g : Fin 3200) : Memref sig .scVector .hbm S1x256 .i32 := (flatV).slice (fchunkU g) (fun _ => rfl)
abbrev ochunkM (g : Fin 3200) : Memref sig .scVector .hbm S256x128 .f32 := (outV).slice (ochunkU g) (fun _ => rfl)
/-- The staged table whole, as the gather names it. -/
abbrev shAll : Memref sig .scVector .shared S1000x128 .f32 :=
  (shV).slice (Rect.unit (s := S1000x128) ![0, 0] S1000x128.size Facts₀.inb_S1000x128_S1000x128_0_0) (fun _ => rfl)
/-- Half `p` of the index buffer as the list of 256 offsets the gather reads. -/
abbrev offsM (p : Fin 2) : Memref sig .scVector .vmem S256 .i32 :=
  ((idxSlot p).slice (Rect.unit (s := S1x256) ![0, 0] S1x256.size Facts₀.inb_S1x256_S1x256_0_0) (fun _ => rfl)).squeeze S256 Facts₀.squeezes_S1x256_S256

end Cert.Proof.KI

end
-- ==== Proof.KI.Arith.lean ====
/-
  The arithmetic of one tile's loop, in closed form. A tile at grid coordinates `L = (core, subcore)` has number
  `w = subcore + 16 core`; its loop runs a hundred trips carrying five words: before trip `k` they are the next fetch
  slot's counter `1 + min k 99`, the counters `k`, `k` and `k - 1` of the fetches awaited, the rows copied out and
  the copies awaited, and the step number `k mod 100`. At these words every condition the body branches on is decided
  by `k` alone, every slice's offsets are a closed form of `k` and `w`, the side conditions the body assumes hold, and
  a trip takes the words of `k` to those of `k + 1`.
-/
import proofs.«206737_g54150947668683_cont_9to1_m_866_22_alg».proof.Proof.KI.Slots

-- one theorem at a time: each is decided over every grid point and trip
set_option Elab.async false

namespace Cert.Proof.KI

open Cert.KernelIdeal Cert.KernelIdeal.Gen Idealize.ShloMosaic

/-- The five carried words before trip `k`. -/
def accOf (k : ℕ) : BitVec 32 × BitVec 32 × BitVec 32 × BitVec 32 × BitVec 32 :=
  (BitVec.ofNat 32 (1 + min k 99), BitVec.ofNat 32 k, BitVec.ofNat 32 k, BitVec.ofNat 32 (k - 1), BitVec.ofNat 32 (k % 100))

/-! ## The offsets in closed form -/

/-- The half of the row-number buffer the next fetch fills, and its semaphore: the parity of the fetch counter. -/
theorem off5_eq : ∀ (k : Fin k0_t1_loop.trips), k0_off5 (BitVec.ofNat 32 (1 + min k.val 99)) = ![(1 + min k.val 99) % 2, 0, 0] := by decide +kernel
theorem off5_eq' (k : Fin k0_t1_loop.trips) (h : k.val < 99) : k0_off5 (BitVec.ofNat 32 (1 + min k.val 99)) = ![(k.val + 1) % 2, 0, 0] := by
  rw [off5_eq, Nat.min_eq_left (by omega), Nat.add_comm]
theorem off7_eq : ∀ (k : Fin k0_t1_loop.trips), k0_off7 (BitVec.ofNat 32 (1 + min k.val 99)) = ![(1 + min k.val 99) % 2] := by decide +kernel
theorem off7_eq' (k : Fin k0_t1_loop.trips) (h : k.val < 99) : k0_off7 (BitVec.ofNat 32 (1 + min k.val 99)) = ![(k.val + 1) % 2] := by
  rw [off7_eq, Nat.min_eq_left (by omega), Nat.add_comm]
/-- The entries of the flat list the next fetch reads: those of step `k + 1`. -/
theorem off6_eq : ∀ (L : grid0.Coords) (k : Fin k0_t1_loop.trips), k.val < 99 →
    k0_off6 L (BitVec.ofNat 32 (k.val % 100)) = ![0, 256 * ((k.val + 1) + 100 * ((L 1).val + 16 * (L 0).val))] := by decide +kernel
/-- The half of the row-number buffer this step's fetch filled, its semaphore, and the same half as the gather reads
    it: the parity of the step. -/
theorem off8_eq : ∀ (k : Fin k0_t1_loop.trips), k0_off8 (BitVec.ofNat 32 k.val) = ![k.val % 2, 0, 0] := by decide +kernel
theorem off10_eq : ∀ (k : Fin k0_t1_loop.trips), k0_off10 (BitVec.ofNat 32 k.val) = ![k.val % 2] := by decide +kernel
theorem off12_eq : ∀ (k : Fin k0_t1_loop.trips), k0_off12 (BitVec.ofNat 32 k.val) = ![k.val % 2, 0, 0] := by decide +kernel
/-- The entries of the flat list this step's fetch read: those of step `k`. -/
theorem off9_eq : ∀ (L : grid0.Coords) (k : Fin k0_t1_loop.trips),
    k0_off9 L (BitVec.ofNat 32 (k.val % 100)) = ![0, 256 * (k.val + 100 * ((L 1).val + 16 * (L 0).val))] := by decide +kernel
/-- The half of the row buffer this step gathers into and copies out of, and the copy's semaphore: the parity of the step. -/
theorem off11_eq : ∀ (k : Fin k0_t1_loop.trips), k0_off11 (BitVec.ofNat 32 k.val) = ![k.val % 2, 0, 0] := by decide +kernel
theorem off13_eq : ∀ (k : Fin k0_t1_loop.trips), k0_off13 (BitVec.ofNat 32 k.val) = ![k.val % 2, 0, 0] := by decide +kernel
theorem off15_eq : ∀ (k : Fin k0_t1_loop.trips), k0_off15 (BitVec.ofNat 32 k.val) = ![k.val % 2] := by decide +kernel
/-- The rows of the flat output this step writes: those of step `k`. -/
theorem off14_eq : ∀ (L : grid0.Coords) (k : Fin k0_t1_loop.trips),
    k0_off14 L (BitVec.ofNat 32 (k.val % 100)) = ![256 * (k.val + 100 * ((L 1).val + 16 * (L 0).val)), 0] := by decide +kernel
/-- The half of the row buffer whose copy is awaited, and its semaphore: the parity of the step before. -/
theorem off16_eq : ∀ (k : Fin k0_t1_loop.trips), k0_off16 (BitVec.ofNat 32 (k.val - 1)) = ![(k.val - 1) % 2, 0, 0] := by decide +kernel
theorem off18_eq : ∀ (k : Fin k0_t1_loop.trips), k0_off18 (BitVec.ofNat 32 (k.val - 1)) = ![(k.val - 1) % 2] := by decide +kernel
/-- The rows of the flat output the awaited copy wrote: those of step `k - 1`. -/
theorem off17_eq : ∀ (L : grid0.Coords) (k : Fin k0_t1_loop.trips), k.val ≠ 0 →
    k0_off17 L (BitVec.ofNat 32 (k.val % 100)) = ![256 * ((k.val - 1) + 100 * ((L 1).val + 16 * (L 0).val)), 0] := by decide +kernel
/-- After the loop: the last copy awaited is step 99's. -/
theorem off19_eq : k0_off19 (BitVec.ofNat 32 99) = ![1, 0, 0] := by decide +kernel
theorem off21_eq : k0_off21 (BitVec.ofNat 32 99) = ![1] := by decide +kernel
theorem off22_eq : k0_off22 (BitVec.ofNat 32 99) = ![1, 0, 0] := by decide +kernel
theorem off20_eq : ∀ L : grid0.Coords, k0_off20 L (BitVec.ofNat 32 0) = ![256 * (99 + 100 * ((L 1).val + 16 * (L 0).val)), 0] := by decide +kernel
/-- Before the loop: the first fetch reads the entries of step 0. -/
theorem off3_eq : ∀ L : grid0.Coords, k0_off3 L = ![0, 256 * (0 + 100 * ((L 1).val + 16 * (L 0).val))] := by decide +kernel

/-! ## The conditions -/

/-- The next fetch is issued on every trip but the last. -/
theorem cond2_eq : ∀ (L : grid0.Coords) (k : Fin k0_t1_loop.trips), k0_cond2 L k (BitVec.ofNat 32 (k.val % 100)) = (if k.val < 99 then 1#1 else 0#1) := by decide +kernel
theorem cond2_pos (L : grid0.Coords) (k : Fin k0_t1_loop.trips) (h : k.val < 99) : k0_cond2 L k (BitVec.ofNat 32 (k.val % 100)) = 1#1 := by rw [cond2_eq, if_pos h]
theorem cond2_neg (L : grid0.Coords) (k : Fin k0_t1_loop.trips) (h : ¬ k.val < 99) : ¬ (k0_cond2 L k (BitVec.ofNat 32 (k.val % 100)) = 1#1) := by
  rw [cond2_eq, if_neg h]; decide
/-- This step's fetch is awaited on every trip. -/
theorem cond3_eq : ∀ (L : grid0.Coords) (k : Fin k0_t1_loop.trips), k0_cond3 L k (BitVec.ofNat 32 (k.val % 100)) = 1#1 := by decide +kernel
/-- This step's rows are copied out on every trip. -/
theorem cond6_eq : ∀ (L : grid0.Coords) (k : Fin k0_t1_loop.trips), k0_cond6 L k (BitVec.ofNat 32 (k.val % 100)) = 1#1 := by decide +kernel
/-- The copy of the step before is awaited on every trip but the first. -/
theorem cond8_eq : ∀ (L : grid0.Coords) (k : Fin k0_t1_loop.trips), k0_cond8 L k (BitVec.ofNat 32 (k.val % 100)) = (if k.val = 0 then 0#1 else 1#1) := by decide +kernel
theorem cond8_pos (L : grid0.Coords) (k : Fin k0_t1_loop.trips) (h : k.val ≠ 0) : k0_cond8 L k (BitVec.ofNat 32 (k.val % 100)) = 1#1 := by rw [cond8_eq, if_neg h]
theorem cond8_neg (L : grid0.Coords) (k : Fin k0_t1_loop.trips) (h : k.val = 0) : ¬ (k0_cond8 L k (BitVec.ofNat 32 (k.val % 100)) = 1#1) := by
  rw [cond8_eq, if_pos h]; decide

/-! ## The side conditions the body assumes -/

/-- Every slice of a trip is inside its buffer. -/
theorem chk1_acc : ∀ (L : grid0.Coords) (k : Fin k0_t1_loop.trips), k0_chk1 L k (BitVec.ofNat 32 (1 + min k.val 99)) (BitVec.ofNat 32 k.val) (BitVec.ofNat 32 k.val) (BitVec.ofNat 32 (k.val - 1)) (BitVec.ofNat 32 (k.val % 100)) := by decide +kernel
theorem chk2_acc : ∀ (k : Fin k0_t1_loop.trips), k0_chk2 (BitVec.ofNat 32 k.val) := by decide +kernel
theorem chk3_acc : ∀ (k : Fin k0_t1_loop.trips), k0_chk3 (BitVec.ofNat 32 k.val) := by decide +kernel
/-- And so is every slice after the loop. -/
theorem chk4_end : k0_chk4 (BitVec.ofNat 32 99) := by decide +kernel
theorem chk5_end : ∀ L : grid0.Coords, k0_chk5 L (BitVec.ofNat 32 0) := by decide +kernel

end Cert.Proof.KI
-- ==== Proof.KI.ArithRect.lean ====
/-
  The rectangles a trip's slices name, as the pieces of the arrays they are. A slice's offsets are words the kernel
  computes; at the carried words of trip `k` they are the closed forms of the arithmetic module, so the slice of the flat
  list or of the flat output is the chunk of the step it belongs to, and the slice of a double buffer or of its
  semaphore pair is the half the step's parity names. Each holds for any in-bounds evidence the program carries.
-/
import proofs.«206737_g54150947668683_cont_9to1_m_866_22_alg».proof.Proof.KI.Arith

set_option Elab.async false

namespace Cert.Proof.KI

open Cert.KernelIdeal Cert.KernelIdeal.Gen Idealize.ShloMosaic

/-- A trip's number is below a hundred. -/
theorem lt100 : ∀ k : Fin k0_t1_loop.trips, k.val < 100 := by decide +kernel
/-- A trip as a step number. -/
abbrev kL (k : Fin k0_t1_loop.trips) : Fin 100 := ⟨k.val, lt100 k⟩
/-- A parity as a half. -/
abbrev par (n : ℕ) : Fin 2 := ⟨n % 2, Nat.mod_lt _ (by decide)⟩

section
variable (L : grid0.Coords) (k : Fin k0_t1_loop.trips)

/-! ## The chunks of the flat list and of the flat output -/

theorem fRect_eq : ∀ inb, Rect.unit (s := S1x819200) (k0_off9 L (BitVec.ofNat 32 (k.val % 100))) S1x256.size inb = fchunkU (gidx (cL L) (jL L) ⟨k.val, lt100 k⟩) :=
  fun inb => Rect.unit_congr (off9_eq L k) inb _
theorem oRect_eq : ∀ inb, Rect.unit (s := S819200x128) (k0_off14 L (BitVec.ofNat 32 (k.val % 100))) S256x128.size inb = ochunkU (gidx (cL L) (jL L) ⟨k.val, lt100 k⟩) :=
  fun inb => Rect.unit_congr (off14_eq L k) inb _
theorem fRect_next (h : k.val < 99) : ∀ inb, Rect.unit (s := S1x819200) (k0_off6 L (BitVec.ofNat 32 (k.val % 100))) S1x256.size inb = fchunkU (gidx (cL L) (jL L) ⟨k.val + 1, by omega⟩) :=
  fun inb => Rect.unit_congr (off6_eq L k h) inb _
theorem oRect_prev (h : k.val ≠ 0) : ∀ inb, Rect.unit (s := S819200x128) (k0_off17 L (BitVec.ofNat 32 (k.val % 100))) S256x128.size inb = ochunkU (gidx (cL L) (jL L) ⟨k.val - 1, by have := lt100 k; omega⟩) :=
  fun inb => Rect.unit_congr (off17_eq L k h) inb _
theorem fRect_first : ∀ inb, Rect.unit (s := S1x819200) (k0_off3 L) S1x256.size inb = fchunkU (gidx (cL L) (jL L) ⟨0, by omega⟩) :=
  fun inb => Rect.unit_congr (off3_eq L) inb _
theorem oRect_last : ∀ inb, Rect.unit (s := S819200x128) (k0_off20 L (BitVec.ofNat 32 0)) S256x128.size inb = ochunkU (gidx (cL L) (jL L) ⟨99, by omega⟩) :=
  fun inb => Rect.unit_congr (off20_eq L) inb _

/-! ## The halves of the row-number buffer -/

theorem idxRect_wait : ∀ inb, Rect.unit (s := S2x1x256) (k0_off8 (BitVec.ofNat 32 k.val)) S1x1x256.size inb = idxRect (par k.val) :=
  fun inb => Rect.unit_congr (off8_eq k) inb _
theorem idxRect_read : ∀ inb, Rect.unit (s := S2x1x256) (k0_off12 (BitVec.ofNat 32 k.val)) S1x1x256.size inb = idxRect (par k.val) :=
  fun inb => Rect.unit_congr (off12_eq k) inb _
theorem idxRect_next (h : k.val < 99) : ∀ inb, Rect.unit (s := S2x1x256) (k0_off5 (BitVec.ofNat 32 (1 + min k.val 99))) S1x1x256.size inb = idxRect (par (k.val + 1)) :=
  fun inb => Rect.unit_congr (off5_eq' k h) inb _
theorem idxRect_first : ∀ inb, Rect.unit (s := S2x1x256) (k0_off2) S1x1x256.size inb = idxRect 0 :=
  fun inb => Rect.unit_congr k0_off2_eq inb _

/-! ## The halves of the row buffer -/

theorem rowRect_gather : ∀ inb, Rect.unit (s := S2x256x128) (k0_off11 (BitVec.ofNat 32 k.val)) S1x256x128.size inb = rowRect (par k.val) :=
  fun inb => Rect.unit_congr (off11_eq k) inb _
theorem rowRect_out : ∀ inb, Rect.unit (s := S2x256x128) (k0_off13 (BitVec.ofNat 32 k.val)) S1x256x128.size inb = rowRect (par k.val) :=
  fun inb => Rect.unit_congr (off13_eq k) inb _
theorem rowRect_prev : ∀ inb, Rect.unit (s := S2x256x128) (k0_off16 (BitVec.ofNat 32 (k.val - 1))) S1x256x128.size inb = rowRect (par (k.val - 1)) :=
  fun inb => Rect.unit_congr (off16_eq k) inb _
theorem rowRect_last19 : ∀ inb, Rect.unit (s := S2x256x128) (k0_off19 (BitVec.ofNat 32 99)) S1x256x128.size inb = rowRect 1 :=
  fun inb => Rect.unit_congr off19_eq inb _
theorem rowRect_last22 : ∀ inb, Rect.unit (s := S2x256x128) (k0_off22 (BitVec.ofNat 32 99)) S1x256x128.size inb = rowRect 1 :=
  fun inb => Rect.unit_congr off22_eq inb _

/-! ## The semaphores of the two pairs -/

theorem semRect_wait : ∀ inb, Rect.unit (s := S2) (k0_off10 (BitVec.ofNat 32 k.val)) S1.size inb = semRect (par k.val) :=
  fun inb => Rect.unit_congr (off10_eq k) inb _
theorem semRect_next (h : k.val < 99) : ∀ inb, Rect.unit (s := S2) (k0_off7 (BitVec.ofNat 32 (1 + min k.val 99))) S1.size inb = semRect (par (k.val + 1)) :=
  fun inb => Rect.unit_congr (off7_eq' k h) inb _
theorem semRect_out : ∀ inb, Rect.unit (s := S2) (k0_off15 (BitVec.ofNat 32 k.val)) S1.size inb = semRect (par k.val) :=
  fun inb => Rect.unit_congr (off15_eq k) inb _
theorem semRect_prev : ∀ inb, Rect.unit (s := S2) (k0_off18 (BitVec.ofNat 32 (k.val - 1))) S1.size inb = semRect (par (k.val - 1)) :=
  fun inb => Rect.unit_congr (off18_eq k) inb _
theorem semRect_first : ∀ inb, Rect.unit (s := S2) (k0_off4) S1.size inb = semRect 0 :=
  fun inb => Rect.unit_congr k0_off4_eq inb _
theorem semRect_last : ∀ inb, Rect.unit (s := S2) (k0_off21 (BitVec.ofNat 32 99)) S1.size inb = semRect 1 :=
  fun inb => Rect.unit_congr off21_eq inb _

end

end Cert.Proof.KI
-- ==== Proof.KI.ArithStep.lean ====
/-
  One trip of the loop on the carried words. `tileBase L` is the tile's first step number, a hundred times the tile's
  number, as the kernel computes it from the grid coordinates; `nextWords` is what a trip computes for the next trip's
  five words from this trip's, the tile's base and the trip's number: the fetch counter advances when a next fetch was
  issued, the counters of fetches awaited and of rows copied out always, the counter of copies awaited on every trip
  but the first, and the step number wraps to zero at a hundred. From the words of trip `k` these are the words of
  trip `k + 1`.
-/
import proofs.«206737_g54150947668683_cont_9to1_m_866_22_alg».proof.Proof.KI.Arith

set_option Elab.async false

namespace Cert.Proof.KI

open Cert.KernelIdeal Cert.KernelIdeal.Gen Idealize.ShloMosaic

/-- The tile's first step number, as the kernel computes it. -/
def tileBase (i : grid0.Coords) : BitVec 32 :=
  let arg1 : BitVec 32 := BitVec.ofNat 32 (i 1).val
  let c1_i32 : BitVec 32 := 1#32
  let v3 : BitVec 32 := Scalar.muli arg1 c1_i32
  let c0_i32_0 : BitVec 32 := 0#32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  v7

/-- It is a hundred times the tile's number. -/
theorem tileBase_eq : ∀ L : grid0.Coords, tileBase L = BitVec.ofNat 32 (100 * ((L 1).val + 16 * (L 0).val)) := by decide +kernel

/-- The five words a trip hands the next, as the kernel computes them from this trip's words, the tile's base `v7` and
    the trip. -/
def nextWords (v7 : BitVec 32) (k0_t1 : Fin k0_t1_loop.trips)
    (arg8_r0 arg9_r0 arg10_r0 arg11_r0 arg12_r0 : BitVec 32) : BitVec 32 × BitVec 32 × BitVec 32 × BitVec 32 × BitVec 32 :=
  let c0_i32_27_r0 : BitVec 32 := 0#32
  let c1_i32_29_r0 : BitVec 32 := 1#32
  let arg7_r0 : BitVec 32 := Scf.iv c0_i32_27_r0 c1_i32_29_r0 k0_t1
  let c0_i32_55_r0 : BitVec 32 := 0#32
  let v67_r0 : BitVec 1 := Scalar.cmpi .eq arg7_r0 c0_i32_55_r0
  let c99_i32_56_r0 : BitVec 32 := 99#32
  let v68_r0 : BitVec 1 := Scalar.cmpi .eq arg7_r0 c99_i32_56_r0
  let v69_r0 : BitVec 32 := Scalar.addi arg12_r0 v7
  let c1_i32_57_r0 : BitVec 32 := 1#32
  let v70_r0 : BitVec 32 := Scalar.subi arg12_r0 c1_i32_57_r0
  let true_58_r0 : BitVec 1 := 1#1
  let v71_r0 : BitVec 32 := Scalar.select true_58_r0 v70_r0 arg12_r0
  let c_m1_i32_59_r0 : BitVec 32 := 4294967295#32
  let v72_r0 : BitVec 1 := Scalar.cmpi .eq v71_r0 c_m1_i32_59_r0
  let c99_i32_60_r0 : BitVec 32 := 99#32
  let v73_r0 : BitVec 32 := Scalar.select v72_r0 c99_i32_60_r0 v71_r0
  let v74_r0 : BitVec 32 := Scalar.addi v73_r0 v7
  let c1_i32_61_r0 : BitVec 32 := 1#32
  let v75_r0 : BitVec 32 := Scalar.addi arg12_r0 c1_i32_61_r0
  let true_62_r0 : BitVec 1 := 1#1
  let v76_r0 : BitVec 32 := Scalar.select true_62_r0 v75_r0 arg12_r0
  let c100_i32_63_r0 : BitVec 32 := 100#32
  let v77_r0 : BitVec 1 := Scalar.cmpi .eq v76_r0 c100_i32_63_r0
  let c0_i32_64_r0 : BitVec 32 := 0#32
  let v78_r0 : BitVec 32 := Scalar.select v77_r0 c0_i32_64_r0 v76_r0
  let v79_r0 : BitVec 32 := Scalar.addi v78_r0 v7
  let v85_r0 : BitVec 1 := Scalar.cmpi .ne v69_r0 v79_r0
  let c99_i32_69_r0 : BitVec 32 := 99#32
  let v86_r0 : BitVec 1 := Scalar.cmpi .sge arg7_r0 c99_i32_69_r0
  let true_70_r0 : BitVec 1 := 1#1
  let v87_r0 : BitVec 1 := Scalar.xori v86_r0 true_70_r0
  let v88_r0 : BitVec 1 := Scalar.andi v85_r0 v87_r0
  let true_72_r0 : BitVec 1 := 1#1
  let v91_r0 : BitVec 1 := Scalar.andi v88_r0 true_72_r0
  let c1_i32_73_r0 : BitVec 32 := 1#32
  let v92_r0 : BitVec 32 := Scalar.addi arg8_r0 c1_i32_73_r0
  let v93_r0 : BitVec 32 := Scalar.select v91_r0 v92_r0 arg8_r0
  let v119_r0 : BitVec 1 := Scalar.cmpi .ne v69_r0 v79_r0
  let v120_r0 : BitVec 1 := Scalar.ori v119_r0 v68_r0
  let true_87_r0 : BitVec 1 := 1#1
  let v123_r0 : BitVec 1 := Scalar.andi v120_r0 true_87_r0
  let c1_i32_88_r0 : BitVec 32 := 1#32
  let v124_r0 : BitVec 32 := Scalar.addi arg10_r0 c1_i32_88_r0
  let v125_r0 : BitVec 32 := Scalar.select v123_r0 v124_r0 arg10_r0
  let v132_r0 : BitVec 1 := Scalar.cmpi .ne v69_r0 v74_r0
  let true_92_r0 : BitVec 1 := 1#1
  let v133_r0 : BitVec 1 := Scalar.xori v67_r0 true_92_r0
  let v134_r0 : BitVec 1 := Scalar.andi v132_r0 v133_r0
  let true_94_r0 : BitVec 1 := 1#1
  let v137_r0 : BitVec 1 := Scalar.andi v134_r0 true_94_r0
  let c1_i32_95_r0 : BitVec 32 := 1#32
  let v138_r0 : BitVec 32 := Scalar.addi arg11_r0 c1_i32_95_r0
  let v139_r0 : BitVec 32 := Scalar.select v137_r0 v138_r0 arg11_r0
  let v140_r0 : BitVec 1 := Scalar.cmpi .ne v69_r0 v79_r0
  let v141_r0 : BitVec 1 := Scalar.ori v140_r0 v68_r0
  let c1_i32_96_r0 : BitVec 32 := 1#32
  let v142_r0 : BitVec 32 := Scalar.addi arg9_r0 c1_i32_96_r0
  let v143_r0 : BitVec 32 := Scalar.select v141_r0 v142_r0 arg9_r0
  let c1_i32_97_r0 : BitVec 32 := 1#32
  let v144_r0 : BitVec 32 := Scalar.addi arg12_r0 c1_i32_97_r0
  let true_98_r0 : BitVec 1 := 1#1
  let v145_r0 : BitVec 32 := Scalar.select true_98_r0 v144_r0 arg12_r0
  let c100_i32_99_r0 : BitVec 32 := 100#32
  let v146_r0 : BitVec 1 := Scalar.cmpi .eq v145_r0 c100_i32_99_r0
  let c0_i32_100_r0 : BitVec 32 := 0#32
  let v147_r0 : BitVec 32 := Scalar.select v146_r0 c0_i32_100_r0 v145_r0
  (v93_r0, v143_r0, v125_r0, v139_r0, v147_r0)

/-- The words after a trip of tile `L`, from the five words `acc` before it. -/
def nextAcc (L : grid0.Coords) (k : Fin k0_t1_loop.trips) (acc : BitVec 32 × BitVec 32 × BitVec 32 × BitVec 32 × BitVec 32) :
    BitVec 32 × BitVec 32 × BitVec 32 × BitVec 32 × BitVec 32 :=
  nextWords (tileBase L) k acc.1 acc.2.1 acc.2.2.1 acc.2.2.2.1 acc.2.2.2.2

/-- A trip takes the words of trip `k` to those of trip `k + 1`. -/
theorem nextAcc_accOf : ∀ (L : grid0.Coords) (k : Fin k0_t1_loop.trips), nextAcc L k (accOf k.val) = accOf (k.val + 1) := by decide +kernel

/-- The same with the words and the tile's base spelt out. -/
theorem nextWords_accOf (L : grid0.Coords) (k : Fin k0_t1_loop.trips) :
    nextWords (BitVec.ofNat 32 (100 * ((L 1).val + 16 * (L 0).val))) k (BitVec.ofNat 32 (1 + min k.val 99)) (BitVec.ofNat 32 k.val) (BitVec.ofNat 32 k.val) (BitVec.ofNat 32 (k.val - 1)) (BitVec.ofNat 32 (k.val % 100)) = accOf (k.val + 1) := by
  rw [← tileBase_eq]; exact nextAcc_accOf L k

/-- The words the loop starts from are those of trip 0, and it ends at those of trip 100. -/
theorem accOf_zero : accOf 0 = (BitVec.ofNat 32 1, BitVec.ofNat 32 0, BitVec.ofNat 32 0, BitVec.ofNat 32 0, BitVec.ofNat 32 0) := rfl
theorem accOf_hundred : accOf 100 = (BitVec.ofNat 32 100, BitVec.ofNat 32 100, BitVec.ofNat 32 100, BitVec.ofNat 32 99, BitVec.ofNat 32 0) := rfl

end Cert.Proof.KI
-- ==== Proof.KI.Respell.lean ====
/-
  One piece of memory named two ways. The kernel names a half of a double buffer, a chunk of the flat list or of the
  flat output, or one of a pair of semaphores by offsets it computes from its carried words; the invariant names it by
  its number. Equal offsets name the same piece.
-/
import proofs.«206737_g54150947668683_cont_9to1_m_866_22_alg».proof.Proof.KI.ArithRect
import proofs.«206737_g54150947668683_cont_9to1_m_866_22_alg».proof.Proof.KI.ArithStep

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

/-- A half of the index buffer, a half of the row buffer, a chunk of the flat list, a chunk of the flat output, and a
    semaphore of each of the two pairs, by the offsets that name them. -/
abbrev idxAt (off : Fin 3 → ℕ) (inb : ∀ a, off a + S1x1x256.size a ≤ S2x1x256.size a) : Memref sig .scVector .vmem S1x256 .i32 :=
  ((idxV).slice (Rect.unit (s := S2x1x256) off S1x1x256.size inb) (fun _ => rfl)).squeeze S1x256 Facts₀.squeezes_S1x1x256_S1x256
abbrev rowAt (off : Fin 3 → ℕ) (inb : ∀ a, off a + S1x256x128.size a ≤ S2x256x128.size a) : Memref sig .scVector .vmem S256x128 .f32 :=
  ((rowV).slice (Rect.unit (s := S2x256x128) off S1x256x128.size inb) (fun _ => rfl)).squeeze S256x128 Facts₀.squeezes_S1x256x128_S256x128
abbrev fchAt (off : Fin 2 → ℕ) (inb : ∀ a, off a + S1x256.size a ≤ S1x819200.size a) : Memref sig .scVector .hbm S1x256 .i32 :=
  (flatV).slice (Rect.unit (s := S1x819200) off S1x256.size inb) (fun _ => rfl)
abbrev ochAt (off : Fin 2 → ℕ) (inb : ∀ a, off a + S256x128.size a ≤ S819200x128.size a) : Memref sig .scVector .hbm S256x128 .f32 :=
  (outV).slice (Rect.unit (s := S819200x128) off S256x128.size inb) (fun _ => rfl)
abbrev sem1At (off : Fin 1 → ℕ) (inb : ∀ a, off a + S1.size a ≤ S2.size a) : DmaSem sig :=
  ((SemArray.slice cc0_scoped1 (Rect.unit (s := S2) off S1.size inb)).squeeze S_ Facts₀.squeezes_S1_S_).sem
abbrev sem3At (off : Fin 1 → ℕ) (inb : ∀ a, off a + S1.size a ≤ S2.size a) : DmaSem sig :=
  ((SemArray.slice cc0_scoped3 (Rect.unit (s := S2) off S1.size inb)).squeeze S_ Facts₀.squeezes_S1_S_).sem

theorem idxAt_congr {off off' : Fin 3 → ℕ} (h : off = off') (inb) (inb') : idxAt off inb = idxAt off' inb' := by subst h; rfl
theorem rowAt_congr {off off' : Fin 3 → ℕ} (h : off = off') (inb) (inb') : rowAt off inb = rowAt off' inb' := by subst h; rfl
theorem fchAt_congr {off off' : Fin 2 → ℕ} (h : off = off') (inb) (inb') : fchAt off inb = fchAt off' inb' := by subst h; rfl
theorem ochAt_congr {off off' : Fin 2 → ℕ} (h : off = off') (inb) (inb') : ochAt off inb = ochAt off' inb' := by subst h; rfl
theorem sem1At_congr {off off' : Fin 1 → ℕ} (h : off = off') (inb) (inb') : sem1At off inb = sem1At off' inb' := by subst h; rfl
theorem sem3At_congr {off off' : Fin 1 → ℕ} (h : off = off') (inb) (inb') : sem3At off inb = sem3At off' inb' := by subst h; rfl

/-- A half of the index buffer as the list of 256 offsets the gather reads, by the offsets that name the half. -/
abbrev offsAt (off : Fin 3 → ℕ) (inb : ∀ a, off a + S1x1x256.size a ≤ S2x1x256.size a) : Memref sig .scVector .vmem S256 .i32 :=
  ((idxAt off inb).slice (Rect.unit (s := S1x256) ![0, 0] S1x256.size Facts₀.inb_S1x256_S1x256_0_0) (fun _ => rfl)).squeeze S256 Facts₀.squeezes_S1x256_S256
theorem offsM_at (p : Fin 2) : offsM p = offsAt ![p.val, 0, 0] (idxRect_inb p) := rfl

theorem idxSlot_at (p : Fin 2) : idxSlot p = idxAt ![p.val, 0, 0] (idxRect_inb p) := rfl
theorem rowSlot_at (p : Fin 2) : rowSlot p = rowAt ![p.val, 0, 0] (rowRect_inb p) := rfl
theorem fchunkM_at (g : Fin 3200) : fchunkM g = fchAt ![0, 256 * g.val] (fchunkU_inb g) := rfl
theorem ochunkM_at (g : Fin 3200) : ochunkM g = ochAt ![256 * g.val, 0] (ochunkU_inb g) := rfl
theorem sem1_at : ∀ p : Fin 2, (⟨1 + p.val, by omega⟩ : Fin 6) = sem1At ![p.val] (semRect_inb p) := by decide
theorem sem3_at : ∀ p : Fin 2, (⟨3 + p.val, by omega⟩ : Fin 6) = sem3At ![p.val] (semRect_inb p) := by decide

section Pts

variable (flat : (d : Dev nD) → Buf (Elt F) (flatLoc d))
variable (d : Dev nD) (L : grid0.Coords)

/-- The pieces held, by the offsets that name them. -/
abbrev idxPtsAt (off : Fin 3 → ℕ) (inb : ∀ a, off a + S1x1x256.size a ≤ S2x1x256.size a) (f : Buf (Elt F) ((thr d L).loc cc0_scoped0)) : sProp 𝕄 :=
  (idxAt off inb).view.loc (thr d L) ↦[(idxAt off inb).view.set]{fullShare} f
abbrev rowPtsAt (off : Fin 3 → ℕ) (inb : ∀ a, off a + S1x256x128.size a ≤ S2x256x128.size a) (f : Buf (Elt F) ((thr d L).loc cc0_scoped2)) : sProp 𝕄 :=
  (rowAt off inb).view.loc (thr d L) ↦[(rowAt off inb).view.set]{fullShare} f
abbrev fchPtsAt (off : Fin 2 → ℕ) (inb : ∀ a, off a + S1x256.size a ≤ S1x819200.size a) : sProp 𝕄 :=
  (fchAt off inb).view.loc (thr d L) ↦[(fchAt off inb).view.set]{fullShare} flat d
abbrev ochPtsAt (off : Fin 2 → ℕ) (inb : ∀ a, off a + S256x128.size a ≤ S819200x128.size a) (f : Buf (Elt F) (outLoc d)) : sProp 𝕄 :=
  (ochAt off inb).view.loc (thr d L) ↦[(ochAt off inb).view.set]{fullShare} f

theorem idxPtsAt_congr {off off' : Fin 3 → ℕ} (h : off = off') (inb) (inb') (f) : idxPtsAt (F := F) d L off inb f = idxPtsAt d L off' inb' f := by subst h; rfl
theorem rowPtsAt_congr {off off' : Fin 3 → ℕ} (h : off = off') (inb) (inb') (f) : rowPtsAt (F := F) d L off inb f = rowPtsAt d L off' inb' f := by subst h; rfl
theorem fchPtsAt_congr {off off' : Fin 2 → ℕ} (h : off = off') (inb) (inb') : fchPtsAt (F := F) flat d L off inb = fchPtsAt flat d L off' inb' := by subst h; rfl
theorem ochPtsAt_congr {off off' : Fin 2 → ℕ} (h : off = off') (inb) (inb') (f) : ochPtsAt (F := F) d L off inb f = ochPtsAt d L off' inb' f := by subst h; rfl
theorem sem1Val_congr {off off' : Fin 1 → ℕ} (h : off = off') (inb) (inb') :
    (semVal (dcell d L (sem1At off inb)) 0 : sProp 𝕄) = semVal (dcell d L (sem1At off' inb')) 0 := by subst h; rfl
theorem sem3Val_congr {off off' : Fin 1 → ℕ} (h : off = off') (inb) (inb') :
    (semVal (dcell d L (sem3At off inb)) 0 : sProp 𝕄) = semVal (dcell d L (sem3At off' inb')) 0 := by subst h; rfl

/-- A fetch in flight, and a copy-out in flight, by the offsets that name their pieces. -/
abbrev inFlightAt (o1 : Fin 1 → ℕ) (i1 : ∀ a, o1 a + S1.size a ≤ S2.size a) (o2 : Fin 3 → ℕ) (i2 : ∀ a, o2 a + S1x1x256.size a ≤ S2x1x256.size a) (o3 : Fin 2 → ℕ) (i3 : ∀ a, o3 a + S1x256.size a ≤ S1x819200.size a) (fo : Buf (Elt F) ((thr d L).loc cc0_scoped0)) : sProp 𝕄 :=
  Transfers.Flight countersEmb (thr d L) (SemLoc.dma (sem1At o1 i1)) (default : HIx 1) 8192
    iprop(idxPtsAt d L o2 i2 fo ∗ fchPtsAt flat d L o3 i3)
abbrev outFlightAt (o1 : Fin 1 → ℕ) (i1 : ∀ a, o1 a + S1.size a ≤ S2.size a) (o2 : Fin 3 → ℕ) (i2 : ∀ a, o2 a + S1x256x128.size a ≤ S2x256x128.size a) (o3 : Fin 2 → ℕ) (i3 : ∀ a, o3 a + S256x128.size a ≤ S819200x128.size a) (fo : Buf (Elt F) (outLoc d)) (fr : Buf (Elt F) ((thr d L).loc cc0_scoped2)) : sProp 𝕄 :=
  Transfers.Flight countersEmb (thr d L) (SemLoc.dma (sem3At o1 i1)) (default : HIx 1) 1048576
    iprop(ochPtsAt d L o3 i3 fo ∗ rowPtsAt d L o2 i2 fr)

theorem inFlightAt_congr {o1 o1' : Fin 1 → ℕ} {o2 o2' : Fin 3 → ℕ} {o3 o3' : Fin 2 → ℕ} (h1 : o1 = o1') (h2 : o2 = o2') (h3 : o3 = o3')
    (i1) (i1') (i2) (i2') (i3) (i3') (fo) :
    inFlightAt (F := F) flat d L o1 i1 o2 i2 o3 i3 fo = inFlightAt flat d L o1' i1' o2' i2' o3' i3' fo := by subst h1 h2 h3; rfl
theorem outFlightAt_congr {o1 o1' : Fin 1 → ℕ} {o2 o2' : Fin 3 → ℕ} {o3 o3' : Fin 2 → ℕ} (h1 : o1 = o1') (h2 : o2 = o2') (h3 : o3 = o3')
    (i1) (i1') (i2) (i2') (i3) (i3') (fo) (fr) :
    outFlightAt (F := F) d L o1 i1 o2 i2 o3 i3 fo fr = outFlightAt d L o1' i1' o2' i2' o3' i3' fo fr := by subst h1 h2 h3; rfl

theorem offs_lt_congr {off off' : Fin 3 → ℕ} (h : off = off') (inb) (inb') (fo : Buf (Elt F) ((thr d L).loc cc0_scoped0))
    (hlt : ∀ x, ((offsAt off' inb').view.read (Elt F) fo x : BitVec 32).toNat < 1000) :
    ∀ x, ((offsAt off inb).view.read (Elt F) fo x : BitVec 32).toNat < 1000 := by subst h; exact hlt

end Pts

end Cert.Proof.KI

end
-- ==== Proof.KI.Inv.lean ====
/-
  What a tile holds between two of its hundred steps. Before step `k` the five carried words are `accOf k`; the copy
  of chunk `k` of the flat list into half `k mod 2` of the index buffer is in flight and the other half is free; the
  copy of half `(k - 1) mod 2` of the row buffer out to chunk `k - 1` of the flat output is in flight (from step 1
  on) and the other half is free; the output's chunks before `k - 1` hold the looked-up rows, those from `k` on
  what they held; every chunk of the flat list but the one in flight is at home.
-/
import proofs.«206737_g54150947668683_cont_9to1_m_866_22_alg».proof.Proof.KI.Respell

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Steps

variable (d : Dev nD) (L : grid0.Coords)

/-- The tile's `k`-th chunk. -/
abbrev gk (L : grid0.Coords) (k : Fin 100) : Fin 3200 := gidx (cL L) (jL L) k

/-- Half `p` of the index buffer holds chunk `g` of the flat list: its `x`-th offset is entry `256 g + x`. -/
def IdxHolds (p : Fin 2) (g : Fin 3200) (fo : Buf (Elt F) ((thr d L).loc cc0_scoped0)) : Prop :=
  ∀ x : S256.Idx, ((offsM p).view.read (Elt F) fo x : BitVec 32)
    = flat d (ValueIdx.ix2 (0 : Fin 1) (⟨(256 * g.val + (x 0).val) % 819200, Nat.mod_lt _ (by decide)⟩ : Fin 819200))

/-- Chunk `g` of the flat output holds the looked-up rows. -/
def OutHolds (g : Fin 3200) (fo : Buf (Elt F) (outLoc d)) : Prop :=
  ∀ j ∈ (ochunkM g).view.set, fo j = outv m flat d j

/-- The pieces, by their numbers. -/
abbrev idxPts (p : Fin 2) (f : Buf (Elt F) ((thr d L).loc cc0_scoped0)) : sProp 𝕄 := idxPtsAt d L ![p.val, 0, 0] (idxRect_inb p) f
abbrev rowPts (p : Fin 2) (f : Buf (Elt F) ((thr d L).loc cc0_scoped2)) : sProp 𝕄 := rowPtsAt d L ![p.val, 0, 0] (rowRect_inb p) f
abbrev fchPts (g : Fin 3200) : sProp 𝕄 := fchPtsAt flat d L ![0, 256 * g.val] (fchunkU_inb g)
abbrev ochPts (g : Fin 3200) (f : Buf (Elt F) (outLoc d)) : sProp 𝕄 := ochPtsAt d L ![256 * g.val, 0] (ochunkU_inb g) f
abbrev shPts : sProp 𝕄 :=
  (shAll).view.loc (thr d L) ↦[(shAll).view.set]{qS (jL L)} tabS m d (cV L)

/-- The fetch of chunk `g` into half `p` of the index buffer, in flight on that half's semaphore. -/
def inFlight (p : Fin 2) (g : Fin 3200) : sProp 𝕄 :=
  iprop(∃ fo, ⌜IdxHolds flat d L p g fo⌝ ∗ inFlightAt flat d L ![p.val] (semRect_inb p) ![p.val, 0, 0] (idxRect_inb p) ![0, 256 * g.val] (fchunkU_inb g) fo)
/-- The copy of half `p` of the row buffer out to chunk `g`, in flight on that half's semaphore. -/
def outFlight (p : Fin 2) (g : Fin 3200) : sProp 𝕄 :=
  iprop(∃ fo fr, ⌜OutHolds m flat d g fo⌝ ∗ outFlightAt d L ![p.val] (semRect_inb p) ![p.val, 0, 0] (rowRect_inb p) ![256 * g.val, 0] (ochunkU_inb g) fo fr)
/-- A free half of the index buffer with its semaphore at rest; of the row buffer likewise. -/
def idxFree (p : Fin 2) : sProp 𝕄 := iprop((∃ f, idxPts d L p f) ∗ semVal (dcell d L (sem1At ![p.val] (semRect_inb p))) 0)
def rowFree (p : Fin 2) : sProp 𝕄 := iprop((∃ f, rowPts d L p f) ∗ semVal (dcell d L (sem3At ![p.val] (semRect_inb p))) 0)

/-- The flat list's chunks at home before step `k`: all but the `k`-th. -/
def flatHome (k : ℕ) : sProp 𝕄 :=
  bigSep (Finset.univ.filter fun k' : Fin 100 => k'.val ≠ k) fun k' => flatLoc d ↦[fchunkSet (gk L k')]{fullShare} flat d
/-- The output's chunks not in flight before step `k`: those from `k` on as they were, those before `k - 1` done. -/
def outHome (k : ℕ) : sProp 𝕄 :=
  iprop((bigSep (Finset.univ.filter fun k' : Fin 100 => k ≤ k'.val) fun k' => outLoc d ↦[ochunkSet (gk L k')]{fullShare} m (outLoc d))
    ∗ bigSep (Finset.univ.filter fun k' : Fin 100 => k'.val + 1 < k) fun k' => outLoc d ↦[ochunkSet (gk L k')]{fullShare} outv m flat d)

/-- The index buffer's part of the invariant. -/
def inPart (k : ℕ) : sProp 𝕄 :=
  if h : k < 100 then iprop(inFlight flat d L (par k) (gk L ⟨k, h⟩) ∗ idxFree d L (par (k + 1)))
  else iprop(idxFree d L 0 ∗ idxFree d L 1)
/-- The row buffer's part. -/
def outPart (k : ℕ) : sProp 𝕄 :=
  if h : k = 0 then iprop(rowFree d L 0 ∗ rowFree d L 1)
  else if h' : k - 1 < 100 then iprop(outFlight m flat d L (par (k - 1)) (gk L ⟨k - 1, h'⟩) ∗ rowFree d L (par k))
  else iprop(emp)

/-- What the tile holds before step `k`, the carried words being `acc`. -/
def stepInv (O : CellTallies nD τ sig (HIx 1)) (W : Waits sig (HIx 1)) (k : ℕ) (acc : BitVec 32 × BitVec 32 × BitVec 32 × BitVec 32 × BitVec 32) : sProp 𝕄 :=
  iprop(⌜acc = accOf k⌝ ∗ Transfers.MayWaits (thr d L) (default : HIx 1) O
    ∗ shPts m d L ∗ semVal (dcell d L 0) 0 ∗ semVal (dcell d L 5) 0
    ∗ flatHome flat d L k ∗ outHome m flat d L k ∗ inPart flat d L k ∗ outPart m flat d L k
    ∗ ∃ W', ⌜∀ p ∈ W', p ∈ W ∨ p.2 = none⌝ ∗ owes (thr d L) O W')

end Steps

end Cert.Proof.KI

end
-- ==== Proof.KI.Chunks.lean ====
/-
  The pieces a tile's steps move, respelt. A chunk of the flat list or of the flat output, named by its offset and
  size as a transfer names it, is the chunk of the cut into 3200; the two halves of a double buffer are disjoint and
  make up the buffer; the staged table named whole is the whole shared memory; and one of a tile's hundred chunks is
  taken out of the hundred and put back.
-/
import proofs.«206737_g54150947668683_cont_9to1_m_866_22_alg».proof.Proof.KI.Res
import proofs.«206737_g54150947668683_cont_9to1_m_866_22_alg».proof.Proof.KI.Slots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## The chunks as the transfers name them -/

theorem fchunkU_eq (g : Fin 3200) : fchunkU g = fchunk g := by
  unfold fchunkU fchunk Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]

theorem ochunkU_eq (g : Fin 3200) : ochunkU g = ochunk g := by
  unfold ochunkU ochunk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_fchunkM (g : Fin 3200) : (fchunkM g).view.set = fchunkSet g := by
  show ((flatV).view.slice (fchunkU g)).set = ((flatV).view.slice (fchunk g)).set
  rw [fchunkU_eq]
theorem set_ochunkM (g : Fin 3200) : (ochunkM g).view.set = ochunkSet g := by
  show ((outV).view.slice (ochunkU g)).set = ((outV).view.slice (ochunk g)).set
  rw [ochunkU_eq]

/-! ## The halves of the double buffers -/

theorem hdivI : 2 ∣ S2x1x256.size 0 := ⟨1, rfl⟩
theorem hdivR : 2 ∣ S2x256x128.size 0 := ⟨1, rfl⟩

/-- Half `p` of the index buffer is part `p` of its cut in two along the leading axis; of the row buffer likewise. -/
theorem idxRect_eq (p : Fin 2) : idxRect p = Rect.part (s := S2x1x256) (a₀ := 0) hdivI p := by
  unfold idxRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem rowRect_eq (p : Fin 2) : rowRect p = Rect.part (s := S2x256x128) (a₀ := 0) hdivR p := by
  unfold rowRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of half `p` of the index buffer, and of the row buffer. -/
abbrev idxSet (p : Fin 2) : Finset S2x1x256.Idx := (idxSlot p).view.set
abbrev rowSet2 (p : Fin 2) : Finset S2x256x128.Idx := (rowSlot p).view.set

theorem set_idxSlot (p : Fin 2) : idxSet p = (Rect.part (s := S2x1x256) (a₀ := 0) hdivI p).set := by
  show (((idxV).view.slice (idxRect p)).reshape S1x256 Facts₀.squeezes_S1x1x256_S1x256.numel_eq).set = _
  rw [View.set_reshape]
  show ((View.whole (cc0_scoped0 : Ref sig .scVector)).slice (idxRect p)).set = _
  rw [View.set_slice, idxRect_eq]; exact Finset.map_refl
theorem set_rowSlot (p : Fin 2) : rowSet2 p = (Rect.part (s := S2x256x128) (a₀ := 0) hdivR p).set := by
  show (((rowV).view.slice (rowRect p)).reshape S256x128 Facts₀.squeezes_S1x256x128_S256x128.numel_eq).set = _
  rw [View.set_reshape]
  show ((View.whole (cc0_scoped2 : Ref sig .scVector)).slice (rowRect p)).set = _
  rw [View.set_slice, rowRect_eq]; exact Finset.map_refl

theorem idxSlots_disjoint : ∀ p ∈ (Finset.univ : Finset (Fin 2)), ∀ p' ∈ (Finset.univ : Finset (Fin 2)), p ≠ p' → Disjoint (idxSet p) (idxSet p') :=
  fun p _ p' _ h => by rw [set_idxSlot, set_idxSlot]; exact Rect.part_disjoint hdivI h
theorem idxSlots_cover : (Finset.univ : Finset (Fin 2)).biUnion idxSet = Finset.univ :=
  (Finset.biUnion_congr rfl fun p _ => set_idxSlot p).trans (Rect.biUnion_part hdivI)
theorem rowSlots_disjoint : ∀ p ∈ (Finset.univ : Finset (Fin 2)), ∀ p' ∈ (Finset.univ : Finset (Fin 2)), p ≠ p' → Disjoint (rowSet2 p) (rowSet2 p') :=
  fun p _ p' _ h => by rw [set_rowSlot, set_rowSlot]; exact Rect.part_disjoint hdivR h
theorem rowSlots_cover : (Finset.univ : Finset (Fin 2)).biUnion rowSet2 = Finset.univ :=
  (Finset.biUnion_congr rfl fun p _ => set_rowSlot p).trans (Rect.biUnion_part hdivR)

/-- The staged table named whole holds every element of the shared memory. -/
theorem set_shAll : (shAll).view.set = Finset.univ := by
  show ((View.whole (cc0_scratch0 : Ref sig .scVector)).slice _).set = _
  rw [View.set_slice]
  refine (Finset.map_refl).trans ?_
  ext i
  simp only [Rect.mem_set_unit, Finset.mem_univ, iff_true]
  intro a
  match a with
  | ⟨0, _⟩ => exact ⟨Nat.zero_le _, by show (i 0).val < 0 + 1000; have : (i 0).val < 1000 := (i 0).isLt; omega⟩
  | ⟨1, _⟩ => exact ⟨Nat.zero_le _, by show (i 1).val < 0 + 128; have : (i 1).val < 128 := (i 1).isLt; omega⟩

section Tile

variable (d : Dev nD) (L : grid0.Coords)

theorem pts_fchunk (g : Fin 3200) (q : PosShare TreeShare) (f : Buf (Elt F) (flatLoc d)) :
    ((fchunkM g).view.loc (thr d L) ↦[(fchunkM g).view.set]{q} f : sProp 𝕄) = flatLoc d ↦[fchunkSet g]{q} f := by
  rw [set_fchunkM]
theorem pts_ochunk (g : Fin 3200) (q : PosShare TreeShare) (f : Buf (Elt F) (outLoc d)) :
    ((ochunkM g).view.loc (thr d L) ↦[(ochunkM g).view.set]{q} f : sProp 𝕄) = outLoc d ↦[ochunkSet g]{q} f := by
  rw [set_ochunkM]

/-- The index buffer whole is its two halves; -/
theorem pts_idx (f : Buf (Elt F) ((thr d L).loc cc0_scoped0)) :
    ((thr d L).loc cc0_scoped0 ↦{fullShare} f : sProp 𝕄)
      = iprop(((idxSlot 0).view.loc (thr d L) ↦[(idxSlot 0).view.set]{fullShare} f) ∗ ((idxSlot 1).view.loc (thr d L) ↦[(idxSlot 1).view.set]{fullShare} f)) := by
  have h : ((thr d L).loc cc0_scoped0 ↦{fullShare} f : sProp 𝕄) = bigSep Finset.univ fun p : Fin 2 => (thr d L).loc cc0_scoped0 ↦[idxSet p]{fullShare} f := by
    rw [← pointsTo_biUnion Finset.univ (ℓ := (thr d L).loc cc0_scoped0) idxSet idxSlots_disjoint, idxSlots_cover]; try rfl
  rw [h, show (Finset.univ : Finset (Fin 2)) = {0, 1} by decide, SparseCore.bigSep_insert' (by decide), bigSep_singleton]
/-- the row buffer likewise. -/
theorem pts_row (f : Buf (Elt F) ((thr d L).loc cc0_scoped2)) :
    ((thr d L).loc cc0_scoped2 ↦{fullShare} f : sProp 𝕄)
      = iprop(((rowSlot 0).view.loc (thr d L) ↦[(rowSlot 0).view.set]{fullShare} f) ∗ ((rowSlot 1).view.loc (thr d L) ↦[(rowSlot 1).view.set]{fullShare} f)) := by
  have h : ((thr d L).loc cc0_scoped2 ↦{fullShare} f : sProp 𝕄) = bigSep Finset.univ fun p : Fin 2 => (thr d L).loc cc0_scoped2 ↦[rowSet2 p]{fullShare} f := by
    rw [← pointsTo_biUnion Finset.univ (ℓ := (thr d L).loc cc0_scoped2) rowSet2 rowSlots_disjoint, rowSlots_cover]; try rfl
  rw [h, show (Finset.univ : Finset (Fin 2)) = {0, 1} by decide, SparseCore.bigSep_insert' (by decide), bigSep_singleton]

/-- The staged table named whole is the shared memory whole. -/
theorem pts_shAll (q : PosShare TreeShare) (f : Buf (Elt F) (shLoc d (cV L))) :
    ((shAll).view.loc (thr d L) ↦[(shAll).view.set]{q} f : sProp 𝕄) = shLoc d (cV L) ↦{q} f := by
  rw [set_shAll]; rfl

/-- One of a tile's hundred chunks of the flat list, and the others; -/
theorem flat_take (c : Fin 2) (i : Fin 16) (k : Fin 100) :
    (flatChunks flat d c i : sProp 𝕄) = iprop((flatLoc d ↦[fchunkSet (gidx c i k)]{fullShare} flat d)
      ∗ bigSep (Finset.univ.erase k) fun k' : Fin 100 => flatLoc d ↦[fchunkSet (gidx c i k')]{fullShare} flat d) :=
  SparseCore.bigSep_erase' (Finset.mem_univ k)
/-- of the flat output likewise. -/
theorem out_take (c : Fin 2) (i : Fin 16) (f : Buf (Elt F) (outLoc d)) (k : Fin 100) :
    (outChunks d c i f : sProp 𝕄) = iprop((outLoc d ↦[ochunkSet (gidx c i k)]{fullShare} f)
      ∗ bigSep (Finset.univ.erase k) fun k' : Fin 100 => outLoc d ↦[ochunkSet (gidx c i k')]{fullShare} f) :=
  SparseCore.bigSep_erase' (Finset.mem_univ k)

end Tile

end Cert.Proof.KI

end
-- ==== Proof.KI.Value.lean ====
/-
  What one step's three transfers leave. Chunk `g` of the flat list, copied into a half of the index buffer, is read
  back by the gather as its 256 offsets: entry `x` is entry `256 g + x` of the flat list. The gather then fills the
  half of the row buffer with the staged table's rows those offsets name, and the copy out writes them over chunk `g`
  of the flat output: row `256 g + x` of the flat output is the table's row named by entry `256 g + x` of the flat
  list, which is what the lookup leaves there.
-/
import proofs.«206737_g54150947668683_cont_9to1_m_866_22_alg».proof.Proof.KI.Res
import proofs.«206737_g54150947668683_cont_9to1_m_866_22_alg».proof.Proof.KI.Inv
import proofs.«206737_g54150947668683_cont_9to1_m_866_22_alg».proof.Proof.KI.Chunks
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## Where the pieces' indices land -/

/-- Entry `x` of a half of the index buffer, read as an offset list, is entry `(0, x)` of that half. -/
theorem offsM_read (p : Fin 2) (fo : (idxSlot p).view.ty.Contents (Elt F)) (x : S256.Idx) :
    (offsM p).view.read (Elt F) fo x = (idxSlot p).view.read (Elt F) fo (ix2 (0 : Fin 1) (show Fin 256 from x 0)) := by
  have hr : ∀ h : S256.numel = S1x256.numel, Shape.reshapeEquiv h x = ix2 (0 : Fin 1) (show Fin 256 from x 0) := fun h =>
    Shape.reshapeEquiv_eq_of_rowMajor h
      ((Shape.rowMajor_val_two (d := ![1, 256]) (ix2 (0 : Fin 1) (show Fin 256 from x 0))).trans
        ((show (0 : ℕ) * 256 + (x 0).val = (x 0).val by omega).trans (Shape.rowMajor_val_one (d := ![256]) x).symm))
  show (idxSlot p).view.read (Elt F) fo ((Rect.unit (s := S1x256) ![0, 0] S1x256.size _).emb (Shape.reshapeEquiv _ x)) = _
  rw [hr]
  congr 1
  funext a; apply Fin.ext
  match a with
  | ⟨0, _⟩ => rfl
  | ⟨1, _⟩ => show 0 + 1 * (x 0).val = (x 0).val; omega

/-- Entry `256 g + k` of the flat list, as an index of it. -/
abbrev fpos (g : Fin 3200) (k : ℕ) (hk : k < 256) : Fin 819200 := ⟨256 * g.val + k, by have := g.isLt; omega⟩

/-- Entry `(0, k)` of chunk `g` of the flat list is entry `256 g + k` of the list. -/
theorem fchunkM_read (d : Dev nD) (g : Fin 3200) (f : Buf (Elt F) (flatLoc d)) (k : Fin 256) :
    (fchunkM g).view.read (Elt F) f (ix2 (0 : Fin 1) k) = f (ix2 (0 : Fin 1) (fpos g k.val k.isLt)) := by
  rw [View.read_apply]
  have he : (fchunkM g).view.emb (ix2 (0 : Fin 1) k) = ix2 (0 : Fin 1) (fpos g k.val k.isLt) := by
    funext a; apply Fin.ext
    match a with
    | ⟨0, _⟩ => rfl
    | ⟨1, _⟩ => show 256 * g.val + 1 * k.val = 256 * g.val + k.val; omega
  rw [he]; rfl

/-! ## The gather and the copy out -/

/-- Row `256 g + k` of the flat output, as an index of its rows. -/
abbrev opos (g : Fin 3200) (k : ℕ) (hk : k < 256) : Fin 819200 := ⟨256 * g.val + k, by have := g.isLt; omega⟩

/-- Element `y` of chunk `g` of the flat output is element `(256 g + y 0, y 1)` of the output. -/
theorem ochunkM_emb (g : Fin 3200) (y : S256x128.Idx) :
    (ochunkM g).view.emb y = ix2 (opos g (y 0).val (y 0).isLt) (show Fin 128 from y 1) := by
  funext a; apply Fin.ext
  match a with
  | ⟨0, _⟩ => show 256 * g.val + 1 * (y 0).val = 256 * g.val + (y 0).val; omega
  | ⟨1, _⟩ => show 0 + 1 * (y 1).val = (y 1).val; omega

/-- The staged table, named whole, reads its contents. -/
theorem shAll_read (f : (shAll).view.ty.Contents (Elt F)) (z : S1000x128.Idx) : (shAll).view.read (Elt F) f z = f z := by
  rw [View.read_apply]
  have he : (shAll).view.emb z = z := by
    funext a; apply Fin.ext
    match a with
    | ⟨0, _⟩ => show 0 + 1 * (z 0).val = (z 0).val; omega
    | ⟨1, _⟩ => show 0 + 1 * (z 1).val = (z 1).val; omega
  rw [he]; rfl

/-- A gather of rows of a 1000 × 128 array into 256 × 128: element `y` is the array's element at the row the list's
    entry `y 0` names and at `y`'s own column. -/
theorem gather_apply (tb : S1000x128.Idx → Elt F .f32) (offs : S256.Idx → Elt F .i32)
    (hn : S256.numel = S256x128.size (Facts₀.gathers_S1000x128_S256x128).axis')
    (hin : ∀ x, (offs x).toNat < S1000x128.size (Facts₀.gathers_S1000x128_S256x128).axis) (y : S256x128.Idx) :
    gatherPayload Facts₀.gathers_S1000x128_S256x128 tb (rows offs hn hin) y
      = tb (ix2 (⟨(offs (ix1 (show Fin 256 from y 0))).toNat, hin _⟩ : Fin 1000) (show Fin 128 from y 1)) := by
  unfold gatherPayload
  congr 1
  funext b; apply Fin.ext
  match b with
  | ⟨0, _⟩ =>
    show (rows offs hn hin (y 0)).val = (offs (ix1 (show Fin 256 from y 0))).toNat
    unfold rows
    have hs : S256.rowMajor.symm ((y 0).cast hn.symm) = ix1 (show Fin 256 from y 0) :=
      (Equiv.symm_apply_eq _).mpr (Fin.ext (Shape.rowMajor_val_one (d := ![256]) (ix1 (show Fin 256 from y 0))).symm)
    show (offs (S256.rowMajor.symm ((y 0).cast hn.symm))).toNat = _
    rw [hs]
  | ⟨1, _⟩ => rfl

/-! ## The index buffer's half holds the chunk -/

section Tile

variable (d : Dev nD) (L : grid0.Coords)

/-- The copy of chunk `g` of the flat list into half `p` of the index buffer leaves it holding the chunk. -/
theorem idx_holds (p : Fin 2) (g : Fin 3200) (fi : Buf (Elt F) ((thr d L).loc cc0_scoped0)) :
    IdxHolds flat d L p g ((idxSlot p).view.writes (Elt F) fi
      [⟨Rect.whole S1x256, ReadAs.same.apply (View.read (Elt F) (fchunkM g).view (flat d))⟩]) := by
  intro x
  have h := View.read_writes_cons_emb (idxSlot p).view fi (Rect.whole S1x256)
    (ReadAs.same.apply (View.read (Elt F) (fchunkM g).view (flat d))) [] (ix2 (0 : Fin 1) (show Fin 256 from x 0))
  rw [Rect.emb_whole_apply] at h
  refine (offsM_read p _ x).trans (h.trans ((fchunkM_read d g (flat d) (show Fin 256 from x 0)).trans ?_))
  refine congrArg (fun k : Fin 819200 => flat d (ix2 (0 : Fin 1) k)) (Fin.ext ?_)
  show 256 * g.val + (x 0).val = (256 * g.val + (x 0).val) % 819200
  have := g.isLt; have : (x 0).val < 256 := (x 0).isLt
  exact (Nat.mod_eq_of_lt (by omega)).symm

/-- The offsets a half holding a chunk of the flat list reads are row numbers when the flat list's words are. -/
theorem offs_lt {p : Fin 2} {g : Fin 3200} {fo : Buf (Elt F) ((thr d L).loc cc0_scoped0)} (h : IdxHolds flat d L p g fo)
    (hin : ∀ d x, (flat d x : BitVec 32).toNat < 1000) (x : S256.Idx) :
    ((offsM p).view.read (Elt F) fo x : BitVec 32).toNat < 1000 := by
  rw [h x]; exact hin d _

/-! ## The flat output's chunk holds the looked-up rows -/

/-- The rows gathered through a half holding chunk `g` of the flat list, copied out over chunk `g` of the flat
    output, are what the lookup leaves there: stated for any contents `frow` of the row buffer whose half reads the
    gather's payload. -/
theorem out_holds_of_read {p : Fin 2} {g : Fin 3200} {fo : Buf (Elt F) ((thr d L).loc cc0_scoped0)} (hI : IdxHolds flat d L p g fo)
    (hn : S256.numel = S256x128.size (Facts₀.gathers_S1000x128_S256x128).axis')
    (hlt : ∀ x, ((offsM p).view.read (Elt F) fo x).toNat < S1000x128.size (Facts₀.gathers_S1000x128_S256x128).axis)
    (frow : Buf (Elt F) ((thr d L).loc cc0_scoped2))
    (hrow : (rowSlot p).view.read (Elt F) frow
      = gatherPayload Facts₀.gathers_S1000x128_S256x128 (View.read (Elt F) shAll.view (tabS m d (cV L))) (rows ((offsM p).view.read (Elt F) fo) hn hlt))
    (f0 : Buf (Elt F) (outLoc d)) :
    OutHolds m flat d g ((ochunkM g).view.writes (Elt F) f0
      [⟨Rect.whole S256x128, ReadAs.same.apply (View.read (Elt F) (rowSlot p).view frow)⟩]) := by
  intro j hj
  obtain ⟨y, -, rfl⟩ := Finset.mem_map.mp hj
  -- what the chunk reads at `y` after the copy: the gathered row's entry
  have h := View.read_writes_cons_emb (ochunkM g).view f0 (Rect.whole S256x128)
    (ReadAs.same.apply (View.read (Elt F) (rowSlot p).view frow)) [] y
  rw [Rect.emb_whole_apply, View.read_apply] at h
  refine (cast_eq _ _).symm.trans (h.trans ?_)
  show (rowSlot p).view.read (Elt F) frow y = _
  rw [hrow, gather_apply, shAll_read, ochunkM_emb]
  -- the offset at `y 0` is the flat list's entry `256 g + y 0`, a row number
  have hx := hI (ix1 (show Fin 256 from y 0))
  have hpos : (⟨(256 * g.val + (y 0).val) % 819200, Nat.mod_lt _ (by decide)⟩ : Fin 819200) = opos g (y 0).val (y 0).isLt := by
    have := g.isLt; have : (y 0).val < 256 := (y 0).isLt
    exact Fin.ext (Nat.mod_eq_of_lt (by omega))
  show m (tabLoc d) (ix2 (⟨((offsM p).view.read (Elt F) fo (ix1 (show Fin 256 from y 0))).toNat, _⟩ : Fin 1000) (show Fin 128 from y 1))
    = m (tabLoc d) (ix2 (Cert.Spec.rowOf (flat d (ix2 (0 : Fin 1) (opos g (y 0).val (y 0).isLt)))) (show Fin 128 from y 1))
  refine congrArg (fun r : Fin 1000 => m (tabLoc d) (ix2 r (show Fin 128 from y 1))) (Fin.ext ?_)
  show ((offsM p).view.read (Elt F) fo (ix1 (show Fin 256 from y 0))).toNat = (flat d (ix2 (0 : Fin 1) (opos g (y 0).val (y 0).isLt)) : BitVec 32).toNat % 1000
  have hlt' := hlt (ix1 (show Fin 256 from y 0))
  rw [show ((offsM p).view.read (Elt F) fo (ix1 (show Fin 256 from y 0)) : BitVec 32) = flat d (ix2 (0 : Fin 1) (opos g (y 0).val (y 0).isLt)) from hx.trans (by rw [← hpos])] at hlt' ⊢
  exact (Nat.mod_eq_of_lt hlt').symm

/-- The same with the row buffer's contents as the gather leaves them. -/
theorem out_holds {p : Fin 2} {g : Fin 3200} {fo : Buf (Elt F) ((thr d L).loc cc0_scoped0)} (hI : IdxHolds flat d L p g fo)
    (hn : S256.numel = S256x128.size (Facts₀.gathers_S1000x128_S256x128).axis')
    (hlt : ∀ x, ((offsM p).view.read (Elt F) fo x).toNat < S1000x128.size (Facts₀.gathers_S1000x128_S256x128).axis)
    (fd : Buf (Elt F) ((thr d L).loc cc0_scoped2)) (f0 : Buf (Elt F) (outLoc d)) :
    OutHolds m flat d g ((ochunkM g).view.writes (Elt F) f0
      [⟨Rect.whole S256x128, ReadAs.same.apply (View.read (Elt F) (rowSlot p).view
        ((rowSlot p).view.write (Elt F) fd (gatherPayload Facts₀.gathers_S1000x128_S256x128 (View.read (Elt F) shAll.view (tabS m d (cV L)))
          (rows ((offsM p).view.read (Elt F) fo) hn hlt)) Finset.univ))⟩]) :=
  out_holds_of_read m flat d L hI hn hlt _ (View.read_write_univ _ _) f0

/-- A chunk holding the looked-up rows is the flat output's chunk at what the lookup leaves. -/
theorem out_done {g : Fin 3200} {fo : Buf (Elt F) (outLoc d)} (h : OutHolds m flat d g fo) :
    ochPts d L g fo ⊢ (outLoc d ↦[ochunkSet g]{fullShare} outv m flat d : sProp 𝕄) := by
  show ((ochunkM g).view.loc (thr d L) ↦[(ochunkM g).view.set]{fullShare} fo : sProp 𝕄) ⊢ _
  rw [pts_ochunk, pointsTo_congr (f := fo) (g := outv m flat d) (fun j hj => h j (by rw [set_ochunkM]; exact hj))]

end Tile

end Cert.Proof.KI

end
-- ==== Proof.KI.ValueAt.lean ====
/-
  What a step's transfers leave, with the pieces named by offsets. A half of a double buffer or a chunk of an array
  named by offsets equal to those of its number is the same piece: the copy of chunk `g` of the flat list into a half
  of the index buffer leaves the half holding the chunk, and the rows gathered through it into a half of the row
  buffer and copied out over chunk `g` of the flat output are what the lookup leaves there — the half of the row
  buffer read whole after being written whole gives back what was written.
-/
import proofs.«206737_g54150947668683_cont_9to1_m_866_22_alg».proof.Proof.KI.Value
import proofs.«206737_g54150947668683_cont_9to1_m_866_22_alg».proof.Proof.KI.Respell

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Tile

variable (d : Dev nD) (L : grid0.Coords)

/-- A piece read whole after being written whole reads what was written. -/
theorem read_writes_whole {κ : Kind} {sp : Space} {s : Shape} {e : EltTy} (v : View sig κ sp s e) (f : v.ty.Contents (Elt F))
    (w : (Rect.whole s).shape.Idx → Elt F e) :
    v.read (Elt F) (v.writes (Elt F) f [⟨Rect.whole s, w⟩]) = w := by
  funext y
  have h := View.read_writes_cons_emb (v := v) (f := f) (Rect.whole s) w [] y
  rw [Rect.emb_whole_apply] at h
  exact h

/-- The copy of chunk `g` of the flat list into half `p` of the index buffer, both named by offsets, leaves the half
    holding the chunk. -/
theorem idx_holds_at (p : Fin 2) (g : Fin 3200) {o2 : Fin 3 → ℕ} {o3 : Fin 2 → ℕ} (h2 : o2 = ![p.val, 0, 0]) (h3 : o3 = ![0, 256 * g.val])
    (i2 : ∀ a, o2 a + S1x1x256.size a ≤ S2x1x256.size a) (i3 : ∀ a, o3 a + S1x256.size a ≤ S1x819200.size a)
    (fi : Buf (Elt F) ((thr d L).loc cc0_scoped0)) :
    IdxHolds flat d L p g ((idxAt o2 i2).view.writes (Elt F) fi
      [⟨Rect.whole S1x256, ReadAs.same.apply (View.read (Elt F) (fchAt o3 i3).view (flat d))⟩]) := by
  subst h2 h3
  exact idx_holds flat d L p g fi

/-- The rows gathered through a half holding chunk `g` of the flat list into a half of the row buffer and copied out
    over chunk `g` of the flat output, every piece named by offsets, are what the lookup leaves there. -/
theorem out_holds_at {p : Fin 2} {g : Fin 3200} {fo : Buf (Elt F) ((thr d L).loc cc0_scoped0)} (hI : IdxHolds flat d L p g fo)
    {o11 o13 o12 : Fin 3 → ℕ} {o14 : Fin 2 → ℕ} (h11 : o11 = ![p.val, 0, 0]) (h13 : o13 = ![p.val, 0, 0]) (h12 : o12 = ![p.val, 0, 0])
    (h14 : o14 = ![256 * g.val, 0])
    (i11 : ∀ a, o11 a + S1x256x128.size a ≤ S2x256x128.size a) (i13 : ∀ a, o13 a + S1x256x128.size a ≤ S2x256x128.size a)
    (i12 : ∀ a, o12 a + S1x1x256.size a ≤ S2x1x256.size a) (i14 : ∀ a, o14 a + S256x128.size a ≤ S819200x128.size a)
    (hn : S256.numel = S256x128.size (Facts₀.gathers_S1000x128_S256x128).axis')
    (hlt : ∀ x, ((offsAt o12 i12).view.read (Elt F) fo x).toNat < S1000x128.size (Facts₀.gathers_S1000x128_S256x128).axis)
    (fr' : Buf (Elt F) ((thr d L).loc cc0_scoped2)) (f0 : Buf (Elt F) (outLoc d)) :
    OutHolds m flat d g ((ochAt o14 i14).view.writes (Elt F) f0
      [⟨Rect.whole S256x128, ReadAs.same.apply (View.read (Elt F) (rowAt o13 i13).view
        ((rowAt o11 i11).view.writes (Elt F) fr'
          [⟨Rect.whole S256x128, gatherPayload Facts₀.gathers_S1000x128_S256x128 (View.read (Elt F) shAll.view (m (tabLoc d)))
            (rows (View.read (Elt F) (offsAt o12 i12).view fo) hn hlt)⟩]))⟩]) := by
  subst h11 h13 h12 h14
  exact out_holds_of_read m flat d L hI hn hlt _ (read_writes_whole (rowSlot p).view fr' _) f0

end Tile

end Cert.Proof.KI

end
-- ==== Proof.KI.Home.lean ====
/-
  The chunks at home across a step. Before step `k` a tile holds every chunk of the flat list of row numbers but the
  `k`-th, the output's chunks from `k` on as they were and those before `k - 1` with the looked-up rows. A step takes
  the next chunk of the flat list out and puts this step's back, takes this step's output chunk out and puts the step
  before's back: each is one index taken out of, or put into, a set of step numbers below a hundred.
-/
import proofs.«206737_g54150947668683_cont_9to1_m_866_22_alg».proof.Proof.KI.Inv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## Sets of step numbers -/

/-- Every step but `k` and `k + 1`. -/
abbrev midSet (k : ℕ) : Finset (Fin 100) := Finset.univ.filter fun k' : Fin 100 => k'.val ≠ k ∧ k'.val ≠ k + 1
/-- The steps from `k` on. -/
abbrev fromSet (k : ℕ) : Finset (Fin 100) := Finset.univ.filter fun k' : Fin 100 => k ≤ k'.val
/-- The steps before `k - 1`. -/
abbrev doneSet (k : ℕ) : Finset (Fin 100) := Finset.univ.filter fun k' : Fin 100 => k'.val + 1 < k

theorem mem_ne (k : ℕ) (x : Fin 100) : x ∈ (Finset.univ.filter fun k' : Fin 100 => k'.val ≠ k) ↔ x.val ≠ k := by simp
theorem ne_erase_succ (k : ℕ) (h : k + 1 < 100) :
    (Finset.univ.filter fun k' : Fin 100 => k'.val ≠ k).erase ⟨k + 1, h⟩ = midSet k := by
  ext x; simp only [Finset.mem_erase, Finset.mem_filter, Finset.mem_univ, true_and, ne_eq, Fin.ext_iff] <;> omega
theorem ne_succ_erase (k : ℕ) (h : k < 100) :
    (Finset.univ.filter fun k' : Fin 100 => k'.val ≠ k + 1).erase ⟨k, h⟩ = midSet k := by
  ext x; simp only [Finset.mem_erase, Finset.mem_filter, Finset.mem_univ, true_and, ne_eq, Fin.ext_iff] <;> omega
theorem ne_hundred : (Finset.univ.filter fun k' : Fin 100 => k'.val ≠ 100) = Finset.univ := by
  ext x; simp only [Finset.mem_filter, Finset.mem_univ, true_and, ne_eq, iff_true] <;> omega
theorem univ_erase (k : ℕ) (h : k < 100) :
    (Finset.univ : Finset (Fin 100)).erase ⟨k, h⟩ = Finset.univ.filter fun k' : Fin 100 => k'.val ≠ k := by
  ext x; simp only [Finset.mem_erase, Finset.mem_filter, Finset.mem_univ, true_and, and_true, ne_eq, Fin.ext_iff]
theorem from_erase (k : ℕ) (h : k < 100) :
    (Finset.univ.filter fun k' : Fin 100 => k ≤ k'.val).erase ⟨k, h⟩ = fromSet (k + 1) := by
  ext x; simp only [Finset.mem_erase, Finset.mem_filter, Finset.mem_univ, true_and, ne_eq, Fin.ext_iff] <;> omega
theorem done_erase (k : ℕ) (h : k < 100) (hk : k ≠ 0) :
    (Finset.univ.filter fun k' : Fin 100 => k'.val + 1 < k + 1).erase ⟨k - 1, by omega⟩ = doneSet k := by
  ext x; simp only [Finset.mem_erase, Finset.mem_filter, Finset.mem_univ, true_and, ne_eq, Fin.ext_iff] <;> omega
theorem from_zero : (Finset.univ.filter fun k' : Fin 100 => 0 ≤ k'.val) = Finset.univ := by
  ext x; simp only [Finset.mem_filter, Finset.mem_univ, true_and, iff_true] <;> omega
theorem from_hundred : (Finset.univ.filter fun k' : Fin 100 => 100 ≤ k'.val) = ∅ := by
  ext x; simp only [Finset.mem_filter, Finset.mem_univ, true_and, Finset.notMem_empty, iff_false] <;> omega
theorem done_zero : (Finset.univ.filter fun k' : Fin 100 => k'.val + 1 < 0) = ∅ := by
  ext x; simp only [Finset.mem_filter, Finset.mem_univ, true_and, Finset.notMem_empty, iff_false] <;> omega
theorem done_one : (Finset.univ.filter fun k' : Fin 100 => k'.val + 1 < 1) = ∅ := by
  ext x; simp only [Finset.mem_filter, Finset.mem_univ, true_and, Finset.notMem_empty, iff_false] <;> omega
theorem done_hundred :
    (Finset.univ.filter fun k' : Fin 100 => k'.val + 1 < 100) = Finset.univ.filter fun k' : Fin 100 => k'.val ≠ 99 := by
  ext x; simp only [Finset.mem_filter, Finset.mem_univ, true_and, ne_eq] <;> omega

/-! ## Separating conjunction up to equality -/

section Sep
variable {M : Type} [URA M]

theorem sep_left_comm_eq (P Q R : sProp M) : iprop(P ∗ (Q ∗ R)) = iprop(Q ∗ (P ∗ R)) := by
  have h1 : ∀ A B C : sProp M, iprop(A ∗ (B ∗ C)) ⊢ iprop(B ∗ (A ∗ C)) := fun A B C => by
    iintro ⟨HA, HB, HC⟩
    isplitl [HB]; · iexact HB
    isplitl [HA]; · iexact HA
    iexact HC
  exact Entails.antisymm (h1 P Q R) (h1 Q P R)
theorem sep_assoc_eq (P Q R : sProp M) : iprop((P ∗ Q) ∗ R) = iprop(P ∗ (Q ∗ R)) := by
  have h1 : iprop((P ∗ Q) ∗ R) ⊢ iprop(P ∗ (Q ∗ R)) := by
    iintro ⟨⟨HP, HQ⟩, HR⟩
    isplitl [HP]; · iexact HP
    isplitl [HQ]; · iexact HQ
    iexact HR
  have h2 : iprop(P ∗ (Q ∗ R)) ⊢ iprop((P ∗ Q) ∗ R) := by
    iintro ⟨HP, HQ, HR⟩
    isplitr [HR]
    · isplitl [HP]; · iexact HP
      iexact HQ
    · iexact HR
  exact Entails.antisymm h1 h2
theorem sep_emp_eq (P : sProp M) : iprop(P ∗ (Idealize.SL.BI.emp : sProp M)) = P := equiv_iff.mp Idealize.SL.BI.sep_emp
theorem emp_sep_eq (P : sProp M) : iprop((Idealize.SL.BI.emp : sProp M) ∗ P) = P := equiv_iff.mp Idealize.SL.BI.emp_sep

end Sep

section Home

variable (d : Dev nD) (L : grid0.Coords)

/-- Chunk `k'` of the tile's hundred of the flat list, at home. -/
abbrev flatAt (k' : Fin 100) : sProp 𝕄 := flatLoc d ↦[fchunkSet (gk L k')]{fullShare} flat d
/-- Chunk `k'` of the tile's hundred of the flat output, at home with contents `f`. -/
abbrev outAt (f : Buf (Elt F) (outLoc d)) (k' : Fin 100) : sProp 𝕄 := outLoc d ↦[ochunkSet (gk L k')]{fullShare} f

/-! ## The flat list -/

/-- Before step `k`, taking the next step's chunk out leaves every chunk but the two. -/
theorem flatHome_take (k : ℕ) (h : k + 1 < 100) :
    flatHome flat d L k = iprop(flatAt flat d L ⟨k + 1, h⟩ ∗ bigSep (midSet k) (flatAt flat d L)) := by
  unfold flatHome
  rw [SparseCore.bigSep_erase' (i := (⟨k + 1, h⟩ : Fin 100)) ((mem_ne k _).2 (by simp)), ne_erase_succ k h]
/-- Putting this step's chunk back gives what is at home before the next step. -/
theorem flatHome_put (k : ℕ) (h : k + 1 < 100) :
    flatHome flat d L (k + 1) = iprop(flatAt flat d L ⟨k, by omega⟩ ∗ bigSep (midSet k) (flatAt flat d L)) := by
  unfold flatHome
  rw [SparseCore.bigSep_erase' (i := (⟨k, by omega⟩ : Fin 100)) ((mem_ne (k + 1) _).2 (by simp)), ne_succ_erase k (by omega)]
/-- After the last step every chunk is at home: the last put back. -/
theorem flatHome_last : flatHome flat d L 100 = iprop(flatAt flat d L ⟨99, by omega⟩ ∗ flatHome flat d L 99) := by
  unfold flatHome
  rw [ne_hundred, SparseCore.bigSep_erase' (i := (⟨99, by omega⟩ : Fin 100)) (Finset.mem_univ _), univ_erase 99 (by omega)]
/-- Before the first step: the tile's hundred chunks are the first and the rest. -/
theorem flatHome_zero : flatChunks flat d (cL L) (jL L) = iprop(flatAt flat d L ⟨0, by omega⟩ ∗ flatHome flat d L 0) := by
  unfold flatHome
  rw [← univ_erase 0 (by omega)]
  exact SparseCore.bigSep_erase' (i := (⟨0, by omega⟩ : Fin 100)) (Finset.mem_univ _)
/-- After the last step: the tile's hundred chunks. -/
theorem flatHome_full : flatHome flat d L 100 = flatChunks flat d (cL L) (jL L) := by
  unfold flatHome
  rw [ne_hundred]

/-! ## The flat output -/

/-- Before step `k`, taking this step's chunk out of those not yet written. -/
theorem outHome_take (k : ℕ) (h : k < 100) :
    outHome m flat d L k = iprop(outAt d L (m (outLoc d)) ⟨k, h⟩
      ∗ (bigSep (fromSet (k + 1)) (outAt d L (m (outLoc d))) ∗ bigSep (doneSet k) (outAt d L (outv m flat d)))) := by
  unfold outHome
  rw [SparseCore.bigSep_erase' (s := fromSet k) (i := (⟨k, h⟩ : Fin 100)) (by simp), from_erase k h, sep_assoc_eq]
/-- Putting the step before's chunk back, written, gives what is at home before the next step. -/
theorem outHome_put (k : ℕ) (h : k < 100) (hk : k ≠ 0) :
    iprop(outAt d L (outv m flat d) ⟨k - 1, by omega⟩
      ∗ (bigSep (fromSet (k + 1)) (outAt d L (m (outLoc d))) ∗ bigSep (doneSet k) (outAt d L (outv m flat d))))
      = outHome m flat d L (k + 1) := by
  unfold outHome
  rw [SparseCore.bigSep_erase' (s := doneSet (k + 1)) (i := (⟨k - 1, by omega⟩ : Fin 100)) (by simp; omega), done_erase k h hk]
  exact sep_left_comm_eq _ _ _
/-- The first step puts nothing back. -/
theorem outHome_put_zero :
    iprop(bigSep (fromSet 1) (outAt d L (m (outLoc d))) ∗ bigSep (doneSet 0) (outAt d L (outv m flat d)))
      = outHome m flat d L 1 := by
  unfold outHome
  simp only [done_zero, done_one]
/-- Before the first step: the tile's hundred chunks as they were. -/
theorem outHome_zero : outChunks d (cL L) (jL L) (m (outLoc d)) = outHome m flat d L 0 := by
  unfold outHome
  rw [from_zero, done_zero, bigSep_empty, sep_emp_eq]
/-- After the last step, with the last chunk put back: the tile's hundred chunks, written. -/
theorem outHome_end :
    iprop(outAt d L (outv m flat d) ⟨99, by omega⟩ ∗ outHome m flat d L 100) = outChunks d (cL L) (jL L) (outv m flat d) := by
  unfold outHome
  rw [from_hundred, done_hundred, bigSep_empty, emp_sep_eq, ← univ_erase 99 (by omega)]
  exact (SparseCore.bigSep_erase' (i := (⟨99, by omega⟩ : Fin 100)) (Finset.mem_univ _)).symm

end Home

end Cert.Proof.KI

end
-- ==== Proof.KI.TripBase.lean ====
/-
  What the three kinds of step (the first, a middle one, the last) share: the tile's base word and one respelling.
-/
import proofs.«206737_g54150947668683_cont_9to1_m_866_22_alg».proof.Proof.KI.ValueAt
import proofs.«206737_g54150947668683_cont_9to1_m_866_22_alg».proof.Proof.KI.Respell
import proofs.«206737_g54150947668683_cont_9to1_m_866_22_alg».proof.Proof.KI.Home

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

/-- A hundred times the tile's number `subcore + 16 core`, as the kernel computes it. -/
def v7Of (L : grid0.Coords) : BitVec 32 :=
  Scalar.muli (Scalar.addi (Scalar.addi 0#32 (Scalar.muli (BitVec.ofNat 32 (L 1).val) 1#32)) (Scalar.muli (BitVec.ofNat 32 (L 0).val) 16#32)) 100#32

omit [FloatOps F] in
/-- A half of the index buffer named with and without its unit axis squeezed away holds the same elements. -/
theorem idx_unsq (off : Fin 3 → ℕ) (inb : ∀ a, off a + S1x1x256.size a ≤ S2x1x256.size a) (f : Buf (Elt F) ((thr d L).loc cc0_scoped0)) :
    idxPtsAt (F := F) d L off inb f
      = (((idxV).slice (Rect.unit (s := S2x1x256) off S1x1x256.size inb) (fun _ => rfl)).view.loc (thr d L)
          ↦[((idxV).slice (Rect.unit (s := S2x1x256) off S1x1x256.size inb) (fun _ => rfl)).view.set]{fullShare} f : sProp 𝕄) := by
  have h : (idxAt off inb).view.set = ((idxV).slice (Rect.unit (s := S2x1x256) off S1x1x256.size inb) (fun _ => rfl)).view.set :=
    View.set_reshape _ _
  exact congrArg (fun S => (((idxV).slice (Rect.unit (s := S2x1x256) off S1x1x256.size inb) (fun _ => rfl)).view.loc (thr d L) ↦[S]{fullShare} f : sProp 𝕄)) h

end Steps

end Cert.Proof.KI

end
-- ==== Proof.KI.TripFirst.lean ====
/-
  The first step of a tile's hundred: it starts the fetch of the next chunk of the flat list into the free half of
  the index buffer, waits for this step's chunk, gathers the table's rows it names into the first half of the row
  buffer and starts copying that half out to this step's chunk of the flat output. No copy-out is in flight yet, so
  there is none to wait for: the second half of the row buffer stays free.
-/
import proofs.«206737_g54150947668683_cont_9to1_m_866_22_alg».proof.Proof.KI.TripBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_first (hin : ∀ d x, ((flat d x : BitVec 32)).toNat < 1000) (O : CellTallies nD τ sig (HIx 1)) (W : Waits sig (HIx 1))
    (k : Fin k0_t1_loop.trips) (hk0 : k.val = 0) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  have hk99 : k.val < 99 := by omega
  unfold k0_t1_body accOf
  -- the conditions and checks at this step
  have h1' := chk1_acc L k
  have h2' := chk2_acc k
  have h3' := chk3_acc k
  have hc3 := cond3_eq L k
  have hc6 := cond6_eq L k
  have hc2 := cond2_pos L k hk99
  have hc8 := cond8_neg L k hk0
  have hkp : k.val + 1 < 100 := by omega
  have m0 : k.val % 2 = 0 := by omega
  have m1 : (k.val + 1) % 2 = 1 := by omega
  -- the pieces this step names, each named both ways
  have e2 : par (k.val + 1 + 1) = par k.val := Fin.ext (by show (k.val + 1 + 1) % 2 = k.val % 2; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb5 : ∀ a, k0_off5 (BitVec.ofNat 32 (1 + min k.val 99)) a + S1x1x256.size a ≤ S2x1x256.size a := fun a => by rw [off5_eq' k hk99]; exact idxRect_inb (par (k.val + 1)) a
  have inb11 : ∀ a, k0_off11 (BitVec.ofNat 32 k.val) a + S1x256x128.size a ≤ S2x256x128.size a := fun a => by rw [off11_eq k]; exact rowRect_inb (par k.val) a
  have inb10 : ∀ a, k0_off10 (BitVec.ofNat 32 k.val) a + S1.size a ≤ S2.size a := fun a => by rw [off10_eq k]; exact semRect_inb (par k.val) a
  have inb7 : ∀ a, k0_off7 (BitVec.ofNat 32 (1 + min k.val 99)) a + S1.size a ≤ S2.size a := fun a => by rw [off7_eq' k hk99]; exact semRect_inb (par (k.val + 1)) a
  have inb15 : ∀ a, k0_off15 (BitVec.ofNat 32 k.val) a + S1.size a ≤ S2.size a := fun a => by rw [off15_eq k]; exact semRect_inb (par k.val) a
  have o9 : k0_off9 L (BitVec.ofNat 32 (k.val % 100)) = ![0, 256 * (gk L ⟨k.val, hk⟩).val] := (off9_eq L k).trans (by simp only [gk, gidx, cL, jL]; rfl)
  have o6 : k0_off6 L (BitVec.ofNat 32 (k.val % 100)) = ![0, 256 * (gk L ⟨k.val + 1, hkp⟩).val] := (off6_eq L k hk99).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have q11 : k0_off11 (BitVec.ofNat 32 k.val) = ![(0 : Fin 2).val, 0, 0] := (off11_eq k).trans (congrArg (fun n : ℕ => (![n, 0, 0] : Fin 3 → ℕ)) m0)
  have q15 : k0_off15 (BitVec.ofNat 32 k.val) = ![(0 : Fin 2).val] := (off15_eq k).trans (congrArg (fun n : ℕ => (![n] : Fin 1 → ℕ)) m0)
  have r1 : (![(1 : Fin 2).val, 0, 0] : Fin 3 → ℕ) = ![(par (k.val + 1)).val, 0, 0] := congrArg (fun n : ℕ => (![n, 0, 0] : Fin 3 → ℕ)) m1.symm
  have s1 : (![(1 : Fin 2).val] : Fin 1 → ℕ) = ![(par (k.val + 1)).val] := congrArg (fun n : ℕ => (![n] : Fin 1 → ℕ)) m1.symm
  have hput : ∀ n : ℕ, n = 0 → iprop(bigSep (fromSet (n + 1)) (outAt d L (m (outLoc d))) ∗ bigSep (doneSet n) (outAt d L (outv m flat d)))
      = outHome m flat d L (n + 1) := fun n hn => by subst hn; exact outHome_put_zero m flat d L
  have inb9 : ∀ a, k0_off9 L (BitVec.ofNat 32 (k.val % 100)) a + S1x256.size a ≤ S1x819200.size a := fun a => by rw [o9]; exact fchunkU_inb _ a
  have inb6 : ∀ a, k0_off6 L (BitVec.ofNat 32 (k.val % 100)) a + S1x256.size a ≤ S1x819200.size a := fun a => by rw [o6]; exact fchunkU_inb _ a
  have inb14 : ∀ a, k0_off14 L (BitVec.ofNat 32 (k.val % 100)) a + S256x128.size a ≤ S819200x128.size a := fun a => by rw [o14]; exact ochunkU_inb _ a
  unfold stepInv inPart outPart
  rw [dif_pos hk, dif_pos hk0, dif_pos hkp, dif_neg (Nat.succ_ne_zero _), dif_pos (show k.val + 1 - 1 < 100 by omega)]
  unfold inFlight outFlight idxFree rowFree
  rw [e2, e3, g3]
  iintro ⟨-, #Hmw, Hsh, Hs0, Hs5, Hfh, Hoh, ⟨⟨%fo, %hfo, Hfin⟩, ⟨%fi', Hi'⟩, Hsi'⟩, ⟨⟨⟨%fr', Hr'⟩, Hsr'⟩, ⟨⟨%fr1, Hr1⟩, Hsr1⟩⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hi' := (Entails.of_eq (idxPtsAt_congr d L (off5_eq' k hk99).symm _ inb5 fi')) $$ Hi'
  ihave Hsi' := (Entails.of_eq (sem1Val_congr (F := F) d L (off7_eq' k hk99).symm _ inb7)) $$ Hsi'
  ihave Hr' := (Entails.of_eq (rowPtsAt_congr d L q11.symm (rowRect_inb 0) inb11 fr')) $$ Hr'
  ihave Hsr' := (Entails.of_eq (sem3Val_congr (F := F) d L q15.symm (semRect_inb 0) inb15)) $$ Hsr'
  ihave Hfx := (Entails.of_eq (flatHome_take flat d L k.val hkp)) $$ Hfh
  icases Hfx with ⟨Hfn, Hfh⟩
  ihave Hfn := (Entails.of_eq ((pts_fchunk (F := F) d L (gk L ⟨k.val + 1, hkp⟩) fullShare (flat d)).symm.trans (fchPtsAt_congr flat d L o6.symm _ inb6))) $$ Hfn
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have inb13 : ∀ a, k0_off13 (BitVec.ofNat 32 k.val) a + S1x256x128.size a ≤ S2x256x128.size a := fun a => by rw [off13_eq k]; exact rowRect_inb (par k.val) a
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq (flatHome_put flat d L k.val hkp).symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh]
  · iapply (Entails.of_eq (hput k.val hk0))
    iexact Hoh
  isplitl [Hsi' Hfin_dst Hfin]
  · isplitl [Hsi']
    · iexists _; isplitr; swap
      · iapply (Entails.of_eq (inFlightAt_congr flat d L (off7_eq' k hk99) (off5_eq' k hk99) o6 inb7 (semRect_inb (par (k.val + 1))) inb5 (idxRect_inb (par (k.val + 1))) inb6 (fchunkU_inb (gk L ⟨k.val + 1, hkp⟩)) _))
        iexact Hsi'
      · ipureintro; exact idx_holds_at flat d L (par (k.val + 1)) (gk L ⟨k.val + 1, hkp⟩) (off5_eq' k hk99) o6 inb5 inb6 fi'
    · isplitl [Hfin_dst]
      · iexists fo
        iapply (Entails.of_eq (idxPtsAt_congr d L (off12_eq k) inb12 (idxRect_inb (par k.val)) fo))
        iapply (Entails.of_eq (idx_unsq (F := F) d L _ inb12 fo).symm)
        iexact Hfin_dst
      · iapply (Entails.of_eq (sem1Val_congr (F := F) d L (off10_eq k) inb10 (semRect_inb (par k.val))))
        iexact Hfin
  isplitl [Hsr' Hr1 Hsr1]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hr1]
      · iexists fr1
        iapply (Entails.of_eq (rowPtsAt_congr d L r1 (rowRect_inb 1) (rowRect_inb (par (k.val + 1))) fr1))
        iexact Hr1
      · iapply (Entails.of_eq (sem3Val_congr (F := F) d L s1 (semRect_inb 1) (semRect_inb (par (k.val + 1)))))
        iexact Hsr1
  iexists _; isplitr; swap; · iexact HO
  ipureintro; intro p hp
  rcases Finset.mem_insert.mp hp with hp | hp; · exact .inr (hp ▸ rfl)
  rcases Finset.mem_insert.mp hp with hp | hp; · exact .inr (hp ▸ rfl)
  exact hW' p hp

end Steps

end Cert.Proof.KI

end
-- ==== Proof.KI.TripMid.lean ====
/-
  A middle step of a tile's hundred (neither the first nor the last): it starts the fetch of the next chunk of the
  flat list into the free half of the index buffer, waits for this step's chunk, gathers the table's rows it names
  into the free half of the row buffer, starts copying that half out to this step's chunk of the flat output, and
  waits for the previous step's copy-out.
-/
import proofs.«206737_g54150947668683_cont_9to1_m_866_22_alg».proof.Proof.KI.TripBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_mid (hin : ∀ d x, ((flat d x : BitVec 32)).toNat < 1000) (O : CellTallies nD τ sig (HIx 1)) (W : Waits sig (HIx 1))
    (k : Fin k0_t1_loop.trips) (hk0 : ¬ k.val = 0) (hk99 : k.val < 99) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  unfold k0_t1_body accOf
  -- the conditions and checks at this step
  have h1' := chk1_acc L k
  have h2' := chk2_acc k
  have h3' := chk3_acc k
  have hc3 := cond3_eq L k
  have hc6 := cond6_eq L k
  have hc2 := cond2_pos L k hk99
  have hc8 := cond8_pos L k hk0
  have hkp : k.val + 1 < 100 := by omega
  have hkm : k.val - 1 < 100 := by omega
  -- the pieces this step names, each named both ways
  have e2 : par (k.val + 1 + 1) = par k.val := Fin.ext (by show (k.val + 1 + 1) % 2 = k.val % 2; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb5 : ∀ a, k0_off5 (BitVec.ofNat 32 (1 + min k.val 99)) a + S1x1x256.size a ≤ S2x1x256.size a := fun a => by rw [off5_eq' k hk99]; exact idxRect_inb (par (k.val + 1)) a
  have inb11 : ∀ a, k0_off11 (BitVec.ofNat 32 k.val) a + S1x256x128.size a ≤ S2x256x128.size a := fun a => by rw [off11_eq k]; exact rowRect_inb (par k.val) a
  have inb16 : ∀ a, k0_off16 (BitVec.ofNat 32 (k.val - 1)) a + S1x256x128.size a ≤ S2x256x128.size a := fun a => by rw [off16_eq k]; exact rowRect_inb (par (k.val - 1)) a
  have inb10 : ∀ a, k0_off10 (BitVec.ofNat 32 k.val) a + S1.size a ≤ S2.size a := fun a => by rw [off10_eq k]; exact semRect_inb (par k.val) a
  have inb7 : ∀ a, k0_off7 (BitVec.ofNat 32 (1 + min k.val 99)) a + S1.size a ≤ S2.size a := fun a => by rw [off7_eq' k hk99]; exact semRect_inb (par (k.val + 1)) a
  have inb15 : ∀ a, k0_off15 (BitVec.ofNat 32 k.val) a + S1.size a ≤ S2.size a := fun a => by rw [off15_eq k]; exact semRect_inb (par k.val) a
  have inb18 : ∀ a, k0_off18 (BitVec.ofNat 32 (k.val - 1)) a + S1.size a ≤ S2.size a := fun a => by rw [off18_eq k]; exact semRect_inb (par (k.val - 1)) a
  have o9 : k0_off9 L (BitVec.ofNat 32 (k.val % 100)) = ![0, 256 * (gk L ⟨k.val, hk⟩).val] := (off9_eq L k).trans (by simp only [gk, gidx, cL, jL]; rfl)
  have o6 : k0_off6 L (BitVec.ofNat 32 (k.val % 100)) = ![0, 256 * (gk L ⟨k.val + 1, hkp⟩).val] := (off6_eq L k hk99).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have o17 : k0_off17 L (BitVec.ofNat 32 (k.val % 100)) = ![256 * (gk L ⟨k.val - 1, hkm⟩).val, 0] := (off17_eq L k hk0).trans (by simp only [gk, gidx, cL, jL]; rfl)
  have inb9 : ∀ a, k0_off9 L (BitVec.ofNat 32 (k.val % 100)) a + S1x256.size a ≤ S1x819200.size a := fun a => by rw [o9]; exact fchunkU_inb _ a
  have inb6 : ∀ a, k0_off6 L (BitVec.ofNat 32 (k.val % 100)) a + S1x256.size a ≤ S1x819200.size a := fun a => by rw [o6]; exact fchunkU_inb _ a
  have inb14 : ∀ a, k0_off14 L (BitVec.ofNat 32 (k.val % 100)) a + S256x128.size a ≤ S819200x128.size a := fun a => by rw [o14]; exact ochunkU_inb _ a
  have inb17 : ∀ a, k0_off17 L (BitVec.ofNat 32 (k.val % 100)) a + S256x128.size a ≤ S819200x128.size a := fun a => by rw [o17]; exact ochunkU_inb _ a
  unfold stepInv inPart outPart
  rw [dif_pos hk, dif_neg hk0, dif_pos hkm, dif_pos hkp, dif_neg (Nat.succ_ne_zero _), dif_pos (show k.val + 1 - 1 < 100 by omega)]
  unfold inFlight outFlight idxFree rowFree
  rw [e2, e3, g3]
  iintro ⟨-, #Hmw, Hsh, Hs0, Hs5, Hfh, Hoh, ⟨⟨%fo, %hfo, Hfin⟩, ⟨%fi', Hi'⟩, Hsi'⟩, ⟨⟨%fo2, %fr2, %hfo2, Hfout⟩, ⟨%fr', Hr'⟩, Hsr'⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hi' := (Entails.of_eq (idxPtsAt_congr d L (off5_eq' k hk99).symm _ inb5 fi')) $$ Hi'
  ihave Hsi' := (Entails.of_eq (sem1Val_congr (F := F) d L (off7_eq' k hk99).symm _ inb7)) $$ Hsi'
  ihave Hfout := (Entails.of_eq (outFlightAt_congr d L (off18_eq k).symm (off16_eq k).symm o17.symm _ inb18 _ inb16 _ inb17 fo2 fr2)) $$ Hfout
  ihave Hr' := (Entails.of_eq (rowPtsAt_congr d L (off11_eq k).symm _ inb11 fr')) $$ Hr'
  ihave Hsr' := (Entails.of_eq (sem3Val_congr (F := F) d L (off15_eq k).symm _ inb15)) $$ Hsr'
  ihave Hfx := (Entails.of_eq (flatHome_take flat d L k.val hkp)) $$ Hfh
  icases Hfx with ⟨Hfn, Hfh⟩
  ihave Hfn := (Entails.of_eq ((pts_fchunk (F := F) d L (gk L ⟨k.val + 1, hkp⟩) fullShare (flat d)).symm.trans (fchPtsAt_congr flat d L o6.symm _ inb6))) $$ Hfn
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have inb13 : ∀ a, k0_off13 (BitVec.ofNat 32 k.val) a + S1x256x128.size a ≤ S2x256x128.size a := fun a => by rw [off13_eq k]; exact rowRect_inb (par k.val) a
  have hpm : (k.val + 1) % 2 = (k.val - 1) % 2 := by omega
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq (flatHome_put flat d L k.val hkp).symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh Hfout_dst]
  · iapply (Entails.of_eq (outHome_put m flat d L k.val hk hk0))
    isplitl [Hfout_dst]
    · iapply (out_done m flat d L hfo2)
      iapply (Entails.of_eq (ochPtsAt_congr d L o17 inb17 (ochunkU_inb (gk L ⟨k.val - 1, hkm⟩)) fo2))
      iexact Hfout_dst
    · iexact Hoh
  isplitl [Hsi' Hfin_dst Hfin]
  · isplitl [Hsi']
    · iexists _; isplitr; swap
      · iapply (Entails.of_eq (inFlightAt_congr flat d L (off7_eq' k hk99) (off5_eq' k hk99) o6 inb7 (semRect_inb (par (k.val + 1))) inb5 (idxRect_inb (par (k.val + 1))) inb6 (fchunkU_inb (gk L ⟨k.val + 1, hkp⟩)) _))
        iexact Hsi'
      · ipureintro; exact idx_holds_at flat d L (par (k.val + 1)) (gk L ⟨k.val + 1, hkp⟩) (off5_eq' k hk99) o6 inb5 inb6 fi'
    · isplitl [Hfin_dst]
      · iexists fo
        iapply (Entails.of_eq (idxPtsAt_congr d L (off12_eq k) inb12 (idxRect_inb (par k.val)) fo))
        iapply (Entails.of_eq (idx_unsq (F := F) d L _ inb12 fo).symm)
        iexact Hfin_dst
      · iapply (Entails.of_eq (sem1Val_congr (F := F) d L (off10_eq k) inb10 (semRect_inb (par k.val))))
        iexact Hfin
  isplitl [Hsr' Hfout_src Hfout]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hfout_src]
      · iexists fr2
        iapply (Entails.of_eq (rowPtsAt_congr d L ((off16_eq k).trans (by show ![(k.val - 1) % 2, 0, 0] = ![(k.val + 1) % 2, 0, 0]; rw [hpm])) inb16 (rowRect_inb (par (k.val + 1))) fr2))
        iexact Hfout_src
      · iapply (Entails.of_eq (sem3Val_congr (F := F) d L ((off18_eq k).trans (by show ![(k.val - 1) % 2] = ![(k.val + 1) % 2]; rw [hpm])) inb18 (semRect_inb (par (k.val + 1)))))
        iexact Hfout
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Steps

end Cert.Proof.KI

end
-- ==== Proof.KI.TripLast.lean ====
/-
  The last of a tile's hundred steps: nothing is left to fetch; it waits for its chunk of the flat list, gathers the
  rows it names, starts copying them out to the last chunk of the flat output, and waits for the previous step's
  copy-out. After it both halves of the index buffer are free and every chunk of the flat list is at home.
-/
import proofs.«206737_g54150947668683_cont_9to1_m_866_22_alg».proof.Proof.KI.TripBase

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_last (hin : ∀ d x, ((flat d x : BitVec 32)).toNat < 1000) (O : CellTallies nD τ sig (HIx 1)) (W : Waits sig (HIx 1))
    (k : Fin k0_t1_loop.trips) (hk99 : ¬ k.val < 99) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  have hke : k.val = 99 := by omega
  have hk0 : ¬ k.val = 0 := by omega
  unfold k0_t1_body accOf
  -- the conditions and checks at this step
  have h1' := chk1_acc L k
  have h2' := chk2_acc k
  have h3' := chk3_acc k
  have hc3 := cond3_eq L k
  have hc6 := cond6_eq L k
  have hc2 := cond2_neg L k hk99
  have hc8 := cond8_pos L k hk0
  have hkm : k.val - 1 < 100 := by omega
  -- the pieces this step names, each named both ways
  have ep : par (k.val + 1) = 0 := Fin.ext (by show (k.val + 1) % 2 = 0; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb11 : ∀ a, k0_off11 (BitVec.ofNat 32 k.val) a + S1x256x128.size a ≤ S2x256x128.size a := fun a => by rw [off11_eq k]; exact rowRect_inb (par k.val) a
  have inb16 : ∀ a, k0_off16 (BitVec.ofNat 32 (k.val - 1)) a + S1x256x128.size a ≤ S2x256x128.size a := fun a => by rw [off16_eq k]; exact rowRect_inb (par (k.val - 1)) a
  have inb10 : ∀ a, k0_off10 (BitVec.ofNat 32 k.val) a + S1.size a ≤ S2.size a := fun a => by rw [off10_eq k]; exact semRect_inb (par k.val) a
  have inb15 : ∀ a, k0_off15 (BitVec.ofNat 32 k.val) a + S1.size a ≤ S2.size a := fun a => by rw [off15_eq k]; exact semRect_inb (par k.val) a
  have inb18 : ∀ a, k0_off18 (BitVec.ofNat 32 (k.val - 1)) a + S1.size a ≤ S2.size a := fun a => by rw [off18_eq k]; exact semRect_inb (par (k.val - 1)) a
  have o9 : k0_off9 L (BitVec.ofNat 32 (k.val % 100)) = ![0, 256 * (gk L ⟨k.val, hk⟩).val] := (off9_eq L k).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have o17 : k0_off17 L (BitVec.ofNat 32 (k.val % 100)) = ![256 * (gk L ⟨k.val - 1, hkm⟩).val, 0] := (off17_eq L k hk0).trans (by simp only [gk, gidx, cL, jL]; rfl)
  have inb9 : ∀ a, k0_off9 L (BitVec.ofNat 32 (k.val % 100)) a + S1x256.size a ≤ S1x819200.size a := fun a => by rw [o9]; exact fchunkU_inb _ a
  have inb14 : ∀ a, k0_off14 L (BitVec.ofNat 32 (k.val % 100)) a + S256x128.size a ≤ S819200x128.size a := fun a => by rw [o14]; exact ochunkU_inb _ a
  have inb17 : ∀ a, k0_off17 L (BitVec.ofNat 32 (k.val % 100)) a + S256x128.size a ≤ S819200x128.size a := fun a => by rw [o17]; exact ochunkU_inb _ a
  unfold stepInv inPart outPart
  rw [dif_pos hk, dif_neg hk0, dif_pos hkm, dif_neg (show ¬ k.val + 1 < 100 by omega), dif_neg (Nat.succ_ne_zero _), dif_pos (show k.val + 1 - 1 < 100 by omega)]
  unfold inFlight outFlight idxFree rowFree
  rw [ep, e3, g3]
  iintro ⟨-, #Hmw, Hsh, Hs0, Hs5, Hfh, Hoh, ⟨⟨%fo, %hfo, Hfin⟩, ⟨%fi', Hi'⟩, Hsi'⟩, ⟨⟨%fo2, %fr2, %hfo2, Hfout⟩, ⟨%fr', Hr'⟩, Hsr'⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hfout := (Entails.of_eq (outFlightAt_congr d L (off18_eq k).symm (off16_eq k).symm o17.symm _ inb18 _ inb16 _ inb17 fo2 fr2)) $$ Hfout
  ihave Hr' := (Entails.of_eq (rowPtsAt_congr d L (off11_eq k).symm _ inb11 fr')) $$ Hr'
  ihave Hsr' := (Entails.of_eq (sem3Val_congr (F := F) d L (off15_eq k).symm _ inb15)) $$ Hsr'
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have hlast : flatHome flat d L (k.val + 1) = iprop(flatAt flat d L ⟨k.val, hk⟩ ∗ flatHome flat d L k.val) := by
    have e : k = ⟨99, by decide⟩ := Fin.ext hke
    subst e; exact flatHome_last flat d L
  have inb13 : ∀ a, k0_off13 (BitVec.ofNat 32 k.val) a + S1x256x128.size a ≤ S2x256x128.size a := fun a => by rw [off13_eq k]; exact rowRect_inb (par k.val) a
  have hpm : (k.val + 1) % 2 = (k.val - 1) % 2 := by omega
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq hlast.symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh Hfout_dst]
  · iapply (Entails.of_eq (outHome_put m flat d L k.val hk hk0))
    isplitl [Hfout_dst]
    · iapply (out_done m flat d L hfo2)
      iapply (Entails.of_eq (ochPtsAt_congr d L o17 inb17 (ochunkU_inb (gk L ⟨k.val - 1, hkm⟩)) fo2))
      iexact Hfout_dst
    · iexact Hoh
  isplitl [Hi' Hsi' Hfin_dst Hfin]
  · isplitl [Hi' Hsi']
    · isplitl [Hi']
      · iexists fi'; iexact Hi'
      · iexact Hsi'
    · isplitl [Hfin_dst]
      · iexists fo
        iapply (Entails.of_eq (idxPtsAt_congr d L ((off12_eq k).trans (by show ![k.val % 2, 0, 0] = ![(1 : Fin 2).val, 0, 0]; rw [show k.val % 2 = 1 by omega]; rfl)) inb12 (idxRect_inb 1) fo))
        iapply (Entails.of_eq (idx_unsq (F := F) d L _ inb12 fo).symm)
        iexact Hfin_dst
      · iapply (Entails.of_eq (sem1Val_congr (F := F) d L ((off10_eq k).trans (by show ![k.val % 2] = ![(1 : Fin 2).val]; rw [show k.val % 2 = 1 by omega]; rfl)) inb10 (semRect_inb 1)))
        iexact Hfin
  isplitl [Hsr' Hfout_src Hfout]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hfout_src]
      · iexists fr2
        iapply (Entails.of_eq (rowPtsAt_congr d L ((off16_eq k).trans (by show ![(k.val - 1) % 2, 0, 0] = ![(0 : Fin 2).val, 0, 0]; rw [show (k.val - 1) % 2 = 0 by omega]; rfl)) inb16 (rowRect_inb 0) fr2))
        iexact Hfout_src
      · iapply (Entails.of_eq (sem3Val_congr (F := F) d L ((off18_eq k).trans (by show ![(k.val - 1) % 2] = ![(0 : Fin 2).val]; rw [show (k.val - 1) % 2 = 0 by omega]; rfl)) inb18 (semRect_inb 0)))
        iexact Hfout
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Steps

end Cert.Proof.KI

end
-- ==== Proof.KI.Trip.lean ====
/-
  One of a tile's hundred steps, whichever it is: from what the tile holds before step `k` to what it holds before
  step `k + 1`. The carried words can only be those of step `k`; the step is the first, a middle one, or the last.
-/
import proofs.«206737_g54150947668683_cont_9to1_m_866_22_alg».proof.Proof.KI.TripFirst
import proofs.«206737_g54150947668683_cont_9to1_m_866_22_alg».proof.Proof.KI.TripMid
import proofs.«206737_g54150947668683_cont_9to1_m_866_22_alg».proof.Proof.KI.TripLast

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

theorem trip (hin : ∀ d x, ((flat d x : BitVec 32)).toNat < 1000) (O : CellTallies nD τ sig (HIx 1)) (W : Waits sig (HIx 1))
    (k : Fin k0_t1_loop.trips) (acc : BitVec 32 × BitVec 32 × BitVec 32 × BitVec 32 × BitVec 32) :
    stepInv m flat d L O W k.val acc
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k acc)
          (stepInv m flat d L O W (k.val + 1)) := by
  by_cases hacc : acc = accOf k.val
  swap
  · unfold stepInv; iintro ⟨%h, -⟩; exact absurd h hacc
  subst hacc
  by_cases hk0 : k.val = 0
  · exact trip_first m flat d L hin O W k hk0
  by_cases hk99 : k.val < 99
  · exact trip_mid m flat d L hin O W k hk0 hk99
  · exact trip_last m flat d L hin O W k hk99

end Steps

end Cert.Proof.KI

end
-- ==== Proof.KI.Joins.lean ====
/-
  The two halves of a double buffer, each held at contents of its own, are the buffer held whole at some contents: the
  halves are disjoint and make up the buffer, so the contents that agree with each half's on that half will do.
-/
import proofs.«206737_g54150947668683_cont_9to1_m_866_22_alg».proof.Proof.KI.Inv
import proofs.«206737_g54150947668683_cont_9to1_m_866_22_alg».proof.Proof.KI.Chunks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Tile

variable (d : Dev nD) (L : grid0.Coords)

theorem idxSets_union : idxSet 0 ∪ idxSet 1 = Finset.univ := by
  rw [← idxSlots_cover, show (Finset.univ : Finset (Fin 2)) = {0, 1} by decide, Finset.biUnion_insert, Finset.singleton_biUnion]
theorem rowSets_union : rowSet2 0 ∪ rowSet2 1 = Finset.univ := by
  rw [← rowSlots_cover, show (Finset.univ : Finset (Fin 2)) = {0, 1} by decide, Finset.biUnion_insert, Finset.singleton_biUnion]

/-- The index buffer's halves at contents `f0` and `f1` are the buffer whole at the contents that are `f1` on the
    second half and `f0` elsewhere. -/
theorem idx_join_at (f0 f1 : Buf (Elt F) ((thr d L).loc cc0_scoped0)) :
    iprop(((thr d L).loc cc0_scoped0 ↦[idxSet 0]{fullShare} f0) ∗ ((thr d L).loc cc0_scoped0 ↦[idxSet 1]{fullShare} f1))
      ⊢ ((thr d L).loc cc0_scoped0 ↦{fullShare} (idxSet 1).piecewise f1 f0 : sProp 𝕄) :=
  (pointsTo_join (idxSlots_disjoint 0 (Finset.mem_univ _) 1 (Finset.mem_univ _) (by decide))).trans
    (Entails.of_eq (by rw [idxSets_union]))
/-- The row buffer's likewise. -/
theorem row_join_at (f0 f1 : Buf (Elt F) ((thr d L).loc cc0_scoped2)) :
    iprop(((thr d L).loc cc0_scoped2 ↦[rowSet2 0]{fullShare} f0) ∗ ((thr d L).loc cc0_scoped2 ↦[rowSet2 1]{fullShare} f1))
      ⊢ ((thr d L).loc cc0_scoped2 ↦{fullShare} (rowSet2 1).piecewise f1 f0 : sProp 𝕄) :=
  (pointsTo_join (rowSlots_disjoint 0 (Finset.mem_univ _) 1 (Finset.mem_univ _) (by decide))).trans
    (Entails.of_eq (by rw [rowSets_union]))

/-- The index buffer's two halves, each at some contents, are the buffer whole at some contents. -/
theorem idx_join :
    iprop((∃ f, idxPts d L 0 f) ∗ (∃ f, idxPts d L 1 f)) ⊢ (iprop(∃ f, (thr d L).loc cc0_scoped0 ↦{fullShare} f) : sProp 𝕄) := by
  iintro ⟨⟨%f0, H0⟩, ⟨%f1, H1⟩⟩
  iexists _
  iapply (idx_join_at d L f0 f1)
  isplitl [H0]; · iexact H0
  iexact H1
/-- The row buffer's likewise. -/
theorem row_join :
    iprop((∃ f, rowPts d L 0 f) ∗ (∃ f, rowPts d L 1 f)) ⊢ (iprop(∃ f, (thr d L).loc cc0_scoped2 ↦{fullShare} f) : sProp 𝕄) := by
  iintro ⟨⟨%f0, H0⟩, ⟨%f1, H1⟩⟩
  iexists _
  iapply (row_join_at d L f0 f1)
  isplitl [H0]; · iexact H0
  iexact H1

end Tile

end Cert.Proof.KI

end
-- ==== Proof.KI.Body.lean ====
/-
  One tile's task. A tile whose subcore number is below five copies its chunk of the table into the SparseCore's
  shared memory and waits for the copy; all sixteen tiles of the SparseCore meet at the subcore barrier; then the tile
  runs its hundred steps: the first fetch issued before the loop, one step per trip, the last copy awaited after it.
-/
import proofs.«206737_g54150947668683_cont_9to1_m_866_22_alg».proof.Proof.KI.StageValue
import proofs.«206737_g54150947668683_cont_9to1_m_866_22_alg».proof.Proof.KI.ValueAt
import proofs.«206737_g54150947668683_cont_9to1_m_866_22_alg».proof.Proof.KI.Home
import proofs.«206737_g54150947668683_cont_9to1_m_866_22_alg».proof.Proof.KI.Trip
import proofs.«206737_g54150947668683_cont_9to1_m_866_22_alg».proof.Proof.KI.Joins

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-- The first and the last of a tile's hundred steps. -/
abbrev k00 : Fin 100 := ⟨0, by omega⟩
abbrev k99 : Fin 100 := ⟨99, by omega⟩
/-- The staging copy's semaphore: number 0 of the tile's six, with its bound. -/
abbrev z6 : Fin 6 := ⟨0, by decide⟩

/-! ## The pieces, by their numbers and by the offsets the program computes for them -/

omit [FloatOps F] in
theorem semVal_congr {n s : Fin 6} (h : n = s) : (semVal (dcell d L n) 0 : sProp 𝕄) = semVal (dcell d L s) 0 := by subst h; rfl
omit [FloatOps F] in
theorem idxPts_congr {p p' : Fin 2} (h : p = p') (f : Buf (Elt F) ((thr d L).loc cc0_scoped0)) : idxPts (F := F) d L p f = idxPts d L p' f := by subst h; rfl
omit [FloatOps F] in
theorem rowPts_congr {p p' : Fin 2} (h : p = p') (f : Buf (Elt F) ((thr d L).loc cc0_scoped2)) : rowPts (F := F) d L p f = rowPts d L p' f := by subst h; rfl

omit [FloatOps F] in
/-- The first fetch in flight, its pieces named by the offsets the program computes before the loop, is the fetch of
    the tile's first chunk into half 0. -/
theorem inFlight_first (fo : Buf (Elt F) ((thr d L).loc cc0_scoped0)) :
    (Transfers.Flight countersEmb (thr d L) (SemLoc.dma (⟨1, by decide⟩ : Fin 6)) (default : HIx 1) 8192
        iprop(idxPtsAt d L k0_off2 Facts₀.k0_off2_inb fo ∗ fchPtsAt flat d L (k0_off3 L) (Facts₀.k0_off3_inb L)) : sProp 𝕄)
      = inFlightAt flat d L ![(par 0).val] (semRect_inb (par 0)) ![(par 0).val, 0, 0] (idxRect_inb (par 0))
          ![0, 256 * (gk L k00).val] (fchunkU_inb (gk L k00)) fo := by
  have hsem : (⟨1, by decide⟩ : Fin 6) = sem1At ![(par 0).val] (semRect_inb (par 0)) := by decide
  have o3 : k0_off3 L = ![0, 256 * (gk L k00).val] := (off3_eq L).trans (by simp only [gk, gidx, cL, jL]; rfl)
  have o2 : k0_off2 = ![(par 0).val, 0, 0] := k0_off2_eq.trans (by decide)
  rw [hsem]
  exact inFlightAt_congr (F := F) flat d L (o1 := ![(par 0).val]) rfl o2 o3 (semRect_inb (par 0)) (semRect_inb (par 0))
    Facts₀.k0_off2_inb (idxRect_inb (par 0)) (Facts₀.k0_off3_inb L) (fchunkU_inb (gk L k00)) fo

omit [FloatOps F] in
/-- What the tile holds before its first step. -/
theorem inv_zero (O : CellTallies nD τ sig (HIx 1)) (W₁ : Waits sig (HIx 1))
    (fo fi1 : Buf (Elt F) ((thr d L).loc cc0_scoped0)) (fr0 fr1 : Buf (Elt F) ((thr d L).loc cc0_scoped2))
    (hfo : IdxHolds flat d L (par 0) (gk L k00) fo) :
    iprop(Transfers.MayWaits (thr d L) (default : HIx 1) O ∗ shPts m d L ∗ semVal (dcell d L 0) 0 ∗ semVal (dcell d L 5) 0
        ∗ flatHome flat d L 0 ∗ outChunks d (cL L) (jL L) (m (outLoc d))
        ∗ inFlightAt flat d L ![(par 0).val] (semRect_inb (par 0)) ![(par 0).val, 0, 0] (idxRect_inb (par 0))
            ![0, 256 * (gk L k00).val] (fchunkU_inb (gk L k00)) fo
        ∗ (idxPts d L (par (0 + 1)) fi1 ∗ semVal (dcell d L (sem1At ![(par (0 + 1)).val] (semRect_inb (par (0 + 1))))) 0)
        ∗ (rowPts d L 0 fr0 ∗ semVal (dcell d L (sem3At ![(0 : Fin 2).val] (semRect_inb 0))) 0)
        ∗ (rowPts d L 1 fr1 ∗ semVal (dcell d L (sem3At ![(1 : Fin 2).val] (semRect_inb 1))) 0)
        ∗ owes (thr d L) O W₁)
      ⊢ stepInv m flat d L O W₁ 0 (1#32, 0#32, 0#32, 0#32, 0#32) := by
  unfold stepInv inPart outPart
  rw [dif_pos (show 0 < 100 by omega), dif_pos rfl, ← outHome_zero]
  unfold inFlight idxFree rowFree
  iintro ⟨Hmw, Hsh, Hs0, Hs5, Hfh, Hout, Hfl, ⟨Hi1, Hs2⟩, ⟨Hr0, Hs3⟩, ⟨Hr1, Hs4⟩, HO⟩
  isplitr; · ipureintro; rfl
  isplitl [Hmw]; · iexact Hmw
  isplitl [Hsh]; · iexact Hsh
  isplitl [Hs0]; · iexact Hs0
  isplitl [Hs5]; · iexact Hs5
  isplitl [Hfh]; · iexact Hfh
  isplitl [Hout]; · iexact Hout
  isplitl [Hfl Hi1 Hs2]
  · isplitl [Hfl]
    · iexists fo; isplitr; · ipureintro; exact hfo
      iexact Hfl
    isplitl [Hi1]; · iexists fi1; iexact Hi1
    iexact Hs2
  isplitl [Hr0 Hs3 Hr1 Hs4]
  · isplitl [Hr0 Hs3]
    · isplitl [Hr0]; · iexists fr0; iexact Hr0
      iexact Hs3
    isplitl [Hr1]; · iexists fr1; iexact Hr1
    iexact Hs4
  iexists W₁; isplitr
  · ipureintro; exact fun p hp => Or.inl hp
  iexact HO

/-- The loop runs a hundred trips. -/
theorem trips_eq : Scf.trips k0_t1_loop.lb k0_t1_loop.ub k0_t1_loop.st = 100 := by decide +kernel

omit [FloatOps F] in
/-- What the tile holds after its last step: both halves of the index buffer free, the last copy out in flight. -/
theorem inv_end (O : CellTallies nD τ sig (HIx 1)) (W₁ : Waits sig (HIx 1)) (acc : BitVec 32 × BitVec 32 × BitVec 32 × BitVec 32 × BitVec 32) :
    stepInv m flat d L O W₁ (Scf.trips k0_t1_loop.lb k0_t1_loop.ub k0_t1_loop.st) acc
      ⊢ iprop(⌜acc = (BitVec.ofNat 32 100, BitVec.ofNat 32 100, BitVec.ofNat 32 100, BitVec.ofNat 32 99, BitVec.ofNat 32 0)⌝
          ∗ shPts m d L ∗ semVal (dcell d L 0) 0 ∗ semVal (dcell d L 5) 0
          ∗ flatHome flat d L 100 ∗ outHome m flat d L 100
          ∗ (((∃ f, idxPts d L 0 f) ∗ semVal (dcell d L (sem1At ![(0 : Fin 2).val] (semRect_inb 0))) 0)
            ∗ ((∃ f, idxPts d L 1 f) ∗ semVal (dcell d L (sem1At ![(1 : Fin 2).val] (semRect_inb 1))) 0))
          ∗ ((∃ fo fr, ⌜OutHolds m flat d (gk L k99) fo⌝ ∗ outFlightAt d L ![(par 99).val] (semRect_inb (par 99)) ![(par 99).val, 0, 0] (rowRect_inb (par 99))
                ![256 * (gk L k99).val, 0] (ochunkU_inb (gk L k99)) fo fr)
            ∗ ((∃ f, rowPts d L (par 100) f) ∗ semVal (dcell d L (sem3At ![(par 100).val] (semRect_inb (par 100)))) 0))
          ∗ ∃ W', ⌜∀ p ∈ W', p ∈ W₁ ∨ p.2 = none⌝ ∗ owes (thr d L) O W') := by
  rw [trips_eq]
  unfold stepInv inPart outPart
  rw [dif_neg (by omega : ¬ 100 < 100), dif_neg (by omega : ¬ 100 = 0), dif_pos (by omega : 100 - 1 < 100)]
  unfold idxFree rowFree outFlight
  show iprop(⌜acc = accOf 100⌝ ∗ Transfers.MayWaits (thr d L) (default : HIx 1) O
      ∗ shPts m d L ∗ semVal (dcell d L 0) 0 ∗ semVal (dcell d L 5) 0
      ∗ flatHome flat d L 100 ∗ outHome m flat d L 100
      ∗ (((∃ f, idxPts d L 0 f) ∗ semVal (dcell d L (sem1At ![(0 : Fin 2).val] (semRect_inb 0))) 0)
        ∗ ((∃ f, idxPts d L 1 f) ∗ semVal (dcell d L (sem1At ![(1 : Fin 2).val] (semRect_inb 1))) 0))
      ∗ ((∃ fo fr, ⌜OutHolds m flat d (gk L k99) fo⌝ ∗ outFlightAt d L ![(par 99).val] (semRect_inb (par 99)) ![(par 99).val, 0, 0] (rowRect_inb (par 99))
            ![256 * (gk L k99).val, 0] (ochunkU_inb (gk L k99)) fo fr)
        ∗ ((∃ f, rowPts d L (par 100) f) ∗ semVal (dcell d L (sem3At ![(par 100).val] (semRect_inb (par 100)))) 0))
      ∗ ∃ W', ⌜∀ p ∈ W', p ∈ W₁ ∨ p.2 = none⌝ ∗ owes (thr d L) O W') ⊢ _
  iintro ⟨%h, -, H⟩
  isplitr; · ipureintro; exact h.trans accOf_hundred
  iexact H

omit [FloatOps F] in
/-- What a tile hands back of the staged table. -/
theorem shTd_intro (c : Fin τ.nSC) (i : Fin 16) : iprop((shLoc d c ↦{qS i} tabS m d c) ∗ shKeep m d c i) ⊢ shTd (F := F) m d c i := by
  unfold shTd; exact BI.Entails.refl _

omit [FloatOps F] in
/-- Every wait recorded by the end is one the tile started with, or sits at no call's index or at this call's. -/
theorem waits_ok {W W0 W' : Waits sig (HIx 1)} {a : SemLoc sig × HIx 1} (ha : a.2 = none) (hW0 : ∀ p ∈ W0, p ∈ W ∨ p.2 = none)
    (hW' : ∀ p ∈ W', p ∈ insert (SemLoc.reg sc_bar0, some (0 : Fin 1)) W0 ∨ p.2 = none) :
    ∀ p ∈ insert a W', p ∈ W ∨ p.2 = none ∨ p.2 = some (0 : Fin 1) := by
  intro p hp
  rcases Finset.mem_insert.mp hp with rfl | hp
  · exact .inr (.inl ha)
  rcases hW' p hp with h | h
  · rcases Finset.mem_insert.mp h with rfl | h
    · exact .inr (.inr rfl)
    · rcases hW0 p h with h | h
      · exact .inl h
      · exact .inr (.inl h)
  · exact .inr (.inl h)

/-! ## What a tile is handed for the staging, as the staging names it -/

omit [FloatOps F] in
/-- A tile that stages holds its chunk of the table, -/
theorem tabGo_pos (h1 : k0_cond1 L = 1#1) (hlt : (jL L).val < 5) :
    tabGo m d (cL L) (jL L) = ((stTab L h1).view.loc (thr d L) ↦[(stTab L h1).view.set]{qC (cL L)} m (tabLoc d) : sProp 𝕄) := by
  unfold tabGo; rw [dif_pos hlt, pts_stTab d L h1 hlt]
omit [FloatOps F] in
/-- and the chunk of the shared memory it fills, at some contents. -/
theorem shGo_pos (h1 : k0_cond1 L = 1#1) (hlt : (jL L).val < 5) :
    shGo (F := F) d (cV L) (jL L) ⊢ (iprop(∃ f, (stSh L h1).view.loc (thr d L) ↦[(stSh L h1).view.set]{fullShare} f) : sProp 𝕄) := by
  unfold shGo; rw [dif_pos hlt]
  iintro ⟨%f, H⟩
  iexists f
  iapply (Entails.of_eq (pts_stSh (F := F) d L h1 hlt fullShare f).symm); iexact H
omit [FloatOps F] in
/-- The index buffer whole is its two halves, the row buffer likewise: by their numbers. -/
theorem pts_idx' (f : Buf (Elt F) ((thr d L).loc cc0_scoped0)) :
    ((thr d L).loc cc0_scoped0 ↦{fullShare} f : sProp 𝕄) = iprop(idxPts d L 0 f ∗ idxPts d L 1 f) := pts_idx d L f
omit [FloatOps F] in
theorem pts_row' (f : Buf (Elt F) ((thr d L).loc cc0_scoped2)) :
    ((thr d L).loc cc0_scoped2 ↦{fullShare} f : sProp 𝕄) = iprop(rowPts d L 0 f ∗ rowPts d L 1 f) := pts_row d L f
omit [FloatOps F] in
/-- A tile that does not stage is handed nothing and has staged nothing. -/
theorem shGo_neg (hn : ¬ (jL L).val < 5) : shGo (F := F) d (cV L) (jL L) = shStaged m d (cV L) (jL L) := by
  unfold shGo shStaged; rw [dif_neg hn, dif_neg hn]

set_option maxHeartbeats 4000000 in
theorem tile_body (hin : ∀ d x, ((flat d x : BitVec 32)).toNat < 1000) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tabGo m d (cL L) (jL L) ∗ flatChunks flat d (cL L) (jL L) ∗ outChunks d (cL L) (jL L) (m (outLoc d)) ∗ shGo d (cV L) (jL L))
        ∗ scopedBufs (thr d L) ∗ scopedSems0 (thr d L) ∗ owes (thr d L) (O + oxV d (cV L)) W)
      ⊢ wp frame (wpE (defs₀ (F := F)) 𝒱₀ (thr d L) none) Set.univ
          (cc0_sc_gather L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4)
          fun _ => iprop((tabGo m d (cL L) (jL L) ∗ flatChunks flat d (cL L) (jL L) ∗ outChunks d (cL L) (jL L) (outv m flat d) ∗ shTd m d (cV L) (jL L))
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0_sc_gather_eq_skeleton]; unfold cc0_sc_gather_skel
  simp only [k0_part4_eq_skeleton]; unfold k0_part4_skel
  rw [(K (F := F)).scopedBufs_V hF d (cV L) (jV L), SparseCore.Cfg.scopedSems0_V (Val := Elt F) d (cV L) (jV L), ownSems0_V, ownBufs_V]
  unfold bkit
  have hO' : ∀ g, (O + oxV d (cV L)) g none = 0 := fun g => by rw [Pi.add_apply, Finsupp.add_apply, hO g, oxV_none]
  -- the tile's first chunk of the flat list, as the first fetch names it
  have o3 : k0_off3 L = ![0, 256 * (gk L k00).val] := (off3_eq L).trans (by simp only [gk, gidx, cL, jL]; rfl)
  -- one step of the loop, the tile's base word spelt out
  have hreg : ∀ (W₁ : Waits sig (HIx 1)) (k : Fin (Scf.trips k0_t1_loop.lb k0_t1_loop.ub k0_t1_loop.st))
      (acc : BitVec 32 × BitVec 32 × BitVec 32 × BitVec 32 × BitVec 32),
      stepInv m flat d L O W₁ k.val acc ⊢ wp frame (wpE (defs₀ (F := F)) 𝒱₀ (thr d L) none) Set.univ
        (k0_t1_body L tabV (Memref.isWhole_whole _) flatV (Memref.isWhole_whole _) outV (Memref.isWhole_whole _) shV (Memref.isWhole_whole _)
          cc0_scratch1 idxV (Memref.isWhole_whole _) cc0_scoped1 rowV (Memref.isWhole_whole _) cc0_scoped3 cc0_scoped4
          (Scalar.muli (Scalar.addi (Scalar.addi 0#32 (Scalar.muli (BitVec.ofNat 32 (L 1).val) 1#32)) (Scalar.muli (BitVec.ofNat 32 (L 0).val) 16#32)) 100#32) k acc)
        (stepInv m flat d L O W₁ (k.val + 1)) :=
    fun W₁ k acc => trip m flat d L hin O W₁ k acc
  by_cases h1 : k0_cond1 L = 1#1
  · have hlt : (jL L).val < 5 := (cond1_iff L).mp h1
    iintro ⟨#Hlv, ⟨⟨%κ, #Hinv⟩, Htoks, #Hrch, Hat, Hcred⟩, ⟨Htab, Hfl, Hout, Hsh⟩, ⟨⟨%fi, Hidx⟩, ⟨%fr, Hrow⟩, Hbufs⟩, ⟨Hs0, Hs1, Hs2, Hs3, Hs4, Hs5, Hsems⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    -- the staging copy and its wait
    ihave Htab' := (Entails.of_eq (tabGo_pos (F := F) m d L h1 hlt)) $$ Htab
    ihave Hsh0 := (shGo_pos (F := F) d L h1 hlt) $$ Hsh
    icases Hsh0 with ⟨%fsh, Hsh'⟩
    sl_exec
    sl_unfold_run_names
    ihave Hst := (staged_intro (F := F) m d L h1 hlt fsh) $$ Hsh'
    ihave Htab := (Entails.of_eq (tabGo_pos (F := F) m d L h1 hlt).symm) $$ Htab'
    ihave Hs0 := (Entails.of_eq (semVal_congr (F := F) d L (n := z6) (s := 0) rfl)) $$ Hs0
    -- the barrier: the staged chunk handed round, a read share of every staged chunk collected
    ihave Hpays := (pays_intro (F := F) m d L) $$ Hst
    icases Hpays with ⟨Hkeep, Hpays⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsht := (pays_elim (F := F) m d L) $$ Hgot
    -- the first fetch: half 0 of the index buffer, the tile's first chunk of the flat list
    ihave Hix := (Entails.of_eq (pts_idx' (F := F) d L fi)) $$ Hidx
    icases Hix with ⟨Hi0, Hi1⟩
    ihave Hrx := (Entails.of_eq (pts_row' (F := F) d L fr)) $$ Hrow
    icases Hrx with ⟨Hr0, Hr1⟩
    ihave Hfx := (Entails.of_eq (flatHome_zero (F := F) flat d L)) $$ Hfl
    icases Hfx with ⟨Hf0, Hfh⟩
    ihave Hi0 := (Entails.of_eq (idxPtsAt_congr (F := F) d L (off := ![(0 : Fin 2).val, 0, 0]) (off' := k0_off2) k0_off2_eq.symm (idxRect_inb 0) Facts₀.k0_off2_inb fi)) $$ Hi0
    ihave Hf0 := (Entails.of_eq ((pts_fchunk (F := F) d L (gk L k00) fullShare (flat d)).symm.trans
      (fchPtsAt_congr (F := F) flat d L (off := ![0, 256 * (gk L k00).val]) (off' := k0_off3 L) o3.symm (fchunkU_inb _) (Facts₀.k0_off3_inb L)))) $$ Hf0
    sl_exec
    sl_unfold_run_names
    -- the invariant before the first step
    ihave Hfl0 := (Entails.of_eq (inFlight_first (F := F) flat d L _)) $$ Hs1
    ihave Hshp := (Entails.of_eq (pts_shAll (F := F) d L (qS (jL L)) (tabS m d (cV L))).symm) $$ Hsht
    ihave Hi1 := (Entails.of_eq (idxPts_congr (F := F) d L (p := 1) (p' := par (0 + 1)) (by decide) fi)) $$ Hi1
    ihave Hs2 := (Entails.of_eq (semVal_congr (F := F) d L (n := 2) (s := sem1At ![(par (0 + 1)).val] (semRect_inb (par (0 + 1)))) (by decide))) $$ Hs2
    ihave Hs3 := (Entails.of_eq (semVal_congr (F := F) d L (n := 3) (s := sem3At ![(0 : Fin 2).val] (semRect_inb 0)) (by decide))) $$ Hs3
    ihave Hs4 := (Entails.of_eq (semVal_congr (F := F) d L (n := 4) (s := sem3At ![(1 : Fin 2).val] (semRect_inb 1)) (by decide))) $$ Hs4
    ihave Hinv0 := (inv_zero (F := F) m flat d L O (insert (SemLoc.reg sc_bar0, some (0 : Fin 1)) (insert (SemLoc.dma z6, (default : HIx 1)) W)) _ fi fr fr
        (idx_holds_at (F := F) flat d L (par 0) (gk L k00) (k0_off2_eq.trans (by decide)) o3 Facts₀.k0_off2_inb (Facts₀.k0_off3_inb L) fi))
      $$ [Hmw2 Hshp Hs0 Hs5 Hfh Hout Hfl0 Hi1 Hs2 Hr0 Hs3 Hr1 Hs4 HO]
    · isplitr; · iexact Hmw2
      isplitl [Hshp]; · iexact Hshp
      isplitl [Hs0]; · iexact Hs0
      isplitl [Hs5]; · iexact Hs5
      isplitl [Hfh]; · iexact Hfh
      isplitl [Hout]; · iexact Hout
      isplitl [Hfl0]; · iexact Hfl0
      isplitl [Hi1 Hs2]; · isplitl [Hi1] <;> iassumption
      isplitl [Hr0 Hs3]; · isplitl [Hr0] <;> iassumption
      isplitl [Hr1 Hs4]; · isplitl [Hr1] <;> iassumption
      iexact HO
    sl_rw [Prog.bind_assoc]
    sl_for (stepInv m flat d L O (insert (SemLoc.reg sc_bar0, some (0 : Fin 1)) (insert (SemLoc.dma z6, (default : HIx 1)) W))) $$ [Hinv0]
    · intro k acc
      sl_respell []
      exact hreg _ k acc
    · iexact Hinv0
    -- after the loop: the last copy out awaited, everything handed back
    iintro %acc HI
    ihave HI := (inv_end (F := F) m flat d L O (insert (SemLoc.reg sc_bar0, some (0 : Fin 1)) (insert (SemLoc.dma z6, (default : HIx 1)) W)) acc) $$ HI
    icases HI with ⟨%hacc, Hshp, Hs0, Hs5, Hfh, Hoh, ⟨⟨⟨%fi0, Hi0⟩, Hs1⟩, ⟨⟨%fi1', Hi1⟩, Hs2⟩⟩, ⟨⟨%fo, %frr, %hfo, Hfout⟩, ⟨⟨%fr', Hr'⟩, Hsr'⟩⟩, %W', %hW', HO⟩
    subst hacc
    have hc4 := chk4_end
    have hc5 := chk5_end L
    have o20 : k0_off20 L (BitVec.ofNat 32 0) = ![256 * (gk L k99).val, 0] := (off20_eq L).trans (by simp only [gk, gidx, cL, jL]; rfl)
    have inb21 : ∀ a, k0_off21 (BitVec.ofNat 32 99) a + S1.size a ≤ S2.size a := fun a => by rw [off21_eq]; exact semRect_inb 1 a
    have inb22 : ∀ a, k0_off22 (BitVec.ofNat 32 99) a + S1x256x128.size a ≤ S2x256x128.size a := fun a => by rw [off22_eq]; exact rowRect_inb 1 a
    have inb20 : ∀ a, k0_off20 L (BitVec.ofNat 32 0) a + S256x128.size a ≤ S819200x128.size a := fun a => by rw [o20]; exact ochunkU_inb _ a
    ihave Hfout := (Entails.of_eq (outFlightAt_congr (F := F) d L (o1 := ![(par 99).val]) (o1' := k0_off21 (BitVec.ofNat 32 99))
      (o2 := ![(par 99).val, 0, 0]) (o2' := k0_off22 (BitVec.ofNat 32 99)) (o3 := ![256 * (gk L k99).val, 0]) (o3' := k0_off20 L (BitVec.ofNat 32 0))
      (off21_eq.trans (by decide)).symm (off22_eq.trans (by decide)).symm o20.symm
      (semRect_inb (par 99)) inb21 (rowRect_inb (par 99)) inb22 (ochunkU_inb (gk L k99)) inb20 fo frr)) $$ Hfout
    sl_exec
    sl_step
    -- the flat list's chunks, and the flat output's with the last one written
    ihave Hfl := (Entails.of_eq (flatHome_full (F := F) flat d L)) $$ Hfh
    ihave Hod := (Entails.of_eq (ochPtsAt_congr (F := F) d L (off := k0_off20 L (BitVec.ofNat 32 0)) (off' := ![256 * (gk L k99).val, 0]) o20 inb20 (ochunkU_inb (gk L k99)) fo)) $$ Hfout_dst
    ihave Hod := (out_done (F := F) m flat d L hfo) $$ Hod
    ihave Hout := (Entails.of_eq (outHome_end (F := F) m flat d L)) $$ [Hod Hoh]
    · isplitl [Hod]; · iexact Hod
      iexact Hoh
    -- the staged table's read share
    ihave Hsht := (Entails.of_eq (pts_shAll (F := F) d L (qS (jL L)) (tabS m d (cV L)))) $$ Hshp
    -- the two buffers whole again
    ihave Hidx := (idx_join (F := F) d L) $$ [Hi0 Hi1]
    · isplitl [Hi0]; · iexists fi0; iexact Hi0
      iexists fi1'; iexact Hi1
    ihave Hr' := (Entails.of_eq (rowPts_congr (F := F) d L (p := par 100) (p' := 0) (by decide) fr')) $$ Hr'
    ihave Hr1 := (Entails.of_eq (rowPtsAt_congr (F := F) d L (off := k0_off22 (BitVec.ofNat 32 99)) (off' := ![(1 : Fin 2).val, 0, 0])
      (off22_eq.trans (by decide)) inb22 (rowRect_inb 1) frr)) $$ Hfout_src
    ihave Hrow := (row_join (F := F) d L) $$ [Hr' Hr1]
    · isplitl [Hr']; · iexists fr'; iexact Hr'
      iexists frr; iexact Hr1
    -- the semaphores at rest, by their numbers
    ihave Hs1 := (Entails.of_eq (semVal_congr (F := F) d L (n := sem1At ![(0 : Fin 2).val] (semRect_inb 0)) (s := 1) (by decide))) $$ Hs1
    ihave Hs2 := (Entails.of_eq (semVal_congr (F := F) d L (n := sem1At ![(1 : Fin 2).val] (semRect_inb 1)) (s := 2) (by decide))) $$ Hs2
    ihave Hs3 := (Entails.of_eq (semVal_congr (F := F) d L (n := sem3At ![(par 100).val] (semRect_inb (par 100))) (s := 3) (by decide))) $$ Hsr'
    ihave Hs4 := (Entails.of_eq (semVal_congr (F := F) d L (n := sem3At (k0_off21 (BitVec.ofNat 32 99)) inb21) (s := 4)
      ((sem3At_congr off21_eq inb21 (semRect_inb 1)).trans (by decide)))) $$ Hfout
    -- handed back
    isplitl [Htab Hfl Hout Hsht Hkeep]
    · isplitl [Htab]; · iexact Htab
      isplitl [Hfl]; · iexact Hfl
      isplitl [Hout]; · iexact Hout
      iapply (shTd_intro (F := F) m d (cV L) (jL L))
      isplitl [Hsht]; · iexact Hsht
      iexact Hkeep
    isplitl [Hidx Hrow Hbufs]
    · isplitl [Hidx]; · iexact Hidx
      isplitl [Hrow]; · iexact Hrow
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro
    exact waits_ok (W0 := (insert (SemLoc.dma z6, (default : HIx 1)) W)) rfl (fun p hp => (Finset.mem_insert.mp hp).elim (fun e => .inr (e ▸ rfl)) .inl) hW'
  · have hnlt : ¬ (jL L).val < 5 := fun h => h1 ((cond1_iff L).mpr h)
    iintro ⟨#Hlv, ⟨⟨%κ, #Hinv⟩, Htoks, #Hrch, Hat, Hcred⟩, ⟨Htab, Hfl, Hout, Hsh⟩, ⟨⟨%fi, Hidx⟩, ⟨%fr, Hrow⟩, Hbufs⟩, ⟨Hs0, Hs1, Hs2, Hs3, Hs4, Hs5, Hsems⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    -- nothing to stage
    sl_exec
    ihave Hst := (Entails.of_eq (shGo_neg (F := F) m d L hnlt)) $$ Hsh
    -- the barrier: the staged chunk handed round, a read share of every staged chunk collected
    ihave Hpays := (pays_intro (F := F) m d L) $$ Hst
    icases Hpays with ⟨Hkeep, Hpays⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsht := (pays_elim (F := F) m d L) $$ Hgot
    -- the first fetch: half 0 of the index buffer, the tile's first chunk of the flat list
    ihave Hix := (Entails.of_eq (pts_idx' (F := F) d L fi)) $$ Hidx
    icases Hix with ⟨Hi0, Hi1⟩
    ihave Hrx := (Entails.of_eq (pts_row' (F := F) d L fr)) $$ Hrow
    icases Hrx with ⟨Hr0, Hr1⟩
    ihave Hfx := (Entails.of_eq (flatHome_zero (F := F) flat d L)) $$ Hfl
    icases Hfx with ⟨Hf0, Hfh⟩
    ihave Hi0 := (Entails.of_eq (idxPtsAt_congr (F := F) d L (off := ![(0 : Fin 2).val, 0, 0]) (off' := k0_off2) k0_off2_eq.symm (idxRect_inb 0) Facts₀.k0_off2_inb fi)) $$ Hi0
    ihave Hf0 := (Entails.of_eq ((pts_fchunk (F := F) d L (gk L k00) fullShare (flat d)).symm.trans
      (fchPtsAt_congr (F := F) flat d L (off := ![0, 256 * (gk L k00).val]) (off' := k0_off3 L) o3.symm (fchunkU_inb _) (Facts₀.k0_off3_inb L)))) $$ Hf0
    sl_exec
    sl_unfold_run_names
    -- the invariant before the first step
    ihave Hfl0 := (Entails.of_eq (inFlight_first (F := F) flat d L _)) $$ Hs1
    ihave Hshp := (Entails.of_eq (pts_shAll (F := F) d L (qS (jL L)) (tabS m d (cV L))).symm) $$ Hsht
    ihave Hi1 := (Entails.of_eq (idxPts_congr (F := F) d L (p := 1) (p' := par (0 + 1)) (by decide) fi)) $$ Hi1
    ihave Hs2 := (Entails.of_eq (semVal_congr (F := F) d L (n := 2) (s := sem1At ![(par (0 + 1)).val] (semRect_inb (par (0 + 1)))) (by decide))) $$ Hs2
    ihave Hs3 := (Entails.of_eq (semVal_congr (F := F) d L (n := 3) (s := sem3At ![(0 : Fin 2).val] (semRect_inb 0)) (by decide))) $$ Hs3
    ihave Hs4 := (Entails.of_eq (semVal_congr (F := F) d L (n := 4) (s := sem3At ![(1 : Fin 2).val] (semRect_inb 1)) (by decide))) $$ Hs4
    ihave Hinv0 := (inv_zero (F := F) m flat d L O (insert (SemLoc.reg sc_bar0, some (0 : Fin 1)) W) _ fi fr fr
        (idx_holds_at (F := F) flat d L (par 0) (gk L k00) (k0_off2_eq.trans (by decide)) o3 Facts₀.k0_off2_inb (Facts₀.k0_off3_inb L) fi))
      $$ [Hmw2 Hshp Hs0 Hs5 Hfh Hout Hfl0 Hi1 Hs2 Hr0 Hs3 Hr1 Hs4 HO]
    · isplitr; · iexact Hmw2
      isplitl [Hshp]; · iexact Hshp
      isplitl [Hs0]; · iexact Hs0
      isplitl [Hs5]; · iexact Hs5
      isplitl [Hfh]; · iexact Hfh
      isplitl [Hout]; · iexact Hout
      isplitl [Hfl0]; · iexact Hfl0
      isplitl [Hi1 Hs2]; · isplitl [Hi1] <;> iassumption
      isplitl [Hr0 Hs3]; · isplitl [Hr0] <;> iassumption
      isplitl [Hr1 Hs4]; · isplitl [Hr1] <;> iassumption
      iexact HO
    sl_rw [Prog.bind_assoc]
    sl_for (stepInv m flat d L O (insert (SemLoc.reg sc_bar0, some (0 : Fin 1)) W)) $$ [Hinv0]
    · intro k acc
      sl_respell []
      exact hreg _ k acc
    · iexact Hinv0
    -- after the loop: the last copy out awaited, everything handed back
    iintro %acc HI
    ihave HI := (inv_end (F := F) m flat d L O (insert (SemLoc.reg sc_bar0, some (0 : Fin 1)) W) acc) $$ HI
    icases HI with ⟨%hacc, Hshp, Hs0, Hs5, Hfh, Hoh, ⟨⟨⟨%fi0, Hi0⟩, Hs1⟩, ⟨⟨%fi1', Hi1⟩, Hs2⟩⟩, ⟨⟨%fo, %frr, %hfo, Hfout⟩, ⟨⟨%fr', Hr'⟩, Hsr'⟩⟩, %W', %hW', HO⟩
    subst hacc
    have hc4 := chk4_end
    have hc5 := chk5_end L
    have o20 : k0_off20 L (BitVec.ofNat 32 0) = ![256 * (gk L k99).val, 0] := (off20_eq L).trans (by simp only [gk, gidx, cL, jL]; rfl)
    have inb21 : ∀ a, k0_off21 (BitVec.ofNat 32 99) a + S1.size a ≤ S2.size a := fun a => by rw [off21_eq]; exact semRect_inb 1 a
    have inb22 : ∀ a, k0_off22 (BitVec.ofNat 32 99) a + S1x256x128.size a ≤ S2x256x128.size a := fun a => by rw [off22_eq]; exact rowRect_inb 1 a
    have inb20 : ∀ a, k0_off20 L (BitVec.ofNat 32 0) a + S256x128.size a ≤ S819200x128.size a := fun a => by rw [o20]; exact ochunkU_inb _ a
    ihave Hfout := (Entails.of_eq (outFlightAt_congr (F := F) d L (o1 := ![(par 99).val]) (o1' := k0_off21 (BitVec.ofNat 32 99))
      (o2 := ![(par 99).val, 0, 0]) (o2' := k0_off22 (BitVec.ofNat 32 99)) (o3 := ![256 * (gk L k99).val, 0]) (o3' := k0_off20 L (BitVec.ofNat 32 0))
      (off21_eq.trans (by decide)).symm (off22_eq.trans (by decide)).symm o20.symm
      (semRect_inb (par 99)) inb21 (rowRect_inb (par 99)) inb22 (ochunkU_inb (gk L k99)) inb20 fo frr)) $$ Hfout
    sl_exec
    sl_step
    -- the flat list's chunks, and the flat output's with the last one written
    ihave Hfl := (Entails.of_eq (flatHome_full (F := F) flat d L)) $$ Hfh
    ihave Hod := (Entails.of_eq (ochPtsAt_congr (F := F) d L (off := k0_off20 L (BitVec.ofNat 32 0)) (off' := ![256 * (gk L k99).val, 0]) o20 inb20 (ochunkU_inb (gk L k99)) fo)) $$ Hfout_dst
    ihave Hod := (out_done (F := F) m flat d L hfo) $$ Hod
    ihave Hout := (Entails.of_eq (outHome_end (F := F) m flat d L)) $$ [Hod Hoh]
    · isplitl [Hod]; · iexact Hod
      iexact Hoh
    -- the staged table's read share
    ihave Hsht := (Entails.of_eq (pts_shAll (F := F) d L (qS (jL L)) (tabS m d (cV L)))) $$ Hshp
    -- the two buffers whole again
    ihave Hidx := (idx_join (F := F) d L) $$ [Hi0 Hi1]
    · isplitl [Hi0]; · iexists fi0; iexact Hi0
      iexists fi1'; iexact Hi1
    ihave Hr' := (Entails.of_eq (rowPts_congr (F := F) d L (p := par 100) (p' := 0) (by decide) fr')) $$ Hr'
    ihave Hr1 := (Entails.of_eq (rowPtsAt_congr (F := F) d L (off := k0_off22 (BitVec.ofNat 32 99)) (off' := ![(1 : Fin 2).val, 0, 0])
      (off22_eq.trans (by decide)) inb22 (rowRect_inb 1) frr)) $$ Hfout_src
    ihave Hrow := (row_join (F := F) d L) $$ [Hr' Hr1]
    · isplitl [Hr']; · iexists fr'; iexact Hr'
      iexists frr; iexact Hr1
    -- the semaphores at rest, by their numbers
    ihave Hs1 := (Entails.of_eq (semVal_congr (F := F) d L (n := sem1At ![(0 : Fin 2).val] (semRect_inb 0)) (s := 1) (by decide))) $$ Hs1
    ihave Hs2 := (Entails.of_eq (semVal_congr (F := F) d L (n := sem1At ![(1 : Fin 2).val] (semRect_inb 1)) (s := 2) (by decide))) $$ Hs2
    ihave Hs3 := (Entails.of_eq (semVal_congr (F := F) d L (n := sem3At ![(par 100).val] (semRect_inb (par 100))) (s := 3) (by decide))) $$ Hsr'
    ihave Hs4 := (Entails.of_eq (semVal_congr (F := F) d L (n := sem3At (k0_off21 (BitVec.ofNat 32 99)) inb21) (s := 4)
      ((sem3At_congr off21_eq inb21 (semRect_inb 1)).trans (by decide)))) $$ Hfout
    -- handed back
    isplitl [Htab Hfl Hout Hsht Hkeep]
    · isplitl [Htab]; · iexact Htab
      isplitl [Hfl]; · iexact Hfl
      isplitl [Hout]; · iexact Hout
      iapply (shTd_intro (F := F) m d (cV L) (jL L))
      isplitl [Hsht]; · iexact Hsht
      iexact Hkeep
    isplitl [Hidx Hrow Hbufs]
    · isplitl [Hidx]; · iexact Hidx
      isplitl [Hrow]; · iexact Hrow
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro
    exact waits_ok (W0 := W) rfl (fun p hp => .inl hp) hW'

end Tile

end Cert.Proof.KI

end
-- ==== Proof.KI.TileObl.lean ====
/-
  One tile's task as the launch asks for it: the kernel's body table at a tile of the call's grid is the kernel's
  function at that tile's coordinates, and its obligation is the task's proof at those coordinates.
-/
import proofs.«206737_g54150947668683_cont_9to1_m_866_22_alg».proof.Proof.KI.Res
import proofs.«206737_g54150947668683_cont_9to1_m_866_22_alg».proof.Proof.KI.Body

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s)
          tabV (Memref.isWhole_whole _) flatV (Memref.isWhole_whole _) outV (Memref.isWhole_whole _) shV (Memref.isWhole_whole _)
          cc0_scratch1 idxV (Memref.isWhole_whole _) cc0_scoped1 rowV (Memref.isWhole_whole _) cc0_scoped3 cc0_scoped4) ⟨⟩ c s := rfl

set_option maxRecDepth 16384 in
theorem tileObl (hin : ∀ d x, (flat d x : BitVec 32).toNat < 1000) (hF : (K (F := F)).Facts) :
    (K (F := F)).TileObl (D (F := F)) 𝒱 (P m flat) v₀ 0 := by
  intro d c i O W hO hOlev _
  have hci : ((K (F := F)).core 0 c).val < grid0.bound 0 ∧ ((K (F := F)).sub 0 i).val < grid0.bound 1 := ⟨c.isLt, i.isLt⟩
  rw [show (P m flat).ox 0 (V d ((K (F := F)).core 0 c) ((K (F := F)).sub 0 i)) = oxV d ((K (F := F)).core 0 c) from rfl,
    show (P m flat).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m flat d (coordsV ⟨_, hci.1⟩ ⟨_, hci.2⟩) hin hF O W hO hOlev

end Cert.Proof.KI

end
-- ==== Proof.KI.Run.lean ====
/-
  The idealized kernel's run, assembled: the launch with each tile's task proved.
-/
import proofs.«206737_g54150947668683_cont_9to1_m_866_22_alg».proof.Proof.KI.Res
import proofs.«206737_g54150947668683_cont_9to1_m_866_22_alg».proof.Proof.KI.Launch
import proofs.«206737_g54150947668683_cont_9to1_m_866_22_alg».proof.Proof.KI.TileObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- From a memory whose row numbers are rows of the table and whose counters are zero, every weakly fair execution of
    the program's threads terminates with the result holding the lookup and the arguments unchanged. -/
theorem run [∀ e, Nonempty (Elt F e)] (hin : ∀ d, Cert.Spec.InRange (m (idsLoc d))) :
    θ_run (Cert.KernelIdeal.defs (F := F)) (Cert.KernelIdeal.threads (F := F)) ⟨m, fun _ => 0, ρ⟩ (fun r => ∀ c : Dev nD,
      r.2.mem (resLoc c) = Cert.Spec.lookup (m (idsLoc c)) (m (tabLoc c)) ∧ r.2.mem (idsLoc c) = m (idsLoc c) ∧ r.2.mem (tabLoc c) = m (tabLoc c)) :=
  run_main m ρ hin (fun flat h => tileObl m flat h facts)

end Cert.Proof.KI

end
-- ==== Proof.KB.Res.lean ====
/-
  The shared definitions of the word-level kernel's run on the SparseCores: the launch's configuration and ghost
  state, the places the arrays live, the way each array is cut (the table's five chunks of 200 rows, the output's
  3200 chunks of 256 rows, each tile's hundred of them), the read shares under which the table, the flat list of
  row numbers and the staged table are held by many tiles at once, what the subcore barrier carries (each of the
  first five tiles hands every tile of its SparseCore a read share of the chunk it staged), and what the launch's
  handshakes carry to and from each tile.
-/
import proofs.«206737_g54150947668683_cont_9to1_m_866_22_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206737_g54150947668683_cont_9to1_m_866_22_alg».proof.Proof.Gen.Kernel
import proofs.«206737_g54150947668683_cont_9to1_m_866_22_alg».proof.Proof.Gen.Kernel.Skeleton
import proofs.«206737_g54150947668683_cont_9to1_m_866_22_alg».proof.Proof.Spec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- The barrier cells' rounds: the left half of the right factor. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## Where the arrays live -/

abbrev idsLoc (d : Dev nD) : Loc nD τ sig := (SparseCore.T d).loc main_arg0
abbrev tabLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v1
abbrev resLoc (d : Dev nD) : Loc nD τ sig := (SparseCore.T d).loc main_v2
/-- SparseCore `c`'s shared vector memory, as every tile of it addresses it. -/
abbrev shRef (c : Fin τ.nSC) : DevRef τ sig := ⟨.shared, ⟨0, by decide⟩, c⟩
abbrev shLoc (d : Dev nD) (c : Fin τ.nSC) : Loc nD τ sig := (d, shRef c)

/-- The arrays as a tile names them. -/
abbrev tabV : Memref sig .scVector .hbm S1000x128 .f32 := Memref.whole main_arg1_scv
abbrev flatV : Memref sig .scVector .hbm S1x819200 .i32 := Memref.whole main_v0_scv
abbrev outV : Memref sig .scVector .hbm S819200x128 .f32 := Memref.whole main_v1_scv
abbrev shV : Memref sig .scVector .shared S1000x128 .f32 := Memref.whole cc0_scratch0
abbrev idxV : Memref sig .scVector .vmem S2x1x256 .i32 := Memref.whole cc0_scoped0
abbrev rowV : Memref sig .scVector .vmem S2x256x128 .f32 := Memref.whole cc0_scoped2

theorem nSub_eq : τ.nSub = 16 := rfl
theorem nSC_eq : τ.nSC = 2 := rfl

/-! ## How the arrays are cut -/

theorem hdiv5 : 5 ∣ S1000x128.size 0 := ⟨200, rfl⟩
theorem hdiv3200 : 3200 ∣ S819200x128.size 0 := ⟨256, rfl⟩
theorem hdivF : 3200 ∣ S1x819200.size 1 := ⟨256, rfl⟩
/-- The table's chunk `n`: rows `200 n … 200 n + 199` (of the table and of its staged copy alike). -/
abbrev tchunk (n : Fin 5) : Rect S1000x128 := Rect.part (s := S1000x128) (a₀ := 0) hdiv5 n
abbrev tchunkSet (n : Fin 5) : Finset S1000x128.Idx := ((shV).view.slice (tchunk n)).set
/-- The output's chunk `g`: rows `256 g … 256 g + 255`. -/
abbrev ochunk (g : Fin 3200) : Rect S819200x128 := Rect.part (s := S819200x128) (a₀ := 0) hdiv3200 g
abbrev ochunkSet (g : Fin 3200) : Finset S819200x128.Idx := ((outV).view.slice (ochunk g)).set
/-- The flat list's chunk `g`: entries `256 g … 256 g + 255`. -/
abbrev fchunk (g : Fin 3200) : Rect S1x819200 := Rect.part (s := S1x819200) (a₀ := 1) hdivF g
abbrev fchunkSet (g : Fin 3200) : Finset S1x819200.Idx := ((flatV).view.slice (fchunk g)).set
/-- Tile `i` of SparseCore `c` works on chunks `100 (i + 16 c) … + 99`: its `k`-th. -/
def gidx (c : Fin 2) (i : Fin 16) (k : Fin 100) : Fin 3200 := ⟨k.val + 100 * (i.val + 16 * c.val), by omega⟩

/-! ## What the lookup leaves in the flat output -/

/-- Row `r` of the flat output is the table's row named by entry `r` of the flat list. -/
def outOf (tb : S1000x128.Idx → Elt F .f32) (fl : S1x819200.Idx → BitVec 32) : S819200x128.Idx → Elt F .f32 :=
  fun j => tb (ValueIdx.ix2 (Cert.Spec.rowOf (fl (ValueIdx.ix2 (0 : Fin 1) (j 0)))) (j 1))

/-! ## Read shares -/

/-- SparseCore `c`'s read share of the table (both SparseCores stage it at once). -/
abbrev qC (c : Fin 2) : PosShare TreeShare := shareTok fullShare 2 c
/-- Tile `i`'s read share of the staged table. -/
abbrev qS (i : Fin 16) : PosShare TreeShare := shareTok fullShare 16 i

/-! ## The launch memory -/

variable (m : (ℓ : Loc nD τ sig) → Buf (Elt F) ℓ) (ρ : Dev nD → PrngReg)
-- the flat list of row numbers, as the first host operation leaves it (a parameter here; the launch fixes it)
variable (flat : (d : Dev nD) → Buf (Elt F) (flatLoc d))

/-- The table, read as contents of SparseCore `c`'s shared vector memory (one shape and element type). -/
abbrev tabS (d : Dev nD) (c : Fin τ.nSC) : Buf (Elt F) (shLoc d c) := m (tabLoc d)
/-- What the kernel leaves in the flat output. -/
abbrev outv (d : Dev nD) : Buf (Elt F) (outLoc d) := outOf (F := F) (m (tabLoc d)) (flat d)

variable [FloatOps F]

/-! ## The barrier cells -/

/-- Tile `(c, j)`'s barrier semaphore of device `d`. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Chunk `n` of SparseCore `c`'s staged table, held at share `q` with the table's own contents. -/
abbrev shChunkPts (d : Dev nD) (c : Fin τ.nSC) (n : Fin 5) (q : PosShare TreeShare) : sProp 𝕄 :=
  shLoc d c ↦[tchunkSet n]{q} tabS m d c

/-- What tile `n`'s duty in tile `j`'s round hands over: one of the first five tiles, tile `j`'s read share of the
    chunk it staged, holding the table's rows; the others, nothing. -/
def bPay (g : GSem nD τ sig) (n : ℕ) : sProp 𝕄 :=
  match g with
  | ((d, .scVector c j), _) => if h : n < 5 then shChunkPts m d c ⟨n, h⟩ (qS (Fin.cast nSub_eq j)) else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance bRd_payload_storable (g : GSem nD τ sig) (r n : ℕ) : BI.Storable (upEmb : UEmb _ 𝕄) ((bRd (F := F) m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

omit [FloatOps F] in
theorem bRd_duties₀ (d : Dev nD) (c : Fin τ.nSC) (j : Fin τ.nSub) : (bRd (F := F) m).duties (bcell d c j) 0 = (Finset.univ : Finset (Fin τ.nSub)).image Fin.val := by
  simp [bRd, isBar]
omit [FloatOps F] in
theorem bRd_mem₀ (d : Dev nD) (c : Fin τ.nSC) (j i : Fin τ.nSub) : i.val ∈ (bRd (F := F) m).duties (bcell d c j) 0 := by
  rw [bRd_duties₀]; exact Finset.mem_image_of_mem _ (Finset.mem_univ i)
omit [FloatOps F] in
theorem bRd_expect (d : Dev nD) (c : Fin τ.nSC) (j : Fin τ.nSub) : 0 + grid0.bound 1 = (bRd (F := F) m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What the launch has tile `(c, i)` owe for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every tile's cell invariant of its SparseCore and that each has reached round 0, its own
    position at the origin of round 0, its duty token in every tile's round 0, and the credit for the sixteen units of
    its own round. -/
def bkit (d : Dev nD) (c : Fin τ.nSC) (i : Fin τ.nSub) : sProp 𝕄 :=
  iprop((∃ κ : GSem nD τ sig → ℕ, bigSep Finset.univ fun j : Fin (grid0.bound 1) =>
      cellInv EB (bRd (F := F) m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The call's core number and tile number as plain numbers below 2 and 16. -/
abbrev c2 (c : Fin ((K (F := F)).nCore 0)) : Fin 2 := Fin.cast nCore_zero c
abbrev i16 (i : Fin ((K (F := F)).nSub 0)) : Fin 16 := Fin.cast nSub_zero i

/-- A tile's hundred chunks of the flat output, at contents `f`. -/
abbrev outChunks (d : Dev nD) (c : Fin 2) (i : Fin 16) (f : Buf (Elt F) (outLoc d)) : sProp 𝕄 :=
  bigSep Finset.univ fun k : Fin 100 => outLoc d ↦[ochunkSet (gidx c i k)]{fullShare} f

/-- A tile's hundred chunks of the flat list of row numbers. -/
abbrev flatChunks (d : Dev nD) (c : Fin 2) (i : Fin 16) : sProp 𝕄 :=
  bigSep Finset.univ fun k : Fin 100 => flatLoc d ↦[fchunkSet (gidx c i k)]{fullShare} flat d

/-- The table's chunk a tile among the first five stages, at its SparseCore's read share; the others nothing. -/
def tabGo (d : Dev nD) (c : Fin 2) (i : Fin 16) : sProp 𝕄 :=
  if h : i.val < 5 then iprop(tabLoc d ↦[tchunkSet ⟨i.val, h⟩]{qC c} m (tabLoc d)) else iprop(emp)
instance tabGo_storable (d : Dev nD) (c : Fin 2) (i : Fin 16) : BI.Storable (upEmb : UEmb _ 𝕄) (tabGo (F := F) m d c i) := by
  unfold tabGo; split <;> infer_instance

/-- The staged table's chunk a tile among the first five is handed to fill; the others nothing. -/
def shGo (d : Dev nD) (c : Fin τ.nSC) (i : Fin 16) : sProp 𝕄 :=
  if h : i.val < 5 then iprop(∃ f, shLoc d c ↦[tchunkSet ⟨i.val, h⟩]{fullShare} f) else iprop(emp)
/-- What a tile hands back of the staged table: its read share of all of it, and, one of the first five, what it kept
    of its own chunk; all at the table's contents. -/
def shKeep (d : Dev nD) (c : Fin τ.nSC) (i : Fin 16) : sProp 𝕄 :=
  if h : i.val < 5 then shChunkPts m d c ⟨i.val, h⟩ (shareDrop fullShare 16) else iprop(emp)
def shTd (d : Dev nD) (c : Fin τ.nSC) (i : Fin 16) : sProp 𝕄 :=
  iprop((shLoc d c ↦{qS i} tabS m d c) ∗ shKeep m d c i)

instance shGo_storable (d : Dev nD) (c : Fin τ.nSC) (i : Fin 16) : BI.Storable (upEmb : UEmb _ 𝕄) (shGo (F := F) d c i) := by
  unfold shGo; split <;> infer_instance
instance shKeep_storable (d : Dev nD) (c : Fin τ.nSC) (i : Fin 16) : BI.Storable (upEmb : UEmb _ 𝕄) (shKeep (F := F) m d c i) := by
  unfold shKeep; split <;> infer_instance
instance shTd_storable (d : Dev nD) (c : Fin τ.nSC) (i : Fin 16) : BI.Storable (upEmb : UEmb _ 𝕄) (shTd (F := F) m d c i) := by
  unfold shTd; infer_instance

/-- The call takes, per SparseCore, a read share of the table and its tiles' chunks of the flat list and of the flat
    output; each tile its hundred chunks of both and (the first five) a chunk of the table to stage and the chunk of
    the shared memory to fill; a tile brings back the same, its output chunks holding the looked-up rows, and what it
    holds of the staged table. -/
def P : (K (F := F)).Pay (nD := nD) (Val := Elt F) (Name := ℕ) (U := UU) where
  st := fun q d c => match q with
    | 0 => iprop((tabLoc d ↦{qC (c2 c)} m (tabLoc d))
        ∗ bigSep Finset.univ fun i : Fin 16 => iprop(flatChunks flat d (c2 c) i ∗ outChunks d (c2 c) i (m (outLoc d))))
  dn := fun q d c => match q with
    | 0 => iprop((tabLoc d ↦{qC (c2 c)} m (tabLoc d))
        ∗ bigSep Finset.univ fun i : Fin 16 => iprop(flatChunks flat d (c2 c) i ∗ outChunks d (c2 c) i (outv m flat d)))
  go := fun q d c i => match q with
    | 0 => iprop(tabGo m d (c2 c) (i16 i) ∗ flatChunks flat d (c2 c) (i16 i)
        ∗ outChunks d (c2 c) (i16 i) (m (outLoc d)) ∗ shGo d (coreOf c) (i16 i))
  td := fun q d c i => match q with
    | 0 => iprop(tabGo m d (c2 c) (i16 i) ∗ flatChunks flat d (c2 c) (i16 i)
        ∗ outChunks d (c2 c) (i16 i) (outv m flat d) ∗ shTd m d (coreOf c) (i16 i))
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P (F := F) m flat).IsStorable where
  st q d c := match q with
    | 0 => (inferInstance : BI.Storable (upEmb : UEmb _ 𝕄) iprop((tabLoc d ↦{qC (c2 c)} m (tabLoc d))
        ∗ bigSep Finset.univ fun i : Fin 16 => iprop(flatChunks flat d (c2 c) i ∗ outChunks d (c2 c) i (m (outLoc d)))))
  dn q d c := match q with
    | 0 => (inferInstance : BI.Storable (upEmb : UEmb _ 𝕄) iprop((tabLoc d ↦{qC (c2 c)} m (tabLoc d))
        ∗ bigSep Finset.univ fun i : Fin 16 => iprop(flatChunks flat d (c2 c) i ∗ outChunks d (c2 c) i (outv m flat d))))
  go q d c i := match q with
    | 0 => (inferInstance : BI.Storable (upEmb : UEmb _ 𝕄) iprop(tabGo m d (c2 c) (i16 i) ∗ flatChunks flat d (c2 c) (i16 i)
        ∗ outChunks d (c2 c) (i16 i) (m (outLoc d)) ∗ shGo d (coreOf c) (i16 i)))
  td q d c i := match q with
    | 0 => (inferInstance : BI.Storable (upEmb : UEmb _ 𝕄) iprop(tabGo m d (c2 c) (i16 i) ∗ flatChunks flat d (c2 c) (i16 i)
        ∗ outChunks d (c2 c) (i16 i) (outv m flat d) ∗ shTd m d (coreOf c) (i16 i)))

end Cert.Proof.KB

end
-- ==== Proof.KB.LaunchSplit.lean ====
/-
  How one SparseCore's operands are dealt to its sixteen tiles and gathered from them. The SparseCore's read share of
  the table is the table's five chunks of 200 rows at that share, one for each of the first five tiles to stage. The
  flat list's and the flat output's chunks are already grouped by tile. The shared memory is cut into its five chunks,
  one for each of the first five tiles to fill; each tile brings back a read share of all five chunks, and each of the
  first five the remainder of its own chunk: chunk by chunk the remainder and the sixteen read shares make the full
  share again, and the five chunks the whole memory.
-/
import proofs.«206737_g54150947668683_cont_9to1_m_866_22_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

/-! ## The cuts are partitions -/

theorem tchunkSet_eq (n : Fin 5) : tchunkSet n = (tchunk n).set := by
  show ((View.whole (cc0_scratch0 : Ref sig .scVector)).slice (tchunk n)).set = _
  rw [View.set_slice]; exact Finset.map_refl
theorem tchunks_disjoint : ∀ i ∈ (Finset.univ : Finset (Fin 5)), ∀ j ∈ (Finset.univ : Finset (Fin 5)), i ≠ j → Disjoint (tchunkSet i) (tchunkSet j) :=
  fun i _ j _ h => by rw [tchunkSet_eq, tchunkSet_eq]; exact Rect.part_disjoint hdiv5 h
theorem tchunks_cover : (Finset.univ : Finset (Fin 5)).biUnion tchunkSet = Finset.univ :=
  (Finset.biUnion_congr rfl fun i _ => tchunkSet_eq i).trans (Rect.biUnion_part hdiv5)

theorem ochunkSet_eq (g : Fin 3200) : ochunkSet g = (ochunk g).set := by
  show ((View.whole (main_v1_scv : Ref sig .scVector)).slice (ochunk g)).set = _
  rw [View.set_slice]; exact Finset.map_refl
theorem ochunks_disjoint : ∀ i ∈ (Finset.univ : Finset (Fin 3200)), ∀ j ∈ (Finset.univ : Finset (Fin 3200)), i ≠ j → Disjoint (ochunkSet i) (ochunkSet j) :=
  fun i _ j _ h => by rw [ochunkSet_eq, ochunkSet_eq]; exact Rect.part_disjoint hdiv3200 h
theorem ochunks_cover : (Finset.univ : Finset (Fin 3200)).biUnion ochunkSet = Finset.univ :=
  (Finset.biUnion_congr rfl fun i _ => ochunkSet_eq i).trans (Rect.biUnion_part hdiv3200)

theorem fchunkSet_eq (g : Fin 3200) : fchunkSet g = (fchunk g).set := by
  show ((View.whole (main_v0_scv : Ref sig .scVector)).slice (fchunk g)).set = _
  rw [View.set_slice]; exact Finset.map_refl
theorem fchunks_disjoint : ∀ i ∈ (Finset.univ : Finset (Fin 3200)), ∀ j ∈ (Finset.univ : Finset (Fin 3200)), i ≠ j → Disjoint (fchunkSet i) (fchunkSet j) :=
  fun i _ j _ h => by rw [fchunkSet_eq, fchunkSet_eq]; exact Rect.part_disjoint hdivF h
theorem fchunks_cover : (Finset.univ : Finset (Fin 3200)).biUnion fchunkSet = Finset.univ :=
  (Finset.biUnion_congr rfl fun i _ => fchunkSet_eq i).trans (Rect.biUnion_part hdivF)

/-- A family over the first `n` of `N` indices, nothing for the others, is the family over `Fin n`. -/
theorem bigSep_dite_lt {n N : ℕ} (h : n ≤ N) (Φ : Fin n → sProp 𝕄) :
    (bigSep Finset.univ fun i : Fin N => if hi : i.val < n then Φ ⟨i.val, hi⟩ else (iprop(emp) : sProp 𝕄)) = bigSep Finset.univ Φ := by
  classical
  rw [bigSep_filter_split Finset.univ (fun i : Fin N => i.val < n),
    show (bigSep (Finset.univ.filter fun i : Fin N => ¬ i.val < n) fun i : Fin N => if hi : i.val < n then Φ ⟨i.val, hi⟩ else (iprop(emp) : sProp 𝕄))
      = bigSep (Finset.univ.filter fun i : Fin N => ¬ i.val < n) fun _ => (iprop(emp) : sProp 𝕄) from
      bigSep_congr fun i hi => dif_neg (Finset.mem_filter.mp hi).2,
    bigSep_emp',
    show (Finset.univ.filter fun i : Fin N => i.val < n) = Finset.univ.map (Fin.castLEEmb h) from by
      ext c; simp only [Finset.mem_filter, Finset.mem_univ, true_and, Finset.mem_map, Fin.castLEEmb_apply]
      exact ⟨fun hc => ⟨⟨c.val, hc⟩, Fin.ext rfl⟩, fun ⟨j, hj⟩ => hj ▸ j.isLt⟩,
    bigSep_map]
  refine (BI.equiv_iff.mp sep_emp).trans (bigSep_congr fun i _ => ?_)
  show (if hi : (Fin.castLE h i).val < n then Φ ⟨(Fin.castLE h i).val, hi⟩ else _) = _
  rw [dif_pos (show (Fin.castLE h i).val < n from i.isLt)]
  exact congrArg Φ (Fin.ext rfl)

variable (m : (ℓ : Loc nD τ sig) → Buf (Elt F) ℓ) (ρ : Dev nD → PrngReg)
variable (flat : (d : Dev nD) → Buf (Elt F) (flatLoc d))

/-- The shared memory at one share is its five chunks at that share, -/
theorem shPts_chunks (d : Dev nD) (c : Fin τ.nSC) (q : PosShare TreeShare) (f : Buf (Elt F) (shLoc d c)) :
    (shLoc d c ↦{q} f : sProp 𝕄) = bigSep Finset.univ fun n : Fin 5 => shLoc d c ↦[tchunkSet n]{q} f := by
  rw [← pointsTo_biUnion Finset.univ (ℓ := shLoc d c) tchunkSet tchunks_disjoint, tchunks_cover]; try rfl
/-- and so is the table. -/
theorem tabPts_chunks (d : Dev nD) (q : PosShare TreeShare) (f : Buf (Elt F) (tabLoc d)) :
    (tabLoc d ↦{q} f : sProp 𝕄) = bigSep Finset.univ fun n : Fin 5 => tabLoc d ↦[tchunkSet n]{q} f := by
  rw [← pointsTo_biUnion Finset.univ (ℓ := tabLoc d) tchunkSet tchunks_disjoint, tchunks_cover]; try rfl

theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

variable [FloatOps F]

/-! ## The table and the shared memory: dealt by chunks, gathered by chunks -/

omit [FloatOps F] in
theorem tabGo_eq (d : Dev nD) (c : Fin 2) :
    (bigSep Finset.univ fun i : Fin 16 => tabGo (F := F) m d c i) = (tabLoc d ↦{qC c} m (tabLoc d) : sProp 𝕄) := by
  unfold tabGo; rw [tabPts_chunks]
  exact bigSep_dite_lt (F := F) (n := 5) (N := 16) (by decide) (fun n => (tabLoc d ↦[tchunkSet n]{qC c} m (tabLoc d) : sProp 𝕄))

omit [FloatOps F] in
theorem shGo_eq (d : Dev nD) (c : Fin τ.nSC) :
    (bigSep Finset.univ fun i : Fin 16 => shGo (F := F) d c i) = bigSep Finset.univ fun n : Fin 5 => (iprop(∃ f, shLoc d c ↦[tchunkSet n]{fullShare} f) : sProp 𝕄) := by
  unfold shGo
  exact bigSep_dite_lt (F := F) (n := 5) (N := 16) (by decide) (fun n => (iprop(∃ f, shLoc d c ↦[tchunkSet n]{fullShare} f) : sProp 𝕄))

omit [FloatOps F] in
theorem shKeep_eq (d : Dev nD) (c : Fin τ.nSC) :
    (bigSep Finset.univ fun i : Fin 16 => shKeep (F := F) m d c i) = bigSep Finset.univ fun n : Fin 5 => shChunkPts m d c n (shareDrop fullShare 16) := by
  unfold shKeep
  exact bigSep_dite_lt (F := F) (n := 5) (N := 16) (by decide) (fun n => shChunkPts m d c n (shareDrop fullShare 16))

omit [FloatOps F] in
/-- The shared memory whole deals each of the first five tiles its chunk. -/
theorem sh_deal (d : Dev nD) (c : Fin τ.nSC) (f : Buf (Elt F) (shLoc d c)) :
    (shLoc d c ↦{fullShare} f : sProp 𝕄) ⊢ bigSep Finset.univ fun i : Fin 16 => shGo (F := F) d c i := by
  rw [shGo_eq, shPts_chunks]
  exact bigSep_mono fun n _ => BI.BIClass.exists_intro (Φ := fun g => (shLoc d c ↦[tchunkSet n]{fullShare} g : sProp 𝕄)) f

omit [FloatOps F] in
/-- What the sixteen tiles bring back of the shared memory is all of it. -/
theorem sh_collect (d : Dev nD) (c : Fin τ.nSC) :
    (bigSep Finset.univ fun i : Fin 16 => shTd (F := F) m d c i) ⊢ (iprop(∃ f, shLoc d c ↦{fullShare} f) : sProp 𝕄) := by
  unfold shTd
  rw [bigSep_sep', shKeep_eq,
    show (bigSep Finset.univ fun i : Fin 16 => (shLoc d c ↦{qS i} tabS m d c : sProp 𝕄))
      = bigSep Finset.univ fun n : Fin 5 => bigSep Finset.univ fun i : Fin 16 => (shLoc d c ↦[tchunkSet n]{qS i} tabS m d c : sProp 𝕄) from by
      rw [bigSep_congr (fun i _ => shPts_chunks d c (qS i) (tabS m d c)), bigSep_univ_comm]]
  iintro ⟨Hall, Hkeep⟩
  iexists (tabS m d c)
  rw [shPts_chunks]
  ihave H := (Entails.of_eq (bigSep_sep' Finset.univ (fun n : Fin 5 => shChunkPts m d c n (shareDrop fullShare 16))
    (fun n : Fin 5 => bigSep Finset.univ fun i : Fin 16 => (shLoc d c ↦[tchunkSet n]{qS i} tabS m d c : sProp 𝕄))).symm) $$ [Hall Hkeep]
  · isplitl [Hkeep]; · iexact Hkeep
    iexact Hall
  iapply (SparseCore.ent (bigSep_mono (Φ := fun n : Fin 5 => iprop(shChunkPts m d c n (shareDrop fullShare 16) ∗ bigSep Finset.univ fun i : Fin 16 => (shLoc d c ↦[tchunkSet n]{qS i} tabS m d c : sProp 𝕄)))
    (Ψ := fun n : Fin 5 => (shLoc d c ↦[tchunkSet n]{fullShare} tabS m d c : sProp 𝕄)) fun n _ => pointsTo_toks_join fullShare 16))
  iexact H

/-! ## The split -/

omit [FloatOps F] in
/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

omit [FloatOps F] in
/-- One SparseCore's operands and its shared memory to its tiles, and back. -/
theorem split_core (d : Dev nD) (c : Fin 2) (cc : Fin τ.nSC) :
    iprop(iprop((tabLoc d ↦{qC c} m (tabLoc d)) ∗ bigSep Finset.univ fun i : Fin 16 => iprop(flatChunks flat d c i ∗ outChunks d c i (m (outLoc d))))
        ∗ (∃ f, shLoc d cc ↦{fullShare} f))
      ⊢ (iprop((bigSep Finset.univ fun i : Fin 16 => iprop(tabGo m d c i ∗ flatChunks flat d c i ∗ outChunks d c i (m (outLoc d)) ∗ shGo d cc i))
        ∗ ((bigSep Finset.univ fun i : Fin 16 => iprop(tabGo m d c i ∗ flatChunks flat d c i ∗ outChunks d c i (outv m flat d) ∗ shTd m d cc i))
            -∗ iprop(iprop((tabLoc d ↦{qC c} m (tabLoc d)) ∗ bigSep Finset.univ fun i : Fin 16 => iprop(flatChunks flat d c i ∗ outChunks d c i (outv m flat d)))
              ∗ (∃ f, shLoc d cc ↦{fullShare} f)))) : sProp 𝕄) := by
  simp only [bigSep_sep']
  rw [tabGo_eq]
  iintro ⟨⟨Ht, Hf, Ho⟩, ⟨%fsh, Hsh⟩⟩
  ihave Hsh' := (sh_deal (F := F) d cc fsh) $$ Hsh
  isplitl [Ht Hf Ho Hsh']
  · isplitl [Ht]; · iexact Ht
    isplitl [Hf]; · iexact Hf
    isplitl [Ho]; · iexact Ho
    iexact Hsh'
  iintro ⟨Ht, Hf, Ho, Hsh⟩
  isplitl [Ht Hf Ho]
  · isplitl [Ht]; · iexact Ht
    isplitl [Hf]; · iexact Hf
    iexact Ho
  iapply (sh_collect (F := F) m d cc); iexact Hsh

theorem vecSplit : (K (F := F)).VecSplit (P m flat) 0 := by
  intro d c
  show iprop(iprop((tabLoc d ↦{qC (c2 c)} m (tabLoc d)) ∗ bigSep Finset.univ fun i : Fin 16 => iprop(flatChunks flat d (c2 c) i ∗ outChunks d (c2 c) i (m (outLoc d))))
      ∗ ownBufs (S d (coreOf c))) ⊢ |={Set.univ}=> iprop(
    (bigSep Finset.univ fun i : Fin ((K (F := F)).nSub 0) => iprop(tabGo m d (c2 c) (i16 i) ∗ flatChunks flat d (c2 c) (i16 i)
        ∗ outChunks d (c2 c) (i16 i) (m (outLoc d)) ∗ shGo d (coreOf c) (i16 i)))
    ∗ ((bigSep Finset.univ fun i : Fin ((K (F := F)).nSub 0) => iprop(tabGo m d (c2 c) (i16 i) ∗ flatChunks flat d (c2 c) (i16 i)
          ∗ outChunks d (c2 c) (i16 i) (outv m flat d) ∗ shTd m d (coreOf c) (i16 i)))
        -∗ iprop(iprop((tabLoc d ↦{qC (c2 c)} m (tabLoc d)) ∗ bigSep Finset.univ fun i : Fin 16 => iprop(flatChunks flat d (c2 c) i ∗ outChunks d (c2 c) i (outv m flat d)))
          ∗ ownBufs (S d (coreOf c)))))
  rw [bigSep_tasks (F := F) (fun i => iprop(tabGo m d (c2 c) i ∗ flatChunks flat d (c2 c) i ∗ outChunks d (c2 c) i (m (outLoc d)) ∗ shGo d (coreOf c) i)),
    bigSep_tasks (F := F) (fun i => iprop(tabGo m d (c2 c) i ∗ flatChunks flat d (c2 c) i ∗ outChunks d (c2 c) i (outv m flat d) ∗ shTd m d (coreOf c) i)),
    ownBufs_S]
  iintro ⟨Hst, Hsh, Hrest⟩; imodintro
  ihave H := (split_core (F := F) m flat d (c2 c) (coreOf c)) $$ [Hst Hsh]
  · isplitl [Hst]; · iexact Hst
    iexact Hsh
  icases H with ⟨Hgo, Hback⟩
  isplitl [Hgo]; · iexact Hgo
  iintro Htd
  ihave H := Hback $$ Htd
  icases H with ⟨Hdn, Hsh⟩
  isplitl [Hdn]; · iexact Hdn
  isplitl [Hsh]; · iexact Hsh
  iexact Hrest

end Cert.Proof.KB

end
-- ==== Proof.KB.LaunchElem.lean ====
/-
  The launch element of the ghost state. Beside the handshakes' rounds it funds the barrier cells' rounds: one cell
  per tile, one round on each, a unit duty per tile of the SparseCore. The launch allocates every cell's invariant at
  once and deals each tile its kit: every cell's invariant of its SparseCore and that each has reached round 0, its own
  position, its duty's token in every cell of its SparseCore, and the credit for the sixteen units of its own cell.
-/
import proofs.«206737_g54150947668683_cont_9to1_m_866_22_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable (flat : (d : Dev nD) → Buf (Elt F) (flatLoc d))

variable [FloatOps F]

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell, for every pair of tiles of a SparseCore. -/
def bToks : Finset (GSem nD τ sig × ℕ × ℕ) :=
  Finset.univ.image fun x : DCI × Fin (grid0.bound 1) => (bcell x.1.1 x.1.2.1 (x.2.castLE hsub0), 0, x.1.2.2.val)
def u₀ : UU := (initOf (K (F := F)).hsCells (K (F := F)).hsToks, (initOf bCells bToks, 1))

omit [FloatOps F] in
theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

omit [FloatOps F] in
theorem sum_tallyAt_one (g : GSem nD τ sig) (ι : HIx 1) : ∀ n : ℕ, ∑ _ : Fin n, tallyAt g ι 1 = (tallyAt g ι n : CellTallies nD τ sig (HIx 1))
  | 0 => by rw [Finset.sum_empty' Finset.univ_eq_empty, tallyAt_zero]
  | n + 1 => by rw [Fin.sum_univ_castSucc, sum_tallyAt_one g ι n, tallyAt_add]
where
  Finset.sum_empty' {α β : Type} [AddCommMonoid β] {s : Finset α} (h : s = ∅) {f : α → β} : ∑ x ∈ s, f x = 0 := by rw [h, Finset.sum_empty]

/-- The credit for the kernels' own debts, regrouped: each tile the sixteen units of its own cell. -/
theorem creds_b : ((P (F := F) m flat).oxCred : sProp 𝕄)
    ⊢ bigSep Finset.univ fun dci : DCI => (cred (tallyAt (bcell₃ dci) (some 0) (grid0.bound 1)) : sProp 𝕄) := by
  unfold SparseCore.Cfg.Pay.oxCred
  rw [SparseCore.Cfg.bigSep_threads (fun thr : Thread nD τ => (cred ((P (F := F) m flat).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  dsimp only
  have hox : ∀ i, (P (F := F) m flat).oxFrom 0 (V d c i) = oxV d c := fun i => by
    rw [show (0 : ℕ) = (0 : Fin 1).val from rfl, (P m flat).oxFrom_step, (P m flat).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem bigSep_mono_frame {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, bigSep_univ_prod]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  rfl

theorem Px_T (d : Dev nD) : (bigSep Finset.univ fun q : Fin 1 => (P (F := F) m flat).x q (SparseCore.T d)) = iprop(emp) :=
  bigSep_univ_of_subsingleton (0 : Fin 1)
theorem Px_S (d : Dev nD) (c : Fin τ.nSC) : (bigSep Finset.univ fun q : Fin 1 => (P (F := F) m flat).x q (S d c)) = iprop(emp) :=
  bigSep_univ_of_subsingleton (0 : Fin 1)
theorem Px_V (d : Dev nD) (c : Fin τ.nSC) (i : Fin τ.nSub) :
    (bigSep Finset.univ fun q : Fin 1 => (P (F := F) m flat).x q (V d c i)) = bkit m d c i :=
  bigSep_univ_of_subsingleton (0 : Fin 1)

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

/-- One tile's kit out of those. -/
theorem kit_intro (dci : DCI) : iprop(shared (F := F) m ∗ mine (F := F) dci) ⊢ (bkit (F := F) m dci.1 dci.2.1 dci.2.2 : sProp 𝕄) := by
  obtain ⟨d, c, i⟩ := dci
  iintro ⟨⟨#Hinv, #Hr⟩, Hat, Htok, Hcred⟩
  dsimp only
  unfold bkit
  isplitr
  · icases Hinv with ⟨%κ, Hinv⟩
    iexists κ
    iapply (SparseCore.ent (bigSep_mono_frame (s := (Finset.univ : Finset (Fin (grid0.bound 1)))) (Φ := fun _ => iprop(emp))
      (R := bigSep Finset.univ fun x : DCI => cellInv EB (bRd (F := F) m) (κ (bcell₃ x)) (bcell₃ x)) fun j _ =>
        sep_elim_left.trans (bigSep_elim (Φ := fun x : DCI => (cellInv EB (bRd (F := F) m) (κ (bcell₃ x)) (bcell₃ x) : sProp 𝕄))
          (i := (d, c, Fin.castLE hsub0 j)) (Finset.mem_univ _))))
    isplitl; · iexact Hinv
    rw [bigSep_emp']; iempintro
  isplitl [Htok]; · iexact Htok
  isplitr
  · iapply (SparseCore.ent (bigSep_mono_frame (s := (Finset.univ : Finset (Fin (grid0.bound 1)))) (Φ := fun _ => iprop(emp))
      (R := bigSep Finset.univ fun x : DCI => reached EB (bcell₃ x) 0) fun j _ =>
        sep_elim_left.trans (bigSep_elim (Φ := fun x : DCI => (reached EB (bcell₃ x) 0 : sProp 𝕄)) (i := (d, c, Fin.castLE hsub0 j)) (Finset.mem_univ _))))
    isplitl; · iexact Hr
    rw [bigSep_emp']; iempintro
  isplitl [Hat]; · iexact Hat
  iexact Hcred

/-- Each tile its kit. -/
theorem kits_deal :
    iprop(shared (F := F) m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P (F := F) m flat).x q thr : sProp 𝕄) := by
  rw [SparseCore.Cfg.bigSep_threads (fun thr : Thread nD τ => bigSep Finset.univ fun q : Fin 1 => (P m flat).x q thr)]
  simp only [Px_T, Px_S, Px_V, bigSep_emp']
  iintro ⟨#Hsh, Hat, Htok, Hcred⟩
  isplitr; · iempintro
  isplitr; · iempintro
  iapply (bigSep_mono_frame (R := shared (F := F) m) (Φ := mine (F := F)) fun dci _ => kit_intro (F := F) m dci)
  isplitr; · iexact Hsh
  unfold mine
  rw [bigSep_sep', bigSep_sep']
  isplitl [Hat]; · iexact Hat
  isplitl [Htok]; · iexact Htok
  iexact Hcred

theorem hu₀ : iprop(ownU (u₀ (F := F)) ∗ (P (F := F) m flat).oxCred ∗ (K (F := F)).freeSems0)
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m flat).x q thr) : sProp 𝕄) := by
  unfold u₀
  iintro ⟨Hu, Hcred, Hfree⟩
  ihave H := (ownU_split _ _) $$ Hu
  icases H with ⟨HH, HB⟩
  imod (Rounds.fund EB (bRd (F := F) m) bCells bToks) $$ HB with ⟨Hst, #Hr, Hat, Htok⟩
  ihave Hsems := (sems_b (F := F)) $$ Hfree
  imod (invs_b (F := F) m) $$ [Hsems Hst] with ⟨%κ, #Hinv⟩
  · isplitl [Hsems] <;> iassumption
  ihave Hcred' := (creds_b m flat) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m flat)
  isplitr
  · isplitl; · iexists κ; iexact Hinv'
    iexact Hr'
  isplitl [Hat']; · iexact Hat'
  isplitl [Htok']; · iexact Htok'
  iexact Hcred'

end Cert.Proof.KB

end
-- ==== Proof.KB.LaunchMain.lean ====
/-
  @main on the TensorCore, and the run. The first host operation writes the flat list of row numbers; the call hands
  each SparseCore a read share of the table and its tiles' chunks of the flat list and of the flat output, and gets
  them back with the looked-up rows; the second host operation reshapes the flat output into the result. What the final
  memory holds is read off the TensorCore's final assertion: the arguments unchanged, the result the lookup.
-/
import proofs.«206737_g54150947668683_cont_9to1_m_866_22_alg».proof.Proof.KB.Res
import proofs.«206737_g54150947668683_cont_9to1_m_866_22_alg».proof.Proof.KB.LaunchSplit
import proofs.«206737_g54150947668683_cont_9to1_m_866_22_alg».proof.Proof.KB.LaunchElem
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.StableHlo (held wp_hlo_within)
open Idealize.ShloMosaic.ValueIdx

variable {F : FTy → Type}

local notation "𝕄" => MT nD τ sig (HIx 1) (Elt F) ℕ UU ℕ

/-! ## The chunks, regrouped by SparseCore and tile -/

/-- Chunk `k` of tile `i` of SparseCore `c` is chunk `k + 100 (i + 16 c)`: every chunk is one tile's. -/
def gEquiv : Fin 2 × Fin 16 × Fin 100 ≃ Fin 3200 where
  toFun x := gidx x.1 x.2.1 x.2.2
  invFun g := (⟨g.val / 1600, by omega⟩, ⟨g.val / 100 % 16, Nat.mod_lt _ (by decide)⟩, ⟨g.val % 100, Nat.mod_lt _ (by decide)⟩)
  left_inv := by
    rintro ⟨c, i, k⟩
    refine Prod.ext (Fin.ext ?_) (Prod.ext (Fin.ext ?_) (Fin.ext ?_)) <;> simp only [gidx] <;> omega
  right_inv := by
    intro g
    refine Fin.ext ?_
    simp only [gidx]; omega

theorem bigSep_chunks (Φ : Fin 3200 → sProp 𝕄) :
    bigSep Finset.univ Φ = bigSep Finset.univ fun c : Fin 2 => bigSep Finset.univ fun i : Fin 16 => bigSep Finset.univ fun k : Fin 100 => Φ (gidx c i k) := by
  rw [bigSep_univ_equiv gEquiv Φ, bigSep_univ_prod]
  refine bigSep_congr fun c _ => ?_
  rw [bigSep_univ_prod]
  rfl

theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

variable (m : (ℓ : Loc nD τ sig) → Buf (Elt F) ℓ) (ρ : Dev nD → PrngReg)
variable (flat : (d : Dev nD) → Buf (Elt F) (flatLoc d))

theorem outPts_chunks (d : Dev nD) (q : PosShare TreeShare) (f : Buf (Elt F) (outLoc d)) :
    (outLoc d ↦{q} f : sProp 𝕄) = bigSep Finset.univ fun g : Fin 3200 => outLoc d ↦[ochunkSet g]{q} f := by
  rw [← pointsTo_biUnion Finset.univ (ℓ := outLoc d) ochunkSet ochunks_disjoint, ochunks_cover]; try rfl
theorem flatPts_chunks (d : Dev nD) (q : PosShare TreeShare) (f : Buf (Elt F) (flatLoc d)) :
    (flatLoc d ↦{q} f : sProp 𝕄) = bigSep Finset.univ fun g : Fin 3200 => flatLoc d ↦[fchunkSet g]{q} f := by
  rw [← pointsTo_biUnion Finset.univ (ℓ := flatLoc d) fchunkSet fchunks_disjoint, fchunks_cover]; try rfl

/-- What the call takes for the two SparseCores together, at contents `f` of the flat output: the two read shares of
    the table, the flat list whole, the flat output whole. -/
theorem both_eq (d : Dev nD) (f : Buf (Elt F) (outLoc d)) :
    (bigSep Finset.univ fun c : Fin 2 => iprop((tabLoc d ↦{qC c} m (tabLoc d))
        ∗ bigSep Finset.univ fun i : Fin 16 => iprop(flatChunks flat d c i ∗ outChunks d c i f)) : sProp 𝕄)
      = iprop((bigSep Finset.univ fun c : Fin 2 => tabLoc d ↦{qC c} m (tabLoc d)) ∗ (flatLoc d ↦{fullShare} flat d) ∗ (outLoc d ↦{fullShare} f)) := by
  rw [flatPts_chunks, outPts_chunks, bigSep_chunks (fun g => (flatLoc d ↦[fchunkSet g]{fullShare} flat d : sProp 𝕄)),
    bigSep_chunks (fun g => (outLoc d ↦[ochunkSet g]{fullShare} f : sProp 𝕄))]
  simp only [bigSep_sep']

/-! ## The host operations -/

abbrev ids' : DevRef τ sig := Proc.devRef .tc (main_arg0 : Ref sig .tc)
abbrev tab' : DevRef τ sig := Proc.devRef .tc (main_arg1 : Ref sig .tc)
abbrev flat' : DevRef τ sig := Proc.devRef .tc (main_v0 : Ref sig .tc)
abbrev out' : DevRef τ sig := Proc.devRef .tc (main_v1 : Ref sig .tc)
abbrev res' : DevRef τ sig := Proc.devRef .tc (main_v2 : Ref sig .tc)
abbrev op1 : HloOp τ sig (Elt F) := StableHlo.reshape main_arg0 main_v0 rfl Facts₀.shapeCasts_S4096x200_S1x819200
abbrev op2 : HloOp τ sig (Elt F) := StableHlo.reshape main_v1 main_v2 rfl Facts₀.shapeCasts_S819200x128_S4096x200x128

/-- The TensorCore's arrays, all unscoped. -/
abbrev S5 : Finset (DevRef τ sig) := {ids', tab', flat', out', res'}

theorem held_S5 (d : Dev nD) (W : Valuation τ sig (Elt F)) :
    (held (T d) S5 W : sProp 𝕄) = iprop((idsLoc d ↦{fullShare} W ids') ∗ (tabLoc d ↦{fullShare} W tab') ∗ (flatLoc d ↦{fullShare} W flat')
      ∗ (outLoc d ↦{fullShare} W out') ∗ resLoc d ↦{fullShare} W res') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄) = iprop((idsLoc d ↦{fullShare} W main_arg0) ∗ (tabLoc d ↦{fullShare} W main_arg1) ∗ (flatLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

/-- The flat list of row numbers: the row numbers in row-major order. -/
def flatOf (d : Dev nD) : Buf (Elt F) (flatLoc d) :=
  shapeCast S1x819200 (m (idsLoc d)) Facts₀.shapeCasts_S4096x200_S1x819200
/-- The result: the flat output's rows, regrouped by batch and history position. -/
def resOf (d : Dev nD) : Buf (Elt F) (resLoc d) :=
  shapeCast S4096x200x128 (outv m (flatOf m) d) Facts₀.shapeCasts_S819200x128_S4096x200x128

/-- The valuation before the second host operation: the flat list written, the flat output holding the looked-up rows. -/
def V2 (d : Dev nD) : Valuation τ sig (Elt F) := Function.update (Function.update (V0 m d) flat' (flatOf m d)) out' (outv m (flatOf m) d)

theorem V2_ids (d : Dev nD) : V2 m d ids' = m (idsLoc d) :=
  (Function.update_of_ne (show ids' ≠ out' by decide) _ _).trans (Function.update_of_ne (show ids' ≠ flat' by decide) _ _)
theorem V2_tab (d : Dev nD) : V2 m d tab' = m (tabLoc d) :=
  (Function.update_of_ne (show tab' ≠ out' by decide) _ _).trans (Function.update_of_ne (show tab' ≠ flat' by decide) _ _)
theorem V2_flat (d : Dev nD) : V2 m d flat' = flatOf m d :=
  (Function.update_of_ne (show flat' ≠ out' by decide) _ _).trans (Function.update_self _ _ _)
theorem V2_out (d : Dev nD) : V2 m d out' = outv m (flatOf m) d := Function.update_self _ _ _
theorem V2_res (d : Dev nD) : V2 m d res' = m (resLoc d) :=
  (Function.update_of_ne (show res' ≠ out' by decide) _ _).trans (Function.update_of_ne (show res' ≠ flat' by decide) _ _)

theorem hop1 : (op1 (F := F)).bufs ⊆ S5 := show ({ids', flat'} : Finset (DevRef τ sig)) ⊆ S5 by decide
theorem hop2 : (op2 (F := F)).bufs ⊆ S5 := show ({out', res'} : Finset (DevRef τ sig)) ⊆ S5 by decide

/-- After the first host operation: the flat list written, the rest as launched. -/
theorem held_after1 (d : Dev nD) :
    (held (T d) S5 ((op1 (F := F)).result (V0 m d)) : sProp 𝕄) = iprop((idsLoc d ↦{fullShare} m (idsLoc d)) ∗ (tabLoc d ↦{fullShare} m (tabLoc d))
      ∗ (flatLoc d ↦{fullShare} flatOf m d) ∗ (outLoc d ↦{fullShare} m (outLoc d)) ∗ resLoc d ↦{fullShare} m (resLoc d)) := by
  rw [held_S5,
    (op1 (F := F)).result_of_not_mem (V0 m d) (b := ids') (show ids' ∉ ({flat'} : Finset (DevRef τ sig)) by decide),
    (op1 (F := F)).result_of_not_mem (V0 m d) (b := tab') (show tab' ∉ ({flat'} : Finset (DevRef τ sig)) by decide),
    (op1 (F := F)).result_of_not_mem (V0 m d) (b := out') (show out' ∉ ({flat'} : Finset (DevRef τ sig)) by decide),
    (op1 (F := F)).result_of_not_mem (V0 m d) (b := res') (show res' ∉ ({flat'} : Finset (DevRef τ sig)) by decide),
    show (op1 (F := F)).result (V0 m d) flat' = flatOf m d from
      StableHlo.reshape_result main_arg0 main_v0 rfl Facts₀.shapeCasts_S4096x200_S1x819200 ⟨by decide, rfl⟩ ⟨by decide, rfl⟩ (V0 m d)]
  rfl

/-- After the second: the result written, the arguments as launched. -/
theorem held_after2 (d : Dev nD) :
    (held (T d) S5 ((op2 (F := F)).result (V2 m d)) : sProp 𝕄) = iprop((idsLoc d ↦{fullShare} m (idsLoc d)) ∗ (tabLoc d ↦{fullShare} m (tabLoc d))
      ∗ (flatLoc d ↦{fullShare} flatOf m d) ∗ (outLoc d ↦{fullShare} outv m (flatOf m) d) ∗ resLoc d ↦{fullShare} resOf m d) := by
  rw [held_S5,
    (op2 (F := F)).result_of_not_mem (V2 m d) (b := ids') (show ids' ∉ ({res'} : Finset (DevRef τ sig)) by decide),
    (op2 (F := F)).result_of_not_mem (V2 m d) (b := tab') (show tab' ∉ ({res'} : Finset (DevRef τ sig)) by decide),
    (op2 (F := F)).result_of_not_mem (V2 m d) (b := flat') (show flat' ∉ ({res'} : Finset (DevRef τ sig)) by decide),
    (op2 (F := F)).result_of_not_mem (V2 m d) (b := out') (show out' ∉ ({res'} : Finset (DevRef τ sig)) by decide),
    show (op2 (F := F)).result (V2 m d) res' = resOf m d from
      (StableHlo.reshape_result main_v1 main_v2 rfl Facts₀.shapeCasts_S819200x128_S4096x200x128 ⟨by decide, rfl⟩ ⟨by decide, rfl⟩ (V2 m d)).trans
        (by rw [V2_out]; rfl),
    V2_ids, V2_tab, V2_flat, V2_out]

variable [FloatOps F]

/-! ## @main on the TensorCore -/

theorem st0_eq (d : Dev nD) :
    (bigSep Finset.univ fun c : Fin ((K (F := F)).nCore 0) => (P m flat).st 0 d c)
      = iprop((bigSep Finset.univ fun c : Fin 2 => tabLoc d ↦{qC c} m (tabLoc d)) ∗ (flatLoc d ↦{fullShare} flat d) ∗ (outLoc d ↦{fullShare} m (outLoc d))) :=
  (bigSep_cores (F := F) fun c => iprop((tabLoc d ↦{qC c} m (tabLoc d))
    ∗ bigSep Finset.univ fun i : Fin 16 => iprop(flatChunks flat d c i ∗ outChunks d c i (m (outLoc d))))).trans (both_eq m flat d _)
theorem dn0_eq (d : Dev nD) :
    (bigSep Finset.univ fun c : Fin ((K (F := F)).nCore 0) => (P m flat).dn 0 d c)
      = iprop((bigSep Finset.univ fun c : Fin 2 => tabLoc d ↦{qC c} m (tabLoc d)) ∗ (flatLoc d ↦{fullShare} flat d) ∗ (outLoc d ↦{fullShare} outv m flat d)) :=
  (bigSep_cores (F := F) fun c => iprop((tabLoc d ↦{qC c} m (tabLoc d))
    ∗ bigSep Finset.univ fun i : Fin 16 => iprop(flatChunks flat d c i ∗ outChunks d c i (outv m flat d)))).trans (both_eq m flat d _)

/-- What @main leaves the claim: the arguments at their launch contents, the result at the reshaped rows. -/
abbrev FIN (d : Dev nD) : sProp 𝕄 :=
  iprop((idsLoc d ↦{fullShare} m (idsLoc d)) ∗ (tabLoc d ↦{fullShare} m (tabLoc d)) ∗ resLoc d ↦{fullShare} resOf m d)

/-- @main on device `d`'s TensorCore: the flat list written; the call, from the table's two read shares, the flat list
    and the flat output, all back with the rows looked up; the result written. -/
theorem hmain (κ : GSem nD τ sig → ℕ) (d : Dev nD) :
    iprop((K (F := F)).ctx EH (P m (flatOf m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the flat list
  iapply (wp_hlo_within 𝒱 (SparseCore.T d) none Set.univ (op := op1) (S := S5) hop1 (V := V0 m d)) $$ [Hb Hheld]
  · isplitl [Hb]; · iexact Hb
    iexact Hheld
  iintro ⟨Hb, Hheld⟩
  ihave Hh := (Entails.of_eq (held_after1 (F := F) m d)) $$ Hheld
  icases Hh with ⟨Hi, Ht, Hf, Ho, Hr⟩
  ihave Ht' := (pointsTo_toks_split fullShare 2) $$ Ht
  icases Ht' with ⟨Htd, Hts⟩
  rw [wp_ret]; imodintro
  -- the call
  iapply ((K (F := F)).wp_run (D (F := F)) 𝒱 (EH := EH) (P := P m (flatOf m)) κ d 0) $$ [Hst Hts Hf Ho Hb Hi Htd Hr]
  isplitr; · iexact Hctx
  isplitl [Hst]; · iexact Hst
  isplitl [Hts Hf Ho]
  · rw [st0_eq]
    isplitl [Hts]; · iexact Hts
    isplitl [Hf]; · iexact Hf
    iexact Ho
  iintro ⟨Hst, Hdn⟩
  ihave Hdn' := (Entails.of_eq (dn0_eq m (flatOf m) d)) $$ Hdn
  icases Hdn' with ⟨Hts, Hf, Ho⟩
  ihave Ht := (pointsTo_toks_join fullShare 2) $$ [Htd Hts]
  · isplitl [Htd]; · iexact Htd
    iexact Hts
  -- the result
  iapply (wp_hlo_within 𝒱 (SparseCore.T d) none Set.univ (op := op2) (S := S5) hop2 (V := V2 m d)) $$ [Hb Hi Ht Hf Ho Hr]
  · isplitl [Hb]; · iexact Hb
    rw [held_S5, V2_ids, V2_tab, V2_flat, V2_out, V2_res]
    isplitl [Hi]; · iexact Hi
    isplitl [Ht]; · iexact Ht
    isplitl [Hf]; · iexact Hf
    isplitl [Ho]; · iexact Ho
    iexact Hr
  iintro ⟨Hb, Hheld⟩
  ihave Hh := (Entails.of_eq (held_after2 (F := F) m d)) $$ Hheld
  icases Hh with ⟨Hi, Ht, -, -, Hr⟩
  rw [wp_ret]; imodintro; imodintro
  isplitl [Hst]; · iexact Hst
  isplitl [Hi]; · iexact Hi
  isplitl [Ht]; · iexact Ht
  iexact Hr

/-! ## The final memory -/

def fq (d : Dev nD) (s' : Phys nD τ sig (Elt F)) : Prop :=
  s'.mem.mem (resLoc d) = resOf m d ∧ s'.mem.mem (idsLoc d) = m (idsLoc d) ∧ s'.mem.mem (tabLoc d) = m (tabLoc d)

omit [FloatOps F] in
/-- An array held whole is what the memory holds. -/
theorem agree_whole (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

omit [FloatOps F] in
theorem hfin (d : Dev nD) (s' : Phys nD τ sig (Elt F)) : iprop(FIN m d ∗ SI s') ⊢ (⌜fq m d s'⌝ : sProp 𝕄) := by
  have h1 : iprop(FIN m d ∗ SI s') ⊢ (⌜s'.mem.mem (resLoc d) = resOf m d⌝ : sProp 𝕄) := by
    iintro ⟨⟨-, -, Hr⟩, HSI⟩
    iapply (agree_whole s' (resLoc d) (resOf m d)); isplitl [Hr] <;> iassumption
  have h2 : iprop(FIN m d ∗ SI s') ⊢ (⌜s'.mem.mem (idsLoc d) = m (idsLoc d)⌝ : sProp 𝕄) := by
    iintro ⟨⟨Hi, -, -⟩, HSI⟩
    iapply (agree_whole s' (idsLoc d) (m (idsLoc d))); isplitl [Hi] <;> iassumption
  have h3 : iprop(FIN m d ∗ SI s') ⊢ (⌜s'.mem.mem (tabLoc d) = m (tabLoc d)⌝ : sProp 𝕄) := by
    iintro ⟨⟨-, Ht, -⟩, HSI⟩
    iapply (agree_whole s' (tabLoc d) (m (tabLoc d))); isplitl [Ht] <;> iassumption
  exact (BI.and_intro h1 (BI.and_intro h2 h3)).trans (fun _ h => ⟨h.1, h.2.1, h.2.2⟩)

/-! ## The result is the lookup -/

/-- The flat position of the pair `(b, h)`. -/
def flatRow (b : Fin 4096) (h : Fin 200) : Fin 819200 := ⟨200 * b.val + h.val, by omega⟩

omit [FloatOps F] in
/-- A list of 4096 × 200 entries, flattened, read at the flat position of `(b, h)` is the list at `(b, h)`. -/
theorem flat_apply {α : Type} (ids : S4096x200.Idx → α) (hn : S4096x200.ShapeCasts S1x819200) (b : Fin 4096) (h : Fin 200) :
    shapeCast S1x819200 ids hn (ix2 0 (flatRow b h)) = ids (ix2 b h) := by
  refine shapeCast_apply ids hn _ _ ?_
  rw [Shape.rowMajor_val_two, Shape.rowMajor_val_two]
  show b.val * 200 + h.val = 0 * 819200 + (200 * b.val + h.val)
  omega

omit [FloatOps F] in
/-- Rows gathered at the flat positions, regrouped by batch and history position, are the lookup. -/
theorem reshape_rows {α : Type} (ids : IVec S4096x200 32) (tab : S1000x128.Idx → α) (hn : S4096x200.ShapeCasts S1x819200)
    (hn' : S819200x128.ShapeCasts S4096x200x128) (G : S819200x128.Idx → α)
    (hG : ∀ (r : Fin 819200) (e : Fin 128), G (ix2 r e) = tab (ix2 (Cert.Spec.rowOf (shapeCast S1x819200 ids hn (ix2 0 r))) e)) :
    shapeCast S4096x200x128 G hn' = Cert.Spec.lookup ids tab := by
  funext j
  have e1 := shapeCast_apply G hn' j (ix2 (flatRow (j 0) (j 1)) (j 2)) (by
    rw [Shape.rowMajor_val_two, Shape.rowMajor_val_three]
    show (200 * (j 0).val + (j 1).val) * 128 + (j 2).val = ((j 0).val * 200 + (j 1).val) * 128 + (j 2).val
    omega)
  exact e1.trans ((hG (flatRow (j 0) (j 1)) (j 2)).trans
    (congrArg (fun w => tab (ix2 (Cert.Spec.rowOf w) (j 2))) (flat_apply ids hn (j 0) (j 1))))

omit [FloatOps F] in
/-- The flat output's rows, regrouped by batch and history position, are the lookup. -/
theorem resOf_eq (d : Dev nD) : resOf m d = Cert.Spec.lookup (m (idsLoc d)) (m (tabLoc d)) :=
  reshape_rows (m (idsLoc d)) (m (tabLoc d)) Facts₀.shapeCasts_S4096x200_S1x819200 Facts₀.shapeCasts_S819200x128_S4096x200x128
    (outv m (flatOf m) d) (fun _ _ => rfl)

omit [FloatOps F] in
/-- The flat list's words are the row numbers' words: in range when those are. -/
theorem flatOf_lt (hin : ∀ d, Cert.Spec.InRange (m (idsLoc d))) (d : Dev nD) (x : S1x819200.Idx) : (flatOf m d x : BitVec 32).toNat < 1000 :=
  hin d _

/-! ## The run -/

theorem run_main [∀ e, Nonempty (Elt F e)] (hin : ∀ d, Cert.Spec.InRange (m (idsLoc d)))
    (htile : ∀ flat : (d : Dev nD) → Buf (Elt F) (flatLoc d), (∀ d x, (flat d x : BitVec 32).toNat < 1000) → (K (F := F)).TileObl (D (F := F)) 𝒱 (P m flat) v₀ 0) :
    θ_run (Cert.Kernel.defs (F := F)) (Cert.Kernel.threads (F := F)) ⟨m, fun _ => 0, ρ⟩ (fun r => ∀ c : Dev nD,
      r.2.mem (resLoc c) = Cert.Spec.lookup (m (idsLoc c)) (m (tabLoc c)) ∧ r.2.mem (idsLoc c) = m (idsLoc c) ∧ r.2.mem (tabLoc c) = m (tabLoc c)) :=
  SparseCore.Cfg.θ_run_sc (K := K (F := F)) (D := D (F := F)) (𝒱 := 𝒱) (EH := EH) (P := P m (flatOf m)) facts v₀
    (fun q hq => match q with | 0 => nomatch hq)
    (fun q _ => match q with | 0 => htile (flatOf m) (flatOf_lt m hin))
    (fun q _ => match q with | 0 => vecSplit m (flatOf m))
    m ρ main (fun _ => iprop(emp)) (FIN m) (u₀ (F := F)) (hu₀ m (flatOf m)) (hmain m ρ) (fq m) (hfin m) _
    (fun s' h c => ⟨(h c).1.trans (resOf_eq m c), (h c).2.1, (h c).2.2⟩)

end Cert.Proof.KB

end
-- ==== Proof.KB.Launch.lean ====
/-
  The launch of the word-level kernel's run, assembled: how a SparseCore's operands are dealt to its tiles and gathered
  from them, the launch element of the ghost state, @main on the TensorCore and the run from the tile's obligation.
-/
import proofs.«206737_g54150947668683_cont_9to1_m_866_22_alg».proof.Proof.KB.LaunchSplit
import proofs.«206737_g54150947668683_cont_9to1_m_866_22_alg».proof.Proof.KB.LaunchElem
import proofs.«206737_g54150947668683_cont_9to1_m_866_22_alg».proof.Proof.KB.LaunchMain
-- ==== Proof.KB.Geo.lean ====
/-
  The geometry of one tile's work: which rows of which array each of the kernel's slices names. A tile at grid
  coordinates `L = (core, subcore)` stages chunk `subcore` of the table when `subcore < 5`; its `k`-th step reads
  entries `256 (k + 100 w) … + 255` of the flat list (`w = subcore + 16 core`) and writes the same rows of the
  flat output; the two halves of each double buffer are numbered by the step's parity.
-/
import proofs.«206737_g54150947668683_cont_9to1_m_866_22_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

section Geo

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

/-- A tile stages a chunk exactly when its subcore number is below five. -/
theorem cond1_iff : ∀ L : grid0.Coords, k0_cond1 L = 1#1 ↔ (L 1).val < 5 := by decide +kernel

/-- The chunk of the table (and of the shared memory) the tile stages, as the kernel slices it. -/
abbrev stRect (h1 : k0_cond1 L = 1#1) : Rect S1000x128 := Rect.unit (s := S1000x128) (k0_off1 L) S200x128.size (k0_off1_inb L h1)

theorem stRect_eq (h1 : k0_cond1 L = 1#1) (hlt : (L 1).val < 5) : stRect L h1 = tchunk ⟨(L 1).val, hlt⟩ := by
  unfold stRect tchunk Rect.part Rect.block
  congr 1 <;> funext a
  · rw [k0_off1_eq]
    match a with
    | 0 => simp [Shape.partIx, Shape.partSize]; omega
    | 1 => simp [Shape.partIx, Shape.partSize]
  · match a with
    | 0 => simp [Shape.partSize]
    | 1 => simp [Shape.partSize]

end Geo

end Cert.Proof.KB

end
-- ==== Proof.KB.Own.lean ====
/-
  One tile's task. A tile whose subcore number is below five copies its chunk of the table into the SparseCore's
  shared memory and waits for the copy; all sixteen tiles of the SparseCore meet at the subcore barrier, where each of
  the five hands every tile a read share of the chunk it staged, so that past the barrier every tile reads the whole
  staged table; then the tile runs its hundred steps (Steps.lean).
-/
import proofs.«206737_g54150947668683_cont_9to1_m_866_22_alg».proof.Proof.KB.Geo

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-- The tile's thread. -/
abbrev thr (d : Dev nD) (L : grid0.Coords) : Thread nD τ := V d (cV L) (jV L)

/-- The tile's six transfer semaphores. -/
abbrev dcell (d : Dev nD) (L : grid0.Coords) (n : Fin 6) : GSem nD τ sig := (thr d L, .dma n)

omit [FloatOps F] in
theorem dcell_ne {n n' : Fin 6} (h : n ≠ n') : dcell d L n ≠ dcell d L n' := fun e => h (SemLoc.dma.inj (Prod.mk.inj e).2)

omit [FloatOps F] in
theorem dcell_mem (n : Fin 6) : dcell d L n ∈ ownCells (sig := sig) (thr d L) :=
  (mem_ownCells (g := dcell d L n)).mpr ⟨rfl, by show (SemLoc.dma n : SemLoc sig).isScoped .scVector = true; revert n; decide⟩

omit [FloatOps F] in
theorem ownSems0_V :
    (ownSems0 (thr d L) : sProp 𝕄)
      = iprop(semVal (dcell d L 0) 0 ∗ semVal (dcell d L 1) 0 ∗ semVal (dcell d L 2) 0 ∗ semVal (dcell d L 3) 0 ∗ semVal (dcell d L 4) 0 ∗ semVal (dcell d L 5) 0
          ∗ bigSep ((((((((ownCells (thr d L)).erase (dcell d L 0)).erase (dcell d L 1)).erase (dcell d L 2)).erase (dcell d L 3)).erase (dcell d L 4)).erase (dcell d L 5))) fun g => semVal g 0) := by
  unfold SparseCore.Cfg.ownSems0
  rw [SparseCore.bigSep_erase' (dcell_mem d L 0),
    SparseCore.bigSep_erase' (Finset.mem_erase.mpr ⟨dcell_ne d L (by decide), dcell_mem d L 1⟩),
    SparseCore.bigSep_erase' (Finset.mem_erase.mpr ⟨dcell_ne d L (by decide), Finset.mem_erase.mpr ⟨dcell_ne d L (by decide), dcell_mem d L 2⟩⟩),
    SparseCore.bigSep_erase' (Finset.mem_erase.mpr ⟨dcell_ne d L (by decide), Finset.mem_erase.mpr ⟨dcell_ne d L (by decide), Finset.mem_erase.mpr ⟨dcell_ne d L (by decide), dcell_mem d L 3⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L 4⟩⟩⟩⟩),
    SparseCore.bigSep_erase' (Finset.mem_erase.mpr ⟨dcell_ne d L (by decide), Finset.mem_erase.mpr ⟨dcell_ne d L (by decide), Finset.mem_erase.mpr ⟨dcell_ne d L (by decide), Finset.mem_erase.mpr ⟨dcell_ne d L (by decide), Finset.mem_erase.mpr ⟨dcell_ne d L (by decide), dcell_mem d L 5⟩⟩⟩⟩⟩)]

omit [FloatOps F] in
/-- The two double buffers are among the tile's own: they, at some contents, and the rest. -/
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase ((Proc.scVector (cV L) (jV L)).devRef cc0_scoped2))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scoped0) rfl),
    SparseCore.bigSep_erase' (Finset.mem_erase.mpr ⟨(fun h => absurd (show (1 : ℕ) = 0 from congrArg (fun b : DevRef τ sig => b.idx.val) h) (by decide)), SparseCore.Cfg.mem_ownRefs_of_owner (p := Proc.scVector (cV L) (jV L)) (b := (Proc.scVector (cV L) (jV L)).devRef cc0_scoped2) rfl⟩)]

end Tile

end Cert.Proof.KB

end
-- ==== Proof.KB.Stage.lean ====
/-
  A tile's part in staging the table. A tile whose subcore number is below five copies its chunk of the table into
  its SparseCore's shared memory; at the subcore barrier it hands every tile of the SparseCore a read share of that
  chunk and keeps the rest of the share; past the barrier each tile has collected, from the five, a read share of the
  whole staged table.
-/
import proofs.«206737_g54150947668683_cont_9to1_m_866_22_alg».proof.Proof.KB.Own
import proofs.«206737_g54150947668683_cont_9to1_m_866_22_alg».proof.Proof.KB.LaunchSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-! ## Staging: the tile's chunk of the table and of the shared memory, as the kernel slices them -/

abbrev stTab (h1 : k0_cond1 L = 1#1) : Memref sig .scVector .hbm S200x128 .f32 := (tabV).slice (stRect L h1) (fun _ => rfl)
abbrev stSh (h1 : k0_cond1 L = 1#1) : Memref sig .scVector .shared S200x128 .f32 := (shV).slice (stRect L h1) (fun _ => rfl)

omit [FloatOps F] in
theorem set_stTab (h1 : k0_cond1 L = 1#1) (hlt : (jL L).val < 5) : (stTab L h1).view.set = tchunkSet ⟨(jL L).val, hlt⟩ := by
  show ((tabV).view.slice (stRect L h1)).set = ((shV).view.slice (tchunk ⟨(jL L).val, hlt⟩)).set
  exact stRect_eq L h1 hlt ▸ rfl
omit [FloatOps F] in
theorem set_stSh (h1 : k0_cond1 L = 1#1) (hlt : (jL L).val < 5) : (stSh L h1).view.set = tchunkSet ⟨(jL L).val, hlt⟩ := by
  show ((shV).view.slice (stRect L h1)).set = ((shV).view.slice (tchunk ⟨(jL L).val, hlt⟩)).set
  exact stRect_eq L h1 hlt ▸ rfl
omit [FloatOps F] in
theorem pts_stTab (h1 : k0_cond1 L = 1#1) (hlt : (jL L).val < 5) (q : PosShare TreeShare) (f : Buf (Elt F) (tabLoc d)) :
    ((stTab L h1).view.loc (thr d L) ↦[(stTab L h1).view.set]{q} f : sProp 𝕄) = tabLoc d ↦[tchunkSet ⟨(jL L).val, hlt⟩]{q} f := by
  rw [set_stTab L h1 hlt]
omit [FloatOps F] in
theorem pts_stSh (h1 : k0_cond1 L = 1#1) (hlt : (jL L).val < 5) (q : PosShare TreeShare) (f : Buf (Elt F) (shLoc d (cV L))) :
    ((stSh L h1).view.loc (thr d L) ↦[(stSh L h1).view.set]{q} f : sProp 𝕄) = shLoc d (cV L) ↦[tchunkSet ⟨(jL L).val, hlt⟩]{q} f := by
  rw [set_stSh L h1 hlt]; rfl

/-- The staged chunk a tile among the first five holds before the barrier: full, at the table's contents. -/
def shStaged (c : Fin τ.nSC) (i : Fin 16) : sProp 𝕄 :=
  if h : i.val < 5 then shChunkPts m d c ⟨i.val, h⟩ fullShare else iprop(emp)

/-- Before the barrier a tile among the first five cuts its staged chunk into a part it keeps and one read share per
    tile of its SparseCore: what its duty in each tile's round hands over. The other tiles hand over nothing. -/
theorem pays_intro : shStaged m d (cV L) (jL L)
    ⊢ iprop(shKeep m d (cV L) (jL L)
        ∗ bigSep Finset.univ fun j : Fin (grid0.bound 1) => (bRd (F := F) m).payload (bcell d (cV L) (j.castLE hsub0)) 0 (jV L).val) := by
  unfold shStaged shKeep
  by_cases h : (jL L).val < 5
  · rw [dif_pos h, dif_pos h]
    have e : (bigSep Finset.univ fun j : Fin (grid0.bound 1) => (bRd (F := F) m).payload (bcell d (cV L) (j.castLE hsub0)) 0 (jV L).val)
        = bigSep Finset.univ fun i : Fin 16 => shChunkPts m d (cV L) ⟨(jL L).val, h⟩ (shareTok fullShare 16 i) :=
      bigSep_congr fun j _ => by
        show bPay m (bcell d (cV L) (j.castLE hsub0)) (jV L).val = _
        unfold bPay; dsimp only
        rw [dif_pos (show (jV L).val < 5 from h)]
        rfl
    rw [e]
    exact Transfers.pointsTo_toks_split fullShare 16
  · rw [dif_neg h, dif_neg h]
    have e : (bigSep Finset.univ fun j : Fin (grid0.bound 1) => (bRd (F := F) m).payload (bcell d (cV L) (j.castLE hsub0)) 0 (jV L).val)
        = bigSep Finset.univ fun _ : Fin (grid0.bound 1) => (iprop(emp) : sProp 𝕄) :=
      bigSep_congr fun j _ => by
        show bPay m (bcell d (cV L) (j.castLE hsub0)) (jV L).val = _
        unfold bPay; dsimp only
        rw [dif_neg (show ¬ (jV L).val < 5 from h)]
    rw [e, bigSep_emp']
    iintro -
    isplitl [] <;> iempintro

/-- Past the barrier a tile's own round has collected, from each of the first five tiles, its read share of that tile's
    chunk: together the whole staged table at that share. -/
theorem pays_elim : (bigSep ((bRd (F := F) m).duties (bcell d (cV L) (jV L)) 0 \ ∅) fun n => (bRd (F := F) m).payload (bcell d (cV L) (jV L)) 0 n)
    ⊢ (shLoc d (cV L) ↦{qS (jL L)} tabS m d (cV L) : sProp 𝕄) := by
  rw [Finset.sdiff_empty, bRd_duties₀]
  have hsub : (Finset.univ : Finset (Fin 5)).image (fun n : Fin 5 => n.val) ⊆ (Finset.univ : Finset (Fin τ.nSub)).image Fin.val := by
    intro x hx; obtain ⟨n, -, rfl⟩ := Finset.mem_image.mp hx
    exact Finset.mem_image.mpr ⟨⟨n.val, by have := n.isLt; show n.val < 16; omega⟩, Finset.mem_univ _, rfl⟩
  refine (bigSep_subset hsub).trans ?_
  rw [bigSep_image_of_injOn (fun a _ b _ e => Fin.ext e)]
  have e : (bigSep Finset.univ fun n : Fin 5 => (bRd (F := F) m).payload (bcell d (cV L) (jV L)) 0 n.val)
      = bigSep Finset.univ fun n : Fin 5 => (shLoc d (cV L) ↦[tchunkSet n]{qS (jL L)} tabS m d (cV L) : sProp 𝕄) :=
    bigSep_congr fun n _ => by
      show bPay m (bcell d (cV L) (jV L)) n.val = _
      unfold bPay; dsimp only
      rw [dif_pos n.isLt]
      rfl
  rw [e, shPts_chunks d (cV L) (qS (jL L)) (tabS m d (cV L))]
  exact BI.Entails.refl _

end Tile

end Cert.Proof.KB

end
-- ==== Proof.KB.StageValue.lean ====
/-
  The staging copy's result. A tile among the first five copies its chunk of the table into the same chunk of its
  SparseCore's shared memory: both are one rectangle of two arrays of one shape, so the element written at a place of the
  shared memory is the table's entry at that place, and the chunk ends holding the table's rows.
-/
import proofs.«206737_g54150947668683_cont_9to1_m_866_22_alg».proof.Proof.KB.Res
import proofs.«206737_g54150947668683_cont_9to1_m_866_22_alg».proof.Proof.KB.Stage
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

omit [FloatOps F] in
/-- After the copy the tile's chunk of the shared memory holds the table's rows. -/
theorem staged_intro (h1 : k0_cond1 L = 1#1) (hlt : (jL L).val < 5) (fsh : Buf (Elt F) (shLoc d (cV L))) :
    (View.loc (thr d L) (stSh L h1).view ↦[(stSh L h1).view.set]{fullShare}
        (stSh L h1).view.writes (Elt F) fsh [⟨Rect.whole S200x128, ReadAs.same.apply (View.read (Elt F) (stTab L h1).view (m (tabLoc d)))⟩] : sProp 𝕄)
      ⊢ shStaged m d (cV L) (jL L) := by
  unfold shStaged
  rw [dif_pos hlt]
  unfold shChunkPts
  rw [pts_stSh d L h1 hlt,
    pointsTo_congr (g := tabS m d (cV L)) (fun i hi => by
      rw [← set_stSh L h1 hlt] at hi
      obtain ⟨y, -, rfl⟩ := Finset.mem_map.mp hi
      have h := View.read_writes_cons_emb (stSh L h1).view fsh (Rect.whole S200x128)
        (ReadAs.same.apply (View.read (Elt F) (stTab L h1).view (m (tabLoc d)))) [] y
      rw [Rect.emb_whole_apply, View.read_apply] at h
      refine (cast_eq _ _).symm.trans (h.trans ?_)
      show (stTab L h1).view.read (Elt F) (m (tabLoc d)) y = m (tabLoc d) ((stSh L h1).view.emb y)
      rw [View.read_apply]; rfl)]

end Tile

end Cert.Proof.KB

end
-- ==== Proof.KB.Slots.lean ====
/-
  The pieces a tile's hundred steps move between. The tile's index buffer and its row buffer are double buffers: two
  halves each, used in turn by the steps of even and of odd number. Step `k` of tile `(c, i)` reads chunk
  `gidx c i k` of the flat list of row numbers into a half of the index buffer, gathers the table's rows it names
  from the staged table into a half of the row buffer, and copies that half out to chunk `gidx c i k` of the flat
  output.
-/
import proofs.«206737_g54150947668683_cont_9to1_m_866_22_alg».proof.Proof.KB.Stage

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## The halves of the double buffers and the chunks, as memrefs -/

theorem idxRect_inb (p : Fin 2) : ∀ a, (![p.val, 0, 0] : Fin 3 → ℕ) a + S1x1x256.size a ≤ S2x1x256.size a := by revert p; decide
theorem rowRect_inb (p : Fin 2) : ∀ a, (![p.val, 0, 0] : Fin 3 → ℕ) a + S1x256x128.size a ≤ S2x256x128.size a := by revert p; decide
theorem semRect_inb (p : Fin 2) : ∀ a, (![p.val] : Fin 1 → ℕ) a + S1.size a ≤ S2.size a := by revert p; decide

/-- Half `p` of the index buffer and of the row buffer, and place `p` of a pair of semaphores, as rectangles. -/
abbrev idxRect (p : Fin 2) : Rect S2x1x256 := Rect.unit (s := S2x1x256) ![p.val, 0, 0] S1x1x256.size (idxRect_inb p)
abbrev rowRect (p : Fin 2) : Rect S2x256x128 := Rect.unit (s := S2x256x128) ![p.val, 0, 0] S1x256x128.size (rowRect_inb p)
abbrev semRect (p : Fin 2) : Rect S2 := Rect.unit (s := S2) ![p.val] S1.size (semRect_inb p)

/-- Half `p` of the index buffer: 256 row numbers. -/
abbrev idxSlot (p : Fin 2) : Memref sig .scVector .vmem S1x256 .i32 :=
  ((idxV).slice (idxRect p) (fun _ => rfl)).squeeze S1x256 Facts₀.squeezes_S1x1x256_S1x256
/-- Half `p` of the row buffer: 256 rows of 128 entries. -/
abbrev rowSlot (p : Fin 2) : Memref sig .scVector .vmem S256x128 .f32 :=
  ((rowV).slice (rowRect p) (fun _ => rfl)).squeeze S256x128 Facts₀.squeezes_S1x256x128_S256x128
theorem fchunkU_inb (g : Fin 3200) : ∀ a, (![0, 256 * g.val] : Fin 2 → ℕ) a + S1x256.size a ≤ S1x819200.size a := fun a => by
  have := g.isLt
  match a with
  | ⟨0, _⟩ => show 0 + 1 ≤ 1; omega
  | ⟨1, _⟩ => show 256 * g.val + 256 ≤ 819200; omega
theorem ochunkU_inb (g : Fin 3200) : ∀ a, (![256 * g.val, 0] : Fin 2 → ℕ) a + S256x128.size a ≤ S819200x128.size a := fun a => by
  have := g.isLt
  match a with
  | ⟨0, _⟩ => show 256 * g.val + 256 ≤ 819200; omega
  | ⟨1, _⟩ => show 0 + 128 ≤ 128; omega
/-- Chunk `g` of the flat list and of the flat output, as unit-stride rectangles of literal sizes. -/
abbrev fchunkU (g : Fin 3200) : Rect S1x819200 := Rect.unit (s := S1x819200) ![0, 256 * g.val] S1x256.size (fchunkU_inb g)
abbrev ochunkU (g : Fin 3200) : Rect S819200x128 := Rect.unit (s := S819200x128) ![256 * g.val, 0] S256x128.size (ochunkU_inb g)
/-- Chunk `g` of the flat list and of the flat output, as the tile's transfers name them. -/
abbrev fchunkM (g : Fin 3200) : Memref sig .scVector .hbm S1x256 .i32 := (flatV).slice (fchunkU g) (fun _ => rfl)
abbrev ochunkM (g : Fin 3200) : Memref sig .scVector .hbm S256x128 .f32 := (outV).slice (ochunkU g) (fun _ => rfl)
/-- The staged table whole, as the gather names it. -/
abbrev shAll : Memref sig .scVector .shared S1000x128 .f32 :=
  (shV).slice (Rect.unit (s := S1000x128) ![0, 0] S1000x128.size Facts₀.inb_S1000x128_S1000x128_0_0) (fun _ => rfl)
/-- Half `p` of the index buffer as the list of 256 offsets the gather reads. -/
abbrev offsM (p : Fin 2) : Memref sig .scVector .vmem S256 .i32 :=
  ((idxSlot p).slice (Rect.unit (s := S1x256) ![0, 0] S1x256.size Facts₀.inb_S1x256_S1x256_0_0) (fun _ => rfl)).squeeze S256 Facts₀.squeezes_S1x256_S256

end Cert.Proof.KB

end
-- ==== Proof.KB.Arith.lean ====
/-
  The arithmetic of one tile's loop, in closed form. A tile at grid coordinates `L = (core, subcore)` has number
  `w = subcore + 16 core`; its loop runs a hundred trips carrying five words: before trip `k` they are the next fetch
  slot's counter `1 + min k 99`, the counters `k`, `k` and `k - 1` of the fetches awaited, the rows copied out and
  the copies awaited, and the step number `k mod 100`. At these words every condition the body branches on is decided
  by `k` alone, every slice's offsets are a closed form of `k` and `w`, the side conditions the body assumes hold, and
  a trip takes the words of `k` to those of `k + 1`.
-/
import proofs.«206737_g54150947668683_cont_9to1_m_866_22_alg».proof.Proof.KB.Slots

-- one theorem at a time: each is decided over every grid point and trip
set_option Elab.async false

namespace Cert.Proof.KB

open Cert.Kernel Cert.Kernel.Gen Idealize.ShloMosaic

/-- The five carried words before trip `k`. -/
def accOf (k : ℕ) : BitVec 32 × BitVec 32 × BitVec 32 × BitVec 32 × BitVec 32 :=
  (BitVec.ofNat 32 (1 + min k 99), BitVec.ofNat 32 k, BitVec.ofNat 32 k, BitVec.ofNat 32 (k - 1), BitVec.ofNat 32 (k % 100))

/-! ## The offsets in closed form -/

/-- The half of the row-number buffer the next fetch fills, and its semaphore: the parity of the fetch counter. -/
theorem off5_eq : ∀ (k : Fin k0_t1_loop.trips), k0_off5 (BitVec.ofNat 32 (1 + min k.val 99)) = ![(1 + min k.val 99) % 2, 0, 0] := by decide +kernel
theorem off5_eq' (k : Fin k0_t1_loop.trips) (h : k.val < 99) : k0_off5 (BitVec.ofNat 32 (1 + min k.val 99)) = ![(k.val + 1) % 2, 0, 0] := by
  rw [off5_eq, Nat.min_eq_left (by omega), Nat.add_comm]
theorem off7_eq : ∀ (k : Fin k0_t1_loop.trips), k0_off7 (BitVec.ofNat 32 (1 + min k.val 99)) = ![(1 + min k.val 99) % 2] := by decide +kernel
theorem off7_eq' (k : Fin k0_t1_loop.trips) (h : k.val < 99) : k0_off7 (BitVec.ofNat 32 (1 + min k.val 99)) = ![(k.val + 1) % 2] := by
  rw [off7_eq, Nat.min_eq_left (by omega), Nat.add_comm]
/-- The entries of the flat list the next fetch reads: those of step `k + 1`. -/
theorem off6_eq : ∀ (L : grid0.Coords) (k : Fin k0_t1_loop.trips), k.val < 99 →
    k0_off6 L (BitVec.ofNat 32 (k.val % 100)) = ![0, 256 * ((k.val + 1) + 100 * ((L 1).val + 16 * (L 0).val))] := by decide +kernel
/-- The half of the row-number buffer this step's fetch filled, its semaphore, and the same half as the gather reads
    it: the parity of the step. -/
theorem off8_eq : ∀ (k : Fin k0_t1_loop.trips), k0_off8 (BitVec.ofNat 32 k.val) = ![k.val % 2, 0, 0] := by decide +kernel
theorem off10_eq : ∀ (k : Fin k0_t1_loop.trips), k0_off10 (BitVec.ofNat 32 k.val) = ![k.val % 2] := by decide +kernel
theorem off12_eq : ∀ (k : Fin k0_t1_loop.trips), k0_off12 (BitVec.ofNat 32 k.val) = ![k.val % 2, 0, 0] := by decide +kernel
/-- The entries of the flat list this step's fetch read: those of step `k`. -/
theorem off9_eq : ∀ (L : grid0.Coords) (k : Fin k0_t1_loop.trips),
    k0_off9 L (BitVec.ofNat 32 (k.val % 100)) = ![0, 256 * (k.val + 100 * ((L 1).val + 16 * (L 0).val))] := by decide +kernel
/-- The half of the row buffer this step gathers into and copies out of, and the copy's semaphore: the parity of the step. -/
theorem off11_eq : ∀ (k : Fin k0_t1_loop.trips), k0_off11 (BitVec.ofNat 32 k.val) = ![k.val % 2, 0, 0] := by decide +kernel
theorem off13_eq : ∀ (k : Fin k0_t1_loop.trips), k0_off13 (BitVec.ofNat 32 k.val) = ![k.val % 2, 0, 0] := by decide +kernel
theorem off15_eq : ∀ (k : Fin k0_t1_loop.trips), k0_off15 (BitVec.ofNat 32 k.val) = ![k.val % 2] := by decide +kernel
/-- The rows of the flat output this step writes: those of step `k`. -/
theorem off14_eq : ∀ (L : grid0.Coords) (k : Fin k0_t1_loop.trips),
    k0_off14 L (BitVec.ofNat 32 (k.val % 100)) = ![256 * (k.val + 100 * ((L 1).val + 16 * (L 0).val)), 0] := by decide +kernel
/-- The half of the row buffer whose copy is awaited, and its semaphore: the parity of the step before. -/
theorem off16_eq : ∀ (k : Fin k0_t1_loop.trips), k0_off16 (BitVec.ofNat 32 (k.val - 1)) = ![(k.val - 1) % 2, 0, 0] := by decide +kernel
theorem off18_eq : ∀ (k : Fin k0_t1_loop.trips), k0_off18 (BitVec.ofNat 32 (k.val - 1)) = ![(k.val - 1) % 2] := by decide +kernel
/-- The rows of the flat output the awaited copy wrote: those of step `k - 1`. -/
theorem off17_eq : ∀ (L : grid0.Coords) (k : Fin k0_t1_loop.trips), k.val ≠ 0 →
    k0_off17 L (BitVec.ofNat 32 (k.val % 100)) = ![256 * ((k.val - 1) + 100 * ((L 1).val + 16 * (L 0).val)), 0] := by decide +kernel
/-- After the loop: the last copy awaited is step 99's. -/
theorem off19_eq : k0_off19 (BitVec.ofNat 32 99) = ![1, 0, 0] := by decide +kernel
theorem off21_eq : k0_off21 (BitVec.ofNat 32 99) = ![1] := by decide +kernel
theorem off22_eq : k0_off22 (BitVec.ofNat 32 99) = ![1, 0, 0] := by decide +kernel
theorem off20_eq : ∀ L : grid0.Coords, k0_off20 L (BitVec.ofNat 32 0) = ![256 * (99 + 100 * ((L 1).val + 16 * (L 0).val)), 0] := by decide +kernel
/-- Before the loop: the first fetch reads the entries of step 0. -/
theorem off3_eq : ∀ L : grid0.Coords, k0_off3 L = ![0, 256 * (0 + 100 * ((L 1).val + 16 * (L 0).val))] := by decide +kernel

/-! ## The conditions -/

/-- The next fetch is issued on every trip but the last. -/
theorem cond2_eq : ∀ (L : grid0.Coords) (k : Fin k0_t1_loop.trips), k0_cond2 L k (BitVec.ofNat 32 (k.val % 100)) = (if k.val < 99 then 1#1 else 0#1) := by decide +kernel
theorem cond2_pos (L : grid0.Coords) (k : Fin k0_t1_loop.trips) (h : k.val < 99) : k0_cond2 L k (BitVec.ofNat 32 (k.val % 100)) = 1#1 := by rw [cond2_eq, if_pos h]
theorem cond2_neg (L : grid0.Coords) (k : Fin k0_t1_loop.trips) (h : ¬ k.val < 99) : ¬ (k0_cond2 L k (BitVec.ofNat 32 (k.val % 100)) = 1#1) := by
  rw [cond2_eq, if_neg h]; decide
/-- This step's fetch is awaited on every trip. -/
theorem cond3_eq : ∀ (L : grid0.Coords) (k : Fin k0_t1_loop.trips), k0_cond3 L k (BitVec.ofNat 32 (k.val % 100)) = 1#1 := by decide +kernel
/-- This step's rows are copied out on every trip. -/
theorem cond6_eq : ∀ (L : grid0.Coords) (k : Fin k0_t1_loop.trips), k0_cond6 L k (BitVec.ofNat 32 (k.val % 100)) = 1#1 := by decide +kernel
/-- The copy of the step before is awaited on every trip but the first. -/
theorem cond8_eq : ∀ (L : grid0.Coords) (k : Fin k0_t1_loop.trips), k0_cond8 L k (BitVec.ofNat 32 (k.val % 100)) = (if k.val = 0 then 0#1 else 1#1) := by decide +kernel
theorem cond8_pos (L : grid0.Coords) (k : Fin k0_t1_loop.trips) (h : k.val ≠ 0) : k0_cond8 L k (BitVec.ofNat 32 (k.val % 100)) = 1#1 := by rw [cond8_eq, if_neg h]
theorem cond8_neg (L : grid0.Coords) (k : Fin k0_t1_loop.trips) (h : k.val = 0) : ¬ (k0_cond8 L k (BitVec.ofNat 32 (k.val % 100)) = 1#1) := by
  rw [cond8_eq, if_pos h]; decide

/-! ## The side conditions the body assumes -/

/-- Every slice of a trip is inside its buffer. -/
theorem chk1_acc : ∀ (L : grid0.Coords) (k : Fin k0_t1_loop.trips), k0_chk1 L k (BitVec.ofNat 32 (1 + min k.val 99)) (BitVec.ofNat 32 k.val) (BitVec.ofNat 32 k.val) (BitVec.ofNat 32 (k.val - 1)) (BitVec.ofNat 32 (k.val % 100)) := by decide +kernel
theorem chk2_acc : ∀ (k : Fin k0_t1_loop.trips), k0_chk2 (BitVec.ofNat 32 k.val) := by decide +kernel
theorem chk3_acc : ∀ (k : Fin k0_t1_loop.trips), k0_chk3 (BitVec.ofNat 32 k.val) := by decide +kernel
/-- And so is every slice after the loop. -/
theorem chk4_end : k0_chk4 (BitVec.ofNat 32 99) := by decide +kernel
theorem chk5_end : ∀ L : grid0.Coords, k0_chk5 L (BitVec.ofNat 32 0) := by decide +kernel

end Cert.Proof.KB
-- ==== Proof.KB.ArithRect.lean ====
/-
  The rectangles a trip's slices name, as the pieces of the arrays they are. A slice's offsets are words the kernel
  computes; at the carried words of trip `k` they are the closed forms of the arithmetic module, so the slice of the flat
  list or of the flat output is the chunk of the step it belongs to, and the slice of a double buffer or of its
  semaphore pair is the half the step's parity names. Each holds for any in-bounds evidence the program carries.
-/
import proofs.«206737_g54150947668683_cont_9to1_m_866_22_alg».proof.Proof.KB.Arith

set_option Elab.async false

namespace Cert.Proof.KB

open Cert.Kernel Cert.Kernel.Gen Idealize.ShloMosaic

/-- A trip's number is below a hundred. -/
theorem lt100 : ∀ k : Fin k0_t1_loop.trips, k.val < 100 := by decide +kernel
/-- A trip as a step number. -/
abbrev kL (k : Fin k0_t1_loop.trips) : Fin 100 := ⟨k.val, lt100 k⟩
/-- A parity as a half. -/
abbrev par (n : ℕ) : Fin 2 := ⟨n % 2, Nat.mod_lt _ (by decide)⟩

section
variable (L : grid0.Coords) (k : Fin k0_t1_loop.trips)

/-! ## The chunks of the flat list and of the flat output -/

theorem fRect_eq : ∀ inb, Rect.unit (s := S1x819200) (k0_off9 L (BitVec.ofNat 32 (k.val % 100))) S1x256.size inb = fchunkU (gidx (cL L) (jL L) ⟨k.val, lt100 k⟩) :=
  fun inb => Rect.unit_congr (off9_eq L k) inb _
theorem oRect_eq : ∀ inb, Rect.unit (s := S819200x128) (k0_off14 L (BitVec.ofNat 32 (k.val % 100))) S256x128.size inb = ochunkU (gidx (cL L) (jL L) ⟨k.val, lt100 k⟩) :=
  fun inb => Rect.unit_congr (off14_eq L k) inb _
theorem fRect_next (h : k.val < 99) : ∀ inb, Rect.unit (s := S1x819200) (k0_off6 L (BitVec.ofNat 32 (k.val % 100))) S1x256.size inb = fchunkU (gidx (cL L) (jL L) ⟨k.val + 1, by omega⟩) :=
  fun inb => Rect.unit_congr (off6_eq L k h) inb _
theorem oRect_prev (h : k.val ≠ 0) : ∀ inb, Rect.unit (s := S819200x128) (k0_off17 L (BitVec.ofNat 32 (k.val % 100))) S256x128.size inb = ochunkU (gidx (cL L) (jL L) ⟨k.val - 1, by have := lt100 k; omega⟩) :=
  fun inb => Rect.unit_congr (off17_eq L k h) inb _
theorem fRect_first : ∀ inb, Rect.unit (s := S1x819200) (k0_off3 L) S1x256.size inb = fchunkU (gidx (cL L) (jL L) ⟨0, by omega⟩) :=
  fun inb => Rect.unit_congr (off3_eq L) inb _
theorem oRect_last : ∀ inb, Rect.unit (s := S819200x128) (k0_off20 L (BitVec.ofNat 32 0)) S256x128.size inb = ochunkU (gidx (cL L) (jL L) ⟨99, by omega⟩) :=
  fun inb => Rect.unit_congr (off20_eq L) inb _

/-! ## The halves of the row-number buffer -/

theorem idxRect_wait : ∀ inb, Rect.unit (s := S2x1x256) (k0_off8 (BitVec.ofNat 32 k.val)) S1x1x256.size inb = idxRect (par k.val) :=
  fun inb => Rect.unit_congr (off8_eq k) inb _
theorem idxRect_read : ∀ inb, Rect.unit (s := S2x1x256) (k0_off12 (BitVec.ofNat 32 k.val)) S1x1x256.size inb = idxRect (par k.val) :=
  fun inb => Rect.unit_congr (off12_eq k) inb _
theorem idxRect_next (h : k.val < 99) : ∀ inb, Rect.unit (s := S2x1x256) (k0_off5 (BitVec.ofNat 32 (1 + min k.val 99))) S1x1x256.size inb = idxRect (par (k.val + 1)) :=
  fun inb => Rect.unit_congr (off5_eq' k h) inb _
theorem idxRect_first : ∀ inb, Rect.unit (s := S2x1x256) (k0_off2) S1x1x256.size inb = idxRect 0 :=
  fun inb => Rect.unit_congr k0_off2_eq inb _

/-! ## The halves of the row buffer -/

theorem rowRect_gather : ∀ inb, Rect.unit (s := S2x256x128) (k0_off11 (BitVec.ofNat 32 k.val)) S1x256x128.size inb = rowRect (par k.val) :=
  fun inb => Rect.unit_congr (off11_eq k) inb _
theorem rowRect_out : ∀ inb, Rect.unit (s := S2x256x128) (k0_off13 (BitVec.ofNat 32 k.val)) S1x256x128.size inb = rowRect (par k.val) :=
  fun inb => Rect.unit_congr (off13_eq k) inb _
theorem rowRect_prev : ∀ inb, Rect.unit (s := S2x256x128) (k0_off16 (BitVec.ofNat 32 (k.val - 1))) S1x256x128.size inb = rowRect (par (k.val - 1)) :=
  fun inb => Rect.unit_congr (off16_eq k) inb _
theorem rowRect_last19 : ∀ inb, Rect.unit (s := S2x256x128) (k0_off19 (BitVec.ofNat 32 99)) S1x256x128.size inb = rowRect 1 :=
  fun inb => Rect.unit_congr off19_eq inb _
theorem rowRect_last22 : ∀ inb, Rect.unit (s := S2x256x128) (k0_off22 (BitVec.ofNat 32 99)) S1x256x128.size inb = rowRect 1 :=
  fun inb => Rect.unit_congr off22_eq inb _

/-! ## The semaphores of the two pairs -/

theorem semRect_wait : ∀ inb, Rect.unit (s := S2) (k0_off10 (BitVec.ofNat 32 k.val)) S1.size inb = semRect (par k.val) :=
  fun inb => Rect.unit_congr (off10_eq k) inb _
theorem semRect_next (h : k.val < 99) : ∀ inb, Rect.unit (s := S2) (k0_off7 (BitVec.ofNat 32 (1 + min k.val 99))) S1.size inb = semRect (par (k.val + 1)) :=
  fun inb => Rect.unit_congr (off7_eq' k h) inb _
theorem semRect_out : ∀ inb, Rect.unit (s := S2) (k0_off15 (BitVec.ofNat 32 k.val)) S1.size inb = semRect (par k.val) :=
  fun inb => Rect.unit_congr (off15_eq k) inb _
theorem semRect_prev : ∀ inb, Rect.unit (s := S2) (k0_off18 (BitVec.ofNat 32 (k.val - 1))) S1.size inb = semRect (par (k.val - 1)) :=
  fun inb => Rect.unit_congr (off18_eq k) inb _
theorem semRect_first : ∀ inb, Rect.unit (s := S2) (k0_off4) S1.size inb = semRect 0 :=
  fun inb => Rect.unit_congr k0_off4_eq inb _
theorem semRect_last : ∀ inb, Rect.unit (s := S2) (k0_off21 (BitVec.ofNat 32 99)) S1.size inb = semRect 1 :=
  fun inb => Rect.unit_congr off21_eq inb _

end

end Cert.Proof.KB
-- ==== Proof.KB.ArithStep.lean ====
/-
  One trip of the loop on the carried words. `tileBase L` is the tile's first step number, a hundred times the tile's
  number, as the kernel computes it from the grid coordinates; `nextWords` is what a trip computes for the next trip's
  five words from this trip's, the tile's base and the trip's number: the fetch counter advances when a next fetch was
  issued, the counters of fetches awaited and of rows copied out always, the counter of copies awaited on every trip
  but the first, and the step number wraps to zero at a hundred. From the words of trip `k` these are the words of
  trip `k + 1`.
-/
import proofs.«206737_g54150947668683_cont_9to1_m_866_22_alg».proof.Proof.KB.Arith

set_option Elab.async false

namespace Cert.Proof.KB

open Cert.Kernel Cert.Kernel.Gen Idealize.ShloMosaic

/-- The tile's first step number, as the kernel computes it. -/
def tileBase (i : grid0.Coords) : BitVec 32 :=
  let arg1 : BitVec 32 := BitVec.ofNat 32 (i 1).val
  let c1_i32 : BitVec 32 := 1#32
  let v3 : BitVec 32 := Scalar.muli arg1 c1_i32
  let c0_i32_0 : BitVec 32 := 0#32
  let v4 : BitVec 32 := Scalar.addi c0_i32_0 v3
  let arg0 : BitVec 32 := BitVec.ofNat 32 (i 0).val
  let c16_i32 : BitVec 32 := 16#32
  let v5 : BitVec 32 := Scalar.muli arg0 c16_i32
  let v6 : BitVec 32 := Scalar.addi v4 v5
  let c100_i32 : BitVec 32 := 100#32
  let v7 : BitVec 32 := Scalar.muli v6 c100_i32
  v7

/-- It is a hundred times the tile's number. -/
theorem tileBase_eq : ∀ L : grid0.Coords, tileBase L = BitVec.ofNat 32 (100 * ((L 1).val + 16 * (L 0).val)) := by decide +kernel

/-- The five words a trip hands the next, as the kernel computes them from this trip's words, the tile's base `v7` and
    the trip. -/
def nextWords (v7 : BitVec 32) (k0_t1 : Fin k0_t1_loop.trips)
    (arg8_r0 arg9_r0 arg10_r0 arg11_r0 arg12_r0 : BitVec 32) : BitVec 32 × BitVec 32 × BitVec 32 × BitVec 32 × BitVec 32 :=
  let c0_i32_27_r0 : BitVec 32 := 0#32
  let c1_i32_29_r0 : BitVec 32 := 1#32
  let arg7_r0 : BitVec 32 := Scf.iv c0_i32_27_r0 c1_i32_29_r0 k0_t1
  let c0_i32_55_r0 : BitVec 32 := 0#32
  let v67_r0 : BitVec 1 := Scalar.cmpi .eq arg7_r0 c0_i32_55_r0
  let c99_i32_56_r0 : BitVec 32 := 99#32
  let v68_r0 : BitVec 1 := Scalar.cmpi .eq arg7_r0 c99_i32_56_r0
  let v69_r0 : BitVec 32 := Scalar.addi arg12_r0 v7
  let c1_i32_57_r0 : BitVec 32 := 1#32
  let v70_r0 : BitVec 32 := Scalar.subi arg12_r0 c1_i32_57_r0
  let true_58_r0 : BitVec 1 := 1#1
  let v71_r0 : BitVec 32 := Scalar.select true_58_r0 v70_r0 arg12_r0
  let c_m1_i32_59_r0 : BitVec 32 := 4294967295#32
  let v72_r0 : BitVec 1 := Scalar.cmpi .eq v71_r0 c_m1_i32_59_r0
  let c99_i32_60_r0 : BitVec 32 := 99#32
  let v73_r0 : BitVec 32 := Scalar.select v72_r0 c99_i32_60_r0 v71_r0
  let v74_r0 : BitVec 32 := Scalar.addi v73_r0 v7
  let c1_i32_61_r0 : BitVec 32 := 1#32
  let v75_r0 : BitVec 32 := Scalar.addi arg12_r0 c1_i32_61_r0
  let true_62_r0 : BitVec 1 := 1#1
  let v76_r0 : BitVec 32 := Scalar.select true_62_r0 v75_r0 arg12_r0
  let c100_i32_63_r0 : BitVec 32 := 100#32
  let v77_r0 : BitVec 1 := Scalar.cmpi .eq v76_r0 c100_i32_63_r0
  let c0_i32_64_r0 : BitVec 32 := 0#32
  let v78_r0 : BitVec 32 := Scalar.select v77_r0 c0_i32_64_r0 v76_r0
  let v79_r0 : BitVec 32 := Scalar.addi v78_r0 v7
  let v85_r0 : BitVec 1 := Scalar.cmpi .ne v69_r0 v79_r0
  let c99_i32_69_r0 : BitVec 32 := 99#32
  let v86_r0 : BitVec 1 := Scalar.cmpi .sge arg7_r0 c99_i32_69_r0
  let true_70_r0 : BitVec 1 := 1#1
  let v87_r0 : BitVec 1 := Scalar.xori v86_r0 true_70_r0
  let v88_r0 : BitVec 1 := Scalar.andi v85_r0 v87_r0
  let true_72_r0 : BitVec 1 := 1#1
  let v91_r0 : BitVec 1 := Scalar.andi v88_r0 true_72_r0
  let c1_i32_73_r0 : BitVec 32 := 1#32
  let v92_r0 : BitVec 32 := Scalar.addi arg8_r0 c1_i32_73_r0
  let v93_r0 : BitVec 32 := Scalar.select v91_r0 v92_r0 arg8_r0
  let v119_r0 : BitVec 1 := Scalar.cmpi .ne v69_r0 v79_r0
  let v120_r0 : BitVec 1 := Scalar.ori v119_r0 v68_r0
  let true_87_r0 : BitVec 1 := 1#1
  let v123_r0 : BitVec 1 := Scalar.andi v120_r0 true_87_r0
  let c1_i32_88_r0 : BitVec 32 := 1#32
  let v124_r0 : BitVec 32 := Scalar.addi arg10_r0 c1_i32_88_r0
  let v125_r0 : BitVec 32 := Scalar.select v123_r0 v124_r0 arg10_r0
  let v132_r0 : BitVec 1 := Scalar.cmpi .ne v69_r0 v74_r0
  let true_92_r0 : BitVec 1 := 1#1
  let v133_r0 : BitVec 1 := Scalar.xori v67_r0 true_92_r0
  let v134_r0 : BitVec 1 := Scalar.andi v132_r0 v133_r0
  let true_94_r0 : BitVec 1 := 1#1
  let v137_r0 : BitVec 1 := Scalar.andi v134_r0 true_94_r0
  let c1_i32_95_r0 : BitVec 32 := 1#32
  let v138_r0 : BitVec 32 := Scalar.addi arg11_r0 c1_i32_95_r0
  let v139_r0 : BitVec 32 := Scalar.select v137_r0 v138_r0 arg11_r0
  let v140_r0 : BitVec 1 := Scalar.cmpi .ne v69_r0 v79_r0
  let v141_r0 : BitVec 1 := Scalar.ori v140_r0 v68_r0
  let c1_i32_96_r0 : BitVec 32 := 1#32
  let v142_r0 : BitVec 32 := Scalar.addi arg9_r0 c1_i32_96_r0
  let v143_r0 : BitVec 32 := Scalar.select v141_r0 v142_r0 arg9_r0
  let c1_i32_97_r0 : BitVec 32 := 1#32
  let v144_r0 : BitVec 32 := Scalar.addi arg12_r0 c1_i32_97_r0
  let true_98_r0 : BitVec 1 := 1#1
  let v145_r0 : BitVec 32 := Scalar.select true_98_r0 v144_r0 arg12_r0
  let c100_i32_99_r0 : BitVec 32 := 100#32
  let v146_r0 : BitVec 1 := Scalar.cmpi .eq v145_r0 c100_i32_99_r0
  let c0_i32_100_r0 : BitVec 32 := 0#32
  let v147_r0 : BitVec 32 := Scalar.select v146_r0 c0_i32_100_r0 v145_r0
  (v93_r0, v143_r0, v125_r0, v139_r0, v147_r0)

/-- The words after a trip of tile `L`, from the five words `acc` before it. -/
def nextAcc (L : grid0.Coords) (k : Fin k0_t1_loop.trips) (acc : BitVec 32 × BitVec 32 × BitVec 32 × BitVec 32 × BitVec 32) :
    BitVec 32 × BitVec 32 × BitVec 32 × BitVec 32 × BitVec 32 :=
  nextWords (tileBase L) k acc.1 acc.2.1 acc.2.2.1 acc.2.2.2.1 acc.2.2.2.2

/-- A trip takes the words of trip `k` to those of trip `k + 1`. -/
theorem nextAcc_accOf : ∀ (L : grid0.Coords) (k : Fin k0_t1_loop.trips), nextAcc L k (accOf k.val) = accOf (k.val + 1) := by decide +kernel

/-- The same with the words and the tile's base spelt out. -/
theorem nextWords_accOf (L : grid0.Coords) (k : Fin k0_t1_loop.trips) :
    nextWords (BitVec.ofNat 32 (100 * ((L 1).val + 16 * (L 0).val))) k (BitVec.ofNat 32 (1 + min k.val 99)) (BitVec.ofNat 32 k.val) (BitVec.ofNat 32 k.val) (BitVec.ofNat 32 (k.val - 1)) (BitVec.ofNat 32 (k.val % 100)) = accOf (k.val + 1) := by
  rw [← tileBase_eq]; exact nextAcc_accOf L k

/-- The words the loop starts from are those of trip 0, and it ends at those of trip 100. -/
theorem accOf_zero : accOf 0 = (BitVec.ofNat 32 1, BitVec.ofNat 32 0, BitVec.ofNat 32 0, BitVec.ofNat 32 0, BitVec.ofNat 32 0) := rfl
theorem accOf_hundred : accOf 100 = (BitVec.ofNat 32 100, BitVec.ofNat 32 100, BitVec.ofNat 32 100, BitVec.ofNat 32 99, BitVec.ofNat 32 0) := rfl

end Cert.Proof.KB
-- ==== Proof.KB.Respell.lean ====
/-
  One piece of memory named two ways. The kernel names a half of a double buffer, a chunk of the flat list or of the
  flat output, or one of a pair of semaphores by offsets it computes from its carried words; the invariant names it by
  its number. Equal offsets name the same piece.
-/
import proofs.«206737_g54150947668683_cont_9to1_m_866_22_alg».proof.Proof.KB.ArithRect
import proofs.«206737_g54150947668683_cont_9to1_m_866_22_alg».proof.Proof.KB.ArithStep

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

/-- A half of the index buffer, a half of the row buffer, a chunk of the flat list, a chunk of the flat output, and a
    semaphore of each of the two pairs, by the offsets that name them. -/
abbrev idxAt (off : Fin 3 → ℕ) (inb : ∀ a, off a + S1x1x256.size a ≤ S2x1x256.size a) : Memref sig .scVector .vmem S1x256 .i32 :=
  ((idxV).slice (Rect.unit (s := S2x1x256) off S1x1x256.size inb) (fun _ => rfl)).squeeze S1x256 Facts₀.squeezes_S1x1x256_S1x256
abbrev rowAt (off : Fin 3 → ℕ) (inb : ∀ a, off a + S1x256x128.size a ≤ S2x256x128.size a) : Memref sig .scVector .vmem S256x128 .f32 :=
  ((rowV).slice (Rect.unit (s := S2x256x128) off S1x256x128.size inb) (fun _ => rfl)).squeeze S256x128 Facts₀.squeezes_S1x256x128_S256x128
abbrev fchAt (off : Fin 2 → ℕ) (inb : ∀ a, off a + S1x256.size a ≤ S1x819200.size a) : Memref sig .scVector .hbm S1x256 .i32 :=
  (flatV).slice (Rect.unit (s := S1x819200) off S1x256.size inb) (fun _ => rfl)
abbrev ochAt (off : Fin 2 → ℕ) (inb : ∀ a, off a + S256x128.size a ≤ S819200x128.size a) : Memref sig .scVector .hbm S256x128 .f32 :=
  (outV).slice (Rect.unit (s := S819200x128) off S256x128.size inb) (fun _ => rfl)
abbrev sem1At (off : Fin 1 → ℕ) (inb : ∀ a, off a + S1.size a ≤ S2.size a) : DmaSem sig :=
  ((SemArray.slice cc0_scoped1 (Rect.unit (s := S2) off S1.size inb)).squeeze S_ Facts₀.squeezes_S1_S_).sem
abbrev sem3At (off : Fin 1 → ℕ) (inb : ∀ a, off a + S1.size a ≤ S2.size a) : DmaSem sig :=
  ((SemArray.slice cc0_scoped3 (Rect.unit (s := S2) off S1.size inb)).squeeze S_ Facts₀.squeezes_S1_S_).sem

theorem idxAt_congr {off off' : Fin 3 → ℕ} (h : off = off') (inb) (inb') : idxAt off inb = idxAt off' inb' := by subst h; rfl
theorem rowAt_congr {off off' : Fin 3 → ℕ} (h : off = off') (inb) (inb') : rowAt off inb = rowAt off' inb' := by subst h; rfl
theorem fchAt_congr {off off' : Fin 2 → ℕ} (h : off = off') (inb) (inb') : fchAt off inb = fchAt off' inb' := by subst h; rfl
theorem ochAt_congr {off off' : Fin 2 → ℕ} (h : off = off') (inb) (inb') : ochAt off inb = ochAt off' inb' := by subst h; rfl
theorem sem1At_congr {off off' : Fin 1 → ℕ} (h : off = off') (inb) (inb') : sem1At off inb = sem1At off' inb' := by subst h; rfl
theorem sem3At_congr {off off' : Fin 1 → ℕ} (h : off = off') (inb) (inb') : sem3At off inb = sem3At off' inb' := by subst h; rfl

/-- A half of the index buffer as the list of 256 offsets the gather reads, by the offsets that name the half. -/
abbrev offsAt (off : Fin 3 → ℕ) (inb : ∀ a, off a + S1x1x256.size a ≤ S2x1x256.size a) : Memref sig .scVector .vmem S256 .i32 :=
  ((idxAt off inb).slice (Rect.unit (s := S1x256) ![0, 0] S1x256.size Facts₀.inb_S1x256_S1x256_0_0) (fun _ => rfl)).squeeze S256 Facts₀.squeezes_S1x256_S256
theorem offsM_at (p : Fin 2) : offsM p = offsAt ![p.val, 0, 0] (idxRect_inb p) := rfl

theorem idxSlot_at (p : Fin 2) : idxSlot p = idxAt ![p.val, 0, 0] (idxRect_inb p) := rfl
theorem rowSlot_at (p : Fin 2) : rowSlot p = rowAt ![p.val, 0, 0] (rowRect_inb p) := rfl
theorem fchunkM_at (g : Fin 3200) : fchunkM g = fchAt ![0, 256 * g.val] (fchunkU_inb g) := rfl
theorem ochunkM_at (g : Fin 3200) : ochunkM g = ochAt ![256 * g.val, 0] (ochunkU_inb g) := rfl
theorem sem1_at : ∀ p : Fin 2, (⟨1 + p.val, by omega⟩ : Fin 6) = sem1At ![p.val] (semRect_inb p) := by decide
theorem sem3_at : ∀ p : Fin 2, (⟨3 + p.val, by omega⟩ : Fin 6) = sem3At ![p.val] (semRect_inb p) := by decide

section Pts

variable (flat : (d : Dev nD) → Buf (Elt F) (flatLoc d))
variable (d : Dev nD) (L : grid0.Coords)

/-- The pieces held, by the offsets that name them. -/
abbrev idxPtsAt (off : Fin 3 → ℕ) (inb : ∀ a, off a + S1x1x256.size a ≤ S2x1x256.size a) (f : Buf (Elt F) ((thr d L).loc cc0_scoped0)) : sProp 𝕄 :=
  (idxAt off inb).view.loc (thr d L) ↦[(idxAt off inb).view.set]{fullShare} f
abbrev rowPtsAt (off : Fin 3 → ℕ) (inb : ∀ a, off a + S1x256x128.size a ≤ S2x256x128.size a) (f : Buf (Elt F) ((thr d L).loc cc0_scoped2)) : sProp 𝕄 :=
  (rowAt off inb).view.loc (thr d L) ↦[(rowAt off inb).view.set]{fullShare} f
abbrev fchPtsAt (off : Fin 2 → ℕ) (inb : ∀ a, off a + S1x256.size a ≤ S1x819200.size a) : sProp 𝕄 :=
  (fchAt off inb).view.loc (thr d L) ↦[(fchAt off inb).view.set]{fullShare} flat d
abbrev ochPtsAt (off : Fin 2 → ℕ) (inb : ∀ a, off a + S256x128.size a ≤ S819200x128.size a) (f : Buf (Elt F) (outLoc d)) : sProp 𝕄 :=
  (ochAt off inb).view.loc (thr d L) ↦[(ochAt off inb).view.set]{fullShare} f

theorem idxPtsAt_congr {off off' : Fin 3 → ℕ} (h : off = off') (inb) (inb') (f) : idxPtsAt (F := F) d L off inb f = idxPtsAt d L off' inb' f := by subst h; rfl
theorem rowPtsAt_congr {off off' : Fin 3 → ℕ} (h : off = off') (inb) (inb') (f) : rowPtsAt (F := F) d L off inb f = rowPtsAt d L off' inb' f := by subst h; rfl
theorem fchPtsAt_congr {off off' : Fin 2 → ℕ} (h : off = off') (inb) (inb') : fchPtsAt (F := F) flat d L off inb = fchPtsAt flat d L off' inb' := by subst h; rfl
theorem ochPtsAt_congr {off off' : Fin 2 → ℕ} (h : off = off') (inb) (inb') (f) : ochPtsAt (F := F) d L off inb f = ochPtsAt d L off' inb' f := by subst h; rfl
theorem sem1Val_congr {off off' : Fin 1 → ℕ} (h : off = off') (inb) (inb') :
    (semVal (dcell d L (sem1At off inb)) 0 : sProp 𝕄) = semVal (dcell d L (sem1At off' inb')) 0 := by subst h; rfl
theorem sem3Val_congr {off off' : Fin 1 → ℕ} (h : off = off') (inb) (inb') :
    (semVal (dcell d L (sem3At off inb)) 0 : sProp 𝕄) = semVal (dcell d L (sem3At off' inb')) 0 := by subst h; rfl

/-- A fetch in flight, and a copy-out in flight, by the offsets that name their pieces. -/
abbrev inFlightAt (o1 : Fin 1 → ℕ) (i1 : ∀ a, o1 a + S1.size a ≤ S2.size a) (o2 : Fin 3 → ℕ) (i2 : ∀ a, o2 a + S1x1x256.size a ≤ S2x1x256.size a) (o3 : Fin 2 → ℕ) (i3 : ∀ a, o3 a + S1x256.size a ≤ S1x819200.size a) (fo : Buf (Elt F) ((thr d L).loc cc0_scoped0)) : sProp 𝕄 :=
  Transfers.Flight countersEmb (thr d L) (SemLoc.dma (sem1At o1 i1)) (default : HIx 1) 8192
    iprop(idxPtsAt d L o2 i2 fo ∗ fchPtsAt flat d L o3 i3)
abbrev outFlightAt (o1 : Fin 1 → ℕ) (i1 : ∀ a, o1 a + S1.size a ≤ S2.size a) (o2 : Fin 3 → ℕ) (i2 : ∀ a, o2 a + S1x256x128.size a ≤ S2x256x128.size a) (o3 : Fin 2 → ℕ) (i3 : ∀ a, o3 a + S256x128.size a ≤ S819200x128.size a) (fo : Buf (Elt F) (outLoc d)) (fr : Buf (Elt F) ((thr d L).loc cc0_scoped2)) : sProp 𝕄 :=
  Transfers.Flight countersEmb (thr d L) (SemLoc.dma (sem3At o1 i1)) (default : HIx 1) 1048576
    iprop(ochPtsAt d L o3 i3 fo ∗ rowPtsAt d L o2 i2 fr)

theorem inFlightAt_congr {o1 o1' : Fin 1 → ℕ} {o2 o2' : Fin 3 → ℕ} {o3 o3' : Fin 2 → ℕ} (h1 : o1 = o1') (h2 : o2 = o2') (h3 : o3 = o3')
    (i1) (i1') (i2) (i2') (i3) (i3') (fo) :
    inFlightAt (F := F) flat d L o1 i1 o2 i2 o3 i3 fo = inFlightAt flat d L o1' i1' o2' i2' o3' i3' fo := by subst h1 h2 h3; rfl
theorem outFlightAt_congr {o1 o1' : Fin 1 → ℕ} {o2 o2' : Fin 3 → ℕ} {o3 o3' : Fin 2 → ℕ} (h1 : o1 = o1') (h2 : o2 = o2') (h3 : o3 = o3')
    (i1) (i1') (i2) (i2') (i3) (i3') (fo) (fr) :
    outFlightAt (F := F) d L o1 i1 o2 i2 o3 i3 fo fr = outFlightAt d L o1' i1' o2' i2' o3' i3' fo fr := by subst h1 h2 h3; rfl

theorem offs_lt_congr {off off' : Fin 3 → ℕ} (h : off = off') (inb) (inb') (fo : Buf (Elt F) ((thr d L).loc cc0_scoped0))
    (hlt : ∀ x, ((offsAt off' inb').view.read (Elt F) fo x : BitVec 32).toNat < 1000) :
    ∀ x, ((offsAt off inb).view.read (Elt F) fo x : BitVec 32).toNat < 1000 := by subst h; exact hlt

end Pts

end Cert.Proof.KB

end
-- ==== Proof.KB.Inv.lean ====
/-
  What a tile holds between two of its hundred steps. Before step `k` the five carried words are `accOf k`; the copy
  of chunk `k` of the flat list into half `k mod 2` of the index buffer is in flight and the other half is free; the
  copy of half `(k - 1) mod 2` of the row buffer out to chunk `k - 1` of the flat output is in flight (from step 1
  on) and the other half is free; the output's chunks before `k - 1` hold the looked-up rows, those from `k` on
  what they held; every chunk of the flat list but the one in flight is at home.
-/
import proofs.«206737_g54150947668683_cont_9to1_m_866_22_alg».proof.Proof.KB.Respell

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Steps

variable (d : Dev nD) (L : grid0.Coords)

/-- The tile's `k`-th chunk. -/
abbrev gk (L : grid0.Coords) (k : Fin 100) : Fin 3200 := gidx (cL L) (jL L) k

/-- Half `p` of the index buffer holds chunk `g` of the flat list: its `x`-th offset is entry `256 g + x`. -/
def IdxHolds (p : Fin 2) (g : Fin 3200) (fo : Buf (Elt F) ((thr d L).loc cc0_scoped0)) : Prop :=
  ∀ x : S256.Idx, ((offsM p).view.read (Elt F) fo x : BitVec 32)
    = flat d (ValueIdx.ix2 (0 : Fin 1) (⟨(256 * g.val + (x 0).val) % 819200, Nat.mod_lt _ (by decide)⟩ : Fin 819200))

/-- Chunk `g` of the flat output holds the looked-up rows. -/
def OutHolds (g : Fin 3200) (fo : Buf (Elt F) (outLoc d)) : Prop :=
  ∀ j ∈ (ochunkM g).view.set, fo j = outv m flat d j

/-- The pieces, by their numbers. -/
abbrev idxPts (p : Fin 2) (f : Buf (Elt F) ((thr d L).loc cc0_scoped0)) : sProp 𝕄 := idxPtsAt d L ![p.val, 0, 0] (idxRect_inb p) f
abbrev rowPts (p : Fin 2) (f : Buf (Elt F) ((thr d L).loc cc0_scoped2)) : sProp 𝕄 := rowPtsAt d L ![p.val, 0, 0] (rowRect_inb p) f
abbrev fchPts (g : Fin 3200) : sProp 𝕄 := fchPtsAt flat d L ![0, 256 * g.val] (fchunkU_inb g)
abbrev ochPts (g : Fin 3200) (f : Buf (Elt F) (outLoc d)) : sProp 𝕄 := ochPtsAt d L ![256 * g.val, 0] (ochunkU_inb g) f
abbrev shPts : sProp 𝕄 :=
  (shAll).view.loc (thr d L) ↦[(shAll).view.set]{qS (jL L)} tabS m d (cV L)

/-- The fetch of chunk `g` into half `p` of the index buffer, in flight on that half's semaphore. -/
def inFlight (p : Fin 2) (g : Fin 3200) : sProp 𝕄 :=
  iprop(∃ fo, ⌜IdxHolds flat d L p g fo⌝ ∗ inFlightAt flat d L ![p.val] (semRect_inb p) ![p.val, 0, 0] (idxRect_inb p) ![0, 256 * g.val] (fchunkU_inb g) fo)
/-- The copy of half `p` of the row buffer out to chunk `g`, in flight on that half's semaphore. -/
def outFlight (p : Fin 2) (g : Fin 3200) : sProp 𝕄 :=
  iprop(∃ fo fr, ⌜OutHolds m flat d g fo⌝ ∗ outFlightAt d L ![p.val] (semRect_inb p) ![p.val, 0, 0] (rowRect_inb p) ![256 * g.val, 0] (ochunkU_inb g) fo fr)
/-- A free half of the index buffer with its semaphore at rest; of the row buffer likewise. -/
def idxFree (p : Fin 2) : sProp 𝕄 := iprop((∃ f, idxPts d L p f) ∗ semVal (dcell d L (sem1At ![p.val] (semRect_inb p))) 0)
def rowFree (p : Fin 2) : sProp 𝕄 := iprop((∃ f, rowPts d L p f) ∗ semVal (dcell d L (sem3At ![p.val] (semRect_inb p))) 0)

/-- The flat list's chunks at home before step `k`: all but the `k`-th. -/
def flatHome (k : ℕ) : sProp 𝕄 :=
  bigSep (Finset.univ.filter fun k' : Fin 100 => k'.val ≠ k) fun k' => flatLoc d ↦[fchunkSet (gk L k')]{fullShare} flat d
/-- The output's chunks not in flight before step `k`: those from `k` on as they were, those before `k - 1` done. -/
def outHome (k : ℕ) : sProp 𝕄 :=
  iprop((bigSep (Finset.univ.filter fun k' : Fin 100 => k ≤ k'.val) fun k' => outLoc d ↦[ochunkSet (gk L k')]{fullShare} m (outLoc d))
    ∗ bigSep (Finset.univ.filter fun k' : Fin 100 => k'.val + 1 < k) fun k' => outLoc d ↦[ochunkSet (gk L k')]{fullShare} outv m flat d)

/-- The index buffer's part of the invariant. -/
def inPart (k : ℕ) : sProp 𝕄 :=
  if h : k < 100 then iprop(inFlight flat d L (par k) (gk L ⟨k, h⟩) ∗ idxFree d L (par (k + 1)))
  else iprop(idxFree d L 0 ∗ idxFree d L 1)
/-- The row buffer's part. -/
def outPart (k : ℕ) : sProp 𝕄 :=
  if h : k = 0 then iprop(rowFree d L 0 ∗ rowFree d L 1)
  else if h' : k - 1 < 100 then iprop(outFlight m flat d L (par (k - 1)) (gk L ⟨k - 1, h'⟩) ∗ rowFree d L (par k))
  else iprop(emp)

/-- What the tile holds before step `k`, the carried words being `acc`. -/
def stepInv (O : CellTallies nD τ sig (HIx 1)) (W : Waits sig (HIx 1)) (k : ℕ) (acc : BitVec 32 × BitVec 32 × BitVec 32 × BitVec 32 × BitVec 32) : sProp 𝕄 :=
  iprop(⌜acc = accOf k⌝ ∗ Transfers.MayWaits (thr d L) (default : HIx 1) O
    ∗ shPts m d L ∗ semVal (dcell d L 0) 0 ∗ semVal (dcell d L 5) 0
    ∗ flatHome flat d L k ∗ outHome m flat d L k ∗ inPart flat d L k ∗ outPart m flat d L k
    ∗ ∃ W', ⌜∀ p ∈ W', p ∈ W ∨ p.2 = none⌝ ∗ owes (thr d L) O W')

end Steps

end Cert.Proof.KB

end
-- ==== Proof.KB.Chunks.lean ====
/-
  The pieces a tile's steps move, respelt. A chunk of the flat list or of the flat output, named by its offset and
  size as a transfer names it, is the chunk of the cut into 3200; the two halves of a double buffer are disjoint and
  make up the buffer; the staged table named whole is the whole shared memory; and one of a tile's hundred chunks is
  taken out of the hundred and put back.
-/
import proofs.«206737_g54150947668683_cont_9to1_m_866_22_alg».proof.Proof.KB.Res
import proofs.«206737_g54150947668683_cont_9to1_m_866_22_alg».proof.Proof.KB.Slots

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## The chunks as the transfers name them -/

theorem fchunkU_eq (g : Fin 3200) : fchunkU g = fchunk g := by
  unfold fchunkU fchunk Rect.part Rect.block
  congr 1 <;> funext a
  · match a with
    | 0 => simp [Shape.partIx, Shape.partSize]
    | 1 => simp [Shape.partIx, Shape.partSize]; omega
  · match a with
    | 0 => simp [Shape.partSize]
    | 1 => simp [Shape.partSize]

theorem ochunkU_eq (g : Fin 3200) : ochunkU g = ochunk g := by
  unfold ochunkU ochunk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_fchunkM (g : Fin 3200) : (fchunkM g).view.set = fchunkSet g := by
  show ((flatV).view.slice (fchunkU g)).set = ((flatV).view.slice (fchunk g)).set
  rw [fchunkU_eq]
theorem set_ochunkM (g : Fin 3200) : (ochunkM g).view.set = ochunkSet g := by
  show ((outV).view.slice (ochunkU g)).set = ((outV).view.slice (ochunk g)).set
  rw [ochunkU_eq]

/-! ## The halves of the double buffers -/

theorem hdivI : 2 ∣ S2x1x256.size 0 := ⟨1, rfl⟩
theorem hdivR : 2 ∣ S2x256x128.size 0 := ⟨1, rfl⟩

/-- Half `p` of the index buffer is part `p` of its cut in two along the leading axis; of the row buffer likewise. -/
theorem idxRect_eq (p : Fin 2) : idxRect p = Rect.part (s := S2x1x256) (a₀ := 0) hdivI p := by
  unfold idxRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]
theorem rowRect_eq (p : Fin 2) : rowRect p = Rect.part (s := S2x256x128) (a₀ := 0) hdivR p := by
  unfold rowRect Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of half `p` of the index buffer, and of the row buffer. -/
abbrev idxSet (p : Fin 2) : Finset S2x1x256.Idx := (idxSlot p).view.set
abbrev rowSet2 (p : Fin 2) : Finset S2x256x128.Idx := (rowSlot p).view.set

theorem set_idxSlot (p : Fin 2) : idxSet p = (Rect.part (s := S2x1x256) (a₀ := 0) hdivI p).set := by
  show (((idxV).view.slice (idxRect p)).reshape S1x256 Facts₀.squeezes_S1x1x256_S1x256.numel_eq).set = _
  rw [View.set_reshape]
  show ((View.whole (cc0_scoped0 : Ref sig .scVector)).slice (idxRect p)).set = _
  rw [View.set_slice, idxRect_eq]; exact Finset.map_refl
theorem set_rowSlot (p : Fin 2) : rowSet2 p = (Rect.part (s := S2x256x128) (a₀ := 0) hdivR p).set := by
  show (((rowV).view.slice (rowRect p)).reshape S256x128 Facts₀.squeezes_S1x256x128_S256x128.numel_eq).set = _
  rw [View.set_reshape]
  show ((View.whole (cc0_scoped2 : Ref sig .scVector)).slice (rowRect p)).set = _
  rw [View.set_slice, rowRect_eq]; exact Finset.map_refl

theorem idxSlots_disjoint : ∀ p ∈ (Finset.univ : Finset (Fin 2)), ∀ p' ∈ (Finset.univ : Finset (Fin 2)), p ≠ p' → Disjoint (idxSet p) (idxSet p') :=
  fun p _ p' _ h => by rw [set_idxSlot, set_idxSlot]; exact Rect.part_disjoint hdivI h
theorem idxSlots_cover : (Finset.univ : Finset (Fin 2)).biUnion idxSet = Finset.univ :=
  (Finset.biUnion_congr rfl fun p _ => set_idxSlot p).trans (Rect.biUnion_part hdivI)
theorem rowSlots_disjoint : ∀ p ∈ (Finset.univ : Finset (Fin 2)), ∀ p' ∈ (Finset.univ : Finset (Fin 2)), p ≠ p' → Disjoint (rowSet2 p) (rowSet2 p') :=
  fun p _ p' _ h => by rw [set_rowSlot, set_rowSlot]; exact Rect.part_disjoint hdivR h
theorem rowSlots_cover : (Finset.univ : Finset (Fin 2)).biUnion rowSet2 = Finset.univ :=
  (Finset.biUnion_congr rfl fun p _ => set_rowSlot p).trans (Rect.biUnion_part hdivR)

/-- The staged table named whole holds every element of the shared memory. -/
theorem set_shAll : (shAll).view.set = Finset.univ := by
  show ((View.whole (cc0_scratch0 : Ref sig .scVector)).slice _).set = _
  rw [View.set_slice]
  refine (Finset.map_refl).trans ?_
  ext i
  simp only [Rect.mem_set_unit, Finset.mem_univ, iff_true]
  intro a
  match a with
  | ⟨0, _⟩ => exact ⟨Nat.zero_le _, by show (i 0).val < 0 + 1000; have : (i 0).val < 1000 := (i 0).isLt; omega⟩
  | ⟨1, _⟩ => exact ⟨Nat.zero_le _, by show (i 1).val < 0 + 128; have : (i 1).val < 128 := (i 1).isLt; omega⟩

section Tile

variable (d : Dev nD) (L : grid0.Coords)

theorem pts_fchunk (g : Fin 3200) (q : PosShare TreeShare) (f : Buf (Elt F) (flatLoc d)) :
    ((fchunkM g).view.loc (thr d L) ↦[(fchunkM g).view.set]{q} f : sProp 𝕄) = flatLoc d ↦[fchunkSet g]{q} f := by
  rw [set_fchunkM]
theorem pts_ochunk (g : Fin 3200) (q : PosShare TreeShare) (f : Buf (Elt F) (outLoc d)) :
    ((ochunkM g).view.loc (thr d L) ↦[(ochunkM g).view.set]{q} f : sProp 𝕄) = outLoc d ↦[ochunkSet g]{q} f := by
  rw [set_ochunkM]

/-- The index buffer whole is its two halves; -/
theorem pts_idx (f : Buf (Elt F) ((thr d L).loc cc0_scoped0)) :
    ((thr d L).loc cc0_scoped0 ↦{fullShare} f : sProp 𝕄)
      = iprop(((idxSlot 0).view.loc (thr d L) ↦[(idxSlot 0).view.set]{fullShare} f) ∗ ((idxSlot 1).view.loc (thr d L) ↦[(idxSlot 1).view.set]{fullShare} f)) := by
  have h : ((thr d L).loc cc0_scoped0 ↦{fullShare} f : sProp 𝕄) = bigSep Finset.univ fun p : Fin 2 => (thr d L).loc cc0_scoped0 ↦[idxSet p]{fullShare} f := by
    rw [← pointsTo_biUnion Finset.univ (ℓ := (thr d L).loc cc0_scoped0) idxSet idxSlots_disjoint, idxSlots_cover]; try rfl
  rw [h, show (Finset.univ : Finset (Fin 2)) = {0, 1} by decide, SparseCore.bigSep_insert' (by decide), bigSep_singleton]
/-- the row buffer likewise. -/
theorem pts_row (f : Buf (Elt F) ((thr d L).loc cc0_scoped2)) :
    ((thr d L).loc cc0_scoped2 ↦{fullShare} f : sProp 𝕄)
      = iprop(((rowSlot 0).view.loc (thr d L) ↦[(rowSlot 0).view.set]{fullShare} f) ∗ ((rowSlot 1).view.loc (thr d L) ↦[(rowSlot 1).view.set]{fullShare} f)) := by
  have h : ((thr d L).loc cc0_scoped2 ↦{fullShare} f : sProp 𝕄) = bigSep Finset.univ fun p : Fin 2 => (thr d L).loc cc0_scoped2 ↦[rowSet2 p]{fullShare} f := by
    rw [← pointsTo_biUnion Finset.univ (ℓ := (thr d L).loc cc0_scoped2) rowSet2 rowSlots_disjoint, rowSlots_cover]; try rfl
  rw [h, show (Finset.univ : Finset (Fin 2)) = {0, 1} by decide, SparseCore.bigSep_insert' (by decide), bigSep_singleton]

/-- The staged table named whole is the shared memory whole. -/
theorem pts_shAll (q : PosShare TreeShare) (f : Buf (Elt F) (shLoc d (cV L))) :
    ((shAll).view.loc (thr d L) ↦[(shAll).view.set]{q} f : sProp 𝕄) = shLoc d (cV L) ↦{q} f := by
  rw [set_shAll]; rfl

/-- One of a tile's hundred chunks of the flat list, and the others; -/
theorem flat_take (c : Fin 2) (i : Fin 16) (k : Fin 100) :
    (flatChunks flat d c i : sProp 𝕄) = iprop((flatLoc d ↦[fchunkSet (gidx c i k)]{fullShare} flat d)
      ∗ bigSep (Finset.univ.erase k) fun k' : Fin 100 => flatLoc d ↦[fchunkSet (gidx c i k')]{fullShare} flat d) :=
  SparseCore.bigSep_erase' (Finset.mem_univ k)
/-- of the flat output likewise. -/
theorem out_take (c : Fin 2) (i : Fin 16) (f : Buf (Elt F) (outLoc d)) (k : Fin 100) :
    (outChunks d c i f : sProp 𝕄) = iprop((outLoc d ↦[ochunkSet (gidx c i k)]{fullShare} f)
      ∗ bigSep (Finset.univ.erase k) fun k' : Fin 100 => outLoc d ↦[ochunkSet (gidx c i k')]{fullShare} f) :=
  SparseCore.bigSep_erase' (Finset.mem_univ k)

end Tile

end Cert.Proof.KB

end
-- ==== Proof.KB.Value.lean ====
/-
  What one step's three transfers leave. Chunk `g` of the flat list, copied into a half of the index buffer, is read
  back by the gather as its 256 offsets: entry `x` is entry `256 g + x` of the flat list. The gather then fills the
  half of the row buffer with the staged table's rows those offsets name, and the copy out writes them over chunk `g`
  of the flat output: row `256 g + x` of the flat output is the table's row named by entry `256 g + x` of the flat
  list, which is what the lookup leaves there.
-/
import proofs.«206737_g54150947668683_cont_9to1_m_866_22_alg».proof.Proof.KB.Res
import proofs.«206737_g54150947668683_cont_9to1_m_866_22_alg».proof.Proof.KB.Inv
import proofs.«206737_g54150947668683_cont_9to1_m_866_22_alg».proof.Proof.KB.Chunks
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## Where the pieces' indices land -/

/-- Entry `x` of a half of the index buffer, read as an offset list, is entry `(0, x)` of that half. -/
theorem offsM_read (p : Fin 2) (fo : (idxSlot p).view.ty.Contents (Elt F)) (x : S256.Idx) :
    (offsM p).view.read (Elt F) fo x = (idxSlot p).view.read (Elt F) fo (ix2 (0 : Fin 1) (show Fin 256 from x 0)) := by
  have hr : ∀ h : S256.numel = S1x256.numel, Shape.reshapeEquiv h x = ix2 (0 : Fin 1) (show Fin 256 from x 0) := fun h =>
    Shape.reshapeEquiv_eq_of_rowMajor h
      ((Shape.rowMajor_val_two (d := ![1, 256]) (ix2 (0 : Fin 1) (show Fin 256 from x 0))).trans
        ((show (0 : ℕ) * 256 + (x 0).val = (x 0).val by omega).trans (Shape.rowMajor_val_one (d := ![256]) x).symm))
  show (idxSlot p).view.read (Elt F) fo ((Rect.unit (s := S1x256) ![0, 0] S1x256.size _).emb (Shape.reshapeEquiv _ x)) = _
  rw [hr]
  congr 1
  funext a; apply Fin.ext
  match a with
  | ⟨0, _⟩ => rfl
  | ⟨1, _⟩ => show 0 + 1 * (x 0).val = (x 0).val; omega

/-- Entry `256 g + k` of the flat list, as an index of it. -/
abbrev fpos (g : Fin 3200) (k : ℕ) (hk : k < 256) : Fin 819200 := ⟨256 * g.val + k, by have := g.isLt; omega⟩

/-- Entry `(0, k)` of chunk `g` of the flat list is entry `256 g + k` of the list. -/
theorem fchunkM_read (d : Dev nD) (g : Fin 3200) (f : Buf (Elt F) (flatLoc d)) (k : Fin 256) :
    (fchunkM g).view.read (Elt F) f (ix2 (0 : Fin 1) k) = f (ix2 (0 : Fin 1) (fpos g k.val k.isLt)) := by
  rw [View.read_apply]
  have he : (fchunkM g).view.emb (ix2 (0 : Fin 1) k) = ix2 (0 : Fin 1) (fpos g k.val k.isLt) := by
    funext a; apply Fin.ext
    match a with
    | ⟨0, _⟩ => rfl
    | ⟨1, _⟩ => show 256 * g.val + 1 * k.val = 256 * g.val + k.val; omega
  rw [he]; rfl

/-! ## The gather and the copy out -/

/-- Row `256 g + k` of the flat output, as an index of its rows. -/
abbrev opos (g : Fin 3200) (k : ℕ) (hk : k < 256) : Fin 819200 := ⟨256 * g.val + k, by have := g.isLt; omega⟩

/-- Element `y` of chunk `g` of the flat output is element `(256 g + y 0, y 1)` of the output. -/
theorem ochunkM_emb (g : Fin 3200) (y : S256x128.Idx) :
    (ochunkM g).view.emb y = ix2 (opos g (y 0).val (y 0).isLt) (show Fin 128 from y 1) := by
  funext a; apply Fin.ext
  match a with
  | ⟨0, _⟩ => show 256 * g.val + 1 * (y 0).val = 256 * g.val + (y 0).val; omega
  | ⟨1, _⟩ => show 0 + 1 * (y 1).val = (y 1).val; omega

/-- The staged table, named whole, reads its contents. -/
theorem shAll_read (f : (shAll).view.ty.Contents (Elt F)) (z : S1000x128.Idx) : (shAll).view.read (Elt F) f z = f z := by
  rw [View.read_apply]
  have he : (shAll).view.emb z = z := by
    funext a; apply Fin.ext
    match a with
    | ⟨0, _⟩ => show 0 + 1 * (z 0).val = (z 0).val; omega
    | ⟨1, _⟩ => show 0 + 1 * (z 1).val = (z 1).val; omega
  rw [he]; rfl

/-- A gather of rows of a 1000 × 128 array into 256 × 128: element `y` is the array's element at the row the list's
    entry `y 0` names and at `y`'s own column. -/
theorem gather_apply (tb : S1000x128.Idx → Elt F .f32) (offs : S256.Idx → Elt F .i32)
    (hn : S256.numel = S256x128.size (Facts₀.gathers_S1000x128_S256x128).axis')
    (hin : ∀ x, (offs x).toNat < S1000x128.size (Facts₀.gathers_S1000x128_S256x128).axis) (y : S256x128.Idx) :
    gatherPayload Facts₀.gathers_S1000x128_S256x128 tb (rows offs hn hin) y
      = tb (ix2 (⟨(offs (ix1 (show Fin 256 from y 0))).toNat, hin _⟩ : Fin 1000) (show Fin 128 from y 1)) := by
  unfold gatherPayload
  congr 1
  funext b; apply Fin.ext
  match b with
  | ⟨0, _⟩ =>
    show (rows offs hn hin (y 0)).val = (offs (ix1 (show Fin 256 from y 0))).toNat
    unfold rows
    have hs : S256.rowMajor.symm ((y 0).cast hn.symm) = ix1 (show Fin 256 from y 0) :=
      (Equiv.symm_apply_eq _).mpr (Fin.ext (Shape.rowMajor_val_one (d := ![256]) (ix1 (show Fin 256 from y 0))).symm)
    show (offs (S256.rowMajor.symm ((y 0).cast hn.symm))).toNat = _
    rw [hs]
  | ⟨1, _⟩ => rfl

/-! ## The index buffer's half holds the chunk -/

section Tile

variable (d : Dev nD) (L : grid0.Coords)

/-- The copy of chunk `g` of the flat list into half `p` of the index buffer leaves it holding the chunk. -/
theorem idx_holds (p : Fin 2) (g : Fin 3200) (fi : Buf (Elt F) ((thr d L).loc cc0_scoped0)) :
    IdxHolds flat d L p g ((idxSlot p).view.writes (Elt F) fi
      [⟨Rect.whole S1x256, ReadAs.same.apply (View.read (Elt F) (fchunkM g).view (flat d))⟩]) := by
  intro x
  have h := View.read_writes_cons_emb (idxSlot p).view fi (Rect.whole S1x256)
    (ReadAs.same.apply (View.read (Elt F) (fchunkM g).view (flat d))) [] (ix2 (0 : Fin 1) (show Fin 256 from x 0))
  rw [Rect.emb_whole_apply] at h
  refine (offsM_read p _ x).trans (h.trans ((fchunkM_read d g (flat d) (show Fin 256 from x 0)).trans ?_))
  refine congrArg (fun k : Fin 819200 => flat d (ix2 (0 : Fin 1) k)) (Fin.ext ?_)
  show 256 * g.val + (x 0).val = (256 * g.val + (x 0).val) % 819200
  have := g.isLt; have : (x 0).val < 256 := (x 0).isLt
  exact (Nat.mod_eq_of_lt (by omega)).symm

/-- The offsets a half holding a chunk of the flat list reads are row numbers when the flat list's words are. -/
theorem offs_lt {p : Fin 2} {g : Fin 3200} {fo : Buf (Elt F) ((thr d L).loc cc0_scoped0)} (h : IdxHolds flat d L p g fo)
    (hin : ∀ d x, (flat d x : BitVec 32).toNat < 1000) (x : S256.Idx) :
    ((offsM p).view.read (Elt F) fo x : BitVec 32).toNat < 1000 := by
  rw [h x]; exact hin d _

/-! ## The flat output's chunk holds the looked-up rows -/

/-- The rows gathered through a half holding chunk `g` of the flat list, copied out over chunk `g` of the flat
    output, are what the lookup leaves there: stated for any contents `frow` of the row buffer whose half reads the
    gather's payload. -/
theorem out_holds_of_read {p : Fin 2} {g : Fin 3200} {fo : Buf (Elt F) ((thr d L).loc cc0_scoped0)} (hI : IdxHolds flat d L p g fo)
    (hn : S256.numel = S256x128.size (Facts₀.gathers_S1000x128_S256x128).axis')
    (hlt : ∀ x, ((offsM p).view.read (Elt F) fo x).toNat < S1000x128.size (Facts₀.gathers_S1000x128_S256x128).axis)
    (frow : Buf (Elt F) ((thr d L).loc cc0_scoped2))
    (hrow : (rowSlot p).view.read (Elt F) frow
      = gatherPayload Facts₀.gathers_S1000x128_S256x128 (View.read (Elt F) shAll.view (tabS m d (cV L))) (rows ((offsM p).view.read (Elt F) fo) hn hlt))
    (f0 : Buf (Elt F) (outLoc d)) :
    OutHolds m flat d g ((ochunkM g).view.writes (Elt F) f0
      [⟨Rect.whole S256x128, ReadAs.same.apply (View.read (Elt F) (rowSlot p).view frow)⟩]) := by
  intro j hj
  obtain ⟨y, -, rfl⟩ := Finset.mem_map.mp hj
  -- what the chunk reads at `y` after the copy: the gathered row's entry
  have h := View.read_writes_cons_emb (ochunkM g).view f0 (Rect.whole S256x128)
    (ReadAs.same.apply (View.read (Elt F) (rowSlot p).view frow)) [] y
  rw [Rect.emb_whole_apply, View.read_apply] at h
  refine (cast_eq _ _).symm.trans (h.trans ?_)
  show (rowSlot p).view.read (Elt F) frow y = _
  rw [hrow, gather_apply, shAll_read, ochunkM_emb]
  -- the offset at `y 0` is the flat list's entry `256 g + y 0`, a row number
  have hx := hI (ix1 (show Fin 256 from y 0))
  have hpos : (⟨(256 * g.val + (y 0).val) % 819200, Nat.mod_lt _ (by decide)⟩ : Fin 819200) = opos g (y 0).val (y 0).isLt := by
    have := g.isLt; have : (y 0).val < 256 := (y 0).isLt
    exact Fin.ext (Nat.mod_eq_of_lt (by omega))
  show m (tabLoc d) (ix2 (⟨((offsM p).view.read (Elt F) fo (ix1 (show Fin 256 from y 0))).toNat, _⟩ : Fin 1000) (show Fin 128 from y 1))
    = m (tabLoc d) (ix2 (Cert.Spec.rowOf (flat d (ix2 (0 : Fin 1) (opos g (y 0).val (y 0).isLt)))) (show Fin 128 from y 1))
  refine congrArg (fun r : Fin 1000 => m (tabLoc d) (ix2 r (show Fin 128 from y 1))) (Fin.ext ?_)
  show ((offsM p).view.read (Elt F) fo (ix1 (show Fin 256 from y 0))).toNat = (flat d (ix2 (0 : Fin 1) (opos g (y 0).val (y 0).isLt)) : BitVec 32).toNat % 1000
  have hlt' := hlt (ix1 (show Fin 256 from y 0))
  rw [show ((offsM p).view.read (Elt F) fo (ix1 (show Fin 256 from y 0)) : BitVec 32) = flat d (ix2 (0 : Fin 1) (opos g (y 0).val (y 0).isLt)) from hx.trans (by rw [← hpos])] at hlt' ⊢
  exact (Nat.mod_eq_of_lt hlt').symm

/-- The same with the row buffer's contents as the gather leaves them. -/
theorem out_holds {p : Fin 2} {g : Fin 3200} {fo : Buf (Elt F) ((thr d L).loc cc0_scoped0)} (hI : IdxHolds flat d L p g fo)
    (hn : S256.numel = S256x128.size (Facts₀.gathers_S1000x128_S256x128).axis')
    (hlt : ∀ x, ((offsM p).view.read (Elt F) fo x).toNat < S1000x128.size (Facts₀.gathers_S1000x128_S256x128).axis)
    (fd : Buf (Elt F) ((thr d L).loc cc0_scoped2)) (f0 : Buf (Elt F) (outLoc d)) :
    OutHolds m flat d g ((ochunkM g).view.writes (Elt F) f0
      [⟨Rect.whole S256x128, ReadAs.same.apply (View.read (Elt F) (rowSlot p).view
        ((rowSlot p).view.write (Elt F) fd (gatherPayload Facts₀.gathers_S1000x128_S256x128 (View.read (Elt F) shAll.view (tabS m d (cV L)))
          (rows ((offsM p).view.read (Elt F) fo) hn hlt)) Finset.univ))⟩]) :=
  out_holds_of_read m flat d L hI hn hlt _ (View.read_write_univ _ _) f0

/-- A chunk holding the looked-up rows is the flat output's chunk at what the lookup leaves. -/
theorem out_done {g : Fin 3200} {fo : Buf (Elt F) (outLoc d)} (h : OutHolds m flat d g fo) :
    ochPts d L g fo ⊢ (outLoc d ↦[ochunkSet g]{fullShare} outv m flat d : sProp 𝕄) := by
  show ((ochunkM g).view.loc (thr d L) ↦[(ochunkM g).view.set]{fullShare} fo : sProp 𝕄) ⊢ _
  rw [pts_ochunk, pointsTo_congr (f := fo) (g := outv m flat d) (fun j hj => h j (by rw [set_ochunkM]; exact hj))]

end Tile

end Cert.Proof.KB

end
-- ==== Proof.KB.ValueAt.lean ====
/-
  What a step's transfers leave, with the pieces named by offsets. A half of a double buffer or a chunk of an array
  named by offsets equal to those of its number is the same piece: the copy of chunk `g` of the flat list into a half
  of the index buffer leaves the half holding the chunk, and the rows gathered through it into a half of the row
  buffer and copied out over chunk `g` of the flat output are what the lookup leaves there — the half of the row
  buffer read whole after being written whole gives back what was written.
-/
import proofs.«206737_g54150947668683_cont_9to1_m_866_22_alg».proof.Proof.KB.Value
import proofs.«206737_g54150947668683_cont_9to1_m_866_22_alg».proof.Proof.KB.Respell

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)
open Idealize.ShloMosaic.ValueIdx
open Idealize.ShloMosaic.SparseCore (gatherPayload rows)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Tile

variable (d : Dev nD) (L : grid0.Coords)

/-- A piece read whole after being written whole reads what was written. -/
theorem read_writes_whole {κ : Kind} {sp : Space} {s : Shape} {e : EltTy} (v : View sig κ sp s e) (f : v.ty.Contents (Elt F))
    (w : (Rect.whole s).shape.Idx → Elt F e) :
    v.read (Elt F) (v.writes (Elt F) f [⟨Rect.whole s, w⟩]) = w := by
  funext y
  have h := View.read_writes_cons_emb (v := v) (f := f) (Rect.whole s) w [] y
  rw [Rect.emb_whole_apply] at h
  exact h

/-- The copy of chunk `g` of the flat list into half `p` of the index buffer, both named by offsets, leaves the half
    holding the chunk. -/
theorem idx_holds_at (p : Fin 2) (g : Fin 3200) {o2 : Fin 3 → ℕ} {o3 : Fin 2 → ℕ} (h2 : o2 = ![p.val, 0, 0]) (h3 : o3 = ![0, 256 * g.val])
    (i2 : ∀ a, o2 a + S1x1x256.size a ≤ S2x1x256.size a) (i3 : ∀ a, o3 a + S1x256.size a ≤ S1x819200.size a)
    (fi : Buf (Elt F) ((thr d L).loc cc0_scoped0)) :
    IdxHolds flat d L p g ((idxAt o2 i2).view.writes (Elt F) fi
      [⟨Rect.whole S1x256, ReadAs.same.apply (View.read (Elt F) (fchAt o3 i3).view (flat d))⟩]) := by
  subst h2 h3
  exact idx_holds flat d L p g fi

/-- The rows gathered through a half holding chunk `g` of the flat list into a half of the row buffer and copied out
    over chunk `g` of the flat output, every piece named by offsets, are what the lookup leaves there. -/
theorem out_holds_at {p : Fin 2} {g : Fin 3200} {fo : Buf (Elt F) ((thr d L).loc cc0_scoped0)} (hI : IdxHolds flat d L p g fo)
    {o11 o13 o12 : Fin 3 → ℕ} {o14 : Fin 2 → ℕ} (h11 : o11 = ![p.val, 0, 0]) (h13 : o13 = ![p.val, 0, 0]) (h12 : o12 = ![p.val, 0, 0])
    (h14 : o14 = ![256 * g.val, 0])
    (i11 : ∀ a, o11 a + S1x256x128.size a ≤ S2x256x128.size a) (i13 : ∀ a, o13 a + S1x256x128.size a ≤ S2x256x128.size a)
    (i12 : ∀ a, o12 a + S1x1x256.size a ≤ S2x1x256.size a) (i14 : ∀ a, o14 a + S256x128.size a ≤ S819200x128.size a)
    (hn : S256.numel = S256x128.size (Facts₀.gathers_S1000x128_S256x128).axis')
    (hlt : ∀ x, ((offsAt o12 i12).view.read (Elt F) fo x).toNat < S1000x128.size (Facts₀.gathers_S1000x128_S256x128).axis)
    (fr' : Buf (Elt F) ((thr d L).loc cc0_scoped2)) (f0 : Buf (Elt F) (outLoc d)) :
    OutHolds m flat d g ((ochAt o14 i14).view.writes (Elt F) f0
      [⟨Rect.whole S256x128, ReadAs.same.apply (View.read (Elt F) (rowAt o13 i13).view
        ((rowAt o11 i11).view.writes (Elt F) fr'
          [⟨Rect.whole S256x128, gatherPayload Facts₀.gathers_S1000x128_S256x128 (View.read (Elt F) shAll.view (m (tabLoc d)))
            (rows (View.read (Elt F) (offsAt o12 i12).view fo) hn hlt)⟩]))⟩]) := by
  subst h11 h13 h12 h14
  exact out_holds_of_read m flat d L hI hn hlt _ (read_writes_whole (rowSlot p).view fr' _) f0

end Tile

end Cert.Proof.KB

end
-- ==== Proof.KB.Home.lean ====
/-
  The chunks at home across a step. Before step `k` a tile holds every chunk of the flat list of row numbers but the
  `k`-th, the output's chunks from `k` on as they were and those before `k - 1` with the looked-up rows. A step takes
  the next chunk of the flat list out and puts this step's back, takes this step's output chunk out and puts the step
  before's back: each is one index taken out of, or put into, a set of step numbers below a hundred.
-/
import proofs.«206737_g54150947668683_cont_9to1_m_866_22_alg».proof.Proof.KB.Inv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

/-! ## Sets of step numbers -/

/-- Every step but `k` and `k + 1`. -/
abbrev midSet (k : ℕ) : Finset (Fin 100) := Finset.univ.filter fun k' : Fin 100 => k'.val ≠ k ∧ k'.val ≠ k + 1
/-- The steps from `k` on. -/
abbrev fromSet (k : ℕ) : Finset (Fin 100) := Finset.univ.filter fun k' : Fin 100 => k ≤ k'.val
/-- The steps before `k - 1`. -/
abbrev doneSet (k : ℕ) : Finset (Fin 100) := Finset.univ.filter fun k' : Fin 100 => k'.val + 1 < k

theorem mem_ne (k : ℕ) (x : Fin 100) : x ∈ (Finset.univ.filter fun k' : Fin 100 => k'.val ≠ k) ↔ x.val ≠ k := by simp
theorem ne_erase_succ (k : ℕ) (h : k + 1 < 100) :
    (Finset.univ.filter fun k' : Fin 100 => k'.val ≠ k).erase ⟨k + 1, h⟩ = midSet k := by
  ext x; simp only [Finset.mem_erase, Finset.mem_filter, Finset.mem_univ, true_and, ne_eq, Fin.ext_iff] <;> omega
theorem ne_succ_erase (k : ℕ) (h : k < 100) :
    (Finset.univ.filter fun k' : Fin 100 => k'.val ≠ k + 1).erase ⟨k, h⟩ = midSet k := by
  ext x; simp only [Finset.mem_erase, Finset.mem_filter, Finset.mem_univ, true_and, ne_eq, Fin.ext_iff] <;> omega
theorem ne_hundred : (Finset.univ.filter fun k' : Fin 100 => k'.val ≠ 100) = Finset.univ := by
  ext x; simp only [Finset.mem_filter, Finset.mem_univ, true_and, ne_eq, iff_true] <;> omega
theorem univ_erase (k : ℕ) (h : k < 100) :
    (Finset.univ : Finset (Fin 100)).erase ⟨k, h⟩ = Finset.univ.filter fun k' : Fin 100 => k'.val ≠ k := by
  ext x; simp only [Finset.mem_erase, Finset.mem_filter, Finset.mem_univ, true_and, and_true, ne_eq, Fin.ext_iff]
theorem from_erase (k : ℕ) (h : k < 100) :
    (Finset.univ.filter fun k' : Fin 100 => k ≤ k'.val).erase ⟨k, h⟩ = fromSet (k + 1) := by
  ext x; simp only [Finset.mem_erase, Finset.mem_filter, Finset.mem_univ, true_and, ne_eq, Fin.ext_iff] <;> omega
theorem done_erase (k : ℕ) (h : k < 100) (hk : k ≠ 0) :
    (Finset.univ.filter fun k' : Fin 100 => k'.val + 1 < k + 1).erase ⟨k - 1, by omega⟩ = doneSet k := by
  ext x; simp only [Finset.mem_erase, Finset.mem_filter, Finset.mem_univ, true_and, ne_eq, Fin.ext_iff] <;> omega
theorem from_zero : (Finset.univ.filter fun k' : Fin 100 => 0 ≤ k'.val) = Finset.univ := by
  ext x; simp only [Finset.mem_filter, Finset.mem_univ, true_and, iff_true] <;> omega
theorem from_hundred : (Finset.univ.filter fun k' : Fin 100 => 100 ≤ k'.val) = ∅ := by
  ext x; simp only [Finset.mem_filter, Finset.mem_univ, true_and, Finset.notMem_empty, iff_false] <;> omega
theorem done_zero : (Finset.univ.filter fun k' : Fin 100 => k'.val + 1 < 0) = ∅ := by
  ext x; simp only [Finset.mem_filter, Finset.mem_univ, true_and, Finset.notMem_empty, iff_false] <;> omega
theorem done_one : (Finset.univ.filter fun k' : Fin 100 => k'.val + 1 < 1) = ∅ := by
  ext x; simp only [Finset.mem_filter, Finset.mem_univ, true_and, Finset.notMem_empty, iff_false] <;> omega
theorem done_hundred :
    (Finset.univ.filter fun k' : Fin 100 => k'.val + 1 < 100) = Finset.univ.filter fun k' : Fin 100 => k'.val ≠ 99 := by
  ext x; simp only [Finset.mem_filter, Finset.mem_univ, true_and, ne_eq] <;> omega

/-! ## Separating conjunction up to equality -/

section Sep
variable {M : Type} [URA M]

theorem sep_left_comm_eq (P Q R : sProp M) : iprop(P ∗ (Q ∗ R)) = iprop(Q ∗ (P ∗ R)) := by
  have h1 : ∀ A B C : sProp M, iprop(A ∗ (B ∗ C)) ⊢ iprop(B ∗ (A ∗ C)) := fun A B C => by
    iintro ⟨HA, HB, HC⟩
    isplitl [HB]; · iexact HB
    isplitl [HA]; · iexact HA
    iexact HC
  exact Entails.antisymm (h1 P Q R) (h1 Q P R)
theorem sep_assoc_eq (P Q R : sProp M) : iprop((P ∗ Q) ∗ R) = iprop(P ∗ (Q ∗ R)) := by
  have h1 : iprop((P ∗ Q) ∗ R) ⊢ iprop(P ∗ (Q ∗ R)) := by
    iintro ⟨⟨HP, HQ⟩, HR⟩
    isplitl [HP]; · iexact HP
    isplitl [HQ]; · iexact HQ
    iexact HR
  have h2 : iprop(P ∗ (Q ∗ R)) ⊢ iprop((P ∗ Q) ∗ R) := by
    iintro ⟨HP, HQ, HR⟩
    isplitr [HR]
    · isplitl [HP]; · iexact HP
      iexact HQ
    · iexact HR
  exact Entails.antisymm h1 h2
theorem sep_emp_eq (P : sProp M) : iprop(P ∗ (Idealize.SL.BI.emp : sProp M)) = P := equiv_iff.mp Idealize.SL.BI.sep_emp
theorem emp_sep_eq (P : sProp M) : iprop((Idealize.SL.BI.emp : sProp M) ∗ P) = P := equiv_iff.mp Idealize.SL.BI.emp_sep

end Sep

section Home

variable (d : Dev nD) (L : grid0.Coords)

/-- Chunk `k'` of the tile's hundred of the flat list, at home. -/
abbrev flatAt (k' : Fin 100) : sProp 𝕄 := flatLoc d ↦[fchunkSet (gk L k')]{fullShare} flat d
/-- Chunk `k'` of the tile's hundred of the flat output, at home with contents `f`. -/
abbrev outAt (f : Buf (Elt F) (outLoc d)) (k' : Fin 100) : sProp 𝕄 := outLoc d ↦[ochunkSet (gk L k')]{fullShare} f

/-! ## The flat list -/

/-- Before step `k`, taking the next step's chunk out leaves every chunk but the two. -/
theorem flatHome_take (k : ℕ) (h : k + 1 < 100) :
    flatHome flat d L k = iprop(flatAt flat d L ⟨k + 1, h⟩ ∗ bigSep (midSet k) (flatAt flat d L)) := by
  unfold flatHome
  rw [SparseCore.bigSep_erase' (i := (⟨k + 1, h⟩ : Fin 100)) ((mem_ne k _).2 (by simp)), ne_erase_succ k h]
/-- Putting this step's chunk back gives what is at home before the next step. -/
theorem flatHome_put (k : ℕ) (h : k + 1 < 100) :
    flatHome flat d L (k + 1) = iprop(flatAt flat d L ⟨k, by omega⟩ ∗ bigSep (midSet k) (flatAt flat d L)) := by
  unfold flatHome
  rw [SparseCore.bigSep_erase' (i := (⟨k, by omega⟩ : Fin 100)) ((mem_ne (k + 1) _).2 (by simp)), ne_succ_erase k (by omega)]
/-- After the last step every chunk is at home: the last put back. -/
theorem flatHome_last : flatHome flat d L 100 = iprop(flatAt flat d L ⟨99, by omega⟩ ∗ flatHome flat d L 99) := by
  unfold flatHome
  rw [ne_hundred, SparseCore.bigSep_erase' (i := (⟨99, by omega⟩ : Fin 100)) (Finset.mem_univ _), univ_erase 99 (by omega)]
/-- Before the first step: the tile's hundred chunks are the first and the rest. -/
theorem flatHome_zero : flatChunks flat d (cL L) (jL L) = iprop(flatAt flat d L ⟨0, by omega⟩ ∗ flatHome flat d L 0) := by
  unfold flatHome
  rw [← univ_erase 0 (by omega)]
  exact SparseCore.bigSep_erase' (i := (⟨0, by omega⟩ : Fin 100)) (Finset.mem_univ _)
/-- After the last step: the tile's hundred chunks. -/
theorem flatHome_full : flatHome flat d L 100 = flatChunks flat d (cL L) (jL L) := by
  unfold flatHome
  rw [ne_hundred]

/-! ## The flat output -/

/-- Before step `k`, taking this step's chunk out of those not yet written. -/
theorem outHome_take (k : ℕ) (h : k < 100) :
    outHome m flat d L k = iprop(outAt d L (m (outLoc d)) ⟨k, h⟩
      ∗ (bigSep (fromSet (k + 1)) (outAt d L (m (outLoc d))) ∗ bigSep (doneSet k) (outAt d L (outv m flat d)))) := by
  unfold outHome
  rw [SparseCore.bigSep_erase' (s := fromSet k) (i := (⟨k, h⟩ : Fin 100)) (by simp), from_erase k h, sep_assoc_eq]
/-- Putting the step before's chunk back, written, gives what is at home before the next step. -/
theorem outHome_put (k : ℕ) (h : k < 100) (hk : k ≠ 0) :
    iprop(outAt d L (outv m flat d) ⟨k - 1, by omega⟩
      ∗ (bigSep (fromSet (k + 1)) (outAt d L (m (outLoc d))) ∗ bigSep (doneSet k) (outAt d L (outv m flat d))))
      = outHome m flat d L (k + 1) := by
  unfold outHome
  rw [SparseCore.bigSep_erase' (s := doneSet (k + 1)) (i := (⟨k - 1, by omega⟩ : Fin 100)) (by simp; omega), done_erase k h hk]
  exact sep_left_comm_eq _ _ _
/-- The first step puts nothing back. -/
theorem outHome_put_zero :
    iprop(bigSep (fromSet 1) (outAt d L (m (outLoc d))) ∗ bigSep (doneSet 0) (outAt d L (outv m flat d)))
      = outHome m flat d L 1 := by
  unfold outHome
  simp only [done_zero, done_one]
/-- Before the first step: the tile's hundred chunks as they were. -/
theorem outHome_zero : outChunks d (cL L) (jL L) (m (outLoc d)) = outHome m flat d L 0 := by
  unfold outHome
  rw [from_zero, done_zero, bigSep_empty, sep_emp_eq]
/-- After the last step, with the last chunk put back: the tile's hundred chunks, written. -/
theorem outHome_end :
    iprop(outAt d L (outv m flat d) ⟨99, by omega⟩ ∗ outHome m flat d L 100) = outChunks d (cL L) (jL L) (outv m flat d) := by
  unfold outHome
  rw [from_hundred, done_hundred, bigSep_empty, emp_sep_eq, ← univ_erase 99 (by omega)]
  exact (SparseCore.bigSep_erase' (i := (⟨99, by omega⟩ : Fin 100)) (Finset.mem_univ _)).symm

end Home

end Cert.Proof.KB

end
-- ==== Proof.KB.TripBase.lean ====
/-
  What the three kinds of step (the first, a middle one, the last) share: the tile's base word and one respelling.
-/
import proofs.«206737_g54150947668683_cont_9to1_m_866_22_alg».proof.Proof.KB.ValueAt
import proofs.«206737_g54150947668683_cont_9to1_m_866_22_alg».proof.Proof.KB.Respell
import proofs.«206737_g54150947668683_cont_9to1_m_866_22_alg».proof.Proof.KB.Home

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

/-- A hundred times the tile's number `subcore + 16 core`, as the kernel computes it. -/
def v7Of (L : grid0.Coords) : BitVec 32 :=
  Scalar.muli (Scalar.addi (Scalar.addi 0#32 (Scalar.muli (BitVec.ofNat 32 (L 1).val) 1#32)) (Scalar.muli (BitVec.ofNat 32 (L 0).val) 16#32)) 100#32

omit [FloatOps F] in
/-- A half of the index buffer named with and without its unit axis squeezed away holds the same elements. -/
theorem idx_unsq (off : Fin 3 → ℕ) (inb : ∀ a, off a + S1x1x256.size a ≤ S2x1x256.size a) (f : Buf (Elt F) ((thr d L).loc cc0_scoped0)) :
    idxPtsAt (F := F) d L off inb f
      = (((idxV).slice (Rect.unit (s := S2x1x256) off S1x1x256.size inb) (fun _ => rfl)).view.loc (thr d L)
          ↦[((idxV).slice (Rect.unit (s := S2x1x256) off S1x1x256.size inb) (fun _ => rfl)).view.set]{fullShare} f : sProp 𝕄) := by
  have h : (idxAt off inb).view.set = ((idxV).slice (Rect.unit (s := S2x1x256) off S1x1x256.size inb) (fun _ => rfl)).view.set :=
    View.set_reshape _ _
  exact congrArg (fun S => (((idxV).slice (Rect.unit (s := S2x1x256) off S1x1x256.size inb) (fun _ => rfl)).view.loc (thr d L) ↦[S]{fullShare} f : sProp 𝕄)) h

end Steps

end Cert.Proof.KB

end
-- ==== Proof.KB.TripFirst.lean ====
/-
  The first step of a tile's hundred: it starts the fetch of the next chunk of the flat list into the free half of
  the index buffer, waits for this step's chunk, gathers the table's rows it names into the first half of the row
  buffer and starts copying that half out to this step's chunk of the flat output. No copy-out is in flight yet, so
  there is none to wait for: the second half of the row buffer stays free.
-/
import proofs.«206737_g54150947668683_cont_9to1_m_866_22_alg».proof.Proof.KB.TripBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_first (hin : ∀ d x, ((flat d x : BitVec 32)).toNat < 1000) (O : CellTallies nD τ sig (HIx 1)) (W : Waits sig (HIx 1))
    (k : Fin k0_t1_loop.trips) (hk0 : k.val = 0) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  have hk99 : k.val < 99 := by omega
  unfold k0_t1_body accOf
  -- the conditions and checks at this step
  have h1' := chk1_acc L k
  have h2' := chk2_acc k
  have h3' := chk3_acc k
  have hc3 := cond3_eq L k
  have hc6 := cond6_eq L k
  have hc2 := cond2_pos L k hk99
  have hc8 := cond8_neg L k hk0
  have hkp : k.val + 1 < 100 := by omega
  have m0 : k.val % 2 = 0 := by omega
  have m1 : (k.val + 1) % 2 = 1 := by omega
  -- the pieces this step names, each named both ways
  have e2 : par (k.val + 1 + 1) = par k.val := Fin.ext (by show (k.val + 1 + 1) % 2 = k.val % 2; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb5 : ∀ a, k0_off5 (BitVec.ofNat 32 (1 + min k.val 99)) a + S1x1x256.size a ≤ S2x1x256.size a := fun a => by rw [off5_eq' k hk99]; exact idxRect_inb (par (k.val + 1)) a
  have inb11 : ∀ a, k0_off11 (BitVec.ofNat 32 k.val) a + S1x256x128.size a ≤ S2x256x128.size a := fun a => by rw [off11_eq k]; exact rowRect_inb (par k.val) a
  have inb10 : ∀ a, k0_off10 (BitVec.ofNat 32 k.val) a + S1.size a ≤ S2.size a := fun a => by rw [off10_eq k]; exact semRect_inb (par k.val) a
  have inb7 : ∀ a, k0_off7 (BitVec.ofNat 32 (1 + min k.val 99)) a + S1.size a ≤ S2.size a := fun a => by rw [off7_eq' k hk99]; exact semRect_inb (par (k.val + 1)) a
  have inb15 : ∀ a, k0_off15 (BitVec.ofNat 32 k.val) a + S1.size a ≤ S2.size a := fun a => by rw [off15_eq k]; exact semRect_inb (par k.val) a
  have o9 : k0_off9 L (BitVec.ofNat 32 (k.val % 100)) = ![0, 256 * (gk L ⟨k.val, hk⟩).val] := (off9_eq L k).trans (by simp only [gk, gidx, cL, jL]; rfl)
  have o6 : k0_off6 L (BitVec.ofNat 32 (k.val % 100)) = ![0, 256 * (gk L ⟨k.val + 1, hkp⟩).val] := (off6_eq L k hk99).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have q11 : k0_off11 (BitVec.ofNat 32 k.val) = ![(0 : Fin 2).val, 0, 0] := (off11_eq k).trans (congrArg (fun n : ℕ => (![n, 0, 0] : Fin 3 → ℕ)) m0)
  have q15 : k0_off15 (BitVec.ofNat 32 k.val) = ![(0 : Fin 2).val] := (off15_eq k).trans (congrArg (fun n : ℕ => (![n] : Fin 1 → ℕ)) m0)
  have r1 : (![(1 : Fin 2).val, 0, 0] : Fin 3 → ℕ) = ![(par (k.val + 1)).val, 0, 0] := congrArg (fun n : ℕ => (![n, 0, 0] : Fin 3 → ℕ)) m1.symm
  have s1 : (![(1 : Fin 2).val] : Fin 1 → ℕ) = ![(par (k.val + 1)).val] := congrArg (fun n : ℕ => (![n] : Fin 1 → ℕ)) m1.symm
  have hput : ∀ n : ℕ, n = 0 → iprop(bigSep (fromSet (n + 1)) (outAt d L (m (outLoc d))) ∗ bigSep (doneSet n) (outAt d L (outv m flat d)))
      = outHome m flat d L (n + 1) := fun n hn => by subst hn; exact outHome_put_zero m flat d L
  have inb9 : ∀ a, k0_off9 L (BitVec.ofNat 32 (k.val % 100)) a + S1x256.size a ≤ S1x819200.size a := fun a => by rw [o9]; exact fchunkU_inb _ a
  have inb6 : ∀ a, k0_off6 L (BitVec.ofNat 32 (k.val % 100)) a + S1x256.size a ≤ S1x819200.size a := fun a => by rw [o6]; exact fchunkU_inb _ a
  have inb14 : ∀ a, k0_off14 L (BitVec.ofNat 32 (k.val % 100)) a + S256x128.size a ≤ S819200x128.size a := fun a => by rw [o14]; exact ochunkU_inb _ a
  unfold stepInv inPart outPart
  rw [dif_pos hk, dif_pos hk0, dif_pos hkp, dif_neg (Nat.succ_ne_zero _), dif_pos (show k.val + 1 - 1 < 100 by omega)]
  unfold inFlight outFlight idxFree rowFree
  rw [e2, e3, g3]
  iintro ⟨-, #Hmw, Hsh, Hs0, Hs5, Hfh, Hoh, ⟨⟨%fo, %hfo, Hfin⟩, ⟨%fi', Hi'⟩, Hsi'⟩, ⟨⟨⟨%fr', Hr'⟩, Hsr'⟩, ⟨⟨%fr1, Hr1⟩, Hsr1⟩⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hi' := (Entails.of_eq (idxPtsAt_congr d L (off5_eq' k hk99).symm _ inb5 fi')) $$ Hi'
  ihave Hsi' := (Entails.of_eq (sem1Val_congr (F := F) d L (off7_eq' k hk99).symm _ inb7)) $$ Hsi'
  ihave Hr' := (Entails.of_eq (rowPtsAt_congr d L q11.symm (rowRect_inb 0) inb11 fr')) $$ Hr'
  ihave Hsr' := (Entails.of_eq (sem3Val_congr (F := F) d L q15.symm (semRect_inb 0) inb15)) $$ Hsr'
  ihave Hfx := (Entails.of_eq (flatHome_take flat d L k.val hkp)) $$ Hfh
  icases Hfx with ⟨Hfn, Hfh⟩
  ihave Hfn := (Entails.of_eq ((pts_fchunk (F := F) d L (gk L ⟨k.val + 1, hkp⟩) fullShare (flat d)).symm.trans (fchPtsAt_congr flat d L o6.symm _ inb6))) $$ Hfn
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have inb13 : ∀ a, k0_off13 (BitVec.ofNat 32 k.val) a + S1x256x128.size a ≤ S2x256x128.size a := fun a => by rw [off13_eq k]; exact rowRect_inb (par k.val) a
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq (flatHome_put flat d L k.val hkp).symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh]
  · iapply (Entails.of_eq (hput k.val hk0))
    iexact Hoh
  isplitl [Hsi' Hfin_dst Hfin]
  · isplitl [Hsi']
    · iexists _; isplitr; swap
      · iapply (Entails.of_eq (inFlightAt_congr flat d L (off7_eq' k hk99) (off5_eq' k hk99) o6 inb7 (semRect_inb (par (k.val + 1))) inb5 (idxRect_inb (par (k.val + 1))) inb6 (fchunkU_inb (gk L ⟨k.val + 1, hkp⟩)) _))
        iexact Hsi'
      · ipureintro; exact idx_holds_at flat d L (par (k.val + 1)) (gk L ⟨k.val + 1, hkp⟩) (off5_eq' k hk99) o6 inb5 inb6 fi'
    · isplitl [Hfin_dst]
      · iexists fo
        iapply (Entails.of_eq (idxPtsAt_congr d L (off12_eq k) inb12 (idxRect_inb (par k.val)) fo))
        iapply (Entails.of_eq (idx_unsq (F := F) d L _ inb12 fo).symm)
        iexact Hfin_dst
      · iapply (Entails.of_eq (sem1Val_congr (F := F) d L (off10_eq k) inb10 (semRect_inb (par k.val))))
        iexact Hfin
  isplitl [Hsr' Hr1 Hsr1]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hr1]
      · iexists fr1
        iapply (Entails.of_eq (rowPtsAt_congr d L r1 (rowRect_inb 1) (rowRect_inb (par (k.val + 1))) fr1))
        iexact Hr1
      · iapply (Entails.of_eq (sem3Val_congr (F := F) d L s1 (semRect_inb 1) (semRect_inb (par (k.val + 1)))))
        iexact Hsr1
  iexists _; isplitr; swap; · iexact HO
  ipureintro; intro p hp
  rcases Finset.mem_insert.mp hp with hp | hp; · exact .inr (hp ▸ rfl)
  rcases Finset.mem_insert.mp hp with hp | hp; · exact .inr (hp ▸ rfl)
  exact hW' p hp

end Steps

end Cert.Proof.KB

end
-- ==== Proof.KB.TripMid.lean ====
/-
  A middle step of a tile's hundred (neither the first nor the last): it starts the fetch of the next chunk of the
  flat list into the free half of the index buffer, waits for this step's chunk, gathers the table's rows it names
  into the free half of the row buffer, starts copying that half out to this step's chunk of the flat output, and
  waits for the previous step's copy-out.
-/
import proofs.«206737_g54150947668683_cont_9to1_m_866_22_alg».proof.Proof.KB.TripBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_mid (hin : ∀ d x, ((flat d x : BitVec 32)).toNat < 1000) (O : CellTallies nD τ sig (HIx 1)) (W : Waits sig (HIx 1))
    (k : Fin k0_t1_loop.trips) (hk0 : ¬ k.val = 0) (hk99 : k.val < 99) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  unfold k0_t1_body accOf
  -- the conditions and checks at this step
  have h1' := chk1_acc L k
  have h2' := chk2_acc k
  have h3' := chk3_acc k
  have hc3 := cond3_eq L k
  have hc6 := cond6_eq L k
  have hc2 := cond2_pos L k hk99
  have hc8 := cond8_pos L k hk0
  have hkp : k.val + 1 < 100 := by omega
  have hkm : k.val - 1 < 100 := by omega
  -- the pieces this step names, each named both ways
  have e2 : par (k.val + 1 + 1) = par k.val := Fin.ext (by show (k.val + 1 + 1) % 2 = k.val % 2; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb5 : ∀ a, k0_off5 (BitVec.ofNat 32 (1 + min k.val 99)) a + S1x1x256.size a ≤ S2x1x256.size a := fun a => by rw [off5_eq' k hk99]; exact idxRect_inb (par (k.val + 1)) a
  have inb11 : ∀ a, k0_off11 (BitVec.ofNat 32 k.val) a + S1x256x128.size a ≤ S2x256x128.size a := fun a => by rw [off11_eq k]; exact rowRect_inb (par k.val) a
  have inb16 : ∀ a, k0_off16 (BitVec.ofNat 32 (k.val - 1)) a + S1x256x128.size a ≤ S2x256x128.size a := fun a => by rw [off16_eq k]; exact rowRect_inb (par (k.val - 1)) a
  have inb10 : ∀ a, k0_off10 (BitVec.ofNat 32 k.val) a + S1.size a ≤ S2.size a := fun a => by rw [off10_eq k]; exact semRect_inb (par k.val) a
  have inb7 : ∀ a, k0_off7 (BitVec.ofNat 32 (1 + min k.val 99)) a + S1.size a ≤ S2.size a := fun a => by rw [off7_eq' k hk99]; exact semRect_inb (par (k.val + 1)) a
  have inb15 : ∀ a, k0_off15 (BitVec.ofNat 32 k.val) a + S1.size a ≤ S2.size a := fun a => by rw [off15_eq k]; exact semRect_inb (par k.val) a
  have inb18 : ∀ a, k0_off18 (BitVec.ofNat 32 (k.val - 1)) a + S1.size a ≤ S2.size a := fun a => by rw [off18_eq k]; exact semRect_inb (par (k.val - 1)) a
  have o9 : k0_off9 L (BitVec.ofNat 32 (k.val % 100)) = ![0, 256 * (gk L ⟨k.val, hk⟩).val] := (off9_eq L k).trans (by simp only [gk, gidx, cL, jL]; rfl)
  have o6 : k0_off6 L (BitVec.ofNat 32 (k.val % 100)) = ![0, 256 * (gk L ⟨k.val + 1, hkp⟩).val] := (off6_eq L k hk99).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have o17 : k0_off17 L (BitVec.ofNat 32 (k.val % 100)) = ![256 * (gk L ⟨k.val - 1, hkm⟩).val, 0] := (off17_eq L k hk0).trans (by simp only [gk, gidx, cL, jL]; rfl)
  have inb9 : ∀ a, k0_off9 L (BitVec.ofNat 32 (k.val % 100)) a + S1x256.size a ≤ S1x819200.size a := fun a => by rw [o9]; exact fchunkU_inb _ a
  have inb6 : ∀ a, k0_off6 L (BitVec.ofNat 32 (k.val % 100)) a + S1x256.size a ≤ S1x819200.size a := fun a => by rw [o6]; exact fchunkU_inb _ a
  have inb14 : ∀ a, k0_off14 L (BitVec.ofNat 32 (k.val % 100)) a + S256x128.size a ≤ S819200x128.size a := fun a => by rw [o14]; exact ochunkU_inb _ a
  have inb17 : ∀ a, k0_off17 L (BitVec.ofNat 32 (k.val % 100)) a + S256x128.size a ≤ S819200x128.size a := fun a => by rw [o17]; exact ochunkU_inb _ a
  unfold stepInv inPart outPart
  rw [dif_pos hk, dif_neg hk0, dif_pos hkm, dif_pos hkp, dif_neg (Nat.succ_ne_zero _), dif_pos (show k.val + 1 - 1 < 100 by omega)]
  unfold inFlight outFlight idxFree rowFree
  rw [e2, e3, g3]
  iintro ⟨-, #Hmw, Hsh, Hs0, Hs5, Hfh, Hoh, ⟨⟨%fo, %hfo, Hfin⟩, ⟨%fi', Hi'⟩, Hsi'⟩, ⟨⟨%fo2, %fr2, %hfo2, Hfout⟩, ⟨%fr', Hr'⟩, Hsr'⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hi' := (Entails.of_eq (idxPtsAt_congr d L (off5_eq' k hk99).symm _ inb5 fi')) $$ Hi'
  ihave Hsi' := (Entails.of_eq (sem1Val_congr (F := F) d L (off7_eq' k hk99).symm _ inb7)) $$ Hsi'
  ihave Hfout := (Entails.of_eq (outFlightAt_congr d L (off18_eq k).symm (off16_eq k).symm o17.symm _ inb18 _ inb16 _ inb17 fo2 fr2)) $$ Hfout
  ihave Hr' := (Entails.of_eq (rowPtsAt_congr d L (off11_eq k).symm _ inb11 fr')) $$ Hr'
  ihave Hsr' := (Entails.of_eq (sem3Val_congr (F := F) d L (off15_eq k).symm _ inb15)) $$ Hsr'
  ihave Hfx := (Entails.of_eq (flatHome_take flat d L k.val hkp)) $$ Hfh
  icases Hfx with ⟨Hfn, Hfh⟩
  ihave Hfn := (Entails.of_eq ((pts_fchunk (F := F) d L (gk L ⟨k.val + 1, hkp⟩) fullShare (flat d)).symm.trans (fchPtsAt_congr flat d L o6.symm _ inb6))) $$ Hfn
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have inb13 : ∀ a, k0_off13 (BitVec.ofNat 32 k.val) a + S1x256x128.size a ≤ S2x256x128.size a := fun a => by rw [off13_eq k]; exact rowRect_inb (par k.val) a
  have hpm : (k.val + 1) % 2 = (k.val - 1) % 2 := by omega
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq (flatHome_put flat d L k.val hkp).symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh Hfout_dst]
  · iapply (Entails.of_eq (outHome_put m flat d L k.val hk hk0))
    isplitl [Hfout_dst]
    · iapply (out_done m flat d L hfo2)
      iapply (Entails.of_eq (ochPtsAt_congr d L o17 inb17 (ochunkU_inb (gk L ⟨k.val - 1, hkm⟩)) fo2))
      iexact Hfout_dst
    · iexact Hoh
  isplitl [Hsi' Hfin_dst Hfin]
  · isplitl [Hsi']
    · iexists _; isplitr; swap
      · iapply (Entails.of_eq (inFlightAt_congr flat d L (off7_eq' k hk99) (off5_eq' k hk99) o6 inb7 (semRect_inb (par (k.val + 1))) inb5 (idxRect_inb (par (k.val + 1))) inb6 (fchunkU_inb (gk L ⟨k.val + 1, hkp⟩)) _))
        iexact Hsi'
      · ipureintro; exact idx_holds_at flat d L (par (k.val + 1)) (gk L ⟨k.val + 1, hkp⟩) (off5_eq' k hk99) o6 inb5 inb6 fi'
    · isplitl [Hfin_dst]
      · iexists fo
        iapply (Entails.of_eq (idxPtsAt_congr d L (off12_eq k) inb12 (idxRect_inb (par k.val)) fo))
        iapply (Entails.of_eq (idx_unsq (F := F) d L _ inb12 fo).symm)
        iexact Hfin_dst
      · iapply (Entails.of_eq (sem1Val_congr (F := F) d L (off10_eq k) inb10 (semRect_inb (par k.val))))
        iexact Hfin
  isplitl [Hsr' Hfout_src Hfout]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hfout_src]
      · iexists fr2
        iapply (Entails.of_eq (rowPtsAt_congr d L ((off16_eq k).trans (by show ![(k.val - 1) % 2, 0, 0] = ![(k.val + 1) % 2, 0, 0]; rw [hpm])) inb16 (rowRect_inb (par (k.val + 1))) fr2))
        iexact Hfout_src
      · iapply (Entails.of_eq (sem3Val_congr (F := F) d L ((off18_eq k).trans (by show ![(k.val - 1) % 2] = ![(k.val + 1) % 2]; rw [hpm])) inb18 (semRect_inb (par (k.val + 1)))))
        iexact Hfout
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Steps

end Cert.Proof.KB

end
-- ==== Proof.KB.TripLast.lean ====
/-
  The last of a tile's hundred steps: nothing is left to fetch; it waits for its chunk of the flat list, gathers the
  rows it names, starts copying them out to the last chunk of the flat output, and waits for the previous step's
  copy-out. After it both halves of the index buffer are free and every chunk of the flat list is at home.
-/
import proofs.«206737_g54150947668683_cont_9to1_m_866_22_alg».proof.Proof.KB.TripBase

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

set_option maxHeartbeats 4000000 in
theorem trip_last (hin : ∀ d x, ((flat d x : BitVec 32)).toNat < 1000) (O : CellTallies nD τ sig (HIx 1)) (W : Waits sig (HIx 1))
    (k : Fin k0_t1_loop.trips) (hk99 : ¬ k.val < 99) :
    stepInv m flat d L O W k.val (accOf k.val)
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k (accOf k.val))
          (stepInv m flat d L O W (k.val + 1)) := by
  have hk : k.val < 100 := k.isLt
  have hke : k.val = 99 := by omega
  have hk0 : ¬ k.val = 0 := by omega
  unfold k0_t1_body accOf
  -- the conditions and checks at this step
  have h1' := chk1_acc L k
  have h2' := chk2_acc k
  have h3' := chk3_acc k
  have hc3 := cond3_eq L k
  have hc6 := cond6_eq L k
  have hc2 := cond2_neg L k hk99
  have hc8 := cond8_pos L k hk0
  have hkm : k.val - 1 < 100 := by omega
  -- the pieces this step names, each named both ways
  have ep : par (k.val + 1) = 0 := Fin.ext (by show (k.val + 1) % 2 = 0; omega)
  have e3 : par (k.val + 1 - 1) = par k.val := Fin.ext (by show (k.val + 1 - 1) % 2 = k.val % 2; omega)
  have g3 : gk L ⟨k.val + 1 - 1, by omega⟩ = gk L ⟨k.val, hk⟩ := by congr 2
  have inb12 : ∀ a, k0_off12 (BitVec.ofNat 32 k.val) a + S1x1x256.size a ≤ S2x1x256.size a := fun a => by rw [off12_eq k]; exact idxRect_inb (par k.val) a
  have inb11 : ∀ a, k0_off11 (BitVec.ofNat 32 k.val) a + S1x256x128.size a ≤ S2x256x128.size a := fun a => by rw [off11_eq k]; exact rowRect_inb (par k.val) a
  have inb16 : ∀ a, k0_off16 (BitVec.ofNat 32 (k.val - 1)) a + S1x256x128.size a ≤ S2x256x128.size a := fun a => by rw [off16_eq k]; exact rowRect_inb (par (k.val - 1)) a
  have inb10 : ∀ a, k0_off10 (BitVec.ofNat 32 k.val) a + S1.size a ≤ S2.size a := fun a => by rw [off10_eq k]; exact semRect_inb (par k.val) a
  have inb15 : ∀ a, k0_off15 (BitVec.ofNat 32 k.val) a + S1.size a ≤ S2.size a := fun a => by rw [off15_eq k]; exact semRect_inb (par k.val) a
  have inb18 : ∀ a, k0_off18 (BitVec.ofNat 32 (k.val - 1)) a + S1.size a ≤ S2.size a := fun a => by rw [off18_eq k]; exact semRect_inb (par (k.val - 1)) a
  have o9 : k0_off9 L (BitVec.ofNat 32 (k.val % 100)) = ![0, 256 * (gk L ⟨k.val, hk⟩).val] := (off9_eq L k).trans (by simp only [gk, gidx, cL, jL]; rfl)
  have o14 : k0_off14 L (BitVec.ofNat 32 (k.val % 100)) = ![256 * (gk L ⟨k.val, hk⟩).val, 0] := (off14_eq L k).trans (by simp only [gk, gidx, cL, jL]; rfl)
  have o17 : k0_off17 L (BitVec.ofNat 32 (k.val % 100)) = ![256 * (gk L ⟨k.val - 1, hkm⟩).val, 0] := (off17_eq L k hk0).trans (by simp only [gk, gidx, cL, jL]; rfl)
  have inb9 : ∀ a, k0_off9 L (BitVec.ofNat 32 (k.val % 100)) a + S1x256.size a ≤ S1x819200.size a := fun a => by rw [o9]; exact fchunkU_inb _ a
  have inb14 : ∀ a, k0_off14 L (BitVec.ofNat 32 (k.val % 100)) a + S256x128.size a ≤ S819200x128.size a := fun a => by rw [o14]; exact ochunkU_inb _ a
  have inb17 : ∀ a, k0_off17 L (BitVec.ofNat 32 (k.val % 100)) a + S256x128.size a ≤ S819200x128.size a := fun a => by rw [o17]; exact ochunkU_inb _ a
  unfold stepInv inPart outPart
  rw [dif_pos hk, dif_neg hk0, dif_pos hkm, dif_neg (show ¬ k.val + 1 < 100 by omega), dif_neg (Nat.succ_ne_zero _), dif_pos (show k.val + 1 - 1 < 100 by omega)]
  unfold inFlight outFlight idxFree rowFree
  rw [ep, e3, g3]
  iintro ⟨-, #Hmw, Hsh, Hs0, Hs5, Hfh, Hoh, ⟨⟨%fo, %hfo, Hfin⟩, ⟨%fi', Hi'⟩, Hsi'⟩, ⟨⟨%fo2, %fr2, %hfo2, Hfout⟩, ⟨%fr', Hr'⟩, Hsr'⟩, %W', %hW', HO⟩
  -- each piece under the name the step uses for it
  ihave Hfin := (Entails.of_eq (inFlightAt_congr flat d L (off10_eq k).symm (off12_eq k).symm o9.symm _ inb10 _ inb12 _ inb9 fo)) $$ Hfin
  ihave Hfout := (Entails.of_eq (outFlightAt_congr d L (off18_eq k).symm (off16_eq k).symm o17.symm _ inb18 _ inb16 _ inb17 fo2 fr2)) $$ Hfout
  ihave Hr' := (Entails.of_eq (rowPtsAt_congr d L (off11_eq k).symm _ inb11 fr')) $$ Hr'
  ihave Hsr' := (Entails.of_eq (sem3Val_congr (F := F) d L (off15_eq k).symm _ inb15)) $$ Hsr'
  ihave Hox := (Entails.of_eq (outHome_take m flat d L k.val hk)) $$ Hoh
  icases Hox with ⟨Hoc, Hoh⟩
  ihave Hoc := (Entails.of_eq ((pts_ochunk (F := F) d L (gk L ⟨k.val, hk⟩) fullShare (m (outLoc d))).symm.trans (ochPtsAt_congr d L o14.symm _ inb14 _))) $$ Hoc
  have hinr := offs_lt_congr d L (off12_eq k) inb12 (idxRect_inb (par k.val)) fo (fun x => offs_lt (F := F) flat d L hfo hin x)
  sl_exec
  ihave Hfin_dst := (Entails.of_eq (idx_unsq (F := F) d L _ inb12 fo)) $$ Hfin_dst
  sl_exec
  sl_step
  have hlast : flatHome flat d L (k.val + 1) = iprop(flatAt flat d L ⟨k.val, hk⟩ ∗ flatHome flat d L k.val) := by
    have e : k = ⟨99, by decide⟩ := Fin.ext hke
    subst e; exact flatHome_last flat d L
  have inb13 : ∀ a, k0_off13 (BitVec.ofNat 32 k.val) a + S1x256x128.size a ≤ S2x256x128.size a := fun a => by rw [off13_eq k]; exact rowRect_inb (par k.val) a
  have hpm : (k.val + 1) % 2 = (k.val - 1) % 2 := by omega
  isplitr
  · ipureintro; exact nextAcc_accOf L k
  isplitr; · iexact Hmw
  isplitl [Hsh]; · iexact Hsh
  isplitl [Hs0]; · iexact Hs0
  isplitl [Hs5]; · iexact Hs5
  isplitl [Hfh Hfin_src]
  · iapply (Entails.of_eq hlast.symm)
    isplitl [Hfin_src]
    · iapply (Entails.of_eq ((fchPtsAt_congr flat d L o9 inb9 (fchunkU_inb (gk L ⟨k.val, hk⟩))).trans (pts_fchunk (F := F) d L (gk L ⟨k.val, hk⟩) fullShare (flat d))))
      iexact Hfin_src
    · iexact Hfh
  isplitl [Hoh Hfout_dst]
  · iapply (Entails.of_eq (outHome_put m flat d L k.val hk hk0))
    isplitl [Hfout_dst]
    · iapply (out_done m flat d L hfo2)
      iapply (Entails.of_eq (ochPtsAt_congr d L o17 inb17 (ochunkU_inb (gk L ⟨k.val - 1, hkm⟩)) fo2))
      iexact Hfout_dst
    · iexact Hoh
  isplitl [Hi' Hsi' Hfin_dst Hfin]
  · isplitl [Hi' Hsi']
    · isplitl [Hi']
      · iexists fi'; iexact Hi'
      · iexact Hsi'
    · isplitl [Hfin_dst]
      · iexists fo
        iapply (Entails.of_eq (idxPtsAt_congr d L ((off12_eq k).trans (by show ![k.val % 2, 0, 0] = ![(1 : Fin 2).val, 0, 0]; rw [show k.val % 2 = 1 by omega]; rfl)) inb12 (idxRect_inb 1) fo))
        iapply (Entails.of_eq (idx_unsq (F := F) d L _ inb12 fo).symm)
        iexact Hfin_dst
      · iapply (Entails.of_eq (sem1Val_congr (F := F) d L ((off10_eq k).trans (by show ![k.val % 2] = ![(1 : Fin 2).val]; rw [show k.val % 2 = 1 by omega]; rfl)) inb10 (semRect_inb 1)))
        iexact Hfin
  isplitl [Hsr' Hfout_src Hfout]
  · isplitl [Hsr']
    · iexists _, _; isplitr; swap
      · iapply (Entails.of_eq (outFlightAt_congr d L (off15_eq k) (off11_eq k) o14 inb15 (semRect_inb (par k.val)) inb11 (rowRect_inb (par k.val)) inb14 (ochunkU_inb (gk L ⟨k.val, hk⟩)) _ _))
        iexact Hsr'
      · ipureintro; exact out_holds_at m flat d L hfo (off11_eq k) (off13_eq k) (off12_eq k) o14 inb11 inb13 inb12 inb14 _ _ fr' (m (outLoc d))
    · isplitl [Hfout_src]
      · iexists fr2
        iapply (Entails.of_eq (rowPtsAt_congr d L ((off16_eq k).trans (by show ![(k.val - 1) % 2, 0, 0] = ![(0 : Fin 2).val, 0, 0]; rw [show (k.val - 1) % 2 = 0 by omega]; rfl)) inb16 (rowRect_inb 0) fr2))
        iexact Hfout_src
      · iapply (Entails.of_eq (sem3Val_congr (F := F) d L ((off18_eq k).trans (by show ![(k.val - 1) % 2] = ![(0 : Fin 2).val]; rw [show (k.val - 1) % 2 = 0 by omega]; rfl)) inb18 (semRect_inb 0)))
        iexact Hfout
  iexists _; isplitr; swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Steps

end Cert.Proof.KB

end
-- ==== Proof.KB.Trip.lean ====
/-
  One of a tile's hundred steps, whichever it is: from what the tile holds before step `k` to what it holds before
  step `k + 1`. The carried words can only be those of step `k`; the step is the first, a middle one, or the last.
-/
import proofs.«206737_g54150947668683_cont_9to1_m_866_22_alg».proof.Proof.KB.TripFirst
import proofs.«206737_g54150947668683_cont_9to1_m_866_22_alg».proof.Proof.KB.TripMid
import proofs.«206737_g54150947668683_cont_9to1_m_866_22_alg».proof.Proof.KB.TripLast

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Steps

variable (d : Dev nD) (L : grid0.Coords)

theorem trip (hin : ∀ d x, ((flat d x : BitVec 32)).toNat < 1000) (O : CellTallies nD τ sig (HIx 1)) (W : Waits sig (HIx 1))
    (k : Fin k0_t1_loop.trips) (acc : BitVec 32 × BitVec 32 × BitVec 32 × BitVec 32 × BitVec 32) :
    stepInv m flat d L O W k.val acc
      ⊢ wp frame (wpE (defs₀ (F := F)) 𝒱₀ (thr d L) none) Set.univ
          (k0_t1_body L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4 (v7Of L) k acc)
          (stepInv m flat d L O W (k.val + 1)) := by
  by_cases hacc : acc = accOf k.val
  swap
  · unfold stepInv; iintro ⟨%h, -⟩; exact absurd h hacc
  subst hacc
  by_cases hk0 : k.val = 0
  · exact trip_first m flat d L hin O W k hk0
  by_cases hk99 : k.val < 99
  · exact trip_mid m flat d L hin O W k hk0 hk99
  · exact trip_last m flat d L hin O W k hk99

end Steps

end Cert.Proof.KB

end
-- ==== Proof.KB.Joins.lean ====
/-
  The two halves of a double buffer, each held at contents of its own, are the buffer held whole at some contents: the
  halves are disjoint and make up the buffer, so the contents that agree with each half's on that half will do.
-/
import proofs.«206737_g54150947668683_cont_9to1_m_866_22_alg».proof.Proof.KB.Inv
import proofs.«206737_g54150947668683_cont_9to1_m_866_22_alg».proof.Proof.KB.Chunks

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))

section Tile

variable (d : Dev nD) (L : grid0.Coords)

theorem idxSets_union : idxSet 0 ∪ idxSet 1 = Finset.univ := by
  rw [← idxSlots_cover, show (Finset.univ : Finset (Fin 2)) = {0, 1} by decide, Finset.biUnion_insert, Finset.singleton_biUnion]
theorem rowSets_union : rowSet2 0 ∪ rowSet2 1 = Finset.univ := by
  rw [← rowSlots_cover, show (Finset.univ : Finset (Fin 2)) = {0, 1} by decide, Finset.biUnion_insert, Finset.singleton_biUnion]

/-- The index buffer's halves at contents `f0` and `f1` are the buffer whole at the contents that are `f1` on the
    second half and `f0` elsewhere. -/
theorem idx_join_at (f0 f1 : Buf (Elt F) ((thr d L).loc cc0_scoped0)) :
    iprop(((thr d L).loc cc0_scoped0 ↦[idxSet 0]{fullShare} f0) ∗ ((thr d L).loc cc0_scoped0 ↦[idxSet 1]{fullShare} f1))
      ⊢ ((thr d L).loc cc0_scoped0 ↦{fullShare} (idxSet 1).piecewise f1 f0 : sProp 𝕄) :=
  (pointsTo_join (idxSlots_disjoint 0 (Finset.mem_univ _) 1 (Finset.mem_univ _) (by decide))).trans
    (Entails.of_eq (by rw [idxSets_union]))
/-- The row buffer's likewise. -/
theorem row_join_at (f0 f1 : Buf (Elt F) ((thr d L).loc cc0_scoped2)) :
    iprop(((thr d L).loc cc0_scoped2 ↦[rowSet2 0]{fullShare} f0) ∗ ((thr d L).loc cc0_scoped2 ↦[rowSet2 1]{fullShare} f1))
      ⊢ ((thr d L).loc cc0_scoped2 ↦{fullShare} (rowSet2 1).piecewise f1 f0 : sProp 𝕄) :=
  (pointsTo_join (rowSlots_disjoint 0 (Finset.mem_univ _) 1 (Finset.mem_univ _) (by decide))).trans
    (Entails.of_eq (by rw [rowSets_union]))

/-- The index buffer's two halves, each at some contents, are the buffer whole at some contents. -/
theorem idx_join :
    iprop((∃ f, idxPts d L 0 f) ∗ (∃ f, idxPts d L 1 f)) ⊢ (iprop(∃ f, (thr d L).loc cc0_scoped0 ↦{fullShare} f) : sProp 𝕄) := by
  iintro ⟨⟨%f0, H0⟩, ⟨%f1, H1⟩⟩
  iexists _
  iapply (idx_join_at d L f0 f1)
  isplitl [H0]; · iexact H0
  iexact H1
/-- The row buffer's likewise. -/
theorem row_join :
    iprop((∃ f, rowPts d L 0 f) ∗ (∃ f, rowPts d L 1 f)) ⊢ (iprop(∃ f, (thr d L).loc cc0_scoped2 ↦{fullShare} f) : sProp 𝕄) := by
  iintro ⟨⟨%f0, H0⟩, ⟨%f1, H1⟩⟩
  iexists _
  iapply (row_join_at d L f0 f1)
  isplitl [H0]; · iexact H0
  iexact H1

end Tile

end Cert.Proof.KB

end
-- ==== Proof.KB.Body.lean ====
/-
  One tile's task. A tile whose subcore number is below five copies its chunk of the table into the SparseCore's
  shared memory and waits for the copy; all sixteen tiles of the SparseCore meet at the subcore barrier; then the tile
  runs its hundred steps: the first fetch issued before the loop, one step per trip, the last copy awaited after it.
-/
import proofs.«206737_g54150947668683_cont_9to1_m_866_22_alg».proof.Proof.KB.StageValue
import proofs.«206737_g54150947668683_cont_9to1_m_866_22_alg».proof.Proof.KB.ValueAt
import proofs.«206737_g54150947668683_cont_9to1_m_866_22_alg».proof.Proof.KB.Home
import proofs.«206737_g54150947668683_cont_9to1_m_866_22_alg».proof.Proof.KB.Trip
import proofs.«206737_g54150947668683_cont_9to1_m_866_22_alg».proof.Proof.KB.Joins

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

section Tile

variable (d : Dev nD) (L : grid0.Coords)

/-- The first and the last of a tile's hundred steps. -/
abbrev k00 : Fin 100 := ⟨0, by omega⟩
abbrev k99 : Fin 100 := ⟨99, by omega⟩
/-- The staging copy's semaphore: number 0 of the tile's six, with its bound. -/
abbrev z6 : Fin 6 := ⟨0, by decide⟩

/-! ## The pieces, by their numbers and by the offsets the program computes for them -/

omit [FloatOps F] in
theorem semVal_congr {n s : Fin 6} (h : n = s) : (semVal (dcell d L n) 0 : sProp 𝕄) = semVal (dcell d L s) 0 := by subst h; rfl
omit [FloatOps F] in
theorem idxPts_congr {p p' : Fin 2} (h : p = p') (f : Buf (Elt F) ((thr d L).loc cc0_scoped0)) : idxPts (F := F) d L p f = idxPts d L p' f := by subst h; rfl
omit [FloatOps F] in
theorem rowPts_congr {p p' : Fin 2} (h : p = p') (f : Buf (Elt F) ((thr d L).loc cc0_scoped2)) : rowPts (F := F) d L p f = rowPts d L p' f := by subst h; rfl

omit [FloatOps F] in
/-- The first fetch in flight, its pieces named by the offsets the program computes before the loop, is the fetch of
    the tile's first chunk into half 0. -/
theorem inFlight_first (fo : Buf (Elt F) ((thr d L).loc cc0_scoped0)) :
    (Transfers.Flight countersEmb (thr d L) (SemLoc.dma (⟨1, by decide⟩ : Fin 6)) (default : HIx 1) 8192
        iprop(idxPtsAt d L k0_off2 Facts₀.k0_off2_inb fo ∗ fchPtsAt flat d L (k0_off3 L) (Facts₀.k0_off3_inb L)) : sProp 𝕄)
      = inFlightAt flat d L ![(par 0).val] (semRect_inb (par 0)) ![(par 0).val, 0, 0] (idxRect_inb (par 0))
          ![0, 256 * (gk L k00).val] (fchunkU_inb (gk L k00)) fo := by
  have hsem : (⟨1, by decide⟩ : Fin 6) = sem1At ![(par 0).val] (semRect_inb (par 0)) := by decide
  have o3 : k0_off3 L = ![0, 256 * (gk L k00).val] := (off3_eq L).trans (by simp only [gk, gidx, cL, jL]; rfl)
  have o2 : k0_off2 = ![(par 0).val, 0, 0] := k0_off2_eq.trans (by decide)
  rw [hsem]
  exact inFlightAt_congr (F := F) flat d L (o1 := ![(par 0).val]) rfl o2 o3 (semRect_inb (par 0)) (semRect_inb (par 0))
    Facts₀.k0_off2_inb (idxRect_inb (par 0)) (Facts₀.k0_off3_inb L) (fchunkU_inb (gk L k00)) fo

omit [FloatOps F] in
/-- What the tile holds before its first step. -/
theorem inv_zero (O : CellTallies nD τ sig (HIx 1)) (W₁ : Waits sig (HIx 1))
    (fo fi1 : Buf (Elt F) ((thr d L).loc cc0_scoped0)) (fr0 fr1 : Buf (Elt F) ((thr d L).loc cc0_scoped2))
    (hfo : IdxHolds flat d L (par 0) (gk L k00) fo) :
    iprop(Transfers.MayWaits (thr d L) (default : HIx 1) O ∗ shPts m d L ∗ semVal (dcell d L 0) 0 ∗ semVal (dcell d L 5) 0
        ∗ flatHome flat d L 0 ∗ outChunks d (cL L) (jL L) (m (outLoc d))
        ∗ inFlightAt flat d L ![(par 0).val] (semRect_inb (par 0)) ![(par 0).val, 0, 0] (idxRect_inb (par 0))
            ![0, 256 * (gk L k00).val] (fchunkU_inb (gk L k00)) fo
        ∗ (idxPts d L (par (0 + 1)) fi1 ∗ semVal (dcell d L (sem1At ![(par (0 + 1)).val] (semRect_inb (par (0 + 1))))) 0)
        ∗ (rowPts d L 0 fr0 ∗ semVal (dcell d L (sem3At ![(0 : Fin 2).val] (semRect_inb 0))) 0)
        ∗ (rowPts d L 1 fr1 ∗ semVal (dcell d L (sem3At ![(1 : Fin 2).val] (semRect_inb 1))) 0)
        ∗ owes (thr d L) O W₁)
      ⊢ stepInv m flat d L O W₁ 0 (1#32, 0#32, 0#32, 0#32, 0#32) := by
  unfold stepInv inPart outPart
  rw [dif_pos (show 0 < 100 by omega), dif_pos rfl, ← outHome_zero]
  unfold inFlight idxFree rowFree
  iintro ⟨Hmw, Hsh, Hs0, Hs5, Hfh, Hout, Hfl, ⟨Hi1, Hs2⟩, ⟨Hr0, Hs3⟩, ⟨Hr1, Hs4⟩, HO⟩
  isplitr; · ipureintro; rfl
  isplitl [Hmw]; · iexact Hmw
  isplitl [Hsh]; · iexact Hsh
  isplitl [Hs0]; · iexact Hs0
  isplitl [Hs5]; · iexact Hs5
  isplitl [Hfh]; · iexact Hfh
  isplitl [Hout]; · iexact Hout
  isplitl [Hfl Hi1 Hs2]
  · isplitl [Hfl]
    · iexists fo; isplitr; · ipureintro; exact hfo
      iexact Hfl
    isplitl [Hi1]; · iexists fi1; iexact Hi1
    iexact Hs2
  isplitl [Hr0 Hs3 Hr1 Hs4]
  · isplitl [Hr0 Hs3]
    · isplitl [Hr0]; · iexists fr0; iexact Hr0
      iexact Hs3
    isplitl [Hr1]; · iexists fr1; iexact Hr1
    iexact Hs4
  iexists W₁; isplitr
  · ipureintro; exact fun p hp => Or.inl hp
  iexact HO

/-- The loop runs a hundred trips. -/
theorem trips_eq : Scf.trips k0_t1_loop.lb k0_t1_loop.ub k0_t1_loop.st = 100 := by decide +kernel

omit [FloatOps F] in
/-- What the tile holds after its last step: both halves of the index buffer free, the last copy out in flight. -/
theorem inv_end (O : CellTallies nD τ sig (HIx 1)) (W₁ : Waits sig (HIx 1)) (acc : BitVec 32 × BitVec 32 × BitVec 32 × BitVec 32 × BitVec 32) :
    stepInv m flat d L O W₁ (Scf.trips k0_t1_loop.lb k0_t1_loop.ub k0_t1_loop.st) acc
      ⊢ iprop(⌜acc = (BitVec.ofNat 32 100, BitVec.ofNat 32 100, BitVec.ofNat 32 100, BitVec.ofNat 32 99, BitVec.ofNat 32 0)⌝
          ∗ shPts m d L ∗ semVal (dcell d L 0) 0 ∗ semVal (dcell d L 5) 0
          ∗ flatHome flat d L 100 ∗ outHome m flat d L 100
          ∗ (((∃ f, idxPts d L 0 f) ∗ semVal (dcell d L (sem1At ![(0 : Fin 2).val] (semRect_inb 0))) 0)
            ∗ ((∃ f, idxPts d L 1 f) ∗ semVal (dcell d L (sem1At ![(1 : Fin 2).val] (semRect_inb 1))) 0))
          ∗ ((∃ fo fr, ⌜OutHolds m flat d (gk L k99) fo⌝ ∗ outFlightAt d L ![(par 99).val] (semRect_inb (par 99)) ![(par 99).val, 0, 0] (rowRect_inb (par 99))
                ![256 * (gk L k99).val, 0] (ochunkU_inb (gk L k99)) fo fr)
            ∗ ((∃ f, rowPts d L (par 100) f) ∗ semVal (dcell d L (sem3At ![(par 100).val] (semRect_inb (par 100)))) 0))
          ∗ ∃ W', ⌜∀ p ∈ W', p ∈ W₁ ∨ p.2 = none⌝ ∗ owes (thr d L) O W') := by
  rw [trips_eq]
  unfold stepInv inPart outPart
  rw [dif_neg (by omega : ¬ 100 < 100), dif_neg (by omega : ¬ 100 = 0), dif_pos (by omega : 100 - 1 < 100)]
  unfold idxFree rowFree outFlight
  show iprop(⌜acc = accOf 100⌝ ∗ Transfers.MayWaits (thr d L) (default : HIx 1) O
      ∗ shPts m d L ∗ semVal (dcell d L 0) 0 ∗ semVal (dcell d L 5) 0
      ∗ flatHome flat d L 100 ∗ outHome m flat d L 100
      ∗ (((∃ f, idxPts d L 0 f) ∗ semVal (dcell d L (sem1At ![(0 : Fin 2).val] (semRect_inb 0))) 0)
        ∗ ((∃ f, idxPts d L 1 f) ∗ semVal (dcell d L (sem1At ![(1 : Fin 2).val] (semRect_inb 1))) 0))
      ∗ ((∃ fo fr, ⌜OutHolds m flat d (gk L k99) fo⌝ ∗ outFlightAt d L ![(par 99).val] (semRect_inb (par 99)) ![(par 99).val, 0, 0] (rowRect_inb (par 99))
            ![256 * (gk L k99).val, 0] (ochunkU_inb (gk L k99)) fo fr)
        ∗ ((∃ f, rowPts d L (par 100) f) ∗ semVal (dcell d L (sem3At ![(par 100).val] (semRect_inb (par 100)))) 0))
      ∗ ∃ W', ⌜∀ p ∈ W', p ∈ W₁ ∨ p.2 = none⌝ ∗ owes (thr d L) O W') ⊢ _
  iintro ⟨%h, -, H⟩
  isplitr; · ipureintro; exact h.trans accOf_hundred
  iexact H

omit [FloatOps F] in
/-- What a tile hands back of the staged table. -/
theorem shTd_intro (c : Fin τ.nSC) (i : Fin 16) : iprop((shLoc d c ↦{qS i} tabS m d c) ∗ shKeep m d c i) ⊢ shTd (F := F) m d c i := by
  unfold shTd; exact BI.Entails.refl _

omit [FloatOps F] in
/-- Every wait recorded by the end is one the tile started with, or sits at no call's index or at this call's. -/
theorem waits_ok {W W0 W' : Waits sig (HIx 1)} {a : SemLoc sig × HIx 1} (ha : a.2 = none) (hW0 : ∀ p ∈ W0, p ∈ W ∨ p.2 = none)
    (hW' : ∀ p ∈ W', p ∈ insert (SemLoc.reg sc_bar0, some (0 : Fin 1)) W0 ∨ p.2 = none) :
    ∀ p ∈ insert a W', p ∈ W ∨ p.2 = none ∨ p.2 = some (0 : Fin 1) := by
  intro p hp
  rcases Finset.mem_insert.mp hp with rfl | hp
  · exact .inr (.inl ha)
  rcases hW' p hp with h | h
  · rcases Finset.mem_insert.mp h with rfl | h
    · exact .inr (.inr rfl)
    · rcases hW0 p h with h | h
      · exact .inl h
      · exact .inr (.inl h)
  · exact .inr (.inl h)

/-! ## What a tile is handed for the staging, as the staging names it -/

omit [FloatOps F] in
/-- A tile that stages holds its chunk of the table, -/
theorem tabGo_pos (h1 : k0_cond1 L = 1#1) (hlt : (jL L).val < 5) :
    tabGo m d (cL L) (jL L) = ((stTab L h1).view.loc (thr d L) ↦[(stTab L h1).view.set]{qC (cL L)} m (tabLoc d) : sProp 𝕄) := by
  unfold tabGo; rw [dif_pos hlt, pts_stTab d L h1 hlt]
omit [FloatOps F] in
/-- and the chunk of the shared memory it fills, at some contents. -/
theorem shGo_pos (h1 : k0_cond1 L = 1#1) (hlt : (jL L).val < 5) :
    shGo (F := F) d (cV L) (jL L) ⊢ (iprop(∃ f, (stSh L h1).view.loc (thr d L) ↦[(stSh L h1).view.set]{fullShare} f) : sProp 𝕄) := by
  unfold shGo; rw [dif_pos hlt]
  iintro ⟨%f, H⟩
  iexists f
  iapply (Entails.of_eq (pts_stSh (F := F) d L h1 hlt fullShare f).symm); iexact H
omit [FloatOps F] in
/-- The index buffer whole is its two halves, the row buffer likewise: by their numbers. -/
theorem pts_idx' (f : Buf (Elt F) ((thr d L).loc cc0_scoped0)) :
    ((thr d L).loc cc0_scoped0 ↦{fullShare} f : sProp 𝕄) = iprop(idxPts d L 0 f ∗ idxPts d L 1 f) := pts_idx d L f
omit [FloatOps F] in
theorem pts_row' (f : Buf (Elt F) ((thr d L).loc cc0_scoped2)) :
    ((thr d L).loc cc0_scoped2 ↦{fullShare} f : sProp 𝕄) = iprop(rowPts d L 0 f ∗ rowPts d L 1 f) := pts_row d L f
omit [FloatOps F] in
/-- A tile that does not stage is handed nothing and has staged nothing. -/
theorem shGo_neg (hn : ¬ (jL L).val < 5) : shGo (F := F) d (cV L) (jL L) = shStaged m d (cV L) (jL L) := by
  unfold shGo shStaged; rw [dif_neg hn, dif_neg hn]

set_option maxHeartbeats 4000000 in
theorem tile_body (hin : ∀ d x, ((flat d x : BitVec 32)).toNat < 1000) (hF : (K (F := F)).Facts) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ (tabGo m d (cL L) (jL L) ∗ flatChunks flat d (cL L) (jL L) ∗ outChunks d (cL L) (jL L) (m (outLoc d)) ∗ shGo d (cV L) (jL L))
        ∗ scopedBufs (thr d L) ∗ scopedSems0 (thr d L) ∗ owes (thr d L) (O + oxV d (cV L)) W)
      ⊢ wp frame (wpE (defs₀ (F := F)) 𝒱₀ (thr d L) none) Set.univ
          (cc0_sc_gather L tabV (Memref.isWhole_whole _) flatV (Memref.isWhole_whole _) outV (Memref.isWhole_whole _) shV (Memref.isWhole_whole _)
            cc0_scratch1 idxV (Memref.isWhole_whole _) cc0_scoped1 rowV (Memref.isWhole_whole _) cc0_scoped3 cc0_scoped4)
          fun _ => iprop((tabGo m d (cL L) (jL L) ∗ flatChunks flat d (cL L) (jL L) ∗ outChunks d (cL L) (jL L) (outv m flat d) ∗ shTd m d (cV L) (jL L))
            ∗ scopedBufs (thr d L) ∗ scopedSems0 (thr d L)
            ∗ ∃ W', ⌜∀ p ∈ W', p ∈ W ∨ p.2 = none ∨ p.2 = some (0 : Fin 1)⌝ ∗ owes (thr d L) O W') := by
  simp only [cc0_sc_gather_eq_skeleton]; unfold cc0_sc_gather_skel
  simp only [k0_part4_eq_skeleton]; unfold k0_part4_skel
  rw [(K (F := F)).scopedBufs_V hF d (cV L) (jV L), SparseCore.Cfg.scopedSems0_V (Val := Elt F) d (cV L) (jV L), ownSems0_V, ownBufs_V]
  unfold bkit
  have hO' : ∀ g, (O + oxV d (cV L)) g none = 0 := fun g => by rw [Pi.add_apply, Finsupp.add_apply, hO g, oxV_none]
  -- the tile's first chunk of the flat list, as the first fetch names it
  have o3 : k0_off3 L = ![0, 256 * (gk L k00).val] := (off3_eq L).trans (by simp only [gk, gidx, cL, jL]; rfl)
  -- one step of the loop, the tile's base word spelt out
  have hreg : ∀ (W₁ : Waits sig (HIx 1)) (k : Fin (Scf.trips k0_t1_loop.lb k0_t1_loop.ub k0_t1_loop.st))
      (acc : BitVec 32 × BitVec 32 × BitVec 32 × BitVec 32 × BitVec 32),
      stepInv m flat d L O W₁ k.val acc ⊢ wp frame (wpE (defs₀ (F := F)) 𝒱₀ (thr d L) none) Set.univ
        (k0_t1_body L tabV (Memref.isWhole_whole _) flatV (Memref.isWhole_whole _) outV (Memref.isWhole_whole _) shV (Memref.isWhole_whole _)
          cc0_scratch1 idxV (Memref.isWhole_whole _) cc0_scoped1 rowV (Memref.isWhole_whole _) cc0_scoped3 cc0_scoped4
          (Scalar.muli (Scalar.addi (Scalar.addi 0#32 (Scalar.muli (BitVec.ofNat 32 (L 1).val) 1#32)) (Scalar.muli (BitVec.ofNat 32 (L 0).val) 16#32)) 100#32) k acc)
        (stepInv m flat d L O W₁ (k.val + 1)) :=
    fun W₁ k acc => trip m flat d L hin O W₁ k acc
  by_cases h1 : k0_cond1 L = 1#1
  · have hlt : (jL L).val < 5 := (cond1_iff L).mp h1
    iintro ⟨#Hlv, ⟨⟨%κ, #Hinv⟩, Htoks, #Hrch, Hat, Hcred⟩, ⟨Htab, Hfl, Hout, Hsh⟩, ⟨⟨%fi, Hidx⟩, ⟨%fr, Hrow⟩, Hbufs⟩, ⟨Hs0, Hs1, Hs2, Hs3, Hs4, Hs5, Hsems⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    -- the staging copy and its wait
    ihave Htab' := (Entails.of_eq (tabGo_pos (F := F) m d L h1 hlt)) $$ Htab
    ihave Hsh0 := (shGo_pos (F := F) d L h1 hlt) $$ Hsh
    icases Hsh0 with ⟨%fsh, Hsh'⟩
    sl_exec
    sl_unfold_run_names
    ihave Hst := (staged_intro (F := F) m d L h1 hlt fsh) $$ Hsh'
    ihave Htab := (Entails.of_eq (tabGo_pos (F := F) m d L h1 hlt).symm) $$ Htab'
    ihave Hs0 := (Entails.of_eq (semVal_congr (F := F) d L (n := z6) (s := 0) rfl)) $$ Hs0
    -- the barrier: the staged chunk handed round, a read share of every staged chunk collected
    ihave Hpays := (pays_intro (F := F) m d L) $$ Hst
    icases Hpays with ⟨Hkeep, Hpays⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsht := (pays_elim (F := F) m d L) $$ Hgot
    -- the first fetch: half 0 of the index buffer, the tile's first chunk of the flat list
    ihave Hix := (Entails.of_eq (pts_idx' (F := F) d L fi)) $$ Hidx
    icases Hix with ⟨Hi0, Hi1⟩
    ihave Hrx := (Entails.of_eq (pts_row' (F := F) d L fr)) $$ Hrow
    icases Hrx with ⟨Hr0, Hr1⟩
    ihave Hfx := (Entails.of_eq (flatHome_zero (F := F) flat d L)) $$ Hfl
    icases Hfx with ⟨Hf0, Hfh⟩
    ihave Hi0 := (Entails.of_eq (idxPtsAt_congr (F := F) d L (off := ![(0 : Fin 2).val, 0, 0]) (off' := k0_off2) k0_off2_eq.symm (idxRect_inb 0) Facts₀.k0_off2_inb fi)) $$ Hi0
    ihave Hf0 := (Entails.of_eq ((pts_fchunk (F := F) d L (gk L k00) fullShare (flat d)).symm.trans
      (fchPtsAt_congr (F := F) flat d L (off := ![0, 256 * (gk L k00).val]) (off' := k0_off3 L) o3.symm (fchunkU_inb _) (Facts₀.k0_off3_inb L)))) $$ Hf0
    sl_exec
    sl_unfold_run_names
    -- the invariant before the first step
    ihave Hfl0 := (Entails.of_eq (inFlight_first (F := F) flat d L _)) $$ Hs1
    ihave Hshp := (Entails.of_eq (pts_shAll (F := F) d L (qS (jL L)) (tabS m d (cV L))).symm) $$ Hsht
    ihave Hi1 := (Entails.of_eq (idxPts_congr (F := F) d L (p := 1) (p' := par (0 + 1)) (by decide) fi)) $$ Hi1
    ihave Hs2 := (Entails.of_eq (semVal_congr (F := F) d L (n := 2) (s := sem1At ![(par (0 + 1)).val] (semRect_inb (par (0 + 1)))) (by decide))) $$ Hs2
    ihave Hs3 := (Entails.of_eq (semVal_congr (F := F) d L (n := 3) (s := sem3At ![(0 : Fin 2).val] (semRect_inb 0)) (by decide))) $$ Hs3
    ihave Hs4 := (Entails.of_eq (semVal_congr (F := F) d L (n := 4) (s := sem3At ![(1 : Fin 2).val] (semRect_inb 1)) (by decide))) $$ Hs4
    ihave Hinv0 := (inv_zero (F := F) m flat d L O (insert (SemLoc.reg sc_bar0, some (0 : Fin 1)) (insert (SemLoc.dma z6, (default : HIx 1)) W)) _ fi fr fr
        (idx_holds_at (F := F) flat d L (par 0) (gk L k00) (k0_off2_eq.trans (by decide)) o3 Facts₀.k0_off2_inb (Facts₀.k0_off3_inb L) fi))
      $$ [Hmw2 Hshp Hs0 Hs5 Hfh Hout Hfl0 Hi1 Hs2 Hr0 Hs3 Hr1 Hs4 HO]
    · isplitr; · iexact Hmw2
      isplitl [Hshp]; · iexact Hshp
      isplitl [Hs0]; · iexact Hs0
      isplitl [Hs5]; · iexact Hs5
      isplitl [Hfh]; · iexact Hfh
      isplitl [Hout]; · iexact Hout
      isplitl [Hfl0]; · iexact Hfl0
      isplitl [Hi1 Hs2]; · isplitl [Hi1] <;> iassumption
      isplitl [Hr0 Hs3]; · isplitl [Hr0] <;> iassumption
      isplitl [Hr1 Hs4]; · isplitl [Hr1] <;> iassumption
      iexact HO
    sl_rw [Prog.bind_assoc]
    sl_for (stepInv m flat d L O (insert (SemLoc.reg sc_bar0, some (0 : Fin 1)) (insert (SemLoc.dma z6, (default : HIx 1)) W))) $$ [Hinv0]
    · intro k acc
      sl_respell []
      exact hreg _ k acc
    · iexact Hinv0
    -- after the loop: the last copy out awaited, everything handed back
    iintro %acc HI
    ihave HI := (inv_end (F := F) m flat d L O (insert (SemLoc.reg sc_bar0, some (0 : Fin 1)) (insert (SemLoc.dma z6, (default : HIx 1)) W)) acc) $$ HI
    icases HI with ⟨%hacc, Hshp, Hs0, Hs5, Hfh, Hoh, ⟨⟨⟨%fi0, Hi0⟩, Hs1⟩, ⟨⟨%fi1', Hi1⟩, Hs2⟩⟩, ⟨⟨%fo, %frr, %hfo, Hfout⟩, ⟨⟨%fr', Hr'⟩, Hsr'⟩⟩, %W', %hW', HO⟩
    subst hacc
    have hc4 := chk4_end
    have hc5 := chk5_end L
    have o20 : k0_off20 L (BitVec.ofNat 32 0) = ![256 * (gk L k99).val, 0] := (off20_eq L).trans (by simp only [gk, gidx, cL, jL]; rfl)
    have inb21 : ∀ a, k0_off21 (BitVec.ofNat 32 99) a + S1.size a ≤ S2.size a := fun a => by rw [off21_eq]; exact semRect_inb 1 a
    have inb22 : ∀ a, k0_off22 (BitVec.ofNat 32 99) a + S1x256x128.size a ≤ S2x256x128.size a := fun a => by rw [off22_eq]; exact rowRect_inb 1 a
    have inb20 : ∀ a, k0_off20 L (BitVec.ofNat 32 0) a + S256x128.size a ≤ S819200x128.size a := fun a => by rw [o20]; exact ochunkU_inb _ a
    ihave Hfout := (Entails.of_eq (outFlightAt_congr (F := F) d L (o1 := ![(par 99).val]) (o1' := k0_off21 (BitVec.ofNat 32 99))
      (o2 := ![(par 99).val, 0, 0]) (o2' := k0_off22 (BitVec.ofNat 32 99)) (o3 := ![256 * (gk L k99).val, 0]) (o3' := k0_off20 L (BitVec.ofNat 32 0))
      (off21_eq.trans (by decide)).symm (off22_eq.trans (by decide)).symm o20.symm
      (semRect_inb (par 99)) inb21 (rowRect_inb (par 99)) inb22 (ochunkU_inb (gk L k99)) inb20 fo frr)) $$ Hfout
    sl_exec
    sl_step
    -- the flat list's chunks, and the flat output's with the last one written
    ihave Hfl := (Entails.of_eq (flatHome_full (F := F) flat d L)) $$ Hfh
    ihave Hod := (Entails.of_eq (ochPtsAt_congr (F := F) d L (off := k0_off20 L (BitVec.ofNat 32 0)) (off' := ![256 * (gk L k99).val, 0]) o20 inb20 (ochunkU_inb (gk L k99)) fo)) $$ Hfout_dst
    ihave Hod := (out_done (F := F) m flat d L hfo) $$ Hod
    ihave Hout := (Entails.of_eq (outHome_end (F := F) m flat d L)) $$ [Hod Hoh]
    · isplitl [Hod]; · iexact Hod
      iexact Hoh
    -- the staged table's read share
    ihave Hsht := (Entails.of_eq (pts_shAll (F := F) d L (qS (jL L)) (tabS m d (cV L)))) $$ Hshp
    -- the two buffers whole again
    ihave Hidx := (idx_join (F := F) d L) $$ [Hi0 Hi1]
    · isplitl [Hi0]; · iexists fi0; iexact Hi0
      iexists fi1'; iexact Hi1
    ihave Hr' := (Entails.of_eq (rowPts_congr (F := F) d L (p := par 100) (p' := 0) (by decide) fr')) $$ Hr'
    ihave Hr1 := (Entails.of_eq (rowPtsAt_congr (F := F) d L (off := k0_off22 (BitVec.ofNat 32 99)) (off' := ![(1 : Fin 2).val, 0, 0])
      (off22_eq.trans (by decide)) inb22 (rowRect_inb 1) frr)) $$ Hfout_src
    ihave Hrow := (row_join (F := F) d L) $$ [Hr' Hr1]
    · isplitl [Hr']; · iexists fr'; iexact Hr'
      iexists frr; iexact Hr1
    -- the semaphores at rest, by their numbers
    ihave Hs1 := (Entails.of_eq (semVal_congr (F := F) d L (n := sem1At ![(0 : Fin 2).val] (semRect_inb 0)) (s := 1) (by decide))) $$ Hs1
    ihave Hs2 := (Entails.of_eq (semVal_congr (F := F) d L (n := sem1At ![(1 : Fin 2).val] (semRect_inb 1)) (s := 2) (by decide))) $$ Hs2
    ihave Hs3 := (Entails.of_eq (semVal_congr (F := F) d L (n := sem3At ![(par 100).val] (semRect_inb (par 100))) (s := 3) (by decide))) $$ Hsr'
    ihave Hs4 := (Entails.of_eq (semVal_congr (F := F) d L (n := sem3At (k0_off21 (BitVec.ofNat 32 99)) inb21) (s := 4)
      ((sem3At_congr off21_eq inb21 (semRect_inb 1)).trans (by decide)))) $$ Hfout
    -- handed back
    isplitl [Htab Hfl Hout Hsht Hkeep]
    · isplitl [Htab]; · iexact Htab
      isplitl [Hfl]; · iexact Hfl
      isplitl [Hout]; · iexact Hout
      iapply (shTd_intro (F := F) m d (cV L) (jL L))
      isplitl [Hsht]; · iexact Hsht
      iexact Hkeep
    isplitl [Hidx Hrow Hbufs]
    · isplitl [Hidx]; · iexact Hidx
      isplitl [Hrow]; · iexact Hrow
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro
    exact waits_ok (W0 := (insert (SemLoc.dma z6, (default : HIx 1)) W)) rfl (fun p hp => (Finset.mem_insert.mp hp).elim (fun e => .inr (e ▸ rfl)) .inl) hW'
  · have hnlt : ¬ (jL L).val < 5 := fun h => h1 ((cond1_iff L).mpr h)
    iintro ⟨#Hlv, ⟨⟨%κ, #Hinv⟩, Htoks, #Hrch, Hat, Hcred⟩, ⟨Htab, Hfl, Hout, Hsh⟩, ⟨⟨%fi, Hidx⟩, ⟨%fr, Hrow⟩, Hbufs⟩, ⟨Hs0, Hs1, Hs2, Hs3, Hs4, Hs5, Hsems⟩, HO⟩
    ihave Hmw1 := (show levAts (K (F := F)).L (K (F := F)).lev ⊢ Transfers.MayWaits (thr d L) (default : HIx 1) (O + oxV d (cV L)) from
      (K (F := F)).mayWaits_none (thr := thr d L) hO') $$ Hlv
    ihave Hmw2 := (show levAts (K (F := F)).L (K (F := F)).lev ⊢ Transfers.MayWaits (thr d L) (default : HIx 1) O from
      (K (F := F)).mayWaits_none (thr := thr d L) hO) $$ Hlv
    -- nothing to stage
    sl_exec
    ihave Hst := (Entails.of_eq (shGo_neg (F := F) m d L hnlt)) $$ Hsh
    -- the barrier: the staged chunk handed round, a read share of every staged chunk collected
    ihave Hpays := (pays_intro (F := F) m d L) $$ Hst
    icases Hpays with ⟨Hkeep, Hpays⟩
    iapply (SparseCore.wp_subcoreBarrier 𝒱₀ none EB (bRd (F := F) m) d (sc := cV L) (i := jV L) sc_bar0 (grid0.bound 1) hsub0 (L 1) rfl κ (fun _ => 0) (jV L).val
        (fun j => bRd_mem₀ m d _ _ _) (fun _ => rfl) (bRd_expect m d _ _) (some 0) O _) $$ [HO Htoks Hpays Hcred Hat]
    · isplitr; · iexact Hinv
      isplitl [HO]; · iexact HO
      isplitl [Htoks Hpays]
      · rw [bigSep_sep', bigSep_sep']
        isplitl [Htoks]; · iexact Htoks
        isplitl [Hpays]; · iexact Hpays
        iexact Hrch
      isplitl [Hcred]; · iexact Hcred
      isplitl [Hat]; · iexact Hat
      iapply ((K (F := F)).mayOwe_of_bound (thr := thr d L) 3 (fun p hp => by
          rw [Finset.mem_singleton] at hp; subst hp
          show (K (F := F)).lev (bcell d (cV L) (jV L)) (some 0) ≤ 3
          rw [(K (F := F)).lev_V_reg d _ _ (show (sc_bar0 : Sem sig) ≠ (K (F := F)).go from sc_bar0_ne_go)]; exact le_rfl)
        (fun g ι hg => lt_of_lt_of_le (by decide) (hOlev g ι hg)))
      iexact Hlv
    iintro ⟨HO, Hat, -, Hgot⟩
    ihave Hsht := (pays_elim (F := F) m d L) $$ Hgot
    -- the first fetch: half 0 of the index buffer, the tile's first chunk of the flat list
    ihave Hix := (Entails.of_eq (pts_idx' (F := F) d L fi)) $$ Hidx
    icases Hix with ⟨Hi0, Hi1⟩
    ihave Hrx := (Entails.of_eq (pts_row' (F := F) d L fr)) $$ Hrow
    icases Hrx with ⟨Hr0, Hr1⟩
    ihave Hfx := (Entails.of_eq (flatHome_zero (F := F) flat d L)) $$ Hfl
    icases Hfx with ⟨Hf0, Hfh⟩
    ihave Hi0 := (Entails.of_eq (idxPtsAt_congr (F := F) d L (off := ![(0 : Fin 2).val, 0, 0]) (off' := k0_off2) k0_off2_eq.symm (idxRect_inb 0) Facts₀.k0_off2_inb fi)) $$ Hi0
    ihave Hf0 := (Entails.of_eq ((pts_fchunk (F := F) d L (gk L k00) fullShare (flat d)).symm.trans
      (fchPtsAt_congr (F := F) flat d L (off := ![0, 256 * (gk L k00).val]) (off' := k0_off3 L) o3.symm (fchunkU_inb _) (Facts₀.k0_off3_inb L)))) $$ Hf0
    sl_exec
    sl_unfold_run_names
    -- the invariant before the first step
    ihave Hfl0 := (Entails.of_eq (inFlight_first (F := F) flat d L _)) $$ Hs1
    ihave Hshp := (Entails.of_eq (pts_shAll (F := F) d L (qS (jL L)) (tabS m d (cV L))).symm) $$ Hsht
    ihave Hi1 := (Entails.of_eq (idxPts_congr (F := F) d L (p := 1) (p' := par (0 + 1)) (by decide) fi)) $$ Hi1
    ihave Hs2 := (Entails.of_eq (semVal_congr (F := F) d L (n := 2) (s := sem1At ![(par (0 + 1)).val] (semRect_inb (par (0 + 1)))) (by decide))) $$ Hs2
    ihave Hs3 := (Entails.of_eq (semVal_congr (F := F) d L (n := 3) (s := sem3At ![(0 : Fin 2).val] (semRect_inb 0)) (by decide))) $$ Hs3
    ihave Hs4 := (Entails.of_eq (semVal_congr (F := F) d L (n := 4) (s := sem3At ![(1 : Fin 2).val] (semRect_inb 1)) (by decide))) $$ Hs4
    ihave Hinv0 := (inv_zero (F := F) m flat d L O (insert (SemLoc.reg sc_bar0, some (0 : Fin 1)) W) _ fi fr fr
        (idx_holds_at (F := F) flat d L (par 0) (gk L k00) (k0_off2_eq.trans (by decide)) o3 Facts₀.k0_off2_inb (Facts₀.k0_off3_inb L) fi))
      $$ [Hmw2 Hshp Hs0 Hs5 Hfh Hout Hfl0 Hi1 Hs2 Hr0 Hs3 Hr1 Hs4 HO]
    · isplitr; · iexact Hmw2
      isplitl [Hshp]; · iexact Hshp
      isplitl [Hs0]; · iexact Hs0
      isplitl [Hs5]; · iexact Hs5
      isplitl [Hfh]; · iexact Hfh
      isplitl [Hout]; · iexact Hout
      isplitl [Hfl0]; · iexact Hfl0
      isplitl [Hi1 Hs2]; · isplitl [Hi1] <;> iassumption
      isplitl [Hr0 Hs3]; · isplitl [Hr0] <;> iassumption
      isplitl [Hr1 Hs4]; · isplitl [Hr1] <;> iassumption
      iexact HO
    sl_rw [Prog.bind_assoc]
    sl_for (stepInv m flat d L O (insert (SemLoc.reg sc_bar0, some (0 : Fin 1)) W)) $$ [Hinv0]
    · intro k acc
      sl_respell []
      exact hreg _ k acc
    · iexact Hinv0
    -- after the loop: the last copy out awaited, everything handed back
    iintro %acc HI
    ihave HI := (inv_end (F := F) m flat d L O (insert (SemLoc.reg sc_bar0, some (0 : Fin 1)) W) acc) $$ HI
    icases HI with ⟨%hacc, Hshp, Hs0, Hs5, Hfh, Hoh, ⟨⟨⟨%fi0, Hi0⟩, Hs1⟩, ⟨⟨%fi1', Hi1⟩, Hs2⟩⟩, ⟨⟨%fo, %frr, %hfo, Hfout⟩, ⟨⟨%fr', Hr'⟩, Hsr'⟩⟩, %W', %hW', HO⟩
    subst hacc
    have hc4 := chk4_end
    have hc5 := chk5_end L
    have o20 : k0_off20 L (BitVec.ofNat 32 0) = ![256 * (gk L k99).val, 0] := (off20_eq L).trans (by simp only [gk, gidx, cL, jL]; rfl)
    have inb21 : ∀ a, k0_off21 (BitVec.ofNat 32 99) a + S1.size a ≤ S2.size a := fun a => by rw [off21_eq]; exact semRect_inb 1 a
    have inb22 : ∀ a, k0_off22 (BitVec.ofNat 32 99) a + S1x256x128.size a ≤ S2x256x128.size a := fun a => by rw [off22_eq]; exact rowRect_inb 1 a
    have inb20 : ∀ a, k0_off20 L (BitVec.ofNat 32 0) a + S256x128.size a ≤ S819200x128.size a := fun a => by rw [o20]; exact ochunkU_inb _ a
    ihave Hfout := (Entails.of_eq (outFlightAt_congr (F := F) d L (o1 := ![(par 99).val]) (o1' := k0_off21 (BitVec.ofNat 32 99))
      (o2 := ![(par 99).val, 0, 0]) (o2' := k0_off22 (BitVec.ofNat 32 99)) (o3 := ![256 * (gk L k99).val, 0]) (o3' := k0_off20 L (BitVec.ofNat 32 0))
      (off21_eq.trans (by decide)).symm (off22_eq.trans (by decide)).symm o20.symm
      (semRect_inb (par 99)) inb21 (rowRect_inb (par 99)) inb22 (ochunkU_inb (gk L k99)) inb20 fo frr)) $$ Hfout
    sl_exec
    sl_step
    -- the flat list's chunks, and the flat output's with the last one written
    ihave Hfl := (Entails.of_eq (flatHome_full (F := F) flat d L)) $$ Hfh
    ihave Hod := (Entails.of_eq (ochPtsAt_congr (F := F) d L (off := k0_off20 L (BitVec.ofNat 32 0)) (off' := ![256 * (gk L k99).val, 0]) o20 inb20 (ochunkU_inb (gk L k99)) fo)) $$ Hfout_dst
    ihave Hod := (out_done (F := F) m flat d L hfo) $$ Hod
    ihave Hout := (Entails.of_eq (outHome_end (F := F) m flat d L)) $$ [Hod Hoh]
    · isplitl [Hod]; · iexact Hod
      iexact Hoh
    -- the staged table's read share
    ihave Hsht := (Entails.of_eq (pts_shAll (F := F) d L (qS (jL L)) (tabS m d (cV L)))) $$ Hshp
    -- the two buffers whole again
    ihave Hidx := (idx_join (F := F) d L) $$ [Hi0 Hi1]
    · isplitl [Hi0]; · iexists fi0; iexact Hi0
      iexists fi1'; iexact Hi1
    ihave Hr' := (Entails.of_eq (rowPts_congr (F := F) d L (p := par 100) (p' := 0) (by decide) fr')) $$ Hr'
    ihave Hr1 := (Entails.of_eq (rowPtsAt_congr (F := F) d L (off := k0_off22 (BitVec.ofNat 32 99)) (off' := ![(1 : Fin 2).val, 0, 0])
      (off22_eq.trans (by decide)) inb22 (rowRect_inb 1) frr)) $$ Hfout_src
    ihave Hrow := (row_join (F := F) d L) $$ [Hr' Hr1]
    · isplitl [Hr']; · iexists fr'; iexact Hr'
      iexists frr; iexact Hr1
    -- the semaphores at rest, by their numbers
    ihave Hs1 := (Entails.of_eq (semVal_congr (F := F) d L (n := sem1At ![(0 : Fin 2).val] (semRect_inb 0)) (s := 1) (by decide))) $$ Hs1
    ihave Hs2 := (Entails.of_eq (semVal_congr (F := F) d L (n := sem1At ![(1 : Fin 2).val] (semRect_inb 1)) (s := 2) (by decide))) $$ Hs2
    ihave Hs3 := (Entails.of_eq (semVal_congr (F := F) d L (n := sem3At ![(par 100).val] (semRect_inb (par 100))) (s := 3) (by decide))) $$ Hsr'
    ihave Hs4 := (Entails.of_eq (semVal_congr (F := F) d L (n := sem3At (k0_off21 (BitVec.ofNat 32 99)) inb21) (s := 4)
      ((sem3At_congr off21_eq inb21 (semRect_inb 1)).trans (by decide)))) $$ Hfout
    -- handed back
    isplitl [Htab Hfl Hout Hsht Hkeep]
    · isplitl [Htab]; · iexact Htab
      isplitl [Hfl]; · iexact Hfl
      isplitl [Hout]; · iexact Hout
      iapply (shTd_intro (F := F) m d (cV L) (jL L))
      isplitl [Hsht]; · iexact Hsht
      iexact Hkeep
    isplitl [Hidx Hrow Hbufs]
    · isplitl [Hidx]; · iexact Hidx
      isplitl [Hrow]; · iexact Hrow
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro
    exact waits_ok (W0 := W) rfl (fun p hp => .inl hp) hW'

end Tile

end Cert.Proof.KB

end
-- ==== Proof.KB.TileObl.lean ====
/-
  One tile's task as the launch asks for it: the kernel's body table at a tile of the call's grid is the kernel's
  function at that tile's coordinates, and its obligation is the task's proof at those coordinates.
-/
import proofs.«206737_g54150947668683_cont_9to1_m_866_22_alg».proof.Proof.KB.Res
import proofs.«206737_g54150947668683_cont_9to1_m_866_22_alg».proof.Proof.KB.Body

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ)
variable (flat : (d : Dev nD) → Buf (Elt F) (flatLoc d))
variable [FloatOps F]

/-- The grid point of SparseCore `c`'s tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_gather (coordsV c s)
          tabV (Memref.isWhole_whole _) flatV (Memref.isWhole_whole _) outV (Memref.isWhole_whole _) shV (Memref.isWhole_whole _)
          cc0_scratch1 idxV (Memref.isWhole_whole _) cc0_scoped1 rowV (Memref.isWhole_whole _) cc0_scoped3 cc0_scoped4) ⟨⟩ c s := rfl

set_option maxRecDepth 16384 in
theorem tileObl (hin : ∀ d x, (flat d x : BitVec 32).toNat < 1000) (hF : (K (F := F)).Facts) :
    (K (F := F)).TileObl (D (F := F)) 𝒱 (P m flat) v₀ 0 := by
  intro d c i O W hO hOlev _
  have hci : ((K (F := F)).core 0 c).val < grid0.bound 0 ∧ ((K (F := F)).sub 0 i).val < grid0.bound 1 := ⟨c.isLt, i.isLt⟩
  rw [show (P m flat).ox 0 (V d ((K (F := F)).core 0 c) ((K (F := F)).sub 0 i)) = oxV d ((K (F := F)).core 0 c) from rfl,
    show (P m flat).x 0 (V d ((K (F := F)).core 0 c) ((K (F := F)).sub 0 i)) = bkit m d ((K (F := F)).core 0 c) ((K (F := F)).sub 0 i) from rfl]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m flat d (coordsV ⟨_, hci.1⟩ ⟨_, hci.2⟩) hin hF O W hO hOlev

end Cert.Proof.KB

end
-- ==== Proof.KB.Run.lean ====
/-
  The word-level kernel's run, assembled: the launch with each tile's task proved.
-/
import proofs.«206737_g54150947668683_cont_9to1_m_866_22_alg».proof.Proof.KB.Res
import proofs.«206737_g54150947668683_cont_9to1_m_866_22_alg».proof.Proof.KB.Launch
import proofs.«206737_g54150947668683_cont_9to1_m_866_22_alg».proof.Proof.KB.TileObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareTokN shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)
variable [FloatOps F]

/-- From a memory whose row numbers are rows of the table and whose counters are zero, every weakly fair execution of
    the program's threads terminates with the result holding the lookup and the arguments unchanged. -/
theorem run [∀ e, Nonempty (Elt F e)] (hin : ∀ d, Cert.Spec.InRange (m (idsLoc d))) :
    θ_run (Cert.Kernel.defs (F := F)) (Cert.Kernel.threads (F := F)) ⟨m, fun _ => 0, ρ⟩ (fun r => ∀ c : Dev nD,
      r.2.mem (resLoc c) = Cert.Spec.lookup (m (idsLoc c)) (m (tabLoc c)) ∧ r.2.mem (idsLoc c) = m (idsLoc c) ∧ r.2.mem (tabLoc c) = m (tabLoc c)) :=
  run_main m ρ hin (fun flat h => tileObl m flat h facts)

end Cert.Proof.KB

end
-- ==== Proof.RefOps.lean ====
/-
  The reference's @main as a list of its 23 host operations — the lookup function's 22 (the row numbers' wrap of
  negative words, the validity mask, the gather, the fill value and the final select) with the one select of the
  where-function it calls listed at the call — and the run read back: every weakly fair execution terminates with each
  buffer at the fold of the operations over the launch contents. The result buffer's fold is then the operations'
  composed term `out ids tab` of the two arguments, and the arguments are unchanged.
-/
import proofs.«206737_g54150947668683_cont_9to1_m_866_22_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- @main's 23 operations in order, the two calls unfolded over their buffer records. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000x128_S4096x200x1_S4096x200x128_2_0_n_n_0_2_1128 x i),
    TRef.unary main_call0.v12 main_call0.v14 (broadcastInDim S4096x200x128 ![0, 1] bcast_S4096x200_S4096x200x128_0_1),
    TRef.nullary main_call0.cst (constant S_ .f32 0x7FC00000#32),
    TRef.unary main_call0.cst main_call0.v15 (broadcastInDim S4096x200x128 ![] bcast_S_S4096x200x128),
    TRef.ternary main_call0.v14 main_call0.v13 main_call0.v15 main_call0.v16 select ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The row numbers after the wrap of negative words: a word below zero has 1000 added. -/
def wrapped (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 1000#32))) ids

/-- The start indices: the wrapped row numbers with a unit axis appended. -/
def starts (ids : IVec S4096x200 32) : IVec S4096x200x1 32 :=
  broadcastInDim S4096x200x1 ![0, 1] bcast_S4096x200_S4096x200x1_0_1 (wrapped ids)

/-- The validity mask: per row number, whether it is in `[0, 999]` (an "all" over the unit axis). -/
def valid (ids : IVec S4096x200 32) : IVec S4096x200 1 :=
  Host.reduce IntOp.andi
    (andi (cmpi .sge (starts ids) (broadcastInDim S4096x200x1 ![] bcast_S_S4096x200x1 (constantI S_ 32 0#32)))
      (cmpi .sle (starts ids) (broadcastInDim S4096x200x1 ![0, 1, 2] bcast_S1x1x1_S4096x200x1_0_1_2
        (broadcastInDim S1x1x1 ![2] bcast_S1_S1x1x1_2 (constantI S1 32 999#32)))))
    (constantI S_ 1 1#1) reducesTo_S4096x200x1_S4096x200_d2 h_S_

/-- The operations' composed term: the gathered rows where the row number is valid, the fill value elsewhere. -/
def out (ids : IVec S4096x200 32) (tab : FVec F S1000x128 .f32) : FVec F S4096x200x128 .f32 :=
  select (broadcastInDim S4096x200x128 ![0, 1] bcast_S4096x200_S4096x200x128_0_1 (valid ids))
    (Host.gather gather_S1000x128_S4096x200x1_S4096x200x128_2_0_n_n_0_2_1128 tab (starts ids))
    (broadcastInDim S4096x200x128 ![] bcast_S_S4096x200x128 (constant S_ .f32 0x7FC00000#32))

end Cert.ReferenceIdeal.RefValue

end
-- ==== Proof.RefMath.lean ====
/-
  The composed term of the reference's operations is the lookup, on row numbers in range. With every word in
  `[0, 999]`: the word is not negative, so the wrap of negative words keeps it; it is at least 0 and at most 999, so the
  validity mask is one everywhere and the final select takes the gathered value, never the fill; and the gather reads the
  table at the row the start index names, clamped into `[0, 999]`, which the clamp leaves alone, and at the result's column.
-/
import proofs.«206737_g54150947668683_cont_9to1_m_866_22_alg».proof.Proof.RefOps
import proofs.«206737_g54150947668683_cont_9to1_m_866_22_alg».proof.Proof.Spec
import Idealize.ShloMosaic.Lib.ReduceAll
import Idealize.ShloMosaic.Lib.ValueIdx

noncomputable section

namespace Cert.ReferenceIdeal.RefValue

open Cert.ReferenceIdeal Cert.ReferenceIdeal.Gen Idealize.ShloMosaic Idealize.ShloMosaic.ValueIdx

/-! ## Words -/

/-- A word below 1000 read signed is its unsigned value. -/
theorem toInt_of_lt {w : BitVec 32} (h : w.toNat < 1000) : w.toInt = (w.toNat : Int) := by
  rw [BitVec.toInt_eq_toNat_cond]
  split <;> omega

/-- The signed reading of a word below 1000, clamped into `[0, 999]`, is the row the word names. -/
theorem clamp_eq_rowOf {v w : BitVec 32} (e : v = w) (h : w.toNat < 1000) (hlt : min v.toInt.toNat 999 < 1000) :
    (⟨min v.toInt.toNat 999, hlt⟩ : Fin 1000) = Cert.Spec.rowOf w := by
  subst e
  refine Fin.ext ?_
  show min v.toInt.toNat 999 = v.toNat % 1000
  rw [toInt_of_lt h, Nat.mod_eq_of_lt h]
  omega

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-! ## The gather at an index -/

section Gather
variable {α : Type}

/-- The gather's dimension numbers. -/
local notation "gd" => gather_S1000x128_S4096x200x1_S4096x200x128_2_0_n_n_0_2_1128

/-- The gather read at `(b, h, e)`: the table at the row the start index `idx[b, h, 0]` names, read signed and
    clamped into `[0, 999]`, and column `e`. -/
theorem gather_apply {w : Nat} (x : S1000x128.Idx → α) (idx : IVec S4096x200x1 w) (y : S4096x200x128.Idx) :
    Host.gather gd x idx y
      = x (ix2 (⟨min (idx (ix3 (y 0) (y 1) (0 : Fin 1))).toInt.toNat 999, by omega⟩ : Fin 1000) (y 2)) := by
  unfold Host.gather
  congr 1
  funext a
  refine Fin.ext ?_
  match a with
  | ⟨0, _⟩ =>
    show GatherDims.start gd y idx 0 + GatherDims.batchCoord gd y 0 + GatherDims.offCoord gd y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gd from List.mem_singleton.mpr rfl)]
    have hsi : GatherDims.siIdx gd y ⟨List.idxOf (0 : Fin 2) (GatherDims.startIndexMap gd),
        List.idxOf_lt_length_iff.2 (List.mem_singleton.mpr rfl)⟩ = ix3 (y 0) (y 1) (0 : Fin 1) := by
      funext b; refine Fin.ext ?_
      match b with
      | ⟨0, _⟩ => rfl
      | ⟨1, _⟩ => rfl
      | ⟨2, _⟩ => rfl
    rw [hsi]
    rfl
  | ⟨1, _⟩ =>
    show GatherDims.start gd y idx 1 + GatherDims.batchCoord gd y 1 + GatherDims.offCoord gd y 1 = (y 2).val
    rw [GatherDims.batchCoord_eq_zero _ _ _ List.not_mem_nil]
    unfold GatherDims.start
    rw [dif_neg (show (1 : Fin 2) ∉ GatherDims.startIndexMap gd by decide)]
    unfold GatherDims.offCoord
    rw [dif_pos (show (1 : Fin 2) ∈ GatherDims.sKept gd by decide)]
    simp only [Nat.zero_add, Nat.add_zero]
    rfl

end Gather

/-! ## The operations at an index, on row numbers in range -/

section InRange
variable (ids : IVec S4096x200 32) (hr : Cert.Spec.InRange ids)
include hr

/-- A word in range is not negative: the wrap keeps it. -/
theorem wrapped_apply (j : S4096x200.Idx) : wrapped ids j = ids j := by
  show Scalar.select (IntOp.cmpi .slt (ids j) 0#32) _ (ids j) = ids j
  refine if_neg fun hc => ?_
  have h := IntOp.cmpi_slt.1 hc
  rw [toInt_of_lt (hr j)] at h
  exact absurd h (by simp)

/-- A start index is the row number at its first two coordinates. -/
theorem starts_apply (k : S4096x200x1.Idx) : starts ids k = ids (ix2 (k 0) (k 1)) := by
  refine Eq.trans ?_ (wrapped_apply ids hr _)
  show wrapped ids _ = wrapped ids _
  congr 1
  funext a
  match a with
  | ⟨0, _⟩ => rfl
  | ⟨1, _⟩ => rfl

/-- The validity mask is one everywhere. -/
theorem valid_apply (j : S4096x200.Idx) : valid ids j = 1#1 := by
  unfold valid
  rw [Host.reduce_eq_foldl]
  refine foldl_andi_one _ _ fun k _ => ?_
  show IntOp.andi (IntOp.cmpi .sge (starts ids k) 0#32) (IntOp.cmpi .sle (starts ids k) 999#32) = 1#1
  rw [starts_apply ids hr k]
  have h := hr (ix2 (k 0) (k 1))
  refine IntOp.andi_eq_one.2 ⟨IntOp.cmpi_sge.2 ?_, IntOp.cmpi_sle.2 ?_⟩
  · rw [toInt_of_lt h]; simp
  · rw [toInt_of_lt h]; simp; omega

end InRange

/-- On row numbers in range the operations' composed term is the lookup. -/
theorem out_eq_lookup {F : FTy → Type} [FloatOps F] (ids : IVec S4096x200 32)
    (tab : FVec F S1000x128 .f32) (hr : Cert.Spec.InRange ids) : out ids tab = Cert.Spec.lookup ids tab := by
  funext j
  have hrow := hr (ix2 (j 0) (j 1))
  have hv : broadcastInDim S4096x200x128 ![0, 1] bcast_S4096x200_S4096x200x128_0_1 (valid ids) j = 1#1 :=
    valid_apply ids hr _
  have hg := gather_apply tab (starts ids) j
  calc out ids tab j
      = Scalar.select (broadcastInDim S4096x200x128 ![0, 1] bcast_S4096x200_S4096x200x128_0_1 (valid ids) j)
          (Host.gather gather_S1000x128_S4096x200x1_S4096x200x128_2_0_n_n_0_2_1128 tab (starts ids) j)
          (broadcastInDim S4096x200x128 ![] bcast_S_S4096x200x128 (constant S_ .f32 0x7FC00000#32) j) := rfl
    _ = Host.gather gather_S1000x128_S4096x200x1_S4096x200x128_2_0_n_n_0_2_1128 tab (starts ids) j := by
        rw [hv]; exact select_one _ _
    _ = _ := hg
    _ = Cert.Spec.lookup ids tab j :=
        congrArg (fun r => tab (ix2 r (j 2))) (clamp_eq_rowOf (starts_apply ids hr _) hrow _)

end Cert.ReferenceIdeal.RefValue

end
-- ==== Proof.PreDecode.lean ====
/-
  The precondition read back: when the printed input-domain predicate is all ones, every row number is a row of the
  table. The predicate is a conjunction of two "all" reductions; the second is over the 4096 × 200 words and says of
  each word `w`, read as a signed integer, that `0 ≤ w` and `w ≤ 999`. A signed 32-bit word in that range has the
  same unsigned value, so it is below 1000.
-/
import proofs.«206737_g54150947668683_cont_9to1_m_866_22_alg».proof.Pre_input_domain
import proofs.«206737_g54150947668683_cont_9to1_m_866_22_alg».proof.Proof.Spec
import Idealize.ShloMosaic.Lib.ReduceAll
import Idealize.ShloMosaic.Lib.ValueIdx

namespace Cert.PreDecode

open Idealize.ShloMosaic Idealize.ShloMosaic.ValueIdx

/-- The rank-0 shape has one index. -/
instance : Subsingleton Cert.Pre_input_domain.S_.Idx := ⟨fun a b => funext fun d => d.elim0⟩

/-- A 32-bit word whose signed value is in `[0, 999]` has unsigned value below 1000. -/
theorem toNat_lt_of_toInt {w : BitVec 32} (h0 : 0 ≤ w.toInt) (h1 : w.toInt ≤ 999) : w.toNat < 1000 := by
  rw [BitVec.toInt_eq_toNat_cond] at h0 h1
  have := w.isLt
  split at h0 <;> omega

/-- The signed reading of a word: both bounds the predicate states of it. -/
theorem bounds {F : FTy → Type} [FloatOps F] [Cert.Pre_input_domain.Facts]
    (ids : IVec Cert.Pre_input_domain.S4096x200 32) (tab : FVec F Cert.Pre_input_domain.S1000x128 .f32)
    (h : Cert.Pre_input_domain.fn (F := F) ids tab = fun _ => 1#1) (j : Cert.Pre_input_domain.S4096x200.Idx) :
    0 ≤ (ids j).toInt ∧ (ids j).toInt ≤ 999 := by
  have h0 := congrFun h ValueIdx.ix0
  dsimp only [Cert.Pre_input_domain.fn] at h0
  obtain ⟨-, h9⟩ := IntOp.andi_eq_one.1 h0
  have hj := Host.reduce_andi_all _ _ _ _ _ h9 j
  obtain ⟨hge, hle⟩ := IntOp.andi_eq_one.1 hj
  exact ⟨IntOp.cmpi_sge.1 hge, IntOp.cmpi_sle.1 hle⟩

/-- Under the precondition every row number is a row of the table. -/
theorem inRange {F : FTy → Type} [FloatOps F] [Cert.Pre_input_domain.Facts]
    (ids : IVec Cert.Pre_input_domain.S4096x200 32) (tab : FVec F Cert.Pre_input_domain.S1000x128 .f32)
    (h : Cert.Pre_input_domain.fn (F := F) ids tab = fun _ => 1#1) : Cert.Spec.InRange ids := fun j =>
  toNat_lt_of_toInt (bounds ids tab h j).1 (bounds ids tab h j).2

end Cert.PreDecode
-- ==== Proof.RefRun.lean ====
/-
  The reference's run, read back as the lookup. The fold of the 23 operations at the result buffer is their composed
  term of the two arguments' launch contents, and at each argument buffer the launch contents (no operation writes an
  argument); under the precondition every row number is a row of the table, and there the composed term is the lookup.
-/
import proofs.«206737_g54150947668683_cont_9to1_m_866_22_alg».proof.Defs
import proofs.«206737_g54150947668683_cont_9to1_m_866_22_alg».proof.Proof.RefMath
import proofs.«206737_g54150947668683_cont_9to1_m_866_22_alg».proof.Proof.PreDecode

noncomputable section

namespace Cert.ReferenceIdeal.RefValue

open Cert.ReferenceIdeal Cert.ReferenceIdeal.Gen Idealize.ShloMosaic Idealize.ShloMosaic.TcCoe Idealize.SL.Sem
  Idealize.ShloMosaic.StableHlo

variable {F : FTy → Type} [FloatOps F]

/-- Contents moved to a buffer's own type and back are the contents. -/
theorem ofBuf_toBuf {T : BufTy} (x : TRef sig T) (v : T.Contents (Elt F)) : x.ofBuf (x.toBuf v) = v := by
  obtain ⟨r, rfl, _, _⟩ := x; rfl

attribute [local irreducible] Host.reduce Host.gather in
/-- The fold at the result buffer is the composed term: each operation's result read at its own buffer is its function
    of its operands' contents and at any other buffer what was there; the transports between a value's type and its
    buffer's type cancel in pairs; what is left agrees with the composed term by computation, the reduce and the gather
    kept folded meanwhile. -/
theorem out_eq (V : Valuation τ sig (Elt F)) :
    after ops V (main_v0 : DevRef τ sig) = out (V (main_arg0 : DevRef τ sig)) (V (main_arg1 : DevRef τ sig)) := by
  after_results
  simp only [ofBuf_toBuf]
  rfl

/-- No operation writes the row numbers. -/
theorem arg0_eq (V : Valuation τ sig (Elt F)) :
    after ops V (main_arg0 : DevRef τ sig) = V (main_arg0 : DevRef τ sig) := by
  after_results

/-- No operation writes the table. -/
theorem arg1_eq (V : Valuation τ sig (Elt F)) :
    after ops V (main_arg1 : DevRef τ sig) = V (main_arg1 : DevRef τ sig) := by
  after_results

/-- For any float values, from any memory with zero counters: every weakly fair execution of @main terminates with
    the result buffer at the operations' composed term of the arguments and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
    (h c main_arg1).trans (arg1_eq _)⟩) (run_main m ρ)

/-- At the ideal instance, from a memory the precondition holds of: every weakly fair execution of @main terminates
    with the result buffer at the lookup of the arguments and the arguments unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
      r.2.mem ((c.tc : Thread Cert.ReferenceIdeal.nD Cert.ReferenceIdeal.τ).loc Cert.ReferenceIdeal.main_v0)
          = Cert.Spec.lookup (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono (fun _ h c => ⟨(h c).1.trans
      (out_eq_lookup _ _ (Cert.PreDecode.inRange _ _ (hpre c))), (h c).2⟩) (run_out (F := Ideal) m g)

end Cert.ReferenceIdeal.RefValue

end
-- ==== Proof.Claims.lean ====
/-
  The five claims, assembled. Each kernel program's frame is its run with the result's value dropped; the reference's
  frame is its run likewise; nothing was rewritten between the kernel and its idealized text; and at the ideal
  instance both programs end with the lookup of the arguments, which agree.
-/
import proofs.«206737_g54150947668683_cont_9to1_m_866_22_alg».proof.Defs
import proofs.«206737_g54150947668683_cont_9to1_m_866_22_alg».proof.Proof.KI.Run
import proofs.«206737_g54150947668683_cont_9to1_m_866_22_alg».proof.Proof.KB.Run
import proofs.«206737_g54150947668683_cont_9to1_m_866_22_alg».proof.Proof.RefRun
import proofs.«206737_g54150947668683_cont_9to1_m_866_22_alg».proof.Proof.PreDecode
import proofs.«206737_g54150947668683_cont_9to1_m_866_22_alg».proof.Proof.Gen.Pre_input_domain
import proofs.«206737_g54150947668683_cont_9to1_m_866_22_alg».proof.Proof.Gen.ReferenceIdeal

noncomputable section

namespace Cert.Proof.Claims

open Idealize.ShloMosaic Idealize.SL.Sem

/-- The word-level kernel runs and leaves its arguments unchanged. -/
theorem frame_Kernel : Cert.frame_Kernel (hKernel := Cert.Kernel.Gen.facts) (hPre_input_domain := Cert.Pre_input_domain.Gen.facts) := fun m g hpre =>
  (θ_run Cert.Kernel.defs _ _).mono (fun _ h c => ⟨(h c).2.1, (h c).2.2⟩)
    (Cert.Proof.KB.run (F := Bits) m g fun d => Cert.PreDecode.inRange _ _ (hpre d))

/-- The idealized kernel runs and leaves its arguments unchanged. -/
theorem frame_KernelIdeal : Cert.frame_KernelIdeal (hKernelIdeal := Cert.KernelIdeal.Gen.facts) (hPre_input_domain := Cert.Pre_input_domain.Gen.facts) := fun m g hpre =>
  (θ_run Cert.KernelIdeal.defs _ _).mono (fun _ h c => ⟨(h c).2.1, (h c).2.2⟩)
    (Cert.Proof.KI.run (F := Ideal) m g fun d => Cert.PreDecode.inRange _ _ (hpre d))

/-- The reference runs and leaves its arguments unchanged. -/
theorem frame_ReferenceIdeal : Cert.frame_ReferenceIdeal (hReferenceIdeal := Cert.ReferenceIdeal.Gen.facts) (hPre_input_domain := Cert.Pre_input_domain.Gen.facts) := fun m g hpre =>
  (θ_run Cert.ReferenceIdeal.defs _ _).mono (fun _ h c => ⟨(h c).2.1, (h c).2.2⟩)
    (Cert.ReferenceIdeal.RefValue.run m g hpre)

/-- The idealized text is the kernel's own: no operation was rewritten. -/
theorem preserves : Cert.preserves_Kernel_KernelIdeal := trivial

/-- At the ideal instance, from memories agreeing on the arguments, both programs end with the lookup of the arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  have hin : ∀ d, Cert.Spec.InRange (m (Cert.Proof.KI.idsLoc d)) := fun d => Cert.PreDecode.inRange _ _ (hpre d)
  have hpre' : Cert.Pre_ReferenceIdeal m' := by
    unfold Cert.Pre_ReferenceIdeal
    intro c
    rw [(hagree c).1, (hagree c).2]
    exact hpre c
  refine ⟨fun c => Cert.Spec.lookup (m (Cert.Proof.KI.idsLoc c)) (m (Cert.Proof.KI.tabLoc c)), Cert.Proof.KI.run (F := Ideal) m g hin, ?_⟩
  refine (θ_run Cert.ReferenceIdeal.defs _ _).mono (fun _ h c => ⟨(h c).1.trans ?_, (h c).2.1, (h c).2.2⟩)
    (Cert.ReferenceIdeal.RefValue.run m' g' hpre')
  rw [(hagree c).1, (hagree c).2]

/-- Everything the certificate claims, under the programs' stated facts as the generated modules prove them. -/
theorem claim_body :
    Cert.frame_Kernel (hKernel := Cert.Kernel.Gen.facts) (hPre_input_domain := Cert.Pre_input_domain.Gen.facts)
    ∧ Cert.frame_KernelIdeal (hKernelIdeal := Cert.KernelIdeal.Gen.facts) (hPre_input_domain := Cert.Pre_input_domain.Gen.facts)
    ∧ Cert.frame_ReferenceIdeal (hReferenceIdeal := Cert.ReferenceIdeal.Gen.facts) (hPre_input_domain := Cert.Pre_input_domain.Gen.facts)
    ∧ Cert.preserves_Kernel_KernelIdeal
    ∧ Cert.algebraic_KernelIdeal_ReferenceIdeal (hKernelIdeal := Cert.KernelIdeal.Gen.facts) (hReferenceIdeal := Cert.ReferenceIdeal.Gen.facts)
        (hPre_input_domain := Cert.Pre_input_domain.Gen.facts) :=
  ⟨frame_Kernel, frame_KernelIdeal, frame_ReferenceIdeal, preserves, algebraic⟩

end Cert.Proof.Claims

end
-- ==== Proof.lean ====
/-
  The claim: an embedding lookup. `ids` holds 4096 × 200 row numbers and `tab` a table of 1000 rows of 128 entries;
  entry `(b, h, e)` of the result is entry `e` of the table's row `ids (b, h)` (`Cert.Spec.lookup`). The kernel
  stages the table in each SparseCore's shared memory and has every tile gather its share of the rows; the reference
  gathers them on the host. From any memory whose row numbers are rows of the table both programs run and leave their
  arguments unchanged, and at the ideal instance both end with `Cert.Spec.lookup` of the arguments. The programs'
  stated facts are witnessed by the instances the generated modules prove.
-/
import proofs.«206737_g54150947668683_cont_9to1_m_866_22_alg».proof.Defs
import proofs.«206737_g54150947668683_cont_9to1_m_866_22_alg».proof.Proof.Gen.Kernel
import proofs.«206737_g54150947668683_cont_9to1_m_866_22_alg».proof.Proof.Gen.Kernel.Skeleton
import proofs.«206737_g54150947668683_cont_9to1_m_866_22_alg».proof.Proof.Gen.KernelIdeal
import proofs.«206737_g54150947668683_cont_9to1_m_866_22_alg».proof.Proof.Gen.KernelIdeal.Skeleton
import proofs.«206737_g54150947668683_cont_9to1_m_866_22_alg».proof.Proof.Gen.ReferenceIdeal
import proofs.«206737_g54150947668683_cont_9to1_m_866_22_alg».proof.Proof.Gen.Pre_input_domain
import Idealize.ShloMosaic.Adequacy
import Idealize.ShloMosaic.Init
import proofs.«206737_g54150947668683_cont_9to1_m_866_22_alg».proof.Proof.Claims

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_input_domain.Gen.facts,
    Cert.Proof.Claims.claim_body⟩

end Cert.Proof

end
